-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S20000 : Shape := ⟨1, ![20000]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000 : S_.BroadcastsInDim S20000 (![] : Fin 0 → Fin S20000.rank)
  reducesTo_S20000_S_d0 : S20000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg8 : FVec F S2x128 .f32) (main_arg9 : FVec F S2x128 .f32) (main_arg10 : FVec F S2x128 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x600000 32) (main_arg2 : FVec F S20000 .f32) (main_arg3 : FVec F S2x128x128 .f32) (main_arg4 : FVec F S2x128 .f32) (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000 .f32 := Host.absf main_arg2
  let main_cst_0 : FVec F S_ .f32 := constant S_ .f32 0x7F800000#32
  let main_v5 : FVec F S20000 .f32 := broadcastInDim S20000 ![] bcast_S_S20000 main_cst_0
  let main_v6 : IVec S20000 1 := cmpf .olt main_v4 main_v5
  let main_c_1 : IVec S_ 1 := constantI S_ 1 1#1
  let main_v7 : IVec S_ 1 := (fun x v => Host.reduce IntOp.andi x v reducesTo_S20000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S20000 : Shape := ⟨1, ![20000]⟩
abbrev S2x128x128 : Shape := ⟨3, ![2, 128, 128]⟩
abbrev S2x128 : Shape := ⟨2, ![2, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S20000x1 : Shape := ⟨2, ![20000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S600000x128 : Shape := ⟨2, ![600000, 128]⟩
abbrev S20000x128 : Shape := ⟨2, ![20000, 128]⟩
abbrev S2000x1 : Shape := ⟨2, ![2000, 1]⟩
abbrev S2000 : Shape := ⟨1, ![2000]⟩

abbrev nBuf : Space → Nat
  | .hbm => 146
  | .vmem => 56
  | .smem => 0
  | _ => 0

abbrev hbmTy0_0 (i : Nat) : BufTy := match i % 128 with
  | 0 => ⟨S100000x128, .f32⟩
  | 1 => ⟨S2x600000, .i32⟩
  | 2 => ⟨S20000, .f32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S2x128, .f32⟩
  | 9 => ⟨S2x128, .f32⟩
  | 10 => ⟨S2x128, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S20000, .f32⟩
  | 19 => ⟨S600000x1, .i32⟩
  | 20 => ⟨S20000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S_, .f32⟩
  | 33 => ⟨S20000, .f32⟩
  | 34 => ⟨S20000, .f32⟩
  | 35 => ⟨S_, .f32⟩
  | 36 => ⟨S20000, .f32⟩
  | 37 => ⟨S20000, .f32⟩
  | 38 => ⟨S20000x1, .f32⟩
  | 39 => ⟨S20000x1, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S100000x128, .bf16⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .bf16⟩
  | 55 => ⟨S600000x128, .f32⟩
  | 56 => ⟨S_, .f32⟩
  | 57 => ⟨S20000x128, .f32⟩
  | 58 => ⟨S600000x1, .i32⟩
  | 59 => ⟨S20000x128, .f32⟩
  | 60 => ⟨S1x128, .f32⟩
  | 61 => ⟨S128, .f32⟩
  | 62 => ⟨S1x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S20000x128, .bf16⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .bf16⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S100000x128, .f32⟩
  | 98 => ⟨S100000x128, .bf16⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .bf16⟩
  | 108 => ⟨S600000x128, .f32⟩
  | 109 => ⟨S_, .f32⟩
  | 110 => ⟨S20000x128, .f32⟩
  | 111 => ⟨S600000x1, .i32⟩
  | 112 => ⟨S20000x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128x128, .f32⟩
  | 126 => ⟨S128x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S20000x128, .bf16⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .bf16⟩
  | 12 => ⟨S600000x128, .f32⟩
  | 13 => ⟨S_, .f32⟩
  | 14 => ⟨S100000x128, .f32⟩
  | 15 => ⟨S600000x1, .i32⟩
  | 16 => ⟨S100000x128, .f32⟩
  | 17 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S2000x128, .bf16⟩
  | .local _ .vmem, ⟨15, _⟩ => ⟨S2000x128, .bf16⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x128, .bf16⟩
  | .local _ .vmem, ⟨21, _⟩ => ⟨S2000x128, .bf16⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .bf16⟩
  | .local _ .vmem, ⟨31, _⟩ => ⟨S2000x128, .bf16⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S1x128, .f32⟩
  | .local _ .vmem, ⟨38, _⟩ => ⟨S2000x1, .f32⟩
  | .local _ .vmem, ⟨39, _⟩ => ⟨S2000x1, .f32⟩
  | .local _ .vmem, ⟨40, _⟩ => ⟨S2000x128, .bf16⟩
  | .local _ .vmem, ⟨41, _⟩ => ⟨S2000x128, .bf16⟩
  | .local _ .vmem, ⟨42, _⟩ => ⟨S2000x128, .f32⟩
  | .local _ .vmem, ⟨43, _⟩ => ⟨S2000x128, .f32⟩
  | .local _ .vmem, ⟨44, _⟩ => ⟨S2000x1, .f32⟩
  | .local _ .vmem, ⟨45, _⟩ => ⟨S2000x1, .f32⟩
  | .local _ .vmem, ⟨46, _⟩ => ⟨S2000x128, .bf16⟩
  | .local _ .vmem, ⟨47, _⟩ => ⟨S2000x128, .bf16⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73_0 : Ref sig .tc := ⟨.hbm, 97, rfl⟩
abbrev main_v73_1 : Ref sig .tc := ⟨.hbm, 98, rfl⟩
abbrev main_c_11 : Ref sig .tc := ⟨.hbm, 99, rfl⟩
abbrev main_v74 : Ref sig .tc := ⟨.hbm, 100, rfl⟩
abbrev main_v75 : Ref sig .tc := ⟨.hbm, 101, rfl⟩
abbrev main_c_12 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_14 : Ref sig .tc := ⟨.hbm, 131, rfl⟩
abbrev main_v103 : Ref sig .tc := ⟨.hbm, 132, rfl⟩
abbrev main_v104 : Ref sig .tc := ⟨.hbm, 133, rfl⟩
abbrev main_c_15 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_16 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc4_stg8_0 : Ref sig .tc := ⟨.vmem, 54, rfl⟩
abbrev cc4_stg8_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc4_sem8_0 : DmaSem sig := 54
abbrev cc4_sem8_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S20000 : S_.BroadcastsInDim S20000 (![] : Fin 0 → Fin S20000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S20000x128 : S_.BroadcastsInDim S20000x128 (![] : Fin 0 → Fin S20000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  slices_S2x128x128_S1x128x128_1_0_0 : S2x128x128.Slices ![1, 0, 0] S1x128x128
  slices_S2x128_S1x128_1_0 : S2x128.Slices ![1, 0] S1x128
  reduces_S2000x128_S2000 : S2000x128.Reduces [1] S2000
  shapeCasts_S2000_S2000x1 : S2000.ShapeCasts S2000x1
  scatter_S20000_S600000x1_S600000_n_0_0_1_wf : ScatterDims.WF S20000 S600000x1 S600000 [] [0] [0] 1
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S20000x1.size a
  hwx1_4 : ∀ i : grid1.Coords, EltTy.bits .f32 = 32 ∨ (Rect.block (s := S20000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .bf16 = 32 ∨ (Rect.block (s := S20000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .bf16 = 32 ∨ (Rect.block (s := S100000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S100000x128.size a
  hwx2_10 : ∀ i : grid2.Coords, EltTy.bits .bf16 = 32 ∨ (Rect.block (s := S100000x128) S2000x128.size (cc2_transform_10 i) (hinb2_10 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S20000x1.size a
  hwx3_1 : ∀ i : grid3.Coords, EltTy.bits .f32 = 32 ∨ (Rect.block (s := S20000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S20000x1.size a
  hwx3_4 : ∀ i : grid3.Coords, EltTy.bits .f32 = 32 ∨ (Rect.block (s := S20000x1) S2000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S20000x128.size a
  hwx3_5 : ∀ i : grid3.Coords, EltTy.bits .bf16 = 32 ∨ (Rect.block (s := S20000x128) S2000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .bf16 = 32 ∨ (Rect.block (s := S100000x128) S2000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S100000x128.size a
  hwx4_7 : ∀ i : grid4.Coords, EltTy.bits .f32 = 32 ∨ (Rect.block (s := S100000x128) S2000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S100000x128.size a
  hwx4_8 : ∀ i : grid4.Coords, EltTy.bits .f32 = 32 ∨ (Rect.block (s := S100000x128) S2000x128.size (cc4_transform_8 i) (hinb4_8 i)).WholeWords (EltTy.packing .f32)

variable [Facts₀]

def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v73_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v73_1) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v84) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v102) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v113) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73_1) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v96) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73_0) S2000x128.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v114) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S20000 : Shape := ⟨1, ![20000]⟩
abbrev S2x128x128 : Shape := ⟨3, ![2, 128, 128]⟩
abbrev S2x128 : Shape := ⟨2, ![2, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S20000x1 : Shape := ⟨2, ![20000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S600000x128 : Shape := ⟨2, ![600000, 128]⟩
abbrev S20000x128 : Shape := ⟨2, ![20000, 128]⟩

abbrev nBuf : Space → Nat
  | .hbm => 280
  | .vmem => 0
  | .smem => 0
  | _ => 0

abbrev hbmTy0_0 (i : Nat) : BufTy := match i % 128 with
  | 0 => ⟨S100000x128, .f32⟩
  | 1 => ⟨S2x600000, .i32⟩
  | 2 => ⟨S20000, .f32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S2x128, .f32⟩
  | 9 => ⟨S2x128, .f32⟩
  | 10 => ⟨S2x128, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S20000, .f32⟩
  | 19 => ⟨S600000x1, .i32⟩
  | 20 => ⟨S20000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S_, .f32⟩
  | 30 => ⟨S20000, .f32⟩
  | 31 => ⟨S20000, .f32⟩
  | 32 => ⟨S20000x1, .f32⟩
  | 33 => ⟨S1x128x128, .f32⟩
  | 34 => ⟨S128x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S20000x128, .f32⟩
  | 52 => ⟨S600000x1, .i32⟩
  | 53 => ⟨S20000x128, .f32⟩
  | 54 => ⟨S20000x128, .f32⟩
  | 55 => ⟨S20000x128, .f32⟩
  | 56 => ⟨S1x128x128, .f32⟩
  | 57 => ⟨S128x128, .f32⟩
  | 58 => ⟨S20000x128, .f32⟩
  | 59 => ⟨S1x128, .f32⟩
  | 60 => ⟨S128, .f32⟩
  | 61 => ⟨S1x128, .f32⟩
  | 62 => ⟨S20000x128, .f32⟩
  | 63 => ⟨S20000x128, .f32⟩
  | 64 => ⟨S20000x1, .f32⟩
  | 65 => ⟨S20000x128, .f32⟩
  | 66 => ⟨S20000x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S_, .f32⟩
  | 77 => ⟨S100000x128, .f32⟩
  | 78 => ⟨S600000x1, .i32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S100000x128, .f32⟩
  | 96 => ⟨S_, .f32⟩
  | 97 => ⟨S100000, .f32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S_, .f32⟩
  | 105 => ⟨S100000x1, .f32⟩
  | 106 => ⟨S100000x1, .f32⟩
  | 107 => ⟨S100000x1, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .i1⟩
  | 119 => ⟨S_, .f32⟩
  | 120 => ⟨S100000x128, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S_, .f32⟩
  | 17 => ⟨S100000x1, .f32⟩
  | 18 => ⟨S100000x1, .f32⟩
  | 19 => ⟨S100000x1, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128x128, .f32⟩
  | 29 => ⟨S128x128, .f32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S_, .f32⟩
  | 46 => ⟨S20000x128, .f32⟩
  | 47 => ⟨S600000x1, .i32⟩
  | 48 => ⟨S20000x128, .f32⟩
  | 49 => ⟨S20000x128, .f32⟩
  | 50 => ⟨S20000x128, .f32⟩
  | 51 => ⟨S1x128x128, .f32⟩
  | 52 => ⟨S128x128, .f32⟩
  | 53 => ⟨S20000x128, .f32⟩
  | 54 => ⟨S1x128, .f32⟩
  | 55 => ⟨S128, .f32⟩
  | 56 => ⟨S1x128, .f32⟩
  | 57 => ⟨S20000x128, .f32⟩
  | 58 => ⟨S20000x128, .f32⟩
  | 59 => ⟨S20000x1, .f32⟩
  | 60 => ⟨S20000x128, .f32⟩
  | 61 => ⟨S20000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .f32⟩
  | 72 => ⟨S100000x128, .f32⟩
  | 73 => ⟨S600000x1, .i32⟩
  | 74 => ⟨S100000x128, .f32⟩
  | 75 => ⟨S100000x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S100000x128, .f32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x128, .f32⟩
  | 98 => ⟨S100000x128, .f32⟩
  | 99 => ⟨S_, .f32⟩
  | 100 => ⟨S100000x1, .f32⟩
  | 101 => ⟨S100000x1, .f32⟩
  | 102 => ⟨S100000x1, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .i1⟩
  | 114 => ⟨S_, .f32⟩
  | 115 => ⟨S100000x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S128, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S100000x1, .f32⟩
  | 13 => ⟨S100000x1, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_cst_15 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_16 : Ref sig .tc := ⟨.hbm, 127, rfl⟩
abbrev main_v98 : Ref sig .tc := ⟨.hbm, 128, rfl⟩
abbrev main_v99 : Ref sig .tc := ⟨.hbm, 129, rfl⟩
abbrev main_cst_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_18 : Ref sig .tc := ⟨.hbm, 136, rfl⟩
abbrev main_v105 : Ref sig .tc := ⟨.hbm, 137, rfl⟩
abbrev main_v106 : Ref sig .tc := ⟨.hbm, 138, rfl⟩
abbrev main_cst_19 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_21 : Ref sig .tc := ⟨.hbm, 164, rfl⟩
abbrev main_v130 : Ref sig .tc := ⟨.hbm, 165, rfl⟩
abbrev main_v131 : Ref sig .tc := ⟨.hbm, 166, rfl⟩
abbrev main_c_22 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_23 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_c_24 : Ref sig .tc := ⟨.hbm, 190, rfl⟩
abbrev main_v153 : Ref sig .tc := ⟨.hbm, 191, rfl⟩
abbrev main_v154 : Ref sig .tc := ⟨.hbm, 192, rfl⟩
abbrev main_c_25 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_26 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_27 : Ref sig .tc := ⟨.hbm, 210, rfl⟩
abbrev main_v170 : Ref sig .tc := ⟨.hbm, 211, rfl⟩
abbrev main_v171 : Ref sig .tc := ⟨.hbm, 212, rfl⟩
abbrev main_cst_28 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_29 : Ref sig .tc := ⟨.hbm, 219, rfl⟩
abbrev main_v177 : Ref sig .tc := ⟨.hbm, 220, rfl⟩
abbrev main_v178 : Ref sig .tc := ⟨.hbm, 221, rfl⟩
abbrev main_cst_30 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_31 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_32 : Ref sig .tc := ⟨.hbm, 239, rfl⟩
abbrev main_v194 : Ref sig .tc := ⟨.hbm, 240, rfl⟩
abbrev main_v195 : Ref sig .tc := ⟨.hbm, 241, rfl⟩
abbrev main_cst_33 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_cst_34 : Ref sig .tc := ⟨.hbm, 250, rfl⟩
abbrev main_v203 : Ref sig .tc := ⟨.hbm, 251, rfl⟩
abbrev main_v204 : Ref sig .tc := ⟨.hbm, 252, rfl⟩
abbrev main_cst_35 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_cst_36 : Ref sig .tc := ⟨.hbm, 259, rfl⟩
abbrev main_v210 : Ref sig .tc := ⟨.hbm, 260, rfl⟩
abbrev main_v211 : Ref sig .tc := ⟨.hbm, 261, rfl⟩
abbrev main_cst_37 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_cst_38 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S20000 : S_.BroadcastsInDim S20000 (![] : Fin 0 → Fin S20000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S2x128x128_S1x128x128_1_0_0 : S2x128x128.Slices ![1, 0, 0] S1x128x128
  slices_S2x128_S1x128_1_0 : S2x128.Slices ![1, 0] S1x128
  scatter_S20000_S600000x1_S600000_n_0_0_1_wf : ScatterDims.WF S20000 S600000x1 S600000 [] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  dot_S20000x128_S128x128_S20000x128_1_0_0_1_n_n_wf : DotDims.WF S20000x128 S128x128 S20000x128 [1] [0] [0] [1] [] []
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1

variable [Facts₀]

def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KRun.lean ====
/-
  The idealized kernel program's run with its result named. The program is five tiled regions among stretches of host
  operations; every weakly fair execution terminates without a fault, the eleven argument arrays end as launched, and
  the result array ends at what the last segment boundary holds for it: the fold of the host stretches and of the
  regions' write-backs over the launch memory. The statement is the frame's with one more clause, read off the same
  last thread state; the later modules open that fold, region by region.
-/
import proofs.«120254_j65652870087174_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and every argument array as launched. -/
theorem run : θ_run defs (onTc (τ := τ) (main (F := F))) ⟨m, fun _ => 0, ρ⟩ (fun r => ∀ c : Dev nD,
      r.2.mem ((c.tc : Thread nD τ).loc main_v114) = Gen.W10 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v114 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.KStages.lean ====
/-
  The host side of the idealized kernel program, stage by stage, as functions of the argument arrays, at the ideal
  values. The index argument holds two rows of 600000 ids: node ids and hyperedge ids of the incidences. From them:
  the two id vectors; the number of incidences of each hyperedge and of each node (a scatter-add of ones into zeros);
  the reciprocal denominators of the two means as columns, 1 / max(count, 1) for nodes and 1 / (count + 1e-8) for
  hyperedges; the hyperedge weights as a column. A layer's weights are a slice of a stacked argument recast as a matrix
  or as a one-row matrix. The two irregular steps are shared by both programs: gather the rows of a table at the wrapped
  ids of one kind (a negative id counts from the end) and add each gathered row into the row of zeros named by the id
  of the other kind. The table is stored in a narrower float format and widened after the gather, which changes no value here.
-/
import proofs.«120254_j65652870087174_2_alg».proof.Proof.Gen.KernelIdeal
import Idealize.ShloMosaic.PureOps.Ideal

noncomputable section

namespace Cert.KernelIdeal.KStages

open Cert.KernelIdeal Cert.KernelIdeal.Gen Idealize.ShloMosaic

/-- The node ids of the incidences. -/
def idx0 (a1 : (⟨S2x600000, .i32⟩ : BufTy).Contents (Elt Ideal)) : (⟨S600000, .i32⟩ : BufTy).Contents (Elt Ideal) :=
  shapeCast _ (extractStridedSlice S1x600000 ![0, 0] a1 slices_S2x600000_S1x600000_0_0) shapeCasts_S1x600000_S600000
/-- The hyperedge ids of the incidences. -/
def idx1 (a1 : (⟨S2x600000, .i32⟩ : BufTy).Contents (Elt Ideal)) : (⟨S600000, .i32⟩ : BufTy).Contents (Elt Ideal) :=
  shapeCast _ (extractStridedSlice S1x600000 ![1, 0] a1 slices_S2x600000_S1x600000_1_0) shapeCasts_S1x600000_S600000

/-- The ids as a column of start indices. -/
def col (i : (⟨S600000, .i32⟩ : BufTy).Contents (Elt Ideal)) : (⟨S600000x1, .i32⟩ : BufTy).Contents (Elt Ideal) :=
  broadcastInDim S600000x1 ![0] bcast_S600000_S600000x1_0 i

/-- One for every incidence. -/
def ones : (⟨S600000, .f32⟩ : BufTy).Contents (Elt Ideal) := broadcastInDim S600000 ![] bcast_S_S600000 (constant (F := Ideal) S_ .f32 0x3F800000#32)

/-- The number of incidences of each hyperedge. -/
def heCount (a1 : (⟨S2x600000, .i32⟩ : BufTy).Contents (Elt Ideal)) : (⟨S20000, .f32⟩ : BufTy).Contents (Elt Ideal) :=
  Host.scatterAdd scatter_S20000_S600000x1_S600000_n_0_0_1 (broadcastInDim S20000 ![] bcast_S_S20000 (constant (F := Ideal) S_ .f32 0x00000000#32)) (col (idx1 a1)) ones
/-- The number of incidences of each node. -/
def nodeCount (a1 : (⟨S2x600000, .i32⟩ : BufTy).Contents (Elt Ideal)) : (⟨S100000, .f32⟩ : BufTy).Contents (Elt Ideal) :=
  Host.scatterAdd scatter_S100000_S600000x1_S600000_n_0_0_1 (broadcastInDim S100000 ![] bcast_S_S100000 (constant (F := Ideal) S_ .f32 0x00000000#32)) (col (idx0 a1)) ones

/-- The node mean's denominator, max(count, 1). -/
def nodeDenV (a1 : (⟨S2x600000, .i32⟩ : BufTy).Contents (Elt Ideal)) : (⟨S100000, .f32⟩ : BufTy).Contents (Elt Ideal) :=
  maximumf (nodeCount a1) (broadcastInDim S100000 ![] bcast_S_S100000 (constant (F := Ideal) S_ .f32 0x3F800000#32))
/-- Its reciprocal, as a column. -/
def invNode (a1 : (⟨S2x600000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32)) (nodeDenV a1))
/-- The hyperedge mean's denominator, count + 1e-8. -/
def heDenV (a1 : (⟨S2x600000, .i32⟩ : BufTy).Contents (Elt Ideal)) : (⟨S20000, .f32⟩ : BufTy).Contents (Elt Ideal) :=
  addf (heCount a1) (broadcastInDim S20000 ![] bcast_S_S20000 (constant (F := Ideal) S_ .f32 0x322BCC77#32))
/-- Its reciprocal, as a column. -/
def invHe (a1 : (⟨S2x600000, .i32⟩ : BufTy).Contents (Elt Ideal)) : (⟨S20000x1, .f32⟩ : BufTy).Contents (Elt Ideal) :=
  broadcastInDim S20000x1 ![0] bcast_S20000_S20000x1_0
    (Host.divf (broadcastInDim S20000 ![] bcast_S_S20000 (constant (F := Ideal) S_ .f32 0x3F800000#32)) (heDenV a1))
/-- The hyperedge weights as a column. -/
def hwCol (a2 : (⟨S20000, .f32⟩ : BufTy).Contents (Elt Ideal)) : (⟨S20000x1, .f32⟩ : BufTy).Contents (Elt Ideal) := broadcastInDim S20000x1 ![0] bcast_S20000_S20000x1_0 a2

/-- Layer 0's and layer 1's matrix of a stacked weight argument. -/
def mat0 (P : (⟨S2x128x128, .f32⟩ : BufTy).Contents (Elt Ideal)) : (⟨S128x128, .f32⟩ : BufTy).Contents (Elt Ideal) :=
  shapeCast _ (extractStridedSlice S1x128x128 ![0, 0, 0] P slices_S2x128x128_S1x128x128_0_0_0) shapeCasts_S1x128x128_S128x128
def mat1 (P : (⟨S2x128x128, .f32⟩ : BufTy).Contents (Elt Ideal)) : (⟨S128x128, .f32⟩ : BufTy).Contents (Elt Ideal) :=
  shapeCast _ (extractStridedSlice S1x128x128 ![1, 0, 0] P slices_S2x128x128_S1x128x128_1_0_0) shapeCasts_S1x128x128_S128x128
/-- Layer 0's and layer 1's row of a stacked vector argument, as a one-row matrix (through the vector and back). -/
def row0 (P : (⟨S2x128, .f32⟩ : BufTy).Contents (Elt Ideal)) : (⟨S1x128, .f32⟩ : BufTy).Contents (Elt Ideal) :=
  shapeCast _ (shapeCast S128 (extractStridedSlice S1x128 ![0, 0] P slices_S2x128_S1x128_0_0) shapeCasts_S1x128_S128) shapeCasts_S128_S1x128
def row1 (P : (⟨S2x128, .f32⟩ : BufTy).Contents (Elt Ideal)) : (⟨S1x128, .f32⟩ : BufTy).Contents (Elt Ideal) :=
  shapeCast _ (shapeCast S128 (extractStridedSlice S1x128 ![1, 0] P slices_S2x128_S1x128_1_0) shapeCasts_S1x128_S128) shapeCasts_S128_S1x128

/-- Ids wrapped into [0, 100000): a negative id counts from the end; as a column of start indices. -/
def wrapN (i : (⟨S600000, .i32⟩ : BufTy).Contents (Elt Ideal)) : (⟨S600000x1, .i32⟩ : BufTy).Contents (Elt Ideal) :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 100000#32))) i)
/-- Ids wrapped into [0, 20000). -/
def wrapH (i : (⟨S600000, .i32⟩ : BufTy).Contents (Elt Ideal)) : (⟨S600000x1, .i32⟩ : BufTy).Contents (Elt Ideal) :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 20000#32))) i)

/-- Node rows gathered at the node ids and summed into the hyperedges named by the hyperedge ids. -/
def toEdges (xt : (⟨S100000x128, .bf16⟩ : BufTy).Contents (Elt Ideal)) (i0 i1 : (⟨S600000, .i32⟩ : BufTy).Contents (Elt Ideal)) : (⟨S20000x128, .f32⟩ : BufTy).Contents (Elt Ideal) :=
  Host.scatterAdd scatter_S20000x128_S600000x1_S600000x128_1_0_0_1
    (broadcastInDim S20000x128 ![] bcast_S_S20000x128 (constant (F := Ideal) S_ .f32 0x00000000#32)) (col i1)
    (extf .f32 (Host.gather gather_S100000x128_S600000x1_S600000x128_1_0_n_n_0_1_1128 xt (wrapN i0)) bitsLt_bf16_f32)
/-- Hyperedge rows gathered at the hyperedge ids and summed into the nodes named by the node ids. -/
def toNodes (he : (⟨S20000x128, .bf16⟩ : BufTy).Contents (Elt Ideal)) (i0 i1 : (⟨S600000, .i32⟩ : BufTy).Contents (Elt Ideal)) : (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32)) (col i0)
    (extf .f32 (Host.gather gather_S20000x128_S600000x1_S600000x128_1_0_n_n_0_1_1128 he (wrapH i1)) bitsLt_bf16_f32)

end Cert.KernelIdeal.KStages

end
-- ==== Proof.Spec.lean ====
/-
  The functions a hypergraph message-passing layer is made of, on the extended reals, entry by entry, for any extents.
  A matrix here is a function of its two coordinates; nothing depends on a program.

  * affine X W b        : (i, j) ↦ Σ_k X(i, k) · W(k, j) + b(0, j), a dense layer with its bias laid along every row.
  * scaleCol S c        : every row i of S multiplied by the entry c(i, 0) of a column.
  * divCol S d          : every row i of S divided by the entry d(i, 0) of a column.
  * mulCol A h          : the same product written as a last factor (a per-row weight).
  * rowMean, rowVar     : the mean of a row (its sum over 128.0) and the mean of the squared deviations from it.
  * layerNorm A g b     : (A − mean) · rsqrt(var + ε) · g + b, with g and b one-row matrices laid along every row.
  * leaky A             : A where A ≥ 0 and 0.2 · A elsewhere.
  * finalize Z …        : layerNorm (leaky (layerNorm Z g1 b1)) g2 b2.
  Every function reads, at row i, only row i of its matrix arguments: the congruence lemmas at the end say so, which
  is what lets a computation done tile of rows by tile of rows be read as one function of the whole arrays.
  The one law that relates the two ways a mean over a segment is taken — multiplying by the reciprocal of the count,
  dividing by the count — is scaleCol_recip: they agree wherever the count is a non-zero real number.
-/
import Idealize.ShloMosaic.PureOps.Ideal
import Idealize.ShloMosaic.PureOps.Ideal.Laws
import Idealize.ShloMosaic.Lib.ValueIdx
import Idealize.ShloMosaic.Lib.IdealHost
import Mathlib.Algebra.BigOperators.Fin

noncomputable section

namespace Cert.Spec

open Idealize.ShloMosaic Idealize.ShloMosaic.ValueIdx

/-- A matrix of extended reals with M rows and N columns. -/
abbrev Mat (M N : Nat) := FVec Ideal ⟨2, ![M, N]⟩ .f32

variable {M K N : Nat}

/-- The dense layer x · W + b, the one-row matrix b laid along every row. -/
def affine (X : Mat M K) (W : Mat K N) (b : Mat 1 N) : Mat M N :=
  fun i => (∑ k : Fin K, X (ix2 (i 0) k) * W (ix2 k (i 1))) + b (ix2 (0 : Fin 1) (i 1))

/-- Every row multiplied by its entry of a column. -/
def scaleCol (S : Mat M N) (c : Mat M 1) : Mat M N := fun i => S i * c (ix2 (i 0) (0 : Fin 1))

/-- Every row divided by its entry of a column. -/
def divCol (S : Mat M N) (d : Mat M 1) : Mat M N := fun i => Ideal.div (S i) (d (ix2 (i 0) (0 : Fin 1)))

/-- The entrywise sum of two matrices. -/
def addM (A B : Mat M N) : Mat M N := fun i => A i + B i

/-- The mean of row r: its sum over 128.0. -/
def rowMean (A : Mat M N) (r : Fin M) : EReal :=
  Ideal.div (∑ k : Fin N, A (ix2 r k)) (Ideal.ofBits .f32 0x43000000#32)

/-- The mean of the squared deviations of row r from its mean. -/
def rowVar (A : Mat M N) (r : Fin M) : EReal :=
  Ideal.div (∑ k : Fin N, (A (ix2 r k) - rowMean A r) * (A (ix2 r k) - rowMean A r)) (Ideal.ofBits .f32 0x43000000#32)

/-- Layer normalisation along the rows, with scale g and shift b laid along every row. -/
def layerNorm (A : Mat M N) (g b : Mat 1 N) : Mat M N := fun i =>
  ((A i - rowMean A (i 0)) * Ideal.rsqrt (rowVar A (i 0) + Ideal.ofBits .f32 0x3727C5AC#32)) * g (ix2 (0 : Fin 1) (i 1))
    + b (ix2 (0 : Fin 1) (i 1))

/-- The leaky rectifier with slope 0.2 below zero. -/
def leaky (A : Mat M N) : Mat M N := fun i =>
  Scalar.select (Ideal.cmp .oge (A i) (Ideal.ofBits .f32 0x00000000#32)) (A i) (Ideal.ofBits .f32 0x3E4CCCCD#32 * A i)

/-- Normalise, rectify, normalise again. -/
def finalize (Z : Mat M N) (g1 b1 g2 b2 : Mat 1 N) : Mat M N := layerNorm (leaky (layerNorm Z g1 b1)) g2 b2

/-- The dense layer followed by a per-row weight. -/
def weighted (Ss : Mat M K) (W : Mat K N) (b : Mat 1 N) (h : Mat M 1) : Mat M N :=
  fun i => affine Ss W b i * h (ix2 (i 0) (0 : Fin 1))

/-! ## Each function reads, at a row, only that row of its matrix arguments -/

variable {M' : Nat}

theorem affine_row (X : Mat M K) (X' : Mat M' K) (W : Mat K N) (b : Mat 1 N) (p : Fin M) (p' : Fin M') (q : Fin N)
    (h : ∀ k : Fin K, X (ix2 p k) = X' (ix2 p' k)) : affine X W b (ix2 p q) = affine X' W b (ix2 p' q) := by
  show (∑ k : Fin K, X (ix2 p k) * W (ix2 k q)) + b (ix2 (0 : Fin 1) q) = (∑ k : Fin K, X' (ix2 p' k) * W (ix2 k q)) + b (ix2 (0 : Fin 1) q)
  exact congrArg (· + _) (Finset.sum_congr rfl fun k _ => congrArg (· * _) (h k))

theorem rowMean_row (A : Mat M N) (A' : Mat M' N) (p : Fin M) (p' : Fin M')
    (h : ∀ k : Fin N, A (ix2 p k) = A' (ix2 p' k)) : rowMean A p = rowMean A' p' := by
  unfold rowMean
  exact congrArg (Ideal.div · _) (Finset.sum_congr rfl fun k _ => h k)

theorem rowVar_row (A : Mat M N) (A' : Mat M' N) (p : Fin M) (p' : Fin M')
    (h : ∀ k : Fin N, A (ix2 p k) = A' (ix2 p' k)) : rowVar A p = rowVar A' p' := by
  unfold rowVar
  rw [rowMean_row A A' p p' h]
  exact congrArg (Ideal.div · _) (Finset.sum_congr rfl fun k _ => by rw [h k])

theorem layerNorm_row (A : Mat M N) (A' : Mat M' N) (g b : Mat 1 N) (p : Fin M) (p' : Fin M') (q : Fin N)
    (h : ∀ k : Fin N, A (ix2 p k) = A' (ix2 p' k)) : layerNorm A g b (ix2 p q) = layerNorm A' g b (ix2 p' q) := by
  show ((A (ix2 p q) - rowMean A p) * Ideal.rsqrt (rowVar A p + _)) * g (ix2 (0 : Fin 1) q) + b (ix2 (0 : Fin 1) q)
    = ((A' (ix2 p' q) - rowMean A' p') * Ideal.rsqrt (rowVar A' p' + _)) * g (ix2 (0 : Fin 1) q) + b (ix2 (0 : Fin 1) q)
  rw [h q, rowMean_row A A' p p' h, rowVar_row A A' p p' h]

theorem leaky_row (A : Mat M N) (A' : Mat M' N) (p : Fin M) (p' : Fin M') (q : Fin N)
    (h : A (ix2 p q) = A' (ix2 p' q)) : leaky A (ix2 p q) = leaky A' (ix2 p' q) := by
  show Scalar.select (Ideal.cmp .oge (A (ix2 p q)) _) (A (ix2 p q)) (_ * A (ix2 p q))
    = Scalar.select (Ideal.cmp .oge (A' (ix2 p' q)) _) (A' (ix2 p' q)) (_ * A' (ix2 p' q))
  rw [h]

theorem finalize_row (Z : Mat M N) (Z' : Mat M' N) (g1 b1 g2 b2 : Mat 1 N) (p : Fin M) (p' : Fin M') (q : Fin N)
    (h : ∀ k : Fin N, Z (ix2 p k) = Z' (ix2 p' k)) :
    finalize Z g1 b1 g2 b2 (ix2 p q) = finalize Z' g1 b1 g2 b2 (ix2 p' q) := by
  unfold finalize
  exact layerNorm_row _ _ g2 b2 p p' q fun k => leaky_row _ _ p p' k (layerNorm_row Z Z' g1 b1 p p' k h)

theorem weighted_row (Ss : Mat M K) (Ss' : Mat M' K) (W : Mat K N) (b : Mat 1 N) (hc : Mat M 1) (hc' : Mat M' 1)
    (p : Fin M) (p' : Fin M') (q : Fin N) (h : ∀ k : Fin K, Ss (ix2 p k) = Ss' (ix2 p' k))
    (hh : hc (ix2 p (0 : Fin 1)) = hc' (ix2 p' (0 : Fin 1))) :
    weighted Ss W b hc (ix2 p q) = weighted Ss' W b hc' (ix2 p' q) := by
  show affine Ss W b (ix2 p q) * hc (ix2 p (0 : Fin 1)) = affine Ss' W b (ix2 p' q) * hc' (ix2 p' (0 : Fin 1))
  rw [affine_row Ss Ss' W b p p' q h, hh]

/-! ## Multiplying by the reciprocal of a non-zero real is dividing by it -/

/-- For a non-zero real d: x · (1 / d) = x / d on every extended real x (the word of 1.0 is the real one). -/
theorem mul_recip (x : EReal) {y : ℝ} (hy : y ≠ 0) :
    x * Ideal.div (Ideal.ofBits .f32 0x3F800000#32) (y : EReal) = Ideal.div x (y : EReal) := by
  rw [Ideal.div_coe hy, Ideal.div_coe hy, Ideal.ofBits_one_f32, one_mul]

/-- A column of reciprocals scales the rows as the column of denominators divides them, where every denominator is a
    non-zero real. -/
theorem scaleCol_recip (S : Mat M N) (c d : Mat M 1)
    (hc : ∀ r : Fin M, c (ix2 r (0 : Fin 1)) = Ideal.div (Ideal.ofBits .f32 0x3F800000#32) (d (ix2 r (0 : Fin 1))))
    (hd : ∀ r : Fin M, ∃ y : ℝ, y ≠ 0 ∧ d (ix2 r (0 : Fin 1)) = (y : EReal)) : scaleCol S c = divCol S d := by
  funext i
  obtain ⟨y, hy, e⟩ := hd (i 0)
  show S i * c (ix2 (i 0) (0 : Fin 1)) = Ideal.div (S i) (d (ix2 (i 0) (0 : Fin 1)))
  rw [hc (i 0), e]
  exact mul_recip (S i) hy

end Cert.Spec

end
-- ==== Proof.KValues.lean ====
/-
  What the idealized kernel program computes, as one function of its eleven arguments, in the specification's terms:
  layer 0's dense layer on the nodes; the hyperedge transform of the mean over each hyperedge's nodes (the sums times
  the reciprocal counts), weighted; the twice-normalised rectified sum of the mean over each node's hyperedges and
  the node's own row; layer 1 likewise on layer 0's output, which is added back at the end.
-/
import proofs.«120254_j65652870087174_2_alg».proof.Proof.KStages
import proofs.«120254_j65652870087174_2_alg».proof.Proof.Spec

noncomputable section

namespace Cert.KernelIdeal.KValues

open Cert.KernelIdeal Cert.KernelIdeal.KStages Idealize.ShloMosaic

/-- Layer 0's node features after the dense layer. -/
def xt0 (a0 : (⟨S100000x128, .f32⟩ : BufTy).Contents (Elt Ideal)) (a1 : (⟨S2x600000, .i32⟩ : BufTy).Contents (Elt Ideal)) (a2 : (⟨S20000, .f32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128, .f32⟩ : BufTy).Contents (Elt Ideal)) (a7 : (⟨S2x128, .f32⟩ : BufTy).Contents (Elt Ideal)) (a8 : (⟨S2x128, .f32⟩ : BufTy).Contents (Elt Ideal)) (a9 : (⟨S2x128, .f32⟩ : BufTy).Contents (Elt Ideal)) (a10 : (⟨S2x128, .f32⟩ : BufTy).Contents (Elt Ideal)) : Cert.Spec.Mat 100000 128 := Cert.Spec.affine a0 (mat0 a3) (row0 a4)
/-- Layer 0's hyperedge features. -/
def he0 (a0 : (⟨S100000x128, .f32⟩ : BufTy).Contents (Elt Ideal)) (a1 : (⟨S2x600000, .i32⟩ : BufTy).Contents (Elt Ideal)) (a2 : (⟨S20000, .f32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128, .f32⟩ : BufTy).Contents (Elt Ideal)) (a7 : (⟨S2x128, .f32⟩ : BufTy).Contents (Elt Ideal)) (a8 : (⟨S2x128, .f32⟩ : BufTy).Contents (Elt Ideal)) (a9 : (⟨S2x128, .f32⟩ : BufTy).Contents (Elt Ideal)) (a10 : (⟨S2x128, .f32⟩ : BufTy).Contents (Elt Ideal)) : Cert.Spec.Mat 20000 128 :=
  Cert.Spec.weighted (Cert.Spec.scaleCol (toEdges (xt0 a0 a1 a2 a3 a4 a5 a6 a7 a8 a9 a10) (idx0 a1) (idx1 a1)) (invHe a1)) (mat0 a5) (row0 a6) (hwCol a2)
/-- Layer 0's output. -/
def x1 (a0 : (⟨S100000x128, .f32⟩ : BufTy).Contents (Elt Ideal)) (a1 : (⟨S2x600000, .i32⟩ : BufTy).Contents (Elt Ideal)) (a2 : (⟨S20000, .f32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128, .f32⟩ : BufTy).Contents (Elt Ideal)) (a7 : (⟨S2x128, .f32⟩ : BufTy).Contents (Elt Ideal)) (a8 : (⟨S2x128, .f32⟩ : BufTy).Contents (Elt Ideal)) (a9 : (⟨S2x128, .f32⟩ : BufTy).Contents (Elt Ideal)) (a10 : (⟨S2x128, .f32⟩ : BufTy).Contents (Elt Ideal)) : Cert.Spec.Mat 100000 128 :=
  Cert.Spec.finalize (Cert.Spec.addM (Cert.Spec.scaleCol (toNodes (he0 a0 a1 a2 a3 a4 a5 a6 a7 a8 a9 a10) (idx0 a1) (idx1 a1)) (invNode a1)) (xt0 a0 a1 a2 a3 a4 a5 a6 a7 a8 a9 a10))
    (row0 a7) (row0 a8) (row0 a9) (row0 a10)
/-- Layer 1's node features after the dense layer. -/
def xt1 (a0 : (⟨S100000x128, .f32⟩ : BufTy).Contents (Elt Ideal)) (a1 : (⟨S2x600000, .i32⟩ : BufTy).Contents (Elt Ideal)) (a2 : (⟨S20000, .f32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128, .f32⟩ : BufTy).Contents (Elt Ideal)) (a7 : (⟨S2x128, .f32⟩ : BufTy).Contents (Elt Ideal)) (a8 : (⟨S2x128, .f32⟩ : BufTy).Contents (Elt Ideal)) (a9 : (⟨S2x128, .f32⟩ : BufTy).Contents (Elt Ideal)) (a10 : (⟨S2x128, .f32⟩ : BufTy).Contents (Elt Ideal)) : Cert.Spec.Mat 100000 128 := Cert.Spec.affine (x1 a0 a1 a2 a3 a4 a5 a6 a7 a8 a9 a10) (mat1 a3) (row1 a4)
/-- Layer 1's hyperedge features. -/
def he1 (a0 : (⟨S100000x128, .f32⟩ : BufTy).Contents (Elt Ideal)) (a1 : (⟨S2x600000, .i32⟩ : BufTy).Contents (Elt Ideal)) (a2 : (⟨S20000, .f32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128, .f32⟩ : BufTy).Contents (Elt Ideal)) (a7 : (⟨S2x128, .f32⟩ : BufTy).Contents (Elt Ideal)) (a8 : (⟨S2x128, .f32⟩ : BufTy).Contents (Elt Ideal)) (a9 : (⟨S2x128, .f32⟩ : BufTy).Contents (Elt Ideal)) (a10 : (⟨S2x128, .f32⟩ : BufTy).Contents (Elt Ideal)) : Cert.Spec.Mat 20000 128 :=
  Cert.Spec.weighted (Cert.Spec.scaleCol (toEdges (xt1 a0 a1 a2 a3 a4 a5 a6 a7 a8 a9 a10) (idx0 a1) (idx1 a1)) (invHe a1)) (mat1 a5) (row1 a6) (hwCol a2)
/-- The result: layer 1's output plus layer 0's. -/
def out (a0 : (⟨S100000x128, .f32⟩ : BufTy).Contents (Elt Ideal)) (a1 : (⟨S2x600000, .i32⟩ : BufTy).Contents (Elt Ideal)) (a2 : (⟨S20000, .f32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128, .f32⟩ : BufTy).Contents (Elt Ideal)) (a7 : (⟨S2x128, .f32⟩ : BufTy).Contents (Elt Ideal)) (a8 : (⟨S2x128, .f32⟩ : BufTy).Contents (Elt Ideal)) (a9 : (⟨S2x128, .f32⟩ : BufTy).Contents (Elt Ideal)) (a10 : (⟨S2x128, .f32⟩ : BufTy).Contents (Elt Ideal)) : Cert.Spec.Mat 100000 128 :=
  Cert.Spec.addM (Cert.Spec.finalize (Cert.Spec.addM (Cert.Spec.scaleCol (toNodes (he1 a0 a1 a2 a3 a4 a5 a6 a7 a8 a9 a10) (idx0 a1) (idx1 a1)) (invNode a1)) (xt1 a0 a1 a2 a3 a4 a5 a6 a7 a8 a9 a10))
    (row1 a7) (row1 a8) (row1 a9) (row1 a10)) (x1 a0 a1 a2 a3 a4 a5 a6 a7 a8 a9 a10)

end Cert.KernelIdeal.KValues

end
-- ==== Proof.KHost0.lean ====
/-
  What the first stretch: the id vectors, the reciprocal denominators, the weight column, layer 0's node weights and bias row leave in the buffers the later steps read, from any buffer contents W: each buffer the stretch
  computes is its stage function of the contents it reads, and each buffer it does not write is as it was.
-/
import proofs.«120254_j65652870087174_2_alg».proof.Proof.Gen.KernelIdeal.Launch
import proofs.«120254_j65652870087174_2_alg».proof.Proof.KStages
import Idealize.ShloMosaic.Lib.StableHlo.Run

set_option maxRecDepth 16384

noncomputable section

namespace Cert.KernelIdeal.KHost

open Cert.KernelIdeal Cert.KernelIdeal.Gen Cert.KernelIdeal.KStages
open Idealize.ShloMosaic Idealize.ShloMosaic.TcCoe Idealize.SL.Sem Idealize.ShloMosaic.StableHlo

variable (W : Valuation τ sig (Elt Ideal))

theorem h0_v1 : after (hostOps0 (F := Ideal)) W (Proc.devRef .tc main_v1) = idx0 (W (Proc.devRef .tc main_arg1)) := by
  after_results_simp <;> rfl

theorem h0_v3 : after (hostOps0 (F := Ideal)) W (Proc.devRef .tc main_v3) = idx1 (W (Proc.devRef .tc main_arg1)) := by
  after_results_simp <;> rfl

theorem h0_v15 : after (hostOps0 (F := Ideal)) W (Proc.devRef .tc main_v15) = invNode (W (Proc.devRef .tc main_arg1)) := by
  after_results_simp <;> rfl

theorem h0_v20 : after (hostOps0 (F := Ideal)) W (Proc.devRef .tc main_v20) = invHe (W (Proc.devRef .tc main_arg1)) := by
  after_results_simp <;> rfl

theorem h0_v21 : after (hostOps0 (F := Ideal)) W (Proc.devRef .tc main_v21) = hwCol (W (Proc.devRef .tc main_arg2)) := by
  after_results_simp <;> rfl

theorem h0_v23 : after (hostOps0 (F := Ideal)) W (Proc.devRef .tc main_v23) = mat0 (W (Proc.devRef .tc main_arg3)) := by
  after_results_simp <;> rfl

theorem h0_v26 : after (hostOps0 (F := Ideal)) W (Proc.devRef .tc main_v26) = row0 (W (Proc.devRef .tc main_arg4)) := by
  after_results_simp <;> rfl

theorem h0_keep_arg0 : after (hostOps0 (F := Ideal)) W (Proc.devRef .tc main_arg0) = W (Proc.devRef .tc main_arg0) := by
  after_results_simp <;> rfl

theorem h0_keep_arg3 : after (hostOps0 (F := Ideal)) W (Proc.devRef .tc main_arg3) = W (Proc.devRef .tc main_arg3) := by
  after_results_simp <;> rfl

theorem h0_keep_arg4 : after (hostOps0 (F := Ideal)) W (Proc.devRef .tc main_arg4) = W (Proc.devRef .tc main_arg4) := by
  after_results_simp <;> rfl

theorem h0_keep_arg5 : after (hostOps0 (F := Ideal)) W (Proc.devRef .tc main_arg5) = W (Proc.devRef .tc main_arg5) := by
  after_results_simp <;> rfl

theorem h0_keep_arg6 : after (hostOps0 (F := Ideal)) W (Proc.devRef .tc main_arg6) = W (Proc.devRef .tc main_arg6) := by
  after_results_simp <;> rfl

theorem h0_keep_arg7 : after (hostOps0 (F := Ideal)) W (Proc.devRef .tc main_arg7) = W (Proc.devRef .tc main_arg7) := by
  after_results_simp <;> rfl

theorem h0_keep_arg8 : after (hostOps0 (F := Ideal)) W (Proc.devRef .tc main_arg8) = W (Proc.devRef .tc main_arg8) := by
  after_results_simp <;> rfl

theorem h0_keep_arg9 : after (hostOps0 (F := Ideal)) W (Proc.devRef .tc main_arg9) = W (Proc.devRef .tc main_arg9) := by
  after_results_simp <;> rfl

theorem h0_keep_arg10 : after (hostOps0 (F := Ideal)) W (Proc.devRef .tc main_arg10) = W (Proc.devRef .tc main_arg10) := by
  after_results_simp <;> rfl

end Cert.KernelIdeal.KHost

end
-- ==== Proof.KHost1.lean ====
/-
  What the second stretch: layer 0's node rows summed into the hyperedges, and layer 0's remaining weight slices leave in the buffers the later steps read, from any buffer contents W: each buffer the stretch
  computes is its stage function of the contents it reads, and each buffer it does not write is as it was.
-/
import proofs.«120254_j65652870087174_2_alg».proof.Proof.Gen.KernelIdeal.Launch
import proofs.«120254_j65652870087174_2_alg».proof.Proof.KStages
import Idealize.ShloMosaic.Lib.StableHlo.Run

set_option maxRecDepth 16384

noncomputable section

namespace Cert.KernelIdeal.KHost

open Cert.KernelIdeal Cert.KernelIdeal.Gen Cert.KernelIdeal.KStages
open Idealize.ShloMosaic Idealize.ShloMosaic.TcCoe Idealize.SL.Sem Idealize.ShloMosaic.StableHlo

variable (W : Valuation τ sig (Elt Ideal))

theorem h1_v38 : after (hostOps1 (F := Ideal)) W (Proc.devRef .tc main_v38) = toEdges (W (Proc.devRef .tc main_v27)) (W (Proc.devRef .tc main_v1)) (W (Proc.devRef .tc main_v3)) := by
  after_results_simp <;> rfl

theorem h1_v41 : after (hostOps1 (F := Ideal)) W (Proc.devRef .tc main_v41) = row0 (W (Proc.devRef .tc main_arg7)) := by
  after_results_simp <;> rfl

theorem h1_v44 : after (hostOps1 (F := Ideal)) W (Proc.devRef .tc main_v44) = row0 (W (Proc.devRef .tc main_arg8)) := by
  after_results_simp <;> rfl

theorem h1_v47 : after (hostOps1 (F := Ideal)) W (Proc.devRef .tc main_v47) = row0 (W (Proc.devRef .tc main_arg9)) := by
  after_results_simp <;> rfl

theorem h1_v50 : after (hostOps1 (F := Ideal)) W (Proc.devRef .tc main_v50) = row0 (W (Proc.devRef .tc main_arg10)) := by
  after_results_simp <;> rfl

theorem h1_v52 : after (hostOps1 (F := Ideal)) W (Proc.devRef .tc main_v52) = mat0 (W (Proc.devRef .tc main_arg5)) := by
  after_results_simp <;> rfl

theorem h1_v55 : after (hostOps1 (F := Ideal)) W (Proc.devRef .tc main_v55) = row0 (W (Proc.devRef .tc main_arg6)) := by
  after_results_simp <;> rfl

theorem h1_keep_v1 : after (hostOps1 (F := Ideal)) W (Proc.devRef .tc main_v1) = W (Proc.devRef .tc main_v1) := by
  after_results_simp <;> rfl

theorem h1_keep_v3 : after (hostOps1 (F := Ideal)) W (Proc.devRef .tc main_v3) = W (Proc.devRef .tc main_v3) := by
  after_results_simp <;> rfl

theorem h1_keep_v15 : after (hostOps1 (F := Ideal)) W (Proc.devRef .tc main_v15) = W (Proc.devRef .tc main_v15) := by
  after_results_simp <;> rfl

theorem h1_keep_v20 : after (hostOps1 (F := Ideal)) W (Proc.devRef .tc main_v20) = W (Proc.devRef .tc main_v20) := by
  after_results_simp <;> rfl

theorem h1_keep_v21 : after (hostOps1 (F := Ideal)) W (Proc.devRef .tc main_v21) = W (Proc.devRef .tc main_v21) := by
  after_results_simp <;> rfl

theorem h1_keep_v27 : after (hostOps1 (F := Ideal)) W (Proc.devRef .tc main_v27) = W (Proc.devRef .tc main_v27) := by
  after_results_simp <;> rfl

theorem h1_keep_arg3 : after (hostOps1 (F := Ideal)) W (Proc.devRef .tc main_arg3) = W (Proc.devRef .tc main_arg3) := by
  after_results_simp <;> rfl

theorem h1_keep_arg4 : after (hostOps1 (F := Ideal)) W (Proc.devRef .tc main_arg4) = W (Proc.devRef .tc main_arg4) := by
  after_results_simp <;> rfl

theorem h1_keep_arg5 : after (hostOps1 (F := Ideal)) W (Proc.devRef .tc main_arg5) = W (Proc.devRef .tc main_arg5) := by
  after_results_simp <;> rfl

theorem h1_keep_arg6 : after (hostOps1 (F := Ideal)) W (Proc.devRef .tc main_arg6) = W (Proc.devRef .tc main_arg6) := by
  after_results_simp <;> rfl

theorem h1_keep_arg7 : after (hostOps1 (F := Ideal)) W (Proc.devRef .tc main_arg7) = W (Proc.devRef .tc main_arg7) := by
  after_results_simp <;> rfl

theorem h1_keep_arg8 : after (hostOps1 (F := Ideal)) W (Proc.devRef .tc main_arg8) = W (Proc.devRef .tc main_arg8) := by
  after_results_simp <;> rfl

theorem h1_keep_arg9 : after (hostOps1 (F := Ideal)) W (Proc.devRef .tc main_arg9) = W (Proc.devRef .tc main_arg9) := by
  after_results_simp <;> rfl

theorem h1_keep_arg10 : after (hostOps1 (F := Ideal)) W (Proc.devRef .tc main_arg10) = W (Proc.devRef .tc main_arg10) := by
  after_results_simp <;> rfl

end Cert.KernelIdeal.KHost

end
-- ==== Proof.KHost2.lean ====
/-
  What the third stretch: layer 0's hyperedge rows summed into the nodes, and layer 1's node weights and bias row leave in the buffers the later steps read, from any buffer contents W: each buffer the stretch
  computes is its stage function of the contents it reads, and each buffer it does not write is as it was.
-/
import proofs.«120254_j65652870087174_2_alg».proof.Proof.Gen.KernelIdeal.Launch
import proofs.«120254_j65652870087174_2_alg».proof.Proof.KStages
import Idealize.ShloMosaic.Lib.StableHlo.Run

set_option maxRecDepth 16384

noncomputable section

namespace Cert.KernelIdeal.KHost

open Cert.KernelIdeal Cert.KernelIdeal.Gen Cert.KernelIdeal.KStages
open Idealize.ShloMosaic Idealize.ShloMosaic.TcCoe Idealize.SL.Sem Idealize.ShloMosaic.StableHlo

variable (W : Valuation τ sig (Elt Ideal))

theorem h2_v67 : after (hostOps2 (F := Ideal)) W (Proc.devRef .tc main_v67) = toNodes (W (Proc.devRef .tc main_v56)) (W (Proc.devRef .tc main_v1)) (W (Proc.devRef .tc main_v3)) := by
  after_results_simp <;> rfl

theorem h2_v69 : after (hostOps2 (F := Ideal)) W (Proc.devRef .tc main_v69) = mat1 (W (Proc.devRef .tc main_arg3)) := by
  after_results_simp <;> rfl

theorem h2_v72 : after (hostOps2 (F := Ideal)) W (Proc.devRef .tc main_v72) = row1 (W (Proc.devRef .tc main_arg4)) := by
  after_results_simp <;> rfl

theorem h2_keep_v1 : after (hostOps2 (F := Ideal)) W (Proc.devRef .tc main_v1) = W (Proc.devRef .tc main_v1) := by
  after_results_simp <;> rfl

theorem h2_keep_v3 : after (hostOps2 (F := Ideal)) W (Proc.devRef .tc main_v3) = W (Proc.devRef .tc main_v3) := by
  after_results_simp <;> rfl

theorem h2_keep_v15 : after (hostOps2 (F := Ideal)) W (Proc.devRef .tc main_v15) = W (Proc.devRef .tc main_v15) := by
  after_results_simp <;> rfl

theorem h2_keep_v20 : after (hostOps2 (F := Ideal)) W (Proc.devRef .tc main_v20) = W (Proc.devRef .tc main_v20) := by
  after_results_simp <;> rfl

theorem h2_keep_v21 : after (hostOps2 (F := Ideal)) W (Proc.devRef .tc main_v21) = W (Proc.devRef .tc main_v21) := by
  after_results_simp <;> rfl

theorem h2_keep_v27 : after (hostOps2 (F := Ideal)) W (Proc.devRef .tc main_v27) = W (Proc.devRef .tc main_v27) := by
  after_results_simp <;> rfl

theorem h2_keep_v41 : after (hostOps2 (F := Ideal)) W (Proc.devRef .tc main_v41) = W (Proc.devRef .tc main_v41) := by
  after_results_simp <;> rfl

theorem h2_keep_v44 : after (hostOps2 (F := Ideal)) W (Proc.devRef .tc main_v44) = W (Proc.devRef .tc main_v44) := by
  after_results_simp <;> rfl

theorem h2_keep_v47 : after (hostOps2 (F := Ideal)) W (Proc.devRef .tc main_v47) = W (Proc.devRef .tc main_v47) := by
  after_results_simp <;> rfl

theorem h2_keep_v50 : after (hostOps2 (F := Ideal)) W (Proc.devRef .tc main_v50) = W (Proc.devRef .tc main_v50) := by
  after_results_simp <;> rfl

theorem h2_keep_arg5 : after (hostOps2 (F := Ideal)) W (Proc.devRef .tc main_arg5) = W (Proc.devRef .tc main_arg5) := by
  after_results_simp <;> rfl

theorem h2_keep_arg6 : after (hostOps2 (F := Ideal)) W (Proc.devRef .tc main_arg6) = W (Proc.devRef .tc main_arg6) := by
  after_results_simp <;> rfl

theorem h2_keep_arg7 : after (hostOps2 (F := Ideal)) W (Proc.devRef .tc main_arg7) = W (Proc.devRef .tc main_arg7) := by
  after_results_simp <;> rfl

theorem h2_keep_arg8 : after (hostOps2 (F := Ideal)) W (Proc.devRef .tc main_arg8) = W (Proc.devRef .tc main_arg8) := by
  after_results_simp <;> rfl

theorem h2_keep_arg9 : after (hostOps2 (F := Ideal)) W (Proc.devRef .tc main_arg9) = W (Proc.devRef .tc main_arg9) := by
  after_results_simp <;> rfl

theorem h2_keep_arg10 : after (hostOps2 (F := Ideal)) W (Proc.devRef .tc main_arg10) = W (Proc.devRef .tc main_arg10) := by
  after_results_simp <;> rfl

end Cert.KernelIdeal.KHost

end
-- ==== Proof.KHost3.lean ====
/-
  What the fourth stretch: layer 1's node rows summed into the hyperedges, and layer 1's remaining weight slices leave in the buffers the later steps read, from any buffer contents W: each buffer the stretch
  computes is its stage function of the contents it reads, and each buffer it does not write is as it was.
-/
import proofs.«120254_j65652870087174_2_alg».proof.Proof.Gen.KernelIdeal.Launch
import proofs.«120254_j65652870087174_2_alg».proof.Proof.KStages
import Idealize.ShloMosaic.Lib.StableHlo.Run

set_option maxRecDepth 16384

noncomputable section

namespace Cert.KernelIdeal.KHost

open Cert.KernelIdeal Cert.KernelIdeal.Gen Cert.KernelIdeal.KStages
open Idealize.ShloMosaic Idealize.ShloMosaic.TcCoe Idealize.SL.Sem Idealize.ShloMosaic.StableHlo

variable (W : Valuation τ sig (Elt Ideal))

theorem h3_v84 : after (hostOps3 (F := Ideal)) W (Proc.devRef .tc main_v84) = toEdges (W (Proc.devRef .tc main_v73_1)) (W (Proc.devRef .tc main_v1)) (W (Proc.devRef .tc main_v3)) := by
  after_results_simp <;> rfl

theorem h3_v87 : after (hostOps3 (F := Ideal)) W (Proc.devRef .tc main_v87) = row1 (W (Proc.devRef .tc main_arg7)) := by
  after_results_simp <;> rfl

theorem h3_v90 : after (hostOps3 (F := Ideal)) W (Proc.devRef .tc main_v90) = row1 (W (Proc.devRef .tc main_arg8)) := by
  after_results_simp <;> rfl

theorem h3_v93 : after (hostOps3 (F := Ideal)) W (Proc.devRef .tc main_v93) = row1 (W (Proc.devRef .tc main_arg9)) := by
  after_results_simp <;> rfl

theorem h3_v96 : after (hostOps3 (F := Ideal)) W (Proc.devRef .tc main_v96) = row1 (W (Proc.devRef .tc main_arg10)) := by
  after_results_simp <;> rfl

theorem h3_v98 : after (hostOps3 (F := Ideal)) W (Proc.devRef .tc main_v98) = mat1 (W (Proc.devRef .tc main_arg5)) := by
  after_results_simp <;> rfl

theorem h3_v101 : after (hostOps3 (F := Ideal)) W (Proc.devRef .tc main_v101) = row1 (W (Proc.devRef .tc main_arg6)) := by
  after_results_simp <;> rfl

theorem h3_keep_v1 : after (hostOps3 (F := Ideal)) W (Proc.devRef .tc main_v1) = W (Proc.devRef .tc main_v1) := by
  after_results_simp <;> rfl

theorem h3_keep_v3 : after (hostOps3 (F := Ideal)) W (Proc.devRef .tc main_v3) = W (Proc.devRef .tc main_v3) := by
  after_results_simp <;> rfl

theorem h3_keep_v15 : after (hostOps3 (F := Ideal)) W (Proc.devRef .tc main_v15) = W (Proc.devRef .tc main_v15) := by
  after_results_simp <;> rfl

theorem h3_keep_v20 : after (hostOps3 (F := Ideal)) W (Proc.devRef .tc main_v20) = W (Proc.devRef .tc main_v20) := by
  after_results_simp <;> rfl

theorem h3_keep_v21 : after (hostOps3 (F := Ideal)) W (Proc.devRef .tc main_v21) = W (Proc.devRef .tc main_v21) := by
  after_results_simp <;> rfl

theorem h3_keep_v73_0 : after (hostOps3 (F := Ideal)) W (Proc.devRef .tc main_v73_0) = W (Proc.devRef .tc main_v73_0) := by
  after_results_simp <;> rfl

theorem h3_keep_v73_1 : after (hostOps3 (F := Ideal)) W (Proc.devRef .tc main_v73_1) = W (Proc.devRef .tc main_v73_1) := by
  after_results_simp <;> rfl

end Cert.KernelIdeal.KHost

end
-- ==== Proof.KHost4.lean ====
/-
  What the last stretch: layer 1's hyperedge rows summed into the nodes leave in the buffers the later steps read, from any buffer contents W: each buffer the stretch
  computes is its stage function of the contents it reads, and each buffer it does not write is as it was.
-/
import proofs.«120254_j65652870087174_2_alg».proof.Proof.Gen.KernelIdeal.Launch
import proofs.«120254_j65652870087174_2_alg».proof.Proof.KStages
import Idealize.ShloMosaic.Lib.StableHlo.Run

set_option maxRecDepth 16384

noncomputable section

namespace Cert.KernelIdeal.KHost

open Cert.KernelIdeal Cert.KernelIdeal.Gen Cert.KernelIdeal.KStages
open Idealize.ShloMosaic Idealize.ShloMosaic.TcCoe Idealize.SL.Sem Idealize.ShloMosaic.StableHlo

variable (W : Valuation τ sig (Elt Ideal))

theorem h4_v113 : after (hostOps4 (F := Ideal)) W (Proc.devRef .tc main_v113) = toNodes (W (Proc.devRef .tc main_v102)) (W (Proc.devRef .tc main_v1)) (W (Proc.devRef .tc main_v3)) := by
  after_results_simp <;> rfl

theorem h4_keep_v15 : after (hostOps4 (F := Ideal)) W (Proc.devRef .tc main_v15) = W (Proc.devRef .tc main_v15) := by
  after_results_simp <;> rfl

theorem h4_keep_v73_0 : after (hostOps4 (F := Ideal)) W (Proc.devRef .tc main_v73_0) = W (Proc.devRef .tc main_v73_0) := by
  after_results_simp <;> rfl

theorem h4_keep_v73_1 : after (hostOps4 (F := Ideal)) W (Proc.devRef .tc main_v73_1) = W (Proc.devRef .tc main_v73_1) := by
  after_results_simp <;> rfl

theorem h4_keep_v87 : after (hostOps4 (F := Ideal)) W (Proc.devRef .tc main_v87) = W (Proc.devRef .tc main_v87) := by
  after_results_simp <;> rfl

theorem h4_keep_v90 : after (hostOps4 (F := Ideal)) W (Proc.devRef .tc main_v90) = W (Proc.devRef .tc main_v90) := by
  after_results_simp <;> rfl

theorem h4_keep_v93 : after (hostOps4 (F := Ideal)) W (Proc.devRef .tc main_v93) = W (Proc.devRef .tc main_v93) := by
  after_results_simp <;> rfl

theorem h4_keep_v96 : after (hostOps4 (F := Ideal)) W (Proc.devRef .tc main_v96) = W (Proc.devRef .tc main_v96) := by
  after_results_simp <;> rfl

end Cert.KernelIdeal.KHost

end
-- ==== Proof.Region0.lean ====
/-
  The first dense layer, from tiles of rows to the whole array. The program computes x · W + b on fifty tiles of 2000 rows;
  each tile's result is the dense layer of that tile of x against the whole W and the whole bias row. Since the dense layer
  reads, at a row, only that row of x, the fifty tiles are the rows of one array: the dense layer of the whole x.
-/
import proofs.«120254_j65652870087174_2_alg».proof.Proof.Gen.KernelIdeal.Frame
import proofs.«120254_j65652870087174_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R0

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows, decided over the fifty points: the two row-tiled windows sit at block (t, 0),
    the weights and the bias row at block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tile of x at point t, at (p, k), is x at (2000 t + p, k). -/
theorem iblk_0_apply (c : Dev nD) (t : Fin cfg0.N) (x : S2000x128.Idx) (k : S100000x128.Idx)
    (hk0 : (k 0).val = 2000 * t.val + (x 0).val) (hk1 : (k 1).val = (x 1).val) :
    (iblk0 (F := Ideal) V c 0 t : Vec Ideal S2000x128 .f32) x = (V c main_arg0 : S100000x128.Idx → Elt Ideal .f32) k := by
  obtain ⟨e0, e1, -⟩ := idx t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The block of the weights at any point is the whole array. -/
theorem iblk_1_eq (c : Dev nD) (t : Fin cfg0.N) :
    (iblk0 (F := Ideal) V c 1 t : Vec Ideal S128x128 .f32) = (V c main_v23 : S128x128.Idx → Elt Ideal .f32) := by
  obtain ⟨-, -, e0, e1, -⟩ := idx t
  funext x
  unfold iblk0
  rw [View.read_apply]
  show V c main_v23 _ = V c main_v23 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The block of the bias row at any point is the whole array. -/
theorem iblk_2_eq (c : Dev nD) (t : Fin cfg0.N) :
    (iblk0 (F := Ideal) V c 2 t : Vec Ideal S1x128 .f32) = (V c main_v26 : S1x128.Idx → Elt Ideal .f32) := by
  obtain ⟨-, -, -, -, e0, e1, -⟩ := idx t
  funext x
  unfold iblk0
  rw [View.read_apply]
  show V c main_v26 _ = V c main_v26 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- The dense layer of a tile of rows, at an entry of the tile, is the dense layer of the whole array at the entry with the
    same row of x and the same column. -/
theorem affine_tile {m M K N : Nat} (xb : Cert.Spec.Mat m K) (X : Cert.Spec.Mat M K) (W : Cert.Spec.Mat K N) (b : Cert.Spec.Mat 1 N)
    (y : (⟨2, ![m, N]⟩ : Shape).Idx) (i : (⟨2, ![M, N]⟩ : Shape).Idx) (h1 : (i 1).val = (y 1).val)
    (hx : ∀ k : Fin K, xb (ix2 (y 0) k) = X (ix2 (i 0) k)) : Cert.Spec.affine xb W b y = Cert.Spec.affine X W b i := by
  have e : i 1 = y 1 := Fin.ext h1
  rw [eq_ix2 y, eq_ix2 i, e]
  exact Cert.Spec.affine_row xb X W b (y 0) (i 0) (y 1) hx

/-- An index of the output array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v27).slice (win0_3.rect t)).set ↔ _
  rw [View.set_slice_whole, Rect.mem_set_unit]
  exact Iff.rfl

/-- Every row r of the output lies in the block of point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := lt_of_lt_of_eq (by omega : (i 0).val / 2000 < 50) hN.symm
  refine ⟨⟨(i 0).val / 2000, ht⟩, flush0_3 _, ?_⟩
  rw [mem_blk]
  obtain ⟨-, -, -, -, -, -, e6, e7⟩ := idx ⟨(i 0).val / 2000, ht⟩
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e7]
    omega

end R0

/-- What point t writes back is block t of the dense layer of the whole arrays. -/
theorem flushed0_eq (hpay : ∀ (x0 : Vec Ideal S2000x128 .f32) (x1 : Vec Ideal S128x128 .f32) (x2 : Vec Ideal S1x128 .f32) (y : S2000x128.Idx),
      k0_pay1 (F := Ideal) x0 x1 x2 y = Cert.Spec.affine x0 x1 x2 y)
    (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.affine (V c main_arg0) (V c main_v23) (V c main_v26)) := by
  show (cfg0.win 3).cut (grid0.coords t) ((dat0 (F := Ideal) V c).after 3 t) = _
  rw [after0_3]
  unfold out0_3
  rw [View.canon_unit_zero R0.hz]
  simp only [View.ld_unit_zero (S := S2000x128) R0.hz, View.ld_unit_zero (S := S128x128) R0.hz, View.ld_unit_zero (S := S1x128) R0.hz]
  obtain ⟨-, -, -, -, -, -, e6, e7⟩ := R0.idx t
  funext y
  show k0_pay1 (F := Ideal) (iblk0 V c 0 t) (iblk0 V c 1 t) (iblk0 V c 2 t) y
    = Cert.Spec.affine (V c main_arg0) (V c main_v23) (V c main_v26) (((cfg0.win 3).blk t).view.emb y)
  refine (hpay _ _ _ y).trans ?_
  rw [R0.iblk_1_eq V c t, R0.iblk_2_eq V c t]
  refine R0.affine_tile (iblk0 (F := Ideal) V c 0 t) (V c main_arg0) (V c main_v23) (V c main_v26) y (((cfg0.win 3).blk t).view.emb y) ?_ ?_
  · show win0_3.index t (1 : Fin 2) * 128 + 1 * (y 1).val = (y 1).val
    rw [e7]; omega
  · intro k
    refine R0.iblk_0_apply V c t (ix2 (y 0) k) _ ?_ rfl
    show win0_3.index t (0 : Fin 2) * 2000 + 1 * (y 0).val = 2000 * t.val + (y 0).val
    rw [e6]; omega

/-- The array after the fifty points is the dense layer of the whole arrays. -/
theorem final0 (hpay : ∀ (x0 : Vec Ideal S2000x128 .f32) (x1 : Vec Ideal S128x128 .f32) (x2 : Vec Ideal S1x128 .f32) (y : S2000x128.Idx),
      k0_pay1 (F := Ideal) x0 x1 x2 y = Cert.Spec.affine x0 x1 x2 y)
    (V : (c : Dev nD) → (b : Ref sig .tc) → Buf (Elt Ideal) ((c : Thread nD τ).loc b)) (c : Dev nD) :
    (dat0 (F := Ideal) V c).arrAt 3 cfg0.N = Cert.Spec.affine (V c main_arg0) (V c main_v23) (V c main_v26) :=
  (dat0 (F := Ideal) V c).arrAt_eq_of_cover 3 _ (fun t _ => flushed0_eq hpay V c t) R0.cover

end Cert.KernelIdeal.RegionValue

end
-- ==== Proof.Region1.lean ====
/-
  A hyperedge transform, from tiles of rows to the whole array. On ten tiles of 2000 rows the program scales each row of the
  summed features by its entry of a column, applies a dense layer, and weights each row by its entry of a second column.
  Each of these reads, at a row, only that row of the row-tiled arrays (and the whole weights and bias row), so the ten tiles
  are the rows of one array: the same function of the whole arrays.
-/
import proofs.«120254_j65652870087174_2_alg».proof.Proof.Gen.KernelIdeal.Frame
import proofs.«120254_j65652870087174_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R1

variable (V : (c : Dev nD) → (b : Ref sig .tc) → Buf (Elt Ideal) ((c : Thread nD τ).loc b))

theorem hz : (![0, 0] : Fin 2 → Nat) = fun _ => 0 := funext fun a => by fin_cases a <;> rfl

/-- The block indices of the six windows, decided over the ten points: the row-tiled windows sit at block (t, 0), the
    weights and the bias row at block (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The tile of the summed features at point t, at (p, k), is the array at (2000 t + p, k). -/
theorem iblk_0_apply (c : Dev nD) (t : Fin cfg1.N) (x : S2000x128.Idx) (k : S20000x128.Idx)
    (hk0 : (k 0).val = 2000 * t.val + (x 0).val) (hk1 : (k 1).val = (x 1).val) :
    (iblk1 (F := Ideal) V c 0 t : Vec Ideal S2000x128 .f32) x = (V c main_v38 : S20000x128.Idx → Elt Ideal .f32) k := by
  obtain ⟨e0, e1, -⟩ := idx t
  unfold iblk1
  rw [View.read_apply]
  show V c main_v38 _ = V c main_v38 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The tile of the first column at point t, at (p, 0), is the column at (2000 t + p, 0). -/
theorem iblk_1_apply (c : Dev nD) (t : Fin cfg1.N) (x : S2000x1.Idx) (k : S20000x1.Idx)
    (hk0 : (k 0).val = 2000 * t.val + (x 0).val) (hk1 : (k 1).val = (x 1).val) :
    (iblk1 (F := Ideal) V c 1 t : Vec Ideal S2000x1 .f32) x = (V c main_v20 : S20000x1.Idx → Elt Ideal .f32) k := by
  obtain ⟨-, -, e0, e1, -⟩ := idx t
  unfold iblk1
  rw [View.read_apply]
  show V c main_v20 _ = V c main_v20 _
  congr 1
  funext a
  apply Fin.ext
  match a with
  | ⟨0, _⟩ => show win1_1.index t (0 : Fin 2) * 2000 + 1 * (x 0).val = (k 0).val; rw [e0, hk0]; omega
  | ⟨1, _⟩ => show win1_1.index t (1 : Fin 2) * 1 + 1 * (x 1).val = (k 1).val; rw [e1, hk1]; omega

/-- The tile of the second column at point t, at (p, 0), is the column at (2000 t + p, 0). -/
theorem iblk_4_apply (c : Dev nD) (t : Fin cfg1.N) (x : S2000x1.Idx) (k : S20000x1.Idx)
    (hk0 : (k 0).val = 2000 * t.val + (x 0).val) (hk1 : (k 1).val = (x 1).val) :
    (iblk1 (F := Ideal) V c 4 t : Vec Ideal S2000x1 .f32) x = (V c main_v21 : S20000x1.Idx → Elt Ideal .f32) k := by
  obtain ⟨-, -, -, -, -, -, -, -, e0, e1, -⟩ := idx t
  unfold iblk1
  rw [View.read_apply]
  show V c main_v21 _ = V c main_v21 _
  congr 1
  funext a
  apply Fin.ext
  match a with
  | ⟨0, _⟩ => show win1_4.index t (0 : Fin 2) * 2000 + 1 * (x 0).val = (k 0).val; rw [e0, hk0]; omega
  | ⟨1, _⟩ => show win1_4.index t (1 : Fin 2) * 1 + 1 * (x 1).val = (k 1).val; rw [e1, hk1]; omega

/-- The block of the weights at any point is the whole array. -/
theorem iblk_2_eq (c : Dev nD) (t : Fin cfg1.N) :
    (iblk1 (F := Ideal) V c 2 t : Vec Ideal S128x128 .f32) = (V c main_v52 : S128x128.Idx → Elt Ideal .f32) := by
  obtain ⟨-, -, -, -, e0, e1, -⟩ := idx t
  funext x
  unfold iblk1
  rw [View.read_apply]
  show V c main_v52 _ = V c main_v52 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The block of the bias row at any point is the whole array. -/
theorem iblk_3_eq (c : Dev nD) (t : Fin cfg1.N) :
    (iblk1 (F := Ideal) V c 3 t : Vec Ideal S1x128 .f32) = (V c main_v55 : S1x128.Idx → Elt Ideal .f32) := by
  obtain ⟨-, -, -, -, -, -, e0, e1, -⟩ := idx t
  funext x
  unfold iblk1
  rw [View.read_apply]
  show V c main_v55 _ = V c main_v55 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The scaled, transformed and weighted tile of rows, at an entry of the tile, is the same function of the whole arrays at
    the entry with the same row of the row-tiled arrays and the same column. -/
theorem weighted_tile {m M K N : Nat} (sb : Cert.Spec.Mat m K) (cb hb : Cert.Spec.Mat m 1) (S : Cert.Spec.Mat M K) (C H : Cert.Spec.Mat M 1)
    (W : Cert.Spec.Mat K N) (b : Cert.Spec.Mat 1 N)
    (y : (⟨2, ![m, N]⟩ : Shape).Idx) (i : (⟨2, ![M, N]⟩ : Shape).Idx) (h1 : (i 1).val = (y 1).val)
    (hs : ∀ k : Fin K, sb (ix2 (y 0) k) = S (ix2 (i 0) k))
    (hc : cb (ix2 (y 0) (0 : Fin 1)) = C (ix2 (i 0) (0 : Fin 1))) (hh : hb (ix2 (y 0) (0 : Fin 1)) = H (ix2 (i 0) (0 : Fin 1))) :
    Cert.Spec.weighted (Cert.Spec.scaleCol sb cb) W b hb y = Cert.Spec.weighted (Cert.Spec.scaleCol S C) W b H i := by
  have e : i 1 = y 1 := Fin.ext h1
  rw [eq_ix2 y, eq_ix2 i, e]
  refine Cert.Spec.weighted_row _ _ W b hb H (y 0) (i 0) (y 1) (fun k => ?_) hh
  show sb (ix2 (y 0) k) * cb (ix2 (y 0) (0 : Fin 1)) = S (ix2 (i 0) k) * C (ix2 (i 0) (0 : Fin 1))
  rw [hs k, hc]

/-- An index of the output array is in point t's block iff each coordinate is in the block's range on its axis. -/
theorem mem_blk (t : Fin cfg1.N) (i : S20000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v56).slice (win1_5.rect t)).set ↔ _
  rw [View.set_slice_whole, Rect.mem_set_unit]
  exact Iff.rfl

/-- Every row r of the output lies in the block of point r / 2000. -/
theorem cover (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  have hN : cfg1.N = 10 := N_1
  have ht : (i 0).val / 2000 < cfg1.N := lt_of_lt_of_eq (by omega : (i 0).val / 2000 < 10) hN.symm
  refine ⟨⟨(i 0).val / 2000, ht⟩, flush1_5 _, ?_⟩
  rw [mem_blk]
  obtain ⟨-, -, -, -, -, -, -, -, -, -, e10, e11⟩ := idx ⟨(i 0).val / 2000, ht⟩
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e10]
    show (i 0).val / 2000 * 2000 ≤ (i 0).val ∧ (i 0).val < (i 0).val / 2000 * 2000 + 2000
    omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e11]
    omega

end R1

/-- What point t writes back is block t of the scaled, transformed and weighted whole arrays. -/
theorem flushed1_eq (hpay : ∀ (s : Vec Ideal S2000x128 .f32) (c' : Vec Ideal S2000x1 .f32) (w : Vec Ideal S128x128 .f32) (b : Vec Ideal S1x128 .f32)
      (hw : Vec Ideal S2000x1 .f32) (y : S2000x128.Idx),
      k1_pay1 (F := Ideal) s c' w b hw y = Cert.Spec.weighted (Cert.Spec.scaleCol s c') w b hw y)
    (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (Cert.Spec.weighted (Cert.Spec.scaleCol (V c main_v38) (V c main_v20)) (V c main_v52) (V c main_v55) (V c main_v21)) := by
  show (cfg1.win 5).cut (grid1.coords t) ((dat1 (F := Ideal) V c).after 5 t) = _
  rw [after1_5]
  unfold out1_5
  rw [View.canon_unit_zero R1.hz]
  simp only [View.ld_unit_zero (S := S2000x128) R1.hz, View.ld_unit_zero (S := S2000x1) R1.hz, View.ld_unit_zero (S := S128x128) R1.hz,
    View.ld_unit_zero (S := S1x128) R1.hz]
  obtain ⟨-, -, -, -, -, -, -, -, -, -, e10, e11⟩ := R1.idx t
  funext y
  show k1_pay1 (F := Ideal) (iblk1 V c 0 t) (iblk1 V c 1 t) (iblk1 V c 2 t) (iblk1 V c 3 t) (iblk1 V c 4 t) y
    = Cert.Spec.weighted (Cert.Spec.scaleCol (V c main_v38) (V c main_v20)) (V c main_v52) (V c main_v55) (V c main_v21) (((cfg1.win 5).blk t).view.emb y)
  refine (hpay _ _ _ _ _ y).trans ?_
  rw [R1.iblk_2_eq V c t, R1.iblk_3_eq V c t]
  have h0 : win1_5.index t (0 : Fin 2) * 2000 + 1 * (y 0).val = 2000 * t.val + (y 0).val := by rw [e10]; omega
  refine R1.weighted_tile (iblk1 (F := Ideal) V c 0 t) (iblk1 (F := Ideal) V c 1 t) (iblk1 (F := Ideal) V c 4 t)
    (V c main_v38) (V c main_v20) (V c main_v21) (V c main_v52) (V c main_v55) y (((cfg1.win 5).blk t).view.emb y) ?_ ?_ ?_ ?_
  · show win1_5.index t (1 : Fin 2) * 128 + 1 * (y 1).val = (y 1).val
    rw [e11]; omega
  · intro k
    exact R1.iblk_0_apply V c t (ix2 (y 0) k) _ h0 rfl
  · exact R1.iblk_1_apply V c t (ix2 (y 0) (0 : Fin 1)) _ h0 rfl
  · exact R1.iblk_4_apply V c t (ix2 (y 0) (0 : Fin 1)) _ h0 rfl

/-- The array after the ten points is the scaled, transformed and weighted whole arrays. -/
theorem final1 (hpay : ∀ (s : Vec Ideal S2000x128 .f32) (c' : Vec Ideal S2000x1 .f32) (w : Vec Ideal S128x128 .f32) (b : Vec Ideal S1x128 .f32)
      (hw : Vec Ideal S2000x1 .f32) (y : S2000x128.Idx),
      k1_pay1 (F := Ideal) s c' w b hw y = Cert.Spec.weighted (Cert.Spec.scaleCol s c') w b hw y)
    (V : (c : Dev nD) → (b : Ref sig .tc) → Buf (Elt Ideal) ((c : Thread nD τ).loc b)) (c : Dev nD) :
    (dat1 (F := Ideal) V c).arrAt 5 cfg1.N
      = Cert.Spec.weighted (Cert.Spec.scaleCol (V c main_v38) (V c main_v20)) (V c main_v52) (V c main_v55) (V c main_v21) :=
  (dat1 (F := Ideal) V c).arrAt_eq_of_cover 5 _ (fun t _ => flushed1_eq hpay V c t) R1.cover

end Cert.KernelIdeal.RegionValue

end
-- ==== Proof.Region2.lean ====
/-
  The first layer's finish and the second layer's dense transform, from tiles of rows to the whole arrays. On fifty tiles of
  2000 rows the program scales each row of the summed messages by its entry of a column, adds the carried features,
  normalises, rectifies and normalises again; it writes that out, and also its dense layer against the next weights. Each of
  these reads, at a row, only that row of the row-tiled arrays (and the whole one-row matrices and weights), so the fifty
  tiles are the rows of one array: the same functions of the whole arrays.
-/
import proofs.«120254_j65652870087174_2_alg».proof.Proof.Gen.KernelIdeal.Frame
import proofs.«120254_j65652870087174_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R2

variable (V : (c : Dev nD) → (b : Ref sig .tc) → Buf (Elt Ideal) ((c : Thread nD τ).loc b))

theorem hz : (![0, 0] : Fin 2 → Nat) = fun _ => 0 := funext fun a => by fin_cases a <;> rfl

theorem idx_0 : ∀ t : Fin cfg2.N, win2_0.index t (0 : Fin 2) = t.val ∧ win2_0.index t (1 : Fin 2) = 0 :=
  (by decide +kernel : ∀ t : Fin grid2.N, _)

/-- The tile of the summed messages at point t, at (p, k), is the array at (2000 t + p, k). -/
theorem iblk_0_apply (c : Dev nD) (t : Fin cfg2.N) (x : S2000x128.Idx) (k : S100000x128.Idx)
    (hk0 : (k 0).val = 2000 * t.val + (x 0).val) (hk1 : (k 1).val = (x 1).val) :
    (iblk2 (F := Ideal) V c 0 t : Vec Ideal S2000x128 .f32) x = (V c main_v67 : S100000x128.Idx → Elt Ideal .f32) k := by
  obtain ⟨e0, e1⟩ := idx_0 t
  unfold iblk2
  rw [View.read_apply]
  show V c main_v67 _ = V c main_v67 _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

theorem idx_1 : ∀ t : Fin cfg2.N, win2_1.index t (0 : Fin 2) = t.val ∧ win2_1.index t (1 : Fin 2) = 0 :=
  (by decide +kernel : ∀ t : Fin grid2.N, _)

/-- The tile of the column at point t, at (p, k), is the array at (2000 t + p, k). -/
theorem iblk_1_apply (c : Dev nD) (t : Fin cfg2.N) (x : S2000x1.Idx) (k : S100000x1.Idx)
    (hk0 : (k 0).val = 2000 * t.val + (x 0).val) (hk1 : (k 1).val = (x 1).val) :
    (iblk2 (F := Ideal) V c 1 t : Vec Ideal S2000x1 .f32) x = (V c main_v15 : S100000x1.Idx → Elt Ideal .f32) k := by
  obtain ⟨e0, e1⟩ := idx_1 t
  unfold iblk2
  rw [View.read_apply]
  show V c main_v15 _ = V c main_v15 _
  congr 1
  funext a
  apply Fin.ext
  match a with
  | ⟨0, _⟩ => show win2_1.index t (0 : Fin 2) * 2000 + 1 * (x 0).val = (k 0).val; rw [e0, hk0]; omega
  | ⟨1, _⟩ => show win2_1.index t (1 : Fin 2) * 1 + 1 * (x 1).val = (k 1).val; rw [e1, hk1]; omega

theorem idx_2 : ∀ t : Fin cfg2.N, win2_2.index t (0 : Fin 2) = t.val ∧ win2_2.index t (1 : Fin 2) = 0 :=
  (by decide +kernel : ∀ t : Fin grid2.N, _)

/-- The tile of the carried features at point t, at (p, k), is the array at (2000 t + p, k). -/
theorem iblk_2_apply (c : Dev nD) (t : Fin cfg2.N) (x : S2000x128.Idx) (k : S100000x128.Idx)
    (hk0 : (k 0).val = 2000 * t.val + (x 0).val) (hk1 : (k 1).val = (x 1).val) :
    (iblk2 (F := Ideal) V c 2 t : Vec Ideal S2000x128 .bf16) x = (V c main_v27 : S100000x128.Idx → Elt Ideal .bf16) k := by
  obtain ⟨e0, e1⟩ := idx_2 t
  unfold iblk2
  rw [View.read_apply]
  show V c main_v27 _ = V c main_v27 _
  congr 1
  funext a
  apply Fin.ext
  match a with
  | ⟨0, _⟩ => show win2_2.index t (0 : Fin 2) * 2000 + 1 * (x 0).val = (k 0).val; rw [e0, hk0]; omega
  | ⟨1, _⟩ => show win2_2.index t (1 : Fin 2) * 128 + 1 * (x 1).val = (k 1).val; rw [e1, hk1]; omega

theorem idx_3 : ∀ t : Fin cfg2.N, win2_3.index t (0 : Fin 2) = 0 ∧ win2_3.index t (1 : Fin 2) = 0 :=
  (by decide +kernel : ∀ t : Fin grid2.N, _)

/-- The block of the first scale row at any point is the whole array. -/
theorem iblk_3_eq (c : Dev nD) (t : Fin cfg2.N) :
    (iblk2 (F := Ideal) V c 3 t : Vec Ideal S1x128 .f32) = (V c main_v41 : S1x128.Idx → Elt Ideal .f32) := by
  obtain ⟨e0, e1⟩ := idx_3 t
  funext x
  unfold iblk2
  rw [View.read_apply]
  show V c main_v41 _ = V c main_v41 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

theorem idx_4 : ∀ t : Fin cfg2.N, win2_4.index t (0 : Fin 2) = 0 ∧ win2_4.index t (1 : Fin 2) = 0 :=
  (by decide +kernel : ∀ t : Fin grid2.N, _)

/-- The block of the first shift row at any point is the whole array. -/
theorem iblk_4_eq (c : Dev nD) (t : Fin cfg2.N) :
    (iblk2 (F := Ideal) V c 4 t : Vec Ideal S1x128 .f32) = (V c main_v44 : S1x128.Idx → Elt Ideal .f32) := by
  obtain ⟨e0, e1⟩ := idx_4 t
  funext x
  unfold iblk2
  rw [View.read_apply]
  show V c main_v44 _ = V c main_v44 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

theorem idx_5 : ∀ t : Fin cfg2.N, win2_5.index t (0 : Fin 2) = 0 ∧ win2_5.index t (1 : Fin 2) = 0 :=
  (by decide +kernel : ∀ t : Fin grid2.N, _)

/-- The block of the second scale row at any point is the whole array. -/
theorem iblk_5_eq (c : Dev nD) (t : Fin cfg2.N) :
    (iblk2 (F := Ideal) V c 5 t : Vec Ideal S1x128 .f32) = (V c main_v47 : S1x128.Idx → Elt Ideal .f32) := by
  obtain ⟨e0, e1⟩ := idx_5 t
  funext x
  unfold iblk2
  rw [View.read_apply]
  show V c main_v47 _ = V c main_v47 _
  congr 1
  funext a
  apply Fin.ext
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

theorem idx_6 : ∀ t : Fin cfg2.N, win2_6.index t (0 : Fin 2) = 0 ∧ win2_6.index t (1 : Fin 2) = 0 :=
  (by decide +kernel : ∀ t : Fin grid2.N, _)

/-- The block of the second shift row at any point is the whole array. -/
theorem iblk_6_eq (c : Dev nD) (t : Fin cfg2.N) :
    (iblk2 (F := Ideal) V c 6 t : Vec Ideal S1x128 .f32) = (V c main_v50 : S1x128.Idx → Elt Ideal .f32) := by
  obtain ⟨e0, e1⟩ := idx_6 t
  funext x
  unfold iblk2
  rw [View.read_apply]
  show V c main_v50 _ = V c main_v50 _
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

theorem idx_7 : ∀ t : Fin cfg2.N, win2_7.index t (0 : Fin 2) = 0 ∧ win2_7.index t (1 : Fin 2) = 0 :=
  (by decide +kernel : ∀ t : Fin grid2.N, _)

/-- The block of the weights at any point is the whole array. -/
theorem iblk_7_eq (c : Dev nD) (t : Fin cfg2.N) :
    (iblk2 (F := Ideal) V c 7 t : Vec Ideal S128x128 .f32) = (V c main_v69 : S128x128.Idx → Elt Ideal .f32) := by
  obtain ⟨e0, e1⟩ := idx_7 t
  funext x
  unfold iblk2
  rw [View.read_apply]
  show V c main_v69 _ = V c main_v69 _
  congr 1
  funext a
  apply Fin.ext
  match a with
  | ⟨0, _⟩ => show win2_7.index t (0 : Fin 2) * 128 + 1 * (x 0).val = (x 0).val; rw [e0]; omega
  | ⟨1, _⟩ => show win2_7.index t (1 : Fin 2) * 128 + 1 * (x 1).val = (x 1).val; rw [e1]; omega

theorem idx_8 : ∀ t : Fin cfg2.N, win2_8.index t (0 : Fin 2) = 0 ∧ win2_8.index t (1 : Fin 2) = 0 :=
  (by decide +kernel : ∀ t : Fin grid2.N, _)

/-- The block of the bias row at any point is the whole array. -/
theorem iblk_8_eq (c : Dev nD) (t : Fin cfg2.N) :
    (iblk2 (F := Ideal) V c 8 t : Vec Ideal S1x128 .f32) = (V c main_v72 : S1x128.Idx → Elt Ideal .f32) := by
  obtain ⟨e0, e1⟩ := idx_8 t
  funext x
  unfold iblk2
  rw [View.read_apply]
  show V c main_v72 _ = V c main_v72 _
  congr 1
  funext a
  apply Fin.ext
  match a with
  | ⟨0, _⟩ => show win2_8.index t (0 : Fin 2) * 1 + 1 * (x 0).val = (x 0).val; rw [e0]; omega
  | ⟨1, _⟩ => show win2_8.index t (1 : Fin 2) * 128 + 1 * (x 1).val = (x 1).val; rw [e1]; omega

theorem idx_9 : ∀ t : Fin cfg2.N, win2_9.index t (0 : Fin 2) = t.val ∧ win2_9.index t (1 : Fin 2) = 0 :=
  (by decide +kernel : ∀ t : Fin grid2.N, _)

/-- An index of the output array is in point t's block iff each coordinate is in the block's range on its axis. -/
theorem mem_blk_9 (t : Fin cfg2.N) (i : S100000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v73_0).slice (win2_9.rect t)).set ↔ _
  rw [View.set_slice_whole, Rect.mem_set_unit]
  exact Iff.rfl

/-- Every row r of the output lies in the block of point r / 2000. -/
theorem cover_9 (i : S100000x128.Idx) : ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 50 := N_2
  have ht : (i 0).val / 2000 < cfg2.N := lt_of_lt_of_eq (by omega : (i 0).val / 2000 < 50) hN.symm
  refine ⟨⟨(i 0).val / 2000, ht⟩, flush2_9 _, ?_⟩
  rw [mem_blk_9]
  obtain ⟨e0, e1⟩ := idx_9 ⟨(i 0).val / 2000, ht⟩
  intro a
  match a with
  | ⟨0, _⟩ =>
    show win2_9.index ⟨(i 0).val / 2000, ht⟩ (0 : Fin 2) * 2000 ≤ (i 0).val ∧ (i 0).val < win2_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_9.index ⟨(i 0).val / 2000, ht⟩ (1 : Fin 2) * 128 ≤ (i 1).val ∧ (i 1).val < win2_9.index ⟨(i 0).val / 2000, ht⟩ (1 : Fin 2) * 128 + 128
    rw [e1]
    omega

theorem idx_10 : ∀ t : Fin cfg2.N, win2_10.index t (0 : Fin 2) = t.val ∧ win2_10.index t (1 : Fin 2) = 0 :=
  (by decide +kernel : ∀ t : Fin grid2.N, _)

/-- An index of the output array is in point t's block iff each coordinate is in the block's range on its axis. -/
theorem mem_blk_10 (t : Fin cfg2.N) (i : S100000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v73_1).slice (win2_10.rect t)).set ↔ _
  rw [View.set_slice_whole, Rect.mem_set_unit]
  exact Iff.rfl

/-- Every row r of the output lies in the block of point r / 2000. -/
theorem cover_10 (i : S100000x128.Idx) : ∃ t : Fin cfg2.N, (cfg2.win 10).flush t = true ∧ i ∈ ((cfg2.win 10).blk t).view.set := by
  have hi0 : (i 0).val < 100000 := (i 0).isLt
  have hi1 : (i 1).val < 128 := (i 1).isLt
  have hN : cfg2.N = 50 := N_2
  have ht : (i 0).val / 2000 < cfg2.N := lt_of_lt_of_eq (by omega : (i 0).val / 2000 < 50) hN.symm
  refine ⟨⟨(i 0).val / 2000, ht⟩, flush2_10 _, ?_⟩
  rw [mem_blk_10]
  obtain ⟨e0, e1⟩ := idx_10 ⟨(i 0).val / 2000, ht⟩
  intro a
  match a with
  | ⟨0, _⟩ =>
    show win2_10.index ⟨(i 0).val / 2000, ht⟩ (0 : Fin 2) * 2000 ≤ (i 0).val ∧ (i 0).val < win2_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_10.index ⟨(i 0).val / 2000, ht⟩ (1 : Fin 2) * 128 ≤ (i 1).val ∧ (i 1).val < win2_10.index ⟨(i 0).val / 2000, ht⟩ (1 : Fin 2) * 128 + 128
    rw [e1]
    omega

/-- The scaled sum plus the carried features, at a row of the tile, is the same function of the whole arrays at the matching row. -/
theorem pre_tile {m M N : Nat} (sb xb : Cert.Spec.Mat m N) (cb : Cert.Spec.Mat m 1) (S X : Cert.Spec.Mat M N) (C : Cert.Spec.Mat M 1)
    (p : Fin m) (p' : Fin M) (hs : ∀ k : Fin N, sb (ix2 p k) = S (ix2 p' k)) (hc : cb (ix2 p (0 : Fin 1)) = C (ix2 p' (0 : Fin 1)))
    (hx : ∀ k : Fin N, xb (ix2 p k) = X (ix2 p' k)) (k : Fin N) :
    Cert.Spec.addM (Cert.Spec.scaleCol sb cb) xb (ix2 p k) = Cert.Spec.addM (Cert.Spec.scaleCol S C) X (ix2 p' k) := by
  show sb (ix2 p k) * cb (ix2 p (0 : Fin 1)) + xb (ix2 p k) = S (ix2 p' k) * C (ix2 p' (0 : Fin 1)) + X (ix2 p' k)
  rw [hs k, hc, hx k]

/-- The twice-normalised tile of rows, at an entry of the tile, is the same function of the whole arrays at the entry with the
    same row of the row-tiled arrays and the same column. -/
theorem finalize_tile {m M N : Nat} (sb xb : Cert.Spec.Mat m N) (cb : Cert.Spec.Mat m 1) (S X : Cert.Spec.Mat M N) (C : Cert.Spec.Mat M 1)
    (g1 b1 g2 b2 : Cert.Spec.Mat 1 N) (y : (⟨2, ![m, N]⟩ : Shape).Idx) (i : (⟨2, ![M, N]⟩ : Shape).Idx) (h1 : (i 1).val = (y 1).val)
    (hs : ∀ k : Fin N, sb (ix2 (y 0) k) = S (ix2 (i 0) k)) (hc : cb (ix2 (y 0) (0 : Fin 1)) = C (ix2 (i 0) (0 : Fin 1)))
    (hx : ∀ k : Fin N, xb (ix2 (y 0) k) = X (ix2 (i 0) k)) :
    Cert.Spec.finalize (Cert.Spec.addM (Cert.Spec.scaleCol sb cb) xb) g1 b1 g2 b2 y
      = Cert.Spec.finalize (Cert.Spec.addM (Cert.Spec.scaleCol S C) X) g1 b1 g2 b2 i := by
  have e : i 1 = y 1 := Fin.ext h1
  rw [eq_ix2 y, eq_ix2 i, e]
  exact Cert.Spec.finalize_row _ _ g1 b1 g2 b2 (y 0) (i 0) (y 1) (pre_tile sb xb cb S X C (y 0) (i 0) hs hc hx)

/-- The dense layer of the twice-normalised tile of rows, at an entry of the tile, is the same function of the whole arrays at
    the entry with the same row of the row-tiled arrays and the same column. -/
theorem affine_finalize_tile {m M N N' : Nat} (sb xb : Cert.Spec.Mat m N) (cb : Cert.Spec.Mat m 1) (S X : Cert.Spec.Mat M N) (C : Cert.Spec.Mat M 1)
    (g1 b1 g2 b2 : Cert.Spec.Mat 1 N) (W : Cert.Spec.Mat N N') (b : Cert.Spec.Mat 1 N')
    (y : (⟨2, ![m, N']⟩ : Shape).Idx) (i : (⟨2, ![M, N']⟩ : Shape).Idx) (h1 : (i 1).val = (y 1).val)
    (hs : ∀ k : Fin N, sb (ix2 (y 0) k) = S (ix2 (i 0) k)) (hc : cb (ix2 (y 0) (0 : Fin 1)) = C (ix2 (i 0) (0 : Fin 1)))
    (hx : ∀ k : Fin N, xb (ix2 (y 0) k) = X (ix2 (i 0) k)) :
    Cert.Spec.affine (Cert.Spec.finalize (Cert.Spec.addM (Cert.Spec.scaleCol sb cb) xb) g1 b1 g2 b2) W b y
      = Cert.Spec.affine (Cert.Spec.finalize (Cert.Spec.addM (Cert.Spec.scaleCol S C) X) g1 b1 g2 b2) W b i := by
  have e : i 1 = y 1 := Fin.ext h1
  rw [eq_ix2 y, eq_ix2 i, e]
  exact Cert.Spec.affine_row _ _ W b (y 0) (i 0) (y 1) fun k =>
    Cert.Spec.finalize_row _ _ g1 b1 g2 b2 (y 0) (i 0) k (pre_tile sb xb cb S X C (y 0) (i 0) hs hc hx)

end R2

/-- What point t writes back to the feature output is block t of the twice-normalised whole arrays. -/
theorem flushed2x_eq (hpay : ∀ (s : Vec Ideal S2000x128 .f32) (c' : Vec Ideal S2000x1 .f32) (xt : Vec Ideal S2000x128 .bf16)
      (g1 b1 g2 b2 : Vec Ideal S1x128 .f32) (y : S2000x128.Idx),
      k2_pay1 (F := Ideal) (k2_pay3 g2) (k2_pay4 b2) (k2_pay5 s c' xt g1 b1) y
        = Cert.Spec.finalize (Cert.Spec.addM (Cert.Spec.scaleCol s c') (fun i => xt i)) g1 b1 g2 b2 y)
    (V : (c : Dev nD) → (b : Ref sig .tc) → Buf (Elt Ideal) ((c : Thread nD τ).loc b)) (c : Dev nD) (t : Fin cfg2.N) :
    (dat2 (F := Ideal) V c).flushed 9 t
      = ((cfg2.win 9).blk t).view.read (Elt Ideal) (Cert.Spec.finalize (Cert.Spec.addM (Cert.Spec.scaleCol (V c main_v67) (V c main_v15)) (V c main_v27)) (V c main_v41) (V c main_v44) (V c main_v47) (V c main_v50)) := by
  show (cfg2.win 9).cut (grid2.coords t) ((dat2 (F := Ideal) V c).after 9 t) = _
  rw [after2_9]
  unfold out2_9
  rw [View.canon_unit_zero R2.hz]
  simp only [View.ld_unit_zero (S := S2000x128) R2.hz, View.ld_unit_zero (S := S2000x1) R2.hz, View.ld_unit_zero (S := S128x128) R2.hz,
    View.ld_unit_zero (S := S1x128) R2.hz]
  obtain ⟨e0, e1⟩ := R2.idx_9 t
  funext y
  show k2_pay1 (F := Ideal) (k2_pay3 (iblk2 V c 5 t)) (k2_pay4 (iblk2 V c 6 t)) (k2_pay5 (iblk2 V c 0 t) (iblk2 V c 1 t) (iblk2 V c 2 t) (iblk2 V c 3 t) (iblk2 V c 4 t)) y
    = Cert.Spec.finalize (Cert.Spec.addM (Cert.Spec.scaleCol (V c main_v67) (V c main_v15)) (V c main_v27)) (V c main_v41) (V c main_v44) (V c main_v47) (V c main_v50) (((cfg2.win 9).blk t).view.emb y)
  refine (hpay _ _ _ _ _ _ _ y).trans ?_
  rw [R2.iblk_3_eq V c t, R2.iblk_4_eq V c t, R2.iblk_5_eq V c t, R2.iblk_6_eq V c t]
  have h0 : win2_9.index t (0 : Fin 2) * 2000 + 1 * (y 0).val = 2000 * t.val + (y 0).val := by rw [e0]; omega
  refine R2.finalize_tile (iblk2 (F := Ideal) V c 0 t) (fun i => iblk2 (F := Ideal) V c 2 t i) (iblk2 (F := Ideal) V c 1 t)
    (V c main_v67) (V c main_v27) (V c main_v15) (V c main_v41) (V c main_v44) (V c main_v47) (V c main_v50) y (((cfg2.win 9).blk t).view.emb y) ?_ ?_ ?_ ?_
  · show win2_9.index t (1 : Fin 2) * 128 + 1 * (y 1).val = (y 1).val
    rw [e1]; omega
  · intro k
    exact R2.iblk_0_apply V c t (ix2 (y 0) k) _ h0 rfl
  · exact R2.iblk_1_apply V c t (ix2 (y 0) (0 : Fin 1)) _ h0 rfl
  · intro k
    exact R2.iblk_2_apply V c t (ix2 (y 0) k) _ h0 rfl

/-- The feature output after the fifty points is the twice-normalised whole arrays. -/
theorem final2x (hpay : ∀ (s : Vec Ideal S2000x128 .f32) (c' : Vec Ideal S2000x1 .f32) (xt : Vec Ideal S2000x128 .bf16)
      (g1 b1 g2 b2 : Vec Ideal S1x128 .f32) (y : S2000x128.Idx),
      k2_pay1 (F := Ideal) (k2_pay3 g2) (k2_pay4 b2) (k2_pay5 s c' xt g1 b1) y
        = Cert.Spec.finalize (Cert.Spec.addM (Cert.Spec.scaleCol s c') (fun i => xt i)) g1 b1 g2 b2 y)
    (V : (c : Dev nD) → (b : Ref sig .tc) → Buf (Elt Ideal) ((c : Thread nD τ).loc b)) (c : Dev nD) :
    (dat2 (F := Ideal) V c).arrAt 9 cfg2.N = Cert.Spec.finalize (Cert.Spec.addM (Cert.Spec.scaleCol (V c main_v67) (V c main_v15)) (V c main_v27)) (V c main_v41) (V c main_v44) (V c main_v47) (V c main_v50) :=
  (dat2 (F := Ideal) V c).arrAt_eq_of_cover 9 _ (fun t _ => flushed2x_eq hpay V c t) R2.cover_9

/-- What point t writes back to the transformed output is block t of the dense layer of the twice-normalised whole arrays. -/
theorem flushed2t_eq (hpay : ∀ (s : Vec Ideal S2000x128 .f32) (c' : Vec Ideal S2000x1 .f32) (xt : Vec Ideal S2000x128 .bf16)
      (g1 b1 g2 b2 : Vec Ideal S1x128 .f32) (wn : Vec Ideal S128x128 .f32) (bn : Vec Ideal S1x128 .f32) (y : S2000x128.Idx),
      k2_pay2 (F := Ideal) (k2_pay3 g2) (k2_pay4 b2) (k2_pay5 s c' xt g1 b1) wn bn y
        = Cert.Spec.affine (Cert.Spec.finalize (Cert.Spec.addM (Cert.Spec.scaleCol s c') (fun i => xt i)) g1 b1 g2 b2) wn bn y)
    (V : (c : Dev nD) → (b : Ref sig .tc) → Buf (Elt Ideal) ((c : Thread nD τ).loc b)) (c : Dev nD) (t : Fin cfg2.N) :
    (dat2 (F := Ideal) V c).flushed 10 t
      = ((cfg2.win 10).blk t).view.read (Elt Ideal) (Cert.Spec.affine (Cert.Spec.finalize (Cert.Spec.addM (Cert.Spec.scaleCol (V c main_v67) (V c main_v15)) (V c main_v27)) (V c main_v41) (V c main_v44) (V c main_v47) (V c main_v50)) (V c main_v69) (V c main_v72)) := by
  show (cfg2.win 10).cut (grid2.coords t) ((dat2 (F := Ideal) V c).after 10 t) = _
  rw [after2_10]
  unfold out2_10
  rw [View.canon_unit_zero R2.hz]
  simp only [View.ld_unit_zero (S := S2000x128) R2.hz, View.ld_unit_zero (S := S2000x1) R2.hz, View.ld_unit_zero (S := S128x128) R2.hz,
    View.ld_unit_zero (S := S1x128) R2.hz]
  obtain ⟨e0, e1⟩ := R2.idx_10 t
  funext y
  show k2_pay2 (F := Ideal) (k2_pay3 (iblk2 V c 5 t)) (k2_pay4 (iblk2 V c 6 t)) (k2_pay5 (iblk2 V c 0 t) (iblk2 V c 1 t) (iblk2 V c 2 t) (iblk2 V c 3 t) (iblk2 V c 4 t)) (iblk2 V c 7 t) (iblk2 V c 8 t) y
    = Cert.Spec.affine (Cert.Spec.finalize (Cert.Spec.addM (Cert.Spec.scaleCol (V c main_v67) (V c main_v15)) (V c main_v27)) (V c main_v41) (V c main_v44) (V c main_v47) (V c main_v50)) (V c main_v69) (V c main_v72) (((cfg2.win 10).blk t).view.emb y)
  refine (hpay _ _ _ _ _ _ _ _ _ y).trans ?_
  rw [R2.iblk_3_eq V c t, R2.iblk_4_eq V c t, R2.iblk_5_eq V c t, R2.iblk_6_eq V c t, R2.iblk_7_eq V c t, R2.iblk_8_eq V c t]
  have h0 : win2_10.index t (0 : Fin 2) * 2000 + 1 * (y 0).val = 2000 * t.val + (y 0).val := by rw [e0]; omega
  refine R2.affine_finalize_tile (iblk2 (F := Ideal) V c 0 t) (fun i => iblk2 (F := Ideal) V c 2 t i) (iblk2 (F := Ideal) V c 1 t)
    (V c main_v67) (V c main_v27) (V c main_v15) (V c main_v41) (V c main_v44) (V c main_v47) (V c main_v50) (V c main_v69) (V c main_v72)
    y (((cfg2.win 10).blk t).view.emb y) ?_ ?_ ?_ ?_
  · show win2_10.index t (1 : Fin 2) * 128 + 1 * (y 1).val = (y 1).val
    rw [e1]; omega
  · intro k
    exact R2.iblk_0_apply V c t (ix2 (y 0) k) _ h0 rfl
  · exact R2.iblk_1_apply V c t (ix2 (y 0) (0 : Fin 1)) _ h0 rfl
  · intro k
    exact R2.iblk_2_apply V c t (ix2 (y 0) k) _ h0 rfl

/-- The transformed output after the fifty points is the dense layer of the twice-normalised whole arrays. -/
theorem final2t (hpay : ∀ (s : Vec Ideal S2000x128 .f32) (c' : Vec Ideal S2000x1 .f32) (xt : Vec Ideal S2000x128 .bf16)
      (g1 b1 g2 b2 : Vec Ideal S1x128 .f32) (wn : Vec Ideal S128x128 .f32) (bn : Vec Ideal S1x128 .f32) (y : S2000x128.Idx),
      k2_pay2 (F := Ideal) (k2_pay3 g2) (k2_pay4 b2) (k2_pay5 s c' xt g1 b1) wn bn y
        = Cert.Spec.affine (Cert.Spec.finalize (Cert.Spec.addM (Cert.Spec.scaleCol s c') (fun i => xt i)) g1 b1 g2 b2) wn bn y)
    (V : (c : Dev nD) → (b : Ref sig .tc) → Buf (Elt Ideal) ((c : Thread nD τ).loc b)) (c : Dev nD) :
    (dat2 (F := Ideal) V c).arrAt 10 cfg2.N = Cert.Spec.affine (Cert.Spec.finalize (Cert.Spec.addM (Cert.Spec.scaleCol (V c main_v67) (V c main_v15)) (V c main_v27)) (V c main_v41) (V c main_v44) (V c main_v47) (V c main_v50)) (V c main_v69) (V c main_v72) :=
  (dat2 (F := Ideal) V c).arrAt_eq_of_cover 10 _ (fun t _ => flushed2t_eq hpay V c t) R2.cover_10

end Cert.KernelIdeal.RegionValue

end
-- ==== Proof.Region3.lean ====
/-
  A hyperedge transform, from tiles of rows to the whole array. On ten tiles of 2000 rows the program scales each row of the
  summed features by its entry of a column, applies a dense layer, and weights each row by its entry of a second column.
  Each of these reads, at a row, only that row of the row-tiled arrays (and the whole weights and bias row), so the ten tiles
  are the rows of one array: the same function of the whole arrays.
-/
import proofs.«120254_j65652870087174_2_alg».proof.Proof.Gen.KernelIdeal.Frame
import proofs.«120254_j65652870087174_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R3

variable (V : (c : Dev nD) → (b : Ref sig .tc) → Buf (Elt Ideal) ((c : Thread nD τ).loc b))

theorem hz : (![0, 0] : Fin 2 → Nat) = fun _ => 0 := funext fun a => by fin_cases a <;> rfl

/-- The block indices of the six windows, decided over the ten points: the row-tiled windows sit at block (t, 0), the
    weights and the bias row at block (0, 0). -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The tile of the summed features at point t, at (p, k), is the array at (2000 t + p, k). -/
theorem iblk_0_apply (c : Dev nD) (t : Fin cfg3.N) (x : S2000x128.Idx) (k : S20000x128.Idx)
    (hk0 : (k 0).val = 2000 * t.val + (x 0).val) (hk1 : (k 1).val = (x 1).val) :
    (iblk3 (F := Ideal) V c 0 t : Vec Ideal S2000x128 .f32) x = (V c main_v84 : S20000x128.Idx → Elt Ideal .f32) k := by
  obtain ⟨e0, e1, -⟩ := idx t
  unfold iblk3
  rw [View.read_apply]
  show V c main_v84 _ = V c main_v84 _
  congr 1
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 128 + 1 * (x 1).val = (k 1).val; rw [e1, hk1]; omega

/-- The tile of the first column at point t, at (p, 0), is the column at (2000 t + p, 0). -/
theorem iblk_1_apply (c : Dev nD) (t : Fin cfg3.N) (x : S2000x1.Idx) (k : S20000x1.Idx)
    (hk0 : (k 0).val = 2000 * t.val + (x 0).val) (hk1 : (k 1).val = (x 1).val) :
    (iblk3 (F := Ideal) V c 1 t : Vec Ideal S2000x1 .f32) x = (V c main_v20 : S20000x1.Idx → Elt Ideal .f32) k := by
  obtain ⟨-, -, e0, e1, -⟩ := idx t
  unfold iblk3
  rw [View.read_apply]
  show V c main_v20 _ = V c main_v20 _
  congr 1
  funext a
  apply Fin.ext
  match a with
  | ⟨0, _⟩ => show win3_1.index t (0 : Fin 2) * 2000 + 1 * (x 0).val = (k 0).val; rw [e0, hk0]; omega
  | ⟨1, _⟩ => show win3_1.index t (1 : Fin 2) * 1 + 1 * (x 1).val = (k 1).val; rw [e1, hk1]; omega

/-- The tile of the second column at point t, at (p, 0), is the column at (2000 t + p, 0). -/
theorem iblk_4_apply (c : Dev nD) (t : Fin cfg3.N) (x : S2000x1.Idx) (k : S20000x1.Idx)
    (hk0 : (k 0).val = 2000 * t.val + (x 0).val) (hk1 : (k 1).val = (x 1).val) :
    (iblk3 (F := Ideal) V c 4 t : Vec Ideal S2000x1 .f32) x = (V c main_v21 : S20000x1.Idx → Elt Ideal .f32) k := by
  obtain ⟨-, -, -, -, -, -, -, -, e0, e1, -⟩ := idx t
  unfold iblk3
  rw [View.read_apply]
  show V c main_v21 _ = V c main_v21 _
  congr 1
  funext a
  apply Fin.ext
  match a with
  | ⟨0, _⟩ => show win3_4.index t (0 : Fin 2) * 2000 + 1 * (x 0).val = (k 0).val; rw [e0, hk0]; omega
  | ⟨1, _⟩ => show win3_4.index t (1 : Fin 2) * 1 + 1 * (x 1).val = (k 1).val; rw [e1, hk1]; omega

/-- The block of the weights at any point is the whole array. -/
theorem iblk_2_eq (c : Dev nD) (t : Fin cfg3.N) :
    (iblk3 (F := Ideal) V c 2 t : Vec Ideal S128x128 .f32) = (V c main_v98 : S128x128.Idx → Elt Ideal .f32) := by
  obtain ⟨-, -, -, -, e0, e1, -⟩ := idx t
  funext x
  unfold iblk3
  rw [View.read_apply]
  show V c main_v98 _ = V c main_v98 _
  congr 1
  funext a
  apply Fin.ext
  match a with
  | ⟨0, _⟩ => show win3_2.index t (0 : Fin 2) * 128 + 1 * (x 0).val = (x 0).val; rw [e0]; omega
  | ⟨1, _⟩ => show win3_2.index t (1 : Fin 2) * 128 + 1 * (x 1).val = (x 1).val; rw [e1]; omega

/-- The block of the bias row at any point is the whole array. -/
theorem iblk_3_eq (c : Dev nD) (t : Fin cfg3.N) :
    (iblk3 (F := Ideal) V c 3 t : Vec Ideal S1x128 .f32) = (V c main_v101 : S1x128.Idx → Elt Ideal .f32) := by
  obtain ⟨-, -, -, -, -, -, e0, e1, -⟩ := idx t
  funext x
  unfold iblk3
  rw [View.read_apply]
  show V c main_v101 _ = V c main_v101 _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 128 + 1 * (x 1).val = (x 1).val; rw [e1]; omega

/-- The scaled, transformed and weighted tile of rows, at an entry of the tile, is the same function of the whole arrays at
    the entry with the same row of the row-tiled arrays and the same column. -/
theorem weighted_tile {m M K N : Nat} (sb : Cert.Spec.Mat m K) (cb hb : Cert.Spec.Mat m 1) (S : Cert.Spec.Mat M K) (C H : Cert.Spec.Mat M 1)
    (W : Cert.Spec.Mat K N) (b : Cert.Spec.Mat 1 N)
    (y : (⟨2, ![m, N]⟩ : Shape).Idx) (i : (⟨2, ![M, N]⟩ : Shape).Idx) (h1 : (i 1).val = (y 1).val)
    (hs : ∀ k : Fin K, sb (ix2 (y 0) k) = S (ix2 (i 0) k))
    (hc : cb (ix2 (y 0) (0 : Fin 1)) = C (ix2 (i 0) (0 : Fin 1))) (hh : hb (ix2 (y 0) (0 : Fin 1)) = H (ix2 (i 0) (0 : Fin 1))) :
    Cert.Spec.weighted (Cert.Spec.scaleCol sb cb) W b hb y = Cert.Spec.weighted (Cert.Spec.scaleCol S C) W b H i := by
  have e : i 1 = y 1 := Fin.ext h1
  rw [eq_ix2 y, eq_ix2 i, e]
  refine Cert.Spec.weighted_row _ _ W b hb H (y 0) (i 0) (y 1) (fun k => ?_) hh
  show sb (ix2 (y 0) k) * cb (ix2 (y 0) (0 : Fin 1)) = S (ix2 (i 0) k) * C (ix2 (i 0) (0 : Fin 1))
  rw [hs k, hc]

/-- An index of the output array is in point t's block iff each coordinate is in the block's range on its axis. -/
theorem mem_blk (t : Fin cfg3.N) (i : S20000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v102).slice (win3_5.rect t)).set ↔ _
  rw [View.set_slice_whole, Rect.mem_set_unit]
  exact Iff.rfl

/-- Every row r of the output lies in the block of point r / 2000. -/
theorem cover (i : S20000x128.Idx) : ∃ t : Fin cfg3.N, (cfg3.win 5).flush t = true ∧ i ∈ ((cfg3.win 5).blk t).view.set := by
  have hi0 : (i 0).val < 20000 := (i 0).isLt
  have hi1 : (i 1).val < 128 := (i 1).isLt
  have hN : cfg3.N = 10 := N_3
  have ht : (i 0).val / 2000 < cfg3.N := lt_of_lt_of_eq (by omega : (i 0).val / 2000 < 10) hN.symm
  refine ⟨⟨(i 0).val / 2000, ht⟩, flush3_5 _, ?_⟩
  rw [mem_blk]
  obtain ⟨-, -, -, -, -, -, -, -, -, -, e10, e11⟩ := idx ⟨(i 0).val / 2000, ht⟩
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [e10]
    show (i 0).val / 2000 * 2000 ≤ (i 0).val ∧ (i 0).val < (i 0).val / 2000 * 2000 + 2000
    omega
  | ⟨1, _⟩ =>
    show win3_5.index ⟨(i 0).val / 2000, ht⟩ (1 : Fin 2) * 128 ≤ (i 1).val ∧ (i 1).val < win3_5.index ⟨(i 0).val / 2000, ht⟩ (1 : Fin 2) * 128 + 128
    rw [e11]
    omega

end R3

/-- What point t writes back is block t of the scaled, transformed and weighted whole arrays. -/
theorem flushed3_eq (hpay : ∀ (s : Vec Ideal S2000x128 .f32) (c' : Vec Ideal S2000x1 .f32) (w : Vec Ideal S128x128 .f32) (b : Vec Ideal S1x128 .f32)
      (hw : Vec Ideal S2000x1 .f32) (y : S2000x128.Idx),
      k3_pay1 (F := Ideal) s c' w b hw y = Cert.Spec.weighted (Cert.Spec.scaleCol s c') w b hw y)
    (V : (c : Dev nD) → (b : Ref sig .tc) → Buf (Elt Ideal) ((c : Thread nD τ).loc b)) (c : Dev nD) (t : Fin cfg3.N) :
    (dat3 (F := Ideal) V c).flushed 5 t
      = ((cfg3.win 5).blk t).view.read (Elt Ideal)
          (Cert.Spec.weighted (Cert.Spec.scaleCol (V c main_v84) (V c main_v20)) (V c main_v98) (V c main_v101) (V c main_v21)) := by
  show (cfg3.win 5).cut (grid3.coords t) ((dat3 (F := Ideal) V c).after 5 t) = _
  rw [after3_5]
  unfold out3_5
  rw [View.canon_unit_zero R3.hz]
  simp only [View.ld_unit_zero (S := S2000x128) R3.hz, View.ld_unit_zero (S := S2000x1) R3.hz, View.ld_unit_zero (S := S128x128) R3.hz,
    View.ld_unit_zero (S := S1x128) R3.hz]
  obtain ⟨-, -, -, -, -, -, -, -, -, -, e10, e11⟩ := R3.idx t
  funext y
  show k3_pay1 (F := Ideal) (iblk3 V c 0 t) (iblk3 V c 1 t) (iblk3 V c 2 t) (iblk3 V c 3 t) (iblk3 V c 4 t) y
    = Cert.Spec.weighted (Cert.Spec.scaleCol (V c main_v84) (V c main_v20)) (V c main_v98) (V c main_v101) (V c main_v21) (((cfg3.win 5).blk t).view.emb y)
  refine (hpay _ _ _ _ _ y).trans ?_
  rw [R3.iblk_2_eq V c t, R3.iblk_3_eq V c t]
  have h0 : win3_5.index t (0 : Fin 2) * 2000 + 1 * (y 0).val = 2000 * t.val + (y 0).val := by rw [e10]; omega
  refine R3.weighted_tile (iblk3 (F := Ideal) V c 0 t) (iblk3 (F := Ideal) V c 1 t) (iblk3 (F := Ideal) V c 4 t)
    (V c main_v84) (V c main_v20) (V c main_v21) (V c main_v98) (V c main_v101) y (((cfg3.win 5).blk t).view.emb y) ?_ ?_ ?_ ?_
  · show win3_5.index t (1 : Fin 2) * 128 + 1 * (y 1).val = (y 1).val
    rw [e11]; omega
  · intro k
    exact R3.iblk_0_apply V c t (ix2 (y 0) k) _ h0 rfl
  · exact R3.iblk_1_apply V c t (ix2 (y 0) (0 : Fin 1)) _ h0 rfl
  · exact R3.iblk_4_apply V c t (ix2 (y 0) (0 : Fin 1)) _ h0 rfl

/-- The array after the ten points is the scaled, transformed and weighted whole arrays. -/
theorem final3 (hpay : ∀ (s : Vec Ideal S2000x128 .f32) (c' : Vec Ideal S2000x1 .f32) (w : Vec Ideal S128x128 .f32) (b : Vec Ideal S1x128 .f32)
      (hw : Vec Ideal S2000x1 .f32) (y : S2000x128.Idx),
      k3_pay1 (F := Ideal) s c' w b hw y = Cert.Spec.weighted (Cert.Spec.scaleCol s c') w b hw y)
    (V : (c : Dev nD) → (b : Ref sig .tc) → Buf (Elt Ideal) ((c : Thread nD τ).loc b)) (c : Dev nD) :
    (dat3 (F := Ideal) V c).arrAt 5 cfg3.N
      = Cert.Spec.weighted (Cert.Spec.scaleCol (V c main_v84) (V c main_v20)) (V c main_v98) (V c main_v101) (V c main_v21) :=
  (dat3 (F := Ideal) V c).arrAt_eq_of_cover 5 _ (fun t _ => flushed3_eq hpay V c t) R3.cover

end Cert.KernelIdeal.RegionValue

end
-- ==== Proof.Region4.lean ====
/-
  The second layer's finish with the residual, from tiles of rows to the whole array. On fifty tiles of 2000 rows the program
  scales each row of the summed messages by its entry of a column, adds the carried features, normalises, rectifies and
  normalises again, and adds the first layer's output. Each of these reads, at a row, only that row of the row-tiled arrays
  (and the whole one-row matrices), so the fifty tiles are the rows of one array: the same function of the whole arrays.
-/
import proofs.«120254_j65652870087174_2_alg».proof.Proof.Gen.KernelIdeal.Frame
import proofs.«120254_j65652870087174_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R4

variable (V : (c : Dev nD) → (b : Ref sig .tc) → Buf (Elt Ideal) ((c : Thread nD τ).loc b))

theorem hz : (![0, 0] : Fin 2 → Nat) = fun _ => 0 := funext fun a => by fin_cases a <;> rfl

theorem idx_0 : ∀ t : Fin cfg4.N, win4_0.index t (0 : Fin 2) = t.val ∧ win4_0.index t (1 : Fin 2) = 0 :=
  (by decide +kernel : ∀ t : Fin grid4.N, _)

/-- The tile of the summed messages at point t, at (p, k), is the array at (2000 t + p, k). -/
theorem iblk_0_apply (c : Dev nD) (t : Fin cfg4.N) (x : S2000x128.Idx) (k : S100000x128.Idx)
    (hk0 : (k 0).val = 2000 * t.val + (x 0).val) (hk1 : (k 1).val = (x 1).val) :
    (iblk4 (F := Ideal) V c 0 t : Vec Ideal S2000x128 .f32) x = (V c main_v113 : S100000x128.Idx → Elt Ideal .f32) k := by
  obtain ⟨e0, e1⟩ := idx_0 t
  unfold iblk4
  rw [View.read_apply]
  show V c main_v113 _ = V c main_v113 _
  congr 1
  funext a
  apply Fin.ext
  match a with
  | ⟨0, _⟩ => show win4_0.index t (0 : Fin 2) * 2000 + 1 * (x 0).val = (k 0).val; rw [e0, hk0]; omega
  | ⟨1, _⟩ => show win4_0.index t (1 : Fin 2) * 128 + 1 * (x 1).val = (k 1).val; rw [e1, hk1]; omega

theorem idx_1 : ∀ t : Fin cfg4.N, win4_1.index t (0 : Fin 2) = t.val ∧ win4_1.index t (1 : Fin 2) = 0 :=
  (by decide +kernel : ∀ t : Fin grid4.N, _)

/-- The tile of the column at point t, at (p, k), is the array at (2000 t + p, k). -/
theorem iblk_1_apply (c : Dev nD) (t : Fin cfg4.N) (x : S2000x1.Idx) (k : S100000x1.Idx)
    (hk0 : (k 0).val = 2000 * t.val + (x 0).val) (hk1 : (k 1).val = (x 1).val) :
    (iblk4 (F := Ideal) V c 1 t : Vec Ideal S2000x1 .f32) x = (V c main_v15 : S100000x1.Idx → Elt Ideal .f32) k := by
  obtain ⟨e0, e1⟩ := idx_1 t
  unfold iblk4
  rw [View.read_apply]
  show V c main_v15 _ = V c main_v15 _
  congr 1
  funext a
  apply Fin.ext
  match a with
  | ⟨0, _⟩ => show win4_1.index t (0 : Fin 2) * 2000 + 1 * (x 0).val = (k 0).val; rw [e0, hk0]; omega
  | ⟨1, _⟩ => show win4_1.index t (1 : Fin 2) * 1 + 1 * (x 1).val = (k 1).val; rw [e1, hk1]; omega

theorem idx_2 : ∀ t : Fin cfg4.N, win4_2.index t (0 : Fin 2) = t.val ∧ win4_2.index t (1 : Fin 2) = 0 :=
  (by decide +kernel : ∀ t : Fin grid4.N, _)

/-- The tile of the carried features at point t, at (p, k), is the array at (2000 t + p, k). -/
theorem iblk_2_apply (c : Dev nD) (t : Fin cfg4.N) (x : S2000x128.Idx) (k : S100000x128.Idx)
    (hk0 : (k 0).val = 2000 * t.val + (x 0).val) (hk1 : (k 1).val = (x 1).val) :
    (iblk4 (F := Ideal) V c 2 t : Vec Ideal S2000x128 .bf16) x = (V c main_v73_1 : S100000x128.Idx → Elt Ideal .bf16) k := by
  obtain ⟨e0, e1⟩ := idx_2 t
  unfold iblk4
  rw [View.read_apply]
  show V c main_v73_1 _ = V c main_v73_1 _
  congr 1
  funext a
  apply Fin.ext
  match a with
  | ⟨0, _⟩ => show win4_2.index t (0 : Fin 2) * 2000 + 1 * (x 0).val = (k 0).val; rw [e0, hk0]; omega
  | ⟨1, _⟩ => show win4_2.index t (1 : Fin 2) * 128 + 1 * (x 1).val = (k 1).val; rw [e1, hk1]; omega

theorem idx_3 : ∀ t : Fin cfg4.N, win4_3.index t (0 : Fin 2) = 0 ∧ win4_3.index t (1 : Fin 2) = 0 :=
  (by decide +kernel : ∀ t : Fin grid4.N, _)

/-- The block of the first scale row at any point is the whole array. -/
theorem iblk_3_eq (c : Dev nD) (t : Fin cfg4.N) :
    (iblk4 (F := Ideal) V c 3 t : Vec Ideal S1x128 .f32) = (V c main_v87 : S1x128.Idx → Elt Ideal .f32) := by
  obtain ⟨e0, e1⟩ := idx_3 t
  funext x
  unfold iblk4
  rw [View.read_apply]
  show V c main_v87 _ = V c main_v87 _
  congr 1
  funext a
  apply Fin.ext
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

theorem idx_4 : ∀ t : Fin cfg4.N, win4_4.index t (0 : Fin 2) = 0 ∧ win4_4.index t (1 : Fin 2) = 0 :=
  (by decide +kernel : ∀ t : Fin grid4.N, _)

/-- The block of the first shift row at any point is the whole array. -/
theorem iblk_4_eq (c : Dev nD) (t : Fin cfg4.N) :
    (iblk4 (F := Ideal) V c 4 t : Vec Ideal S1x128 .f32) = (V c main_v90 : S1x128.Idx → Elt Ideal .f32) := by
  obtain ⟨e0, e1⟩ := idx_4 t
  funext x
  unfold iblk4
  rw [View.read_apply]
  show V c main_v90 _ = V c main_v90 _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

theorem idx_5 : ∀ t : Fin cfg4.N, win4_5.index t (0 : Fin 2) = 0 ∧ win4_5.index t (1 : Fin 2) = 0 :=
  (by decide +kernel : ∀ t : Fin grid4.N, _)

/-- The block of the second scale row at any point is the whole array. -/
theorem iblk_5_eq (c : Dev nD) (t : Fin cfg4.N) :
    (iblk4 (F := Ideal) V c 5 t : Vec Ideal S1x128 .f32) = (V c main_v93 : S1x128.Idx → Elt Ideal .f32) := by
  obtain ⟨e0, e1⟩ := idx_5 t
  funext x
  unfold iblk4
  rw [View.read_apply]
  show V c main_v93 _ = V c main_v93 _
  congr 1
  funext a
  apply Fin.ext
  match a with
  | ⟨0, _⟩ => show win4_5.index t (0 : Fin 2) * 1 + 1 * (x 0).val = (x 0).val; rw [e0]; omega
  | ⟨1, _⟩ => show win4_5.index t (1 : Fin 2) * 128 + 1 * (x 1).val = (x 1).val; rw [e1]; omega

theorem idx_6 : ∀ t : Fin cfg4.N, win4_6.index t (0 : Fin 2) = 0 ∧ win4_6.index t (1 : Fin 2) = 0 :=
  (by decide +kernel : ∀ t : Fin grid4.N, _)

/-- The block of the second shift row at any point is the whole array. -/
theorem iblk_6_eq (c : Dev nD) (t : Fin cfg4.N) :
    (iblk4 (F := Ideal) V c 6 t : Vec Ideal S1x128 .f32) = (V c main_v96 : S1x128.Idx → Elt Ideal .f32) := by
  obtain ⟨e0, e1⟩ := idx_6 t
  funext x
  unfold iblk4
  rw [View.read_apply]
  show V c main_v96 _ = V c main_v96 _
  congr 1
  funext a
  apply Fin.ext
  match a with
  | ⟨0, _⟩ => show win4_6.index t (0 : Fin 2) * 1 + 1 * (x 0).val = (x 0).val; rw [e0]; omega
  | ⟨1, _⟩ => show win4_6.index t (1 : Fin 2) * 128 + 1 * (x 1).val = (x 1).val; rw [e1]; omega

theorem idx_7 : ∀ t : Fin cfg4.N, win4_7.index t (0 : Fin 2) = t.val ∧ win4_7.index t (1 : Fin 2) = 0 :=
  (by decide +kernel : ∀ t : Fin grid4.N, _)

/-- The tile of the first layer's output at point t, at (p, k), is the array at (2000 t + p, k). -/
theorem iblk_7_apply (c : Dev nD) (t : Fin cfg4.N) (x : S2000x128.Idx) (k : S100000x128.Idx)
    (hk0 : (k 0).val = 2000 * t.val + (x 0).val) (hk1 : (k 1).val = (x 1).val) :
    (iblk4 (F := Ideal) V c 7 t : Vec Ideal S2000x128 .f32) x = (V c main_v73_0 : S100000x128.Idx → Elt Ideal .f32) k := by
  obtain ⟨e0, e1⟩ := idx_7 t
  unfold iblk4
  rw [View.read_apply]
  show V c main_v73_0 _ = V c main_v73_0 _
  congr 1
  funext a
  apply Fin.ext
  match a with
  | ⟨0, _⟩ => show win4_7.index t (0 : Fin 2) * 2000 + 1 * (x 0).val = (k 0).val; rw [e0, hk0]; omega
  | ⟨1, _⟩ => show win4_7.index t (1 : Fin 2) * 128 + 1 * (x 1).val = (k 1).val; rw [e1, hk1]; omega

theorem idx_8 : ∀ t : Fin cfg4.N, win4_8.index t (0 : Fin 2) = t.val ∧ win4_8.index t (1 : Fin 2) = 0 :=
  (by decide +kernel : ∀ t : Fin grid4.N, _)

/-- An index of the output array is in point t's block iff each coordinate is in the block's range on its axis. -/
theorem mem_blk_8 (t : Fin cfg4.N) (i : S100000x128.Idx) :
    i ∈ ((cfg4.win 8).blk t).view.set ↔ ∀ a : Fin 2, win4_8.index t a * S2000x128.size a ≤ (i a).val ∧ (i a).val < win4_8.index t a * S2000x128.size a + S2000x128.size a := by
  show i ∈ ((View.whole main_v114).slice (win4_8.rect t)).set ↔ _
  rw [View.set_slice_whole, Rect.mem_set_unit]
  exact Iff.rfl

/-- Every row r of the output lies in the block of point r / 2000. -/
theorem cover_8 (i : S100000x128.Idx) : ∃ t : Fin cfg4.N, (cfg4.win 8).flush t = true ∧ i ∈ ((cfg4.win 8).blk t).view.set := by
  have hi0 : (i 0).val < 100000 := (i 0).isLt
  have hi1 : (i 1).val < 128 := (i 1).isLt
  have hN : cfg4.N = 50 := N_4
  have ht : (i 0).val / 2000 < cfg4.N := lt_of_lt_of_eq (by omega : (i 0).val / 2000 < 50) hN.symm
  refine ⟨⟨(i 0).val / 2000, ht⟩, flush4_8 _, ?_⟩
  rw [mem_blk_8]
  obtain ⟨e0, e1⟩ := idx_8 ⟨(i 0).val / 2000, ht⟩
  intro a
  match a with
  | ⟨0, _⟩ =>
    show win4_8.index ⟨(i 0).val / 2000, ht⟩ (0 : Fin 2) * 2000 ≤ (i 0).val ∧ (i 0).val < win4_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win4_8.index ⟨(i 0).val / 2000, ht⟩ (1 : Fin 2) * 128 ≤ (i 1).val ∧ (i 1).val < win4_8.index ⟨(i 0).val / 2000, ht⟩ (1 : Fin 2) * 128 + 128
    rw [e1]
    omega

/-- The scaled sum plus the carried features, at a row of the tile, is the same function of the whole arrays at the matching row. -/
theorem pre_tile {m M N : Nat} (sb xb : Cert.Spec.Mat m N) (cb : Cert.Spec.Mat m 1) (S X : Cert.Spec.Mat M N) (C : Cert.Spec.Mat M 1)
    (p : Fin m) (p' : Fin M) (hs : ∀ k : Fin N, sb (ix2 p k) = S (ix2 p' k)) (hc : cb (ix2 p (0 : Fin 1)) = C (ix2 p' (0 : Fin 1)))
    (hx : ∀ k : Fin N, xb (ix2 p k) = X (ix2 p' k)) (k : Fin N) :
    Cert.Spec.addM (Cert.Spec.scaleCol sb cb) xb (ix2 p k) = Cert.Spec.addM (Cert.Spec.scaleCol S C) X (ix2 p' k) := by
  show sb (ix2 p k) * cb (ix2 p (0 : Fin 1)) + xb (ix2 p k) = S (ix2 p' k) * C (ix2 p' (0 : Fin 1)) + X (ix2 p' k)
  rw [hs k, hc, hx k]

/-- The twice-normalised tile of rows, at an entry of the tile, is the same function of the whole arrays at the entry with the
    same row of the row-tiled arrays and the same column. -/
theorem finalize_tile {m M N : Nat} (sb xb : Cert.Spec.Mat m N) (cb : Cert.Spec.Mat m 1) (S X : Cert.Spec.Mat M N) (C : Cert.Spec.Mat M 1)
    (g1 b1 g2 b2 : Cert.Spec.Mat 1 N) (y : (⟨2, ![m, N]⟩ : Shape).Idx) (i : (⟨2, ![M, N]⟩ : Shape).Idx) (h1 : (i 1).val = (y 1).val)
    (hs : ∀ k : Fin N, sb (ix2 (y 0) k) = S (ix2 (i 0) k)) (hc : cb (ix2 (y 0) (0 : Fin 1)) = C (ix2 (i 0) (0 : Fin 1)))
    (hx : ∀ k : Fin N, xb (ix2 (y 0) k) = X (ix2 (i 0) k)) :
    Cert.Spec.finalize (Cert.Spec.addM (Cert.Spec.scaleCol sb cb) xb) g1 b1 g2 b2 y
      = Cert.Spec.finalize (Cert.Spec.addM (Cert.Spec.scaleCol S C) X) g1 b1 g2 b2 i := by
  have e : i 1 = y 1 := Fin.ext h1
  rw [eq_ix2 y, eq_ix2 i, e]
  exact Cert.Spec.finalize_row _ _ g1 b1 g2 b2 (y 0) (i 0) (y 1) (pre_tile sb xb cb S X C (y 0) (i 0) hs hc hx)

end R4

/-- What point t writes back is block t of the twice-normalised whole arrays plus the first layer's output. -/
theorem flushed4_eq (hpay : ∀ (s : Vec Ideal S2000x128 .f32) (c' : Vec Ideal S2000x1 .f32) (xt : Vec Ideal S2000x128 .bf16)
      (g1 b1 g2 b2 : Vec Ideal S1x128 .f32) (prev : Vec Ideal S2000x128 .f32) (y : S2000x128.Idx),
      k4_pay1 (F := Ideal) (k4_pay2 g2) (k4_pay3 b2) (k4_pay4 s c' xt g1 b1) prev y
        = Cert.Spec.finalize (Cert.Spec.addM (Cert.Spec.scaleCol s c') (fun i => xt i)) g1 b1 g2 b2 y + prev y)
    (V : (c : Dev nD) → (b : Ref sig .tc) → Buf (Elt Ideal) ((c : Thread nD τ).loc b)) (c : Dev nD) (t : Fin cfg4.N) :
    (dat4 (F := Ideal) V c).flushed 8 t
      = ((cfg4.win 8).blk t).view.read (Elt Ideal) (Cert.Spec.addM (Cert.Spec.finalize (Cert.Spec.addM (Cert.Spec.scaleCol (V c main_v113) (V c main_v15)) (V c main_v73_1)) (V c main_v87) (V c main_v90) (V c main_v93) (V c main_v96)) (V c main_v73_0)) := by
  show (cfg4.win 8).cut (grid4.coords t) ((dat4 (F := Ideal) V c).after 8 t) = _
  rw [after4_8]
  unfold out4_8
  rw [View.canon_unit_zero R4.hz]
  simp only [View.ld_unit_zero (S := S2000x128) R4.hz, View.ld_unit_zero (S := S2000x1) R4.hz, View.ld_unit_zero (S := S1x128) R4.hz]
  obtain ⟨e0, e1⟩ := R4.idx_8 t
  funext y
  show k4_pay1 (F := Ideal) (k4_pay2 (iblk4 V c 5 t)) (k4_pay3 (iblk4 V c 6 t)) (k4_pay4 (iblk4 V c 0 t) (iblk4 V c 1 t) (iblk4 V c 2 t) (iblk4 V c 3 t) (iblk4 V c 4 t)) (iblk4 V c 7 t) y
    = Cert.Spec.finalize (Cert.Spec.addM (Cert.Spec.scaleCol (V c main_v113) (V c main_v15)) (V c main_v73_1)) (V c main_v87) (V c main_v90) (V c main_v93) (V c main_v96) (((cfg4.win 8).blk t).view.emb y) + V c main_v73_0 (((cfg4.win 8).blk t).view.emb y)
  refine (hpay _ _ _ _ _ _ _ _ y).trans ?_
  rw [R4.iblk_3_eq V c t, R4.iblk_4_eq V c t, R4.iblk_5_eq V c t, R4.iblk_6_eq V c t]
  have h0 : win4_8.index t (0 : Fin 2) * 2000 + 1 * (y 0).val = 2000 * t.val + (y 0).val := by rw [e0]; omega
  have h1 : win4_8.index t (1 : Fin 2) * 128 + 1 * (y 1).val = (y 1).val := by rw [e1]; omega
  refine congrArg₂ (· + ·) ?_ ?_
  · refine R4.finalize_tile (iblk4 (F := Ideal) V c 0 t) (fun i => iblk4 (F := Ideal) V c 2 t i) (iblk4 (F := Ideal) V c 1 t)
      (V c main_v113) (V c main_v73_1) (V c main_v15) (V c main_v87) (V c main_v90) (V c main_v93) (V c main_v96) y (((cfg4.win 8).blk t).view.emb y) h1 ?_ ?_ ?_
    · intro k
      exact R4.iblk_0_apply V c t (ix2 (y 0) k) _ h0 rfl
    · exact R4.iblk_1_apply V c t (ix2 (y 0) (0 : Fin 1)) _ h0 rfl
    · intro k
      exact R4.iblk_2_apply V c t (ix2 (y 0) k) _ h0 rfl
  · exact R4.iblk_7_apply V c t y _ h0 h1

/-- The array after the fifty points is the twice-normalised whole arrays plus the first layer's output. -/
theorem final4 (hpay : ∀ (s : Vec Ideal S2000x128 .f32) (c' : Vec Ideal S2000x1 .f32) (xt : Vec Ideal S2000x128 .bf16)
      (g1 b1 g2 b2 : Vec Ideal S1x128 .f32) (prev : Vec Ideal S2000x128 .f32) (y : S2000x128.Idx),
      k4_pay1 (F := Ideal) (k4_pay2 g2) (k4_pay3 b2) (k4_pay4 s c' xt g1 b1) prev y
        = Cert.Spec.finalize (Cert.Spec.addM (Cert.Spec.scaleCol s c') (fun i => xt i)) g1 b1 g2 b2 y + prev y)
    (V : (c : Dev nD) → (b : Ref sig .tc) → Buf (Elt Ideal) ((c : Thread nD τ).loc b)) (c : Dev nD) :
    (dat4 (F := Ideal) V c).arrAt 8 cfg4.N = Cert.Spec.addM (Cert.Spec.finalize (Cert.Spec.addM (Cert.Spec.scaleCol (V c main_v113) (V c main_v15)) (V c main_v73_1)) (V c main_v87) (V c main_v90) (V c main_v93) (V c main_v96)) (V c main_v73_0) :=
  (dat4 (F := Ideal) V c).arrAt_eq_of_cover 8 _ (fun t _ => flushed4_eq hpay V c t) R4.cover_8

end Cert.KernelIdeal.RegionValue

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«120254_j65652870087174_2_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.LibHgnnTile.lean ====
/-
  The arithmetic a kernel does on one tile of rows of a hypergraph layer, read entry by entry as the whole-array
  functions of Spec applied to the tile. Nothing here depends on a program; every extent is a variable and every
  side condition of an operation (a cast's, a broadcast's, a reduction's) is a hypothesis.

  * affine_tile    : the tile times the weights into the zero accumulator, plus the bias row laid down the rows, with
                     the changes of float format a kernel makes on the way in and out (the identity at the ideal values),
                     is Spec.affine of the tile.
  * weighted_tile  : the tile scaled row by row by a column, sent through the same dense layer, and scaled row by row
                     by a second column, is Spec.weighted (Spec.scaleCol s c) w b hw.
  * layerNorm_tile : the chain row sum → column → divide by 128.0 → broadcast → subtract → square → row sum → column →
                     divide by 128.0 → add ε → reciprocal square root → broadcast → multiply → scale → shift is
                     Spec.layerNorm of the tile.
  * leaky_tile     : the select between v and 0.2 · v on v ≥ 0 is Spec.leaky v.
-/
import proofs.«120254_j65652870087174_2_alg».proof.Proof.Spec
import proofs.«120254_j65652870087174_2_alg».proof.Proof.LibAffineAt
import proofs.«120254_j65652870087174_2_alg».proof.Proof.LibRowTiles
import proofs.«120254_j65652870087174_2_alg».proof.Proof.LibKeepdims
import Idealize.ShloMosaic.Lib.Pipeline.Value
import Idealize.ShloMosaic.Lib.ValueIdx
import Idealize.ShloMosaic.PureOps.Ideal.Laws

noncomputable section

namespace Cert.LibHgnnTile

open Idealize.ShloMosaic Idealize.ShloMosaic.ValueIdx

variable {m K N : Nat}

/-- The leaky rectifier in the kernel's spelling: where v ≥ 0 take v, elsewhere 0.2 · v. -/
theorem leaky_tile (v : FVec Ideal ⟨2, ![m, N]⟩ .f32) :
    select (cmpf .oge v (broadcast ⟨2, ![m, N]⟩ (Scalar.ofBits (F := Ideal) .f32 0x00000000#32))) v
        (mulf (broadcast ⟨2, ![m, N]⟩ (Scalar.ofBits (F := Ideal) .f32 0x3E4CCCCD#32)) v)
      = Spec.leaky v := rfl

/-- The dense layer on a tile: the tile times the weights into the zero accumulator plus the bias row, at an entry. -/
theorem affine_tile (d : DotDims ⟨2, ![m, K]⟩ ⟨2, ![K, N]⟩ ⟨2, ![m, N]⟩) (hd : d = DotDims.plain m K N)
    (h1 : FTy.bf16.bits < FTy.f32.bits)
    (hsW : (⟨2, ![K, N]⟩ : Shape).ShapeCasts ⟨2, ![K, N]⟩) (hsb : (⟨2, ![1, N]⟩ : Shape).ShapeCasts ⟨2, ![1, N]⟩)
    (hb : (⟨2, ![1, N]⟩ : Shape).Broadcasts ⟨2, ![m, N]⟩)
    (x : FVec Ideal ⟨2, ![m, K]⟩ .f32) (w : FVec Ideal ⟨2, ![K, N]⟩ .f32) (b : FVec Ideal ⟨2, ![1, N]⟩ .f32)
    (y : (⟨2, ![m, N]⟩ : Shape).Idx) :
    truncf .bf16 (addf (matmul d none (truncf .bf16 x h1) (truncf .bf16 (shapeCast ⟨2, ![K, N]⟩ w hsW) h1)
        (constant ⟨2, ![m, N]⟩ .f32 0x00000000#32)) (broadcastTo ⟨2, ![m, N]⟩ (shapeCast ⟨2, ![1, N]⟩ b hsb) hb)) h1 y
      = Spec.affine x w b y := by
  rw [shapeCast_self, shapeCast_self]
  refine (truncf_apply _ h1 y).trans ?_
  refine (addf_apply _ _ y).trans ?_
  refine congrArg₂ (· + ·) ?_ (Cert.LibRowTiles.broadcastTo_oneRow_at b hb y)
  exact Cert.KernelIdeal.Hand.matmul_zero_plain_apply d hd none (truncf .bf16 x h1) (truncf .bf16 w h1) y

/-- The hyperedge transform on a tile: the tile scaled by a column, through the dense layer, scaled by a second column. -/
theorem weighted_tile (d : DotDims ⟨2, ![m, K]⟩ ⟨2, ![K, N]⟩ ⟨2, ![m, N]⟩) (hd : d = DotDims.plain m K N)
    (h1 : FTy.bf16.bits < FTy.f32.bits)
    (hsS : (⟨2, ![m, K]⟩ : Shape).ShapeCasts ⟨2, ![m, K]⟩) (hsC : (⟨2, ![m, 1]⟩ : Shape).ShapeCasts ⟨2, ![m, 1]⟩)
    (hbC : (⟨2, ![m, 1]⟩ : Shape).Broadcasts ⟨2, ![m, K]⟩)
    (hsW : (⟨2, ![K, N]⟩ : Shape).ShapeCasts ⟨2, ![K, N]⟩) (hsb : (⟨2, ![1, N]⟩ : Shape).ShapeCasts ⟨2, ![1, N]⟩)
    (hb : (⟨2, ![1, N]⟩ : Shape).Broadcasts ⟨2, ![m, N]⟩) (hbH : (⟨2, ![m, 1]⟩ : Shape).Broadcasts ⟨2, ![m, N]⟩)
    (s : FVec Ideal ⟨2, ![m, K]⟩ .f32) (c : FVec Ideal ⟨2, ![m, 1]⟩ .f32) (w : FVec Ideal ⟨2, ![K, N]⟩ .f32)
    (b : FVec Ideal ⟨2, ![1, N]⟩ .f32) (hw : FVec Ideal ⟨2, ![m, 1]⟩ .f32) (y : (⟨2, ![m, N]⟩ : Shape).Idx) :
    truncf .bf16 (mulf (addf (matmul d none
          (truncf .bf16 (mulf (shapeCast ⟨2, ![m, K]⟩ s hsS) (broadcastTo ⟨2, ![m, K]⟩ (shapeCast ⟨2, ![m, 1]⟩ c hsC) hbC)) h1)
          (truncf .bf16 (shapeCast ⟨2, ![K, N]⟩ w hsW) h1) (constant ⟨2, ![m, N]⟩ .f32 0x00000000#32))
        (broadcastTo ⟨2, ![m, N]⟩ (shapeCast ⟨2, ![1, N]⟩ b hsb) hb))
      (broadcastTo ⟨2, ![m, N]⟩ (shapeCast ⟨2, ![m, 1]⟩ hw hsC) hbH)) h1 y
      = Spec.weighted (Spec.scaleCol s c) w b hw y := by
  simp only [shapeCast_self]
  obtain ⟨p, q, rfl⟩ : ∃ p q, y = ix2 p q := ⟨y 0, y 1, eq_ix2 y⟩
  refine (truncf_apply _ h1 _).trans ?_
  refine (mulf_apply _ _ _).trans ?_
  show _ = ((∑ k : Fin K, (s (ix2 p k) * c (ix2 p (0 : Fin 1))) * w (ix2 k q)) + b (ix2 (0 : Fin 1) q)) * hw (ix2 p (0 : Fin 1))
  refine congrArg₂ (· * ·) ?_ (Cert.Lib.Keepdims.broadcastTo_a1_ab_apply hw hbH p q)
  refine (Cert.LibAffineAt.block_at d hd hb (mulf s (broadcastTo ⟨2, ![m, K]⟩ c hbC)) w b h1 p q).trans ?_
  show (∑ k : Fin K, (s (ix2 p k) * broadcastTo ⟨2, ![m, K]⟩ c hbC (ix2 p k)) * w (ix2 k q)) + b (ix2 (0 : Fin 1) q)
    = (∑ k : Fin K, (s (ix2 p k) * c (ix2 p (0 : Fin 1))) * w (ix2 k q)) + b (ix2 (0 : Fin 1) q)
  simp only [Cert.Lib.Keepdims.broadcastTo_a1_ab_apply]

/-! ## Layer normalisation along the rows of a tile -/

section Norm
variable {n : Nat}

/-- The column of row means in the kernel's spelling: the row sums, kept as a column, over 128.0. -/
abbrev meanCol (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (A : FVec Ideal ⟨2, ![m, n]⟩ .f32) : FVec Ideal ⟨2, ![m, 1]⟩ .f32 :=
  divf (shapeCast ⟨2, ![m, 1]⟩ (multiReduction .add [1] ⟨1, ![m]⟩ A 0x00000000#32 hr hφ hacc) hc)
    (broadcast ⟨2, ![m, 1]⟩ (Scalar.ofBits (F := Ideal) .f32 0x43000000#32))

/-- It reads, at row i, the mean of row i. -/
theorem meanCol_apply (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (A : FVec Ideal ⟨2, ![m, n]⟩ .f32) (i : Fin m) (u : Fin 1) :
    meanCol hr hφ hacc hc A (ix2 i u) = Spec.rowMean A i := by
  show Ideal.div (shapeCast ⟨2, ![m, 1]⟩ (multiReduction .add [1] ⟨1, ![m]⟩ A 0x00000000#32 hr hφ hacc) hc (ix2 i u)) _
    = Ideal.div (∑ k : Fin n, A (ix2 i k)) _
  rw [Cert.Lib.Keepdims.shapeCast_a_a1_apply, Cert.Lib.Keepdims.rowSum_apply]
  rfl

/-- The deviations from the row means in the kernel's spelling. -/
abbrev devs (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (hbc : (⟨2, ![m, 1]⟩ : Shape).Broadcasts ⟨2, ![m, n]⟩)
    (A : FVec Ideal ⟨2, ![m, n]⟩ .f32) : FVec Ideal ⟨2, ![m, n]⟩ .f32 :=
  subf A (broadcastTo ⟨2, ![m, n]⟩ (meanCol hr hφ hacc hc A) hbc)

/-- They read, at (i, j), the entry minus the mean of its row. -/
theorem devs_apply (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (hbc : (⟨2, ![m, 1]⟩ : Shape).Broadcasts ⟨2, ![m, n]⟩)
    (A : FVec Ideal ⟨2, ![m, n]⟩ .f32) (i : Fin m) (j : Fin n) :
    devs hr hφ hacc hc hbc A (ix2 i j) = A (ix2 i j) - Spec.rowMean A i := by
  show A (ix2 i j) - broadcastTo ⟨2, ![m, n]⟩ (meanCol hr hφ hacc hc A) hbc (ix2 i j) = _
  rw [Cert.Lib.Keepdims.broadcastTo_a1_ab_apply, meanCol_apply]

/-- The column of reciprocal standard deviations in the kernel's spelling: the row sums of the squared deviations, kept
    as a column, over 128.0, plus ε, under the reciprocal square root. -/
abbrev rstdCol (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (hbc : (⟨2, ![m, 1]⟩ : Shape).Broadcasts ⟨2, ![m, n]⟩)
    (A : FVec Ideal ⟨2, ![m, n]⟩ .f32) : FVec Ideal ⟨2, ![m, 1]⟩ .f32 :=
  rsqrt (addf (divf (shapeCast ⟨2, ![m, 1]⟩ (multiReduction .add [1] ⟨1, ![m]⟩
        (mulf (devs hr hφ hacc hc hbc A) (devs hr hφ hacc hc hbc A)) 0x00000000#32 hr hφ hacc) hc)
      (broadcast ⟨2, ![m, 1]⟩ (Scalar.ofBits (F := Ideal) .f32 0x43000000#32)))
    (broadcast ⟨2, ![m, 1]⟩ (Scalar.ofBits (F := Ideal) .f32 0x3727C5AC#32)))

/-- It reads, at row i, the reciprocal square root of the row's variance plus ε. -/
theorem rstdCol_apply (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (hbc : (⟨2, ![m, 1]⟩ : Shape).Broadcasts ⟨2, ![m, n]⟩)
    (A : FVec Ideal ⟨2, ![m, n]⟩ .f32) (i : Fin m) (u : Fin 1) :
    rstdCol hr hφ hacc hc hbc A (ix2 i u) = Ideal.rsqrt (Spec.rowVar A i + Ideal.ofBits .f32 0x3727C5AC#32) := by
  show Ideal.rsqrt (Ideal.div (shapeCast ⟨2, ![m, 1]⟩ (multiReduction .add [1] ⟨1, ![m]⟩
        (mulf (devs hr hφ hacc hc hbc A) (devs hr hφ hacc hc hbc A)) 0x00000000#32 hr hφ hacc) hc (ix2 i u)) _ + _)
    = Ideal.rsqrt (Ideal.div (∑ k : Fin n, (A (ix2 i k) - Spec.rowMean A i) * (A (ix2 i k) - Spec.rowMean A i)) _ + _)
  rw [Cert.Lib.Keepdims.shapeCast_a_a1_apply, Cert.Lib.Keepdims.rowSum_apply]
  refine congrArg (fun t => Ideal.rsqrt (Ideal.div t _ + _)) ?_
  refine Finset.sum_congr rfl fun k _ => ?_
  show devs hr hφ hacc hc hbc A (ix2 i k) * devs hr hφ hacc hc hbc A (ix2 i k) = _
  rw [devs_apply]

/-- Layer normalisation of a tile in the kernel's spelling, at an entry. -/
theorem layerNorm_tile (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (hbc : (⟨2, ![m, 1]⟩ : Shape).Broadcasts ⟨2, ![m, n]⟩)
    (hbr : (⟨2, ![1, n]⟩ : Shape).Broadcasts ⟨2, ![m, n]⟩)
    (A : FVec Ideal ⟨2, ![m, n]⟩ .f32) (g b : FVec Ideal ⟨2, ![1, n]⟩ .f32) (y : (⟨2, ![m, n]⟩ : Shape).Idx) :
    addf (mulf (mulf (devs hr hφ hacc hc hbc A) (broadcastTo ⟨2, ![m, n]⟩ (rstdCol hr hφ hacc hc hbc A) hbc))
        (broadcastTo ⟨2, ![m, n]⟩ g hbr)) (broadcastTo ⟨2, ![m, n]⟩ b hbr) y
      = Spec.layerNorm A g b y := by
  obtain ⟨p, q, rfl⟩ : ∃ p q, y = ix2 p q := ⟨y 0, y 1, eq_ix2 y⟩
  show ((devs hr hφ hacc hc hbc A (ix2 p q) * broadcastTo ⟨2, ![m, n]⟩ (rstdCol hr hφ hacc hc hbc A) hbc (ix2 p q))
      * broadcastTo ⟨2, ![m, n]⟩ g hbr (ix2 p q)) + broadcastTo ⟨2, ![m, n]⟩ b hbr (ix2 p q)
    = ((A (ix2 p q) - Spec.rowMean A p) * Ideal.rsqrt (Spec.rowVar A p + Ideal.ofBits .f32 0x3727C5AC#32))
      * g (ix2 (0 : Fin 1) q) + b (ix2 (0 : Fin 1) q)
  rw [Cert.LibAffineAt.broadcastTo_oneRow_apply g hbr p q, Cert.LibAffineAt.broadcastTo_oneRow_apply b hbr p q,
    devs_apply, Cert.Lib.Keepdims.broadcastTo_a1_ab_apply, rstdCol_apply]

/-- The same as an equation of matrices. -/
theorem layerNorm_tile_eq (hr : (⟨2, ![m, n]⟩ : Shape).Reduces [1] ⟨1, ![m]⟩) (hφ : FKind.Formats .f32)
    (hacc : (0x00000000#32 : BitVec FTy.f32.bits) = FKind.add.neutral .f32 hφ)
    (hc : (⟨1, ![m]⟩ : Shape).ShapeCasts ⟨2, ![m, 1]⟩) (hbc : (⟨2, ![m, 1]⟩ : Shape).Broadcasts ⟨2, ![m, n]⟩)
    (hbr : (⟨2, ![1, n]⟩ : Shape).Broadcasts ⟨2, ![m, n]⟩)
    (A : FVec Ideal ⟨2, ![m, n]⟩ .f32) (g b : FVec Ideal ⟨2, ![1, n]⟩ .f32) :
    addf (mulf (mulf (devs hr hφ hacc hc hbc A) (broadcastTo ⟨2, ![m, n]⟩ (rstdCol hr hφ hacc hc hbc A) hbc))
        (broadcastTo ⟨2, ![m, n]⟩ g hbr)) (broadcastTo ⟨2, ![m, n]⟩ b hbr)
      = Spec.layerNorm A g b :=
  funext fun y => layerNorm_tile hr hφ hacc hc hbc hbr A g b y

/-- A tile scaled row by row by a column plus a second tile that changes float format on the way in (the identity at the
    ideal values): the entrywise sum of Spec.scaleCol s c and the second tile. -/
theorem scaleAdd_tile (h1 : FTy.bf16.bits < FTy.f32.bits)
    (hsS : (⟨2, ![m, n]⟩ : Shape).ShapeCasts ⟨2, ![m, n]⟩) (hsC : (⟨2, ![m, 1]⟩ : Shape).ShapeCasts ⟨2, ![m, 1]⟩)
    (hbc : (⟨2, ![m, 1]⟩ : Shape).Broadcasts ⟨2, ![m, n]⟩)
    (s : FVec Ideal ⟨2, ![m, n]⟩ .f32) (c : FVec Ideal ⟨2, ![m, 1]⟩ .f32) (xt : FVec Ideal ⟨2, ![m, n]⟩ .bf16) :
    addf (mulf (shapeCast ⟨2, ![m, n]⟩ s hsS) (broadcastTo ⟨2, ![m, n]⟩ (shapeCast ⟨2, ![m, 1]⟩ c hsC) hbc))
        (extf .f32 (shapeCast ⟨2, ![m, n]⟩ xt hsS) h1)
      = Spec.addM (Spec.scaleCol s c) (fun i => xt i) := by
  simp only [shapeCast_self]
  funext y
  obtain ⟨p, q, rfl⟩ : ∃ p q, y = ix2 p q := ⟨y 0, y 1, eq_ix2 y⟩
  show s (ix2 p q) * broadcastTo ⟨2, ![m, n]⟩ c hbc (ix2 p q) + xt (ix2 p q) = s (ix2 p q) * c (ix2 p (0 : Fin 1)) + xt (ix2 p q)
  rw [Cert.Lib.Keepdims.broadcastTo_a1_ab_apply]

end Norm

end Cert.LibHgnnTile

end
-- ==== Proof.Payloads.lean ====
/-
  The values the five kernels store, as functions of the tiles they read: each is one of the whole-array functions of Spec
  applied to the tile of 2000 rows, entry by entry.

  * the dense layer's kernel stores Spec.affine of its tile;
  * the two hyperedge-transform kernels store Spec.weighted (Spec.scaleCol s c) w b hw: the segment sums scaled by the
    reciprocal counts, through the dense layer, times the hyperedge weights;
  * the two finalising kernels form Z = Spec.scaleCol s c + xt, the scaled segment sums plus the transformed features,
    and store Spec.finalize Z (normalise, rectify, normalise again); the first also stores the next dense layer of that
    value, the second adds the residual.
-/
import proofs.«120254_j65652870087174_2_alg».proof.Proof.Gen.KernelIdeal.Skeleton
import proofs.«120254_j65652870087174_2_alg».proof.Proof.Spec
import proofs.«120254_j65652870087174_2_alg».proof.Proof.LibHgnnTile

noncomputable section

namespace Cert.KernelIdeal.Pay

open Idealize.ShloMosaic Idealize.ShloMosaic.ValueIdx Cert.KernelIdeal Cert.KernelIdeal.Gen

/-- The kernels' matrix product has the plain dimension numbers. -/
theorem dot_plain : dot_S2000x128_S128x128_S2000x128_1_0_0_1_n_n = DotDims.plain 2000 128 128 := rfl

/-- The dense layer's kernel stores the dense layer of its tile. -/
theorem pay0 (x0 : Vec Ideal S2000x128 .f32) (x1 : Vec Ideal S128x128 .f32) (x2 : Vec Ideal S1x128 .f32) (y : S2000x128.Idx) :
    k0_pay1 (F := Ideal) x0 x1 x2 y = Cert.Spec.affine x0 x1 x2 y := by
  unfold k0_pay1
  exact Cert.LibHgnnTile.affine_tile dot_S2000x128_S128x128_S2000x128_1_0_0_1_n_n dot_plain bitsLt_bf16_f32
    shapeCasts_S128x128_S128x128 shapeCasts_S1x128_S1x128 broadcasts_S1x128_S2000x128 x0 x1 x2 y

/-- The first hyperedge transform stores the weighted dense layer of the scaled segment sums. -/
theorem pay1 (s : Vec Ideal S2000x128 .f32) (c : Vec Ideal S2000x1 .f32) (w : Vec Ideal S128x128 .f32) (b : Vec Ideal S1x128 .f32)
    (hw : Vec Ideal S2000x1 .f32) (y : S2000x128.Idx) :
    k1_pay1 (F := Ideal) s c w b hw y = Cert.Spec.weighted (Cert.Spec.scaleCol s c) w b hw y := by
  unfold k1_pay1
  exact Cert.LibHgnnTile.weighted_tile dot_S2000x128_S128x128_S2000x128_1_0_0_1_n_n dot_plain bitsLt_bf16_f32
    shapeCasts_S2000x128_S2000x128 shapeCasts_S2000x1_S2000x1 broadcasts_S2000x1_S2000x128
    shapeCasts_S128x128_S128x128 shapeCasts_S1x128_S1x128 broadcasts_S1x128_S2000x128 broadcasts_S2000x1_S2000x128 s c w b hw y

/-- The second hyperedge transform stores the same function of its own tile. -/
theorem pay3 (s : Vec Ideal S2000x128 .f32) (c : Vec Ideal S2000x1 .f32) (w : Vec Ideal S128x128 .f32) (b : Vec Ideal S1x128 .f32)
    (hw : Vec Ideal S2000x1 .f32) (y : S2000x128.Idx) :
    k3_pay1 (F := Ideal) s c w b hw y = Cert.Spec.weighted (Cert.Spec.scaleCol s c) w b hw y := by
  unfold k3_pay1
  exact Cert.LibHgnnTile.weighted_tile dot_S2000x128_S128x128_S2000x128_1_0_0_1_n_n dot_plain bitsLt_bf16_f32
    shapeCasts_S2000x128_S2000x128 shapeCasts_S2000x1_S2000x1 broadcasts_S2000x1_S2000x128
    shapeCasts_S128x128_S128x128 shapeCasts_S1x128_S1x128 broadcasts_S1x128_S2000x128 broadcasts_S2000x1_S2000x128 s c w b hw y

/-! ## The finalising kernels -/

/-- A one-row matrix cast to its own shape is itself. -/
theorem k2_pay3_eq (g : Vec Ideal S1x128 .f32) : k2_pay3 (F := Ideal) g = g := shapeCast_self g shapeCasts_S1x128_S1x128
theorem k2_pay4_eq (g : Vec Ideal S1x128 .f32) : k2_pay4 (F := Ideal) g = g := shapeCast_self g shapeCasts_S1x128_S1x128
theorem k4_pay2_eq (g : Vec Ideal S1x128 .f32) : k4_pay2 (F := Ideal) g = g := shapeCast_self g shapeCasts_S1x128_S1x128
theorem k4_pay3_eq (g : Vec Ideal S1x128 .f32) : k4_pay3 (F := Ideal) g = g := shapeCast_self g shapeCasts_S1x128_S1x128

/-- The first normalisation: of the scaled segment sums plus the transformed features. -/
theorem k2_pay5_eq (s : Vec Ideal S2000x128 .f32) (c : Vec Ideal S2000x1 .f32) (xt : Vec Ideal S2000x128 .bf16)
    (g1 b1 : Vec Ideal S1x128 .f32) :
    k2_pay5 (F := Ideal) s c xt g1 b1
      = Cert.Spec.layerNorm (Cert.Spec.addM (Cert.Spec.scaleCol s c) (fun i => xt i)) g1 b1 := by
  unfold k2_pay5
  refine (Cert.LibHgnnTile.layerNorm_tile_eq reduces_S2000x128_S2000 (.inl rfl) rfl shapeCasts_S2000_S2000x1
    broadcasts_S2000x1_S2000x128 broadcasts_S1x128_S2000x128 _ _ _).trans ?_
  rw [Cert.LibHgnnTile.scaleAdd_tile, shapeCast_self, shapeCast_self]

/-- The rectifier and the second normalisation. -/
theorem k2_pay1_eq (g2 b2 : FVec Ideal S1x128 .f32) (V : FVec Ideal S2000x128 .f32) :
    k2_pay1 (F := Ideal) g2 b2 V = Cert.Spec.layerNorm (Cert.Spec.leaky V) g2 b2 := by
  unfold k2_pay1
  refine (Cert.LibHgnnTile.layerNorm_tile_eq reduces_S2000x128_S2000 (.inl rfl) rfl shapeCasts_S2000_S2000x1
    broadcasts_S2000x1_S2000x128 broadcasts_S1x128_S2000x128 _ g2 b2).trans ?_
  rw [Cert.LibHgnnTile.leaky_tile]

/-- The fused kernel's first store: normalise, rectify, normalise again. -/
theorem pay2x (s : Vec Ideal S2000x128 .f32) (c : Vec Ideal S2000x1 .f32) (xt : Vec Ideal S2000x128 .bf16)
    (g1 b1 g2 b2 : Vec Ideal S1x128 .f32) (y : S2000x128.Idx) :
    k2_pay1 (F := Ideal) (k2_pay3 g2) (k2_pay4 b2) (k2_pay5 s c xt g1 b1) y
      = Cert.Spec.finalize (Cert.Spec.addM (Cert.Spec.scaleCol s c) (fun i => xt i)) g1 b1 g2 b2 y := by
  rw [k2_pay3_eq, k2_pay4_eq, k2_pay5_eq, k2_pay1_eq]
  rfl

/-- The fused kernel's second store: the next dense layer of that value. -/
theorem pay2t (s : Vec Ideal S2000x128 .f32) (c : Vec Ideal S2000x1 .f32) (xt : Vec Ideal S2000x128 .bf16)
    (g1 b1 g2 b2 : Vec Ideal S1x128 .f32) (wn : Vec Ideal S128x128 .f32) (bn : Vec Ideal S1x128 .f32) (y : S2000x128.Idx) :
    k2_pay2 (F := Ideal) (k2_pay3 g2) (k2_pay4 b2) (k2_pay5 s c xt g1 b1) wn bn y
      = Cert.Spec.affine (Cert.Spec.finalize (Cert.Spec.addM (Cert.Spec.scaleCol s c) (fun i => xt i)) g1 b1 g2 b2) wn bn y := by
  unfold k2_pay2
  refine (Cert.LibHgnnTile.affine_tile dot_S2000x128_S128x128_S2000x128_1_0_0_1_n_n dot_plain bitsLt_bf16_f32
    shapeCasts_S128x128_S128x128 shapeCasts_S1x128_S1x128 broadcasts_S1x128_S2000x128
    (k2_pay1 (F := Ideal) (k2_pay3 g2) (k2_pay4 b2) (k2_pay5 s c xt g1 b1)) wn bn y).trans ?_
  rw [show k2_pay1 (F := Ideal) (k2_pay3 g2) (k2_pay4 b2) (k2_pay5 s c xt g1 b1)
      = Cert.Spec.finalize (Cert.Spec.addM (Cert.Spec.scaleCol s c) (fun i => xt i)) g1 b1 g2 b2
    from funext (pay2x s c xt g1 b1 g2 b2)]

/-- The last kernel's first normalisation is the same function of its own tile. -/
theorem k4_pay4_eq (s : Vec Ideal S2000x128 .f32) (c : Vec Ideal S2000x1 .f32) (xt : Vec Ideal S2000x128 .bf16)
    (g1 b1 : Vec Ideal S1x128 .f32) :
    k4_pay4 (F := Ideal) s c xt g1 b1
      = Cert.Spec.layerNorm (Cert.Spec.addM (Cert.Spec.scaleCol s c) (fun i => xt i)) g1 b1 := by
  unfold k4_pay4
  refine (Cert.LibHgnnTile.layerNorm_tile_eq reduces_S2000x128_S2000 (.inl rfl) rfl shapeCasts_S2000_S2000x1
    broadcasts_S2000x1_S2000x128 broadcasts_S1x128_S2000x128 _ _ _).trans ?_
  rw [Cert.LibHgnnTile.scaleAdd_tile, shapeCast_self, shapeCast_self]

/-- The last kernel's store: the rectifier, the second normalisation, plus the residual. -/
theorem k4_pay1_apply (g2 b2 : FVec Ideal S1x128 .f32) (V : FVec Ideal S2000x128 .f32) (prev : Vec Ideal S2000x128 .f32)
    (y : S2000x128.Idx) :
    k4_pay1 (F := Ideal) g2 b2 V prev y = Cert.Spec.layerNorm (Cert.Spec.leaky V) g2 b2 y + prev y := by
  have h := Cert.LibHgnnTile.layerNorm_tile_eq reduces_S2000x128_S2000 (.inl rfl) rfl shapeCasts_S2000_S2000x1
    broadcasts_S2000x1_S2000x128 broadcasts_S1x128_S2000x128
    (select (cmpf .oge V (broadcast S2000x128 (Scalar.ofBits (F := Ideal) .f32 0x00000000#32))) V
      (mulf (broadcast S2000x128 (Scalar.ofBits (F := Ideal) .f32 0x3E4CCCCD#32)) V)) g2 b2
  rw [Cert.LibHgnnTile.leaky_tile] at h
  unfold k4_pay1
  refine (addf_apply _ _ y).trans ?_
  exact congrArg₂ (· + ·) (congrFun h y) (congrFun (shapeCast_self prev shapeCasts_S2000x128_S2000x128) y)

/-- The last kernel stores the finalised value plus the residual. -/
theorem pay4 (s : Vec Ideal S2000x128 .f32) (c : Vec Ideal S2000x1 .f32) (xt : Vec Ideal S2000x128 .bf16)
    (g1 b1 g2 b2 : Vec Ideal S1x128 .f32) (prev : Vec Ideal S2000x128 .f32) (y : S2000x128.Idx) :
    k4_pay1 (F := Ideal) (k4_pay2 g2) (k4_pay3 b2) (k4_pay4 s c xt g1 b1) prev y
      = Cert.Spec.finalize (Cert.Spec.addM (Cert.Spec.scaleCol s c) (fun i => xt i)) g1 b1 g2 b2 y + prev y := by
  rw [k4_pay2_eq, k4_pay3_eq, k4_pay4_eq, k4_pay1_apply]
  rfl

end Cert.KernelIdeal.Pay

end
-- ==== Proof.KChain.lean ====
/-
  The contents of the buffers at each of the ten boundaries between the program's segments (a stretch of host
  operations, or a tiled region), followed forward from the launch: every buffer a later segment reads holds its stage
  value of the eleven arguments. A host stretch is read by its lemmas over any contents; a region's output array is what
  its write-backs leave, which is the specification's function of the region's input arrays; every other buffer passes
  a segment unchanged. At the end the result array holds the kernel's value of the arguments.
-/
import proofs.«120254_j65652870087174_2_alg».proof.Proof.Gen.KernelIdeal.Frame
import proofs.«120254_j65652870087174_2_alg».proof.Proof.KValues
import proofs.«120254_j65652870087174_2_alg».proof.Proof.KHost0
import proofs.«120254_j65652870087174_2_alg».proof.Proof.KHost1
import proofs.«120254_j65652870087174_2_alg».proof.Proof.KHost2
import proofs.«120254_j65652870087174_2_alg».proof.Proof.KHost3
import proofs.«120254_j65652870087174_2_alg».proof.Proof.KHost4
import proofs.«120254_j65652870087174_2_alg».proof.Proof.Region0
import proofs.«120254_j65652870087174_2_alg».proof.Proof.Region1
import proofs.«120254_j65652870087174_2_alg».proof.Proof.Region2
import proofs.«120254_j65652870087174_2_alg».proof.Proof.Region3
import proofs.«120254_j65652870087174_2_alg».proof.Proof.Region4
import proofs.«120254_j65652870087174_2_alg».proof.Proof.Payloads

set_option maxRecDepth 16384

noncomputable section

namespace Cert.KernelIdeal.KChain

open Cert.KernelIdeal Cert.KernelIdeal.Gen Cert.KernelIdeal.KStages Cert.KernelIdeal.KValues Cert.KernelIdeal.KHost Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 1 -/

theorem W1_v1 : W1 (F := Ideal) m ρ c (Proc.devRef .tc main_v1) = idx0 (m ((c : Thread nD τ).loc main_arg1)) :=
  h0_v1 (W0 (F := Ideal) m ρ c)
theorem W1_v3 : W1 (F := Ideal) m ρ c (Proc.devRef .tc main_v3) = idx1 (m ((c : Thread nD τ).loc main_arg1)) :=
  h0_v3 (W0 (F := Ideal) m ρ c)
theorem W1_v15 : W1 (F := Ideal) m ρ c (Proc.devRef .tc main_v15) = invNode (m ((c : Thread nD τ).loc main_arg1)) :=
  h0_v15 (W0 (F := Ideal) m ρ c)
theorem W1_v20 : W1 (F := Ideal) m ρ c (Proc.devRef .tc main_v20) = invHe (m ((c : Thread nD τ).loc main_arg1)) :=
  h0_v20 (W0 (F := Ideal) m ρ c)
theorem W1_v21 : W1 (F := Ideal) m ρ c (Proc.devRef .tc main_v21) = hwCol (m ((c : Thread nD τ).loc main_arg2)) :=
  h0_v21 (W0 (F := Ideal) m ρ c)
theorem W1_v23 : W1 (F := Ideal) m ρ c (Proc.devRef .tc main_v23) = mat0 (m ((c : Thread nD τ).loc main_arg3)) :=
  h0_v23 (W0 (F := Ideal) m ρ c)
theorem W1_v26 : W1 (F := Ideal) m ρ c (Proc.devRef .tc main_v26) = row0 (m ((c : Thread nD τ).loc main_arg4)) :=
  h0_v26 (W0 (F := Ideal) m ρ c)
theorem W1_arg0 : W1 (F := Ideal) m ρ c (Proc.devRef .tc main_arg0) = m ((c : Thread nD τ).loc main_arg0) :=
  h0_keep_arg0 (W0 (F := Ideal) m ρ c)
theorem W1_arg3 : W1 (F := Ideal) m ρ c (Proc.devRef .tc main_arg3) = m ((c : Thread nD τ).loc main_arg3) :=
  h0_keep_arg3 (W0 (F := Ideal) m ρ c)
theorem W1_arg4 : W1 (F := Ideal) m ρ c (Proc.devRef .tc main_arg4) = m ((c : Thread nD τ).loc main_arg4) :=
  h0_keep_arg4 (W0 (F := Ideal) m ρ c)
theorem W1_arg5 : W1 (F := Ideal) m ρ c (Proc.devRef .tc main_arg5) = m ((c : Thread nD τ).loc main_arg5) :=
  h0_keep_arg5 (W0 (F := Ideal) m ρ c)
theorem W1_arg6 : W1 (F := Ideal) m ρ c (Proc.devRef .tc main_arg6) = m ((c : Thread nD τ).loc main_arg6) :=
  h0_keep_arg6 (W0 (F := Ideal) m ρ c)
theorem W1_arg7 : W1 (F := Ideal) m ρ c (Proc.devRef .tc main_arg7) = m ((c : Thread nD τ).loc main_arg7) :=
  h0_keep_arg7 (W0 (F := Ideal) m ρ c)
theorem W1_arg8 : W1 (F := Ideal) m ρ c (Proc.devRef .tc main_arg8) = m ((c : Thread nD τ).loc main_arg8) :=
  h0_keep_arg8 (W0 (F := Ideal) m ρ c)
theorem W1_arg9 : W1 (F := Ideal) m ρ c (Proc.devRef .tc main_arg9) = m ((c : Thread nD τ).loc main_arg9) :=
  h0_keep_arg9 (W0 (F := Ideal) m ρ c)
theorem W1_arg10 : W1 (F := Ideal) m ρ c (Proc.devRef .tc main_arg10) = m ((c : Thread nD τ).loc main_arg10) :=
  h0_keep_arg10 (W0 (F := Ideal) m ρ c)

theorem V1_arg0 : V1 (F := Ideal) m ρ c main_arg0 = m ((c : Thread nD τ).loc main_arg0) := W1_arg0 m ρ c
theorem V1_v23 : V1 (F := Ideal) m ρ c main_v23 = mat0 (m ((c : Thread nD τ).loc main_arg3)) := W1_v23 m ρ c
theorem V1_v26 : V1 (F := Ideal) m ρ c main_v26 = row0 (m ((c : Thread nD τ).loc main_arg4)) := W1_v26 m ρ c

/-! ## Boundary 2 -/

theorem W2_v27 : W2 (F := Ideal) m ρ c (Proc.devRef .tc main_v27) = xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W2_arr m ρ c 3).trans ((final0 Cert.KernelIdeal.Pay.pay0 (V1 (F := Ideal) m ρ) c).trans (by
    rw [V1_arg0 m ρ c, V1_v23 m ρ c, V1_v26 m ρ c] <;> rfl))
theorem W2_v1 : W2 (F := Ideal) m ρ c (Proc.devRef .tc main_v1) = idx0 (m ((c : Thread nD τ).loc main_arg1)) :=
  (W2_of_ne m ρ c main_v1 (by decide)).trans (W1_v1 m ρ c)
theorem W2_v3 : W2 (F := Ideal) m ρ c (Proc.devRef .tc main_v3) = idx1 (m ((c : Thread nD τ).loc main_arg1)) :=
  (W2_of_ne m ρ c main_v3 (by decide)).trans (W1_v3 m ρ c)
theorem W2_v15 : W2 (F := Ideal) m ρ c (Proc.devRef .tc main_v15) = invNode (m ((c : Thread nD τ).loc main_arg1)) :=
  (W2_of_ne m ρ c main_v15 (by decide)).trans (W1_v15 m ρ c)
theorem W2_v20 : W2 (F := Ideal) m ρ c (Proc.devRef .tc main_v20) = invHe (m ((c : Thread nD τ).loc main_arg1)) :=
  (W2_of_ne m ρ c main_v20 (by decide)).trans (W1_v20 m ρ c)
theorem W2_v21 : W2 (F := Ideal) m ρ c (Proc.devRef .tc main_v21) = hwCol (m ((c : Thread nD τ).loc main_arg2)) :=
  (W2_of_ne m ρ c main_v21 (by decide)).trans (W1_v21 m ρ c)
theorem W2_arg3 : W2 (F := Ideal) m ρ c (Proc.devRef .tc main_arg3) = m ((c : Thread nD τ).loc main_arg3) :=
  (W2_of_ne m ρ c main_arg3 (by decide)).trans (W1_arg3 m ρ c)
theorem W2_arg4 : W2 (F := Ideal) m ρ c (Proc.devRef .tc main_arg4) = m ((c : Thread nD τ).loc main_arg4) :=
  (W2_of_ne m ρ c main_arg4 (by decide)).trans (W1_arg4 m ρ c)
theorem W2_arg5 : W2 (F := Ideal) m ρ c (Proc.devRef .tc main_arg5) = m ((c : Thread nD τ).loc main_arg5) :=
  (W2_of_ne m ρ c main_arg5 (by decide)).trans (W1_arg5 m ρ c)
theorem W2_arg6 : W2 (F := Ideal) m ρ c (Proc.devRef .tc main_arg6) = m ((c : Thread nD τ).loc main_arg6) :=
  (W2_of_ne m ρ c main_arg6 (by decide)).trans (W1_arg6 m ρ c)
theorem W2_arg7 : W2 (F := Ideal) m ρ c (Proc.devRef .tc main_arg7) = m ((c : Thread nD τ).loc main_arg7) :=
  (W2_of_ne m ρ c main_arg7 (by decide)).trans (W1_arg7 m ρ c)
theorem W2_arg8 : W2 (F := Ideal) m ρ c (Proc.devRef .tc main_arg8) = m ((c : Thread nD τ).loc main_arg8) :=
  (W2_of_ne m ρ c main_arg8 (by decide)).trans (W1_arg8 m ρ c)
theorem W2_arg9 : W2 (F := Ideal) m ρ c (Proc.devRef .tc main_arg9) = m ((c : Thread nD τ).loc main_arg9) :=
  (W2_of_ne m ρ c main_arg9 (by decide)).trans (W1_arg9 m ρ c)
theorem W2_arg10 : W2 (F := Ideal) m ρ c (Proc.devRef .tc main_arg10) = m ((c : Thread nD τ).loc main_arg10) :=
  (W2_of_ne m ρ c main_arg10 (by decide)).trans (W1_arg10 m ρ c)

/-! ## Boundary 3 -/

theorem W3_v38 : W3 (F := Ideal) m ρ c (Proc.devRef .tc main_v38) = toEdges (xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) :=
  (h1_v38 (W2 (F := Ideal) m ρ c)).trans (by rw [W2_v27 m ρ c, W2_v1 m ρ c, W2_v3 m ρ c])
theorem W3_v41 : W3 (F := Ideal) m ρ c (Proc.devRef .tc main_v41) = row0 (m ((c : Thread nD τ).loc main_arg7)) :=
  (h1_v41 (W2 (F := Ideal) m ρ c)).trans (by rw [W2_arg7 m ρ c])
theorem W3_v44 : W3 (F := Ideal) m ρ c (Proc.devRef .tc main_v44) = row0 (m ((c : Thread nD τ).loc main_arg8)) :=
  (h1_v44 (W2 (F := Ideal) m ρ c)).trans (by rw [W2_arg8 m ρ c])
theorem W3_v47 : W3 (F := Ideal) m ρ c (Proc.devRef .tc main_v47) = row0 (m ((c : Thread nD τ).loc main_arg9)) :=
  (h1_v47 (W2 (F := Ideal) m ρ c)).trans (by rw [W2_arg9 m ρ c])
theorem W3_v50 : W3 (F := Ideal) m ρ c (Proc.devRef .tc main_v50) = row0 (m ((c : Thread nD τ).loc main_arg10)) :=
  (h1_v50 (W2 (F := Ideal) m ρ c)).trans (by rw [W2_arg10 m ρ c])
theorem W3_v52 : W3 (F := Ideal) m ρ c (Proc.devRef .tc main_v52) = mat0 (m ((c : Thread nD τ).loc main_arg5)) :=
  (h1_v52 (W2 (F := Ideal) m ρ c)).trans (by rw [W2_arg5 m ρ c])
theorem W3_v55 : W3 (F := Ideal) m ρ c (Proc.devRef .tc main_v55) = row0 (m ((c : Thread nD τ).loc main_arg6)) :=
  (h1_v55 (W2 (F := Ideal) m ρ c)).trans (by rw [W2_arg6 m ρ c])
theorem W3_v1 : W3 (F := Ideal) m ρ c (Proc.devRef .tc main_v1) = idx0 (m ((c : Thread nD τ).loc main_arg1)) :=
  (h1_keep_v1 (W2 (F := Ideal) m ρ c)).trans (W2_v1 m ρ c)
theorem W3_v3 : W3 (F := Ideal) m ρ c (Proc.devRef .tc main_v3) = idx1 (m ((c : Thread nD τ).loc main_arg1)) :=
  (h1_keep_v3 (W2 (F := Ideal) m ρ c)).trans (W2_v3 m ρ c)
theorem W3_v15 : W3 (F := Ideal) m ρ c (Proc.devRef .tc main_v15) = invNode (m ((c : Thread nD τ).loc main_arg1)) :=
  (h1_keep_v15 (W2 (F := Ideal) m ρ c)).trans (W2_v15 m ρ c)
theorem W3_v20 : W3 (F := Ideal) m ρ c (Proc.devRef .tc main_v20) = invHe (m ((c : Thread nD τ).loc main_arg1)) :=
  (h1_keep_v20 (W2 (F := Ideal) m ρ c)).trans (W2_v20 m ρ c)
theorem W3_v21 : W3 (F := Ideal) m ρ c (Proc.devRef .tc main_v21) = hwCol (m ((c : Thread nD τ).loc main_arg2)) :=
  (h1_keep_v21 (W2 (F := Ideal) m ρ c)).trans (W2_v21 m ρ c)
theorem W3_v27 : W3 (F := Ideal) m ρ c (Proc.devRef .tc main_v27) = xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (h1_keep_v27 (W2 (F := Ideal) m ρ c)).trans (W2_v27 m ρ c)
theorem W3_arg3 : W3 (F := Ideal) m ρ c (Proc.devRef .tc main_arg3) = m ((c : Thread nD τ).loc main_arg3) :=
  (h1_keep_arg3 (W2 (F := Ideal) m ρ c)).trans (W2_arg3 m ρ c)
theorem W3_arg4 : W3 (F := Ideal) m ρ c (Proc.devRef .tc main_arg4) = m ((c : Thread nD τ).loc main_arg4) :=
  (h1_keep_arg4 (W2 (F := Ideal) m ρ c)).trans (W2_arg4 m ρ c)
theorem W3_arg5 : W3 (F := Ideal) m ρ c (Proc.devRef .tc main_arg5) = m ((c : Thread nD τ).loc main_arg5) :=
  (h1_keep_arg5 (W2 (F := Ideal) m ρ c)).trans (W2_arg5 m ρ c)
theorem W3_arg6 : W3 (F := Ideal) m ρ c (Proc.devRef .tc main_arg6) = m ((c : Thread nD τ).loc main_arg6) :=
  (h1_keep_arg6 (W2 (F := Ideal) m ρ c)).trans (W2_arg6 m ρ c)
theorem W3_arg7 : W3 (F := Ideal) m ρ c (Proc.devRef .tc main_arg7) = m ((c : Thread nD τ).loc main_arg7) :=
  (h1_keep_arg7 (W2 (F := Ideal) m ρ c)).trans (W2_arg7 m ρ c)
theorem W3_arg8 : W3 (F := Ideal) m ρ c (Proc.devRef .tc main_arg8) = m ((c : Thread nD τ).loc main_arg8) :=
  (h1_keep_arg8 (W2 (F := Ideal) m ρ c)).trans (W2_arg8 m ρ c)
theorem W3_arg9 : W3 (F := Ideal) m ρ c (Proc.devRef .tc main_arg9) = m ((c : Thread nD τ).loc main_arg9) :=
  (h1_keep_arg9 (W2 (F := Ideal) m ρ c)).trans (W2_arg9 m ρ c)
theorem W3_arg10 : W3 (F := Ideal) m ρ c (Proc.devRef .tc main_arg10) = m ((c : Thread nD τ).loc main_arg10) :=
  (h1_keep_arg10 (W2 (F := Ideal) m ρ c)).trans (W2_arg10 m ρ c)

theorem V3_v38 : V3 (F := Ideal) m ρ c main_v38 = toEdges (xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) := W3_v38 m ρ c
theorem V3_v20 : V3 (F := Ideal) m ρ c main_v20 = invHe (m ((c : Thread nD τ).loc main_arg1)) := W3_v20 m ρ c
theorem V3_v52 : V3 (F := Ideal) m ρ c main_v52 = mat0 (m ((c : Thread nD τ).loc main_arg5)) := W3_v52 m ρ c
theorem V3_v55 : V3 (F := Ideal) m ρ c main_v55 = row0 (m ((c : Thread nD τ).loc main_arg6)) := W3_v55 m ρ c
theorem V3_v21 : V3 (F := Ideal) m ρ c main_v21 = hwCol (m ((c : Thread nD τ).loc main_arg2)) := W3_v21 m ρ c

/-! ## Boundary 4 -/

theorem W4_v56 : W4 (F := Ideal) m ρ c (Proc.devRef .tc main_v56) = he0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 5).trans ((final1 Cert.KernelIdeal.Pay.pay1 (V3 (F := Ideal) m ρ) c).trans (by
    rw [V3_v38 m ρ c, V3_v20 m ρ c, V3_v52 m ρ c, V3_v55 m ρ c, V3_v21 m ρ c] <;> rfl))
theorem W4_v1 : W4 (F := Ideal) m ρ c (Proc.devRef .tc main_v1) = idx0 (m ((c : Thread nD τ).loc main_arg1)) :=
  (W4_of_ne m ρ c main_v1 (by decide)).trans (W3_v1 m ρ c)
theorem W4_v3 : W4 (F := Ideal) m ρ c (Proc.devRef .tc main_v3) = idx1 (m ((c : Thread nD τ).loc main_arg1)) :=
  (W4_of_ne m ρ c main_v3 (by decide)).trans (W3_v3 m ρ c)
theorem W4_v15 : W4 (F := Ideal) m ρ c (Proc.devRef .tc main_v15) = invNode (m ((c : Thread nD τ).loc main_arg1)) :=
  (W4_of_ne m ρ c main_v15 (by decide)).trans (W3_v15 m ρ c)
theorem W4_v20 : W4 (F := Ideal) m ρ c (Proc.devRef .tc main_v20) = invHe (m ((c : Thread nD τ).loc main_arg1)) :=
  (W4_arr m ρ c 1).trans ((((dat1 (V3 (F := Ideal) m ρ) c).arrAt_in 1 rfl _).trans (A_eq1 (V3 (F := Ideal) m ρ) c 1)).trans (W3_v20 m ρ c))
theorem W4_v21 : W4 (F := Ideal) m ρ c (Proc.devRef .tc main_v21) = hwCol (m ((c : Thread nD τ).loc main_arg2)) :=
  (W4_arr m ρ c 4).trans ((((dat1 (V3 (F := Ideal) m ρ) c).arrAt_in 4 rfl _).trans (A_eq1 (V3 (F := Ideal) m ρ) c 4)).trans (W3_v21 m ρ c))
theorem W4_v27 : W4 (F := Ideal) m ρ c (Proc.devRef .tc main_v27) = xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_of_ne m ρ c main_v27 (by decide)).trans (W3_v27 m ρ c)
theorem W4_v41 : W4 (F := Ideal) m ρ c (Proc.devRef .tc main_v41) = row0 (m ((c : Thread nD τ).loc main_arg7)) :=
  (W4_of_ne m ρ c main_v41 (by decide)).trans (W3_v41 m ρ c)
theorem W4_v44 : W4 (F := Ideal) m ρ c (Proc.devRef .tc main_v44) = row0 (m ((c : Thread nD τ).loc main_arg8)) :=
  (W4_of_ne m ρ c main_v44 (by decide)).trans (W3_v44 m ρ c)
theorem W4_v47 : W4 (F := Ideal) m ρ c (Proc.devRef .tc main_v47) = row0 (m ((c : Thread nD τ).loc main_arg9)) :=
  (W4_of_ne m ρ c main_v47 (by decide)).trans (W3_v47 m ρ c)
theorem W4_v50 : W4 (F := Ideal) m ρ c (Proc.devRef .tc main_v50) = row0 (m ((c : Thread nD τ).loc main_arg10)) :=
  (W4_of_ne m ρ c main_v50 (by decide)).trans (W3_v50 m ρ c)
theorem W4_arg3 : W4 (F := Ideal) m ρ c (Proc.devRef .tc main_arg3) = m ((c : Thread nD τ).loc main_arg3) :=
  (W4_of_ne m ρ c main_arg3 (by decide)).trans (W3_arg3 m ρ c)
theorem W4_arg4 : W4 (F := Ideal) m ρ c (Proc.devRef .tc main_arg4) = m ((c : Thread nD τ).loc main_arg4) :=
  (W4_of_ne m ρ c main_arg4 (by decide)).trans (W3_arg4 m ρ c)
theorem W4_arg5 : W4 (F := Ideal) m ρ c (Proc.devRef .tc main_arg5) = m ((c : Thread nD τ).loc main_arg5) :=
  (W4_of_ne m ρ c main_arg5 (by decide)).trans (W3_arg5 m ρ c)
theorem W4_arg6 : W4 (F := Ideal) m ρ c (Proc.devRef .tc main_arg6) = m ((c : Thread nD τ).loc main_arg6) :=
  (W4_of_ne m ρ c main_arg6 (by decide)).trans (W3_arg6 m ρ c)
theorem W4_arg7 : W4 (F := Ideal) m ρ c (Proc.devRef .tc main_arg7) = m ((c : Thread nD τ).loc main_arg7) :=
  (W4_of_ne m ρ c main_arg7 (by decide)).trans (W3_arg7 m ρ c)
theorem W4_arg8 : W4 (F := Ideal) m ρ c (Proc.devRef .tc main_arg8) = m ((c : Thread nD τ).loc main_arg8) :=
  (W4_of_ne m ρ c main_arg8 (by decide)).trans (W3_arg8 m ρ c)
theorem W4_arg9 : W4 (F := Ideal) m ρ c (Proc.devRef .tc main_arg9) = m ((c : Thread nD τ).loc main_arg9) :=
  (W4_of_ne m ρ c main_arg9 (by decide)).trans (W3_arg9 m ρ c)
theorem W4_arg10 : W4 (F := Ideal) m ρ c (Proc.devRef .tc main_arg10) = m ((c : Thread nD τ).loc main_arg10) :=
  (W4_of_ne m ρ c main_arg10 (by decide)).trans (W3_arg10 m ρ c)

/-! ## Boundary 5 -/

theorem W5_v67 : W5 (F := Ideal) m ρ c (Proc.devRef .tc main_v67) = toNodes (he0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) :=
  (h2_v67 (W4 (F := Ideal) m ρ c)).trans (by rw [W4_v56 m ρ c, W4_v1 m ρ c, W4_v3 m ρ c])
theorem W5_v69 : W5 (F := Ideal) m ρ c (Proc.devRef .tc main_v69) = mat1 (m ((c : Thread nD τ).loc main_arg3)) :=
  (h2_v69 (W4 (F := Ideal) m ρ c)).trans (by rw [W4_arg3 m ρ c])
theorem W5_v72 : W5 (F := Ideal) m ρ c (Proc.devRef .tc main_v72) = row1 (m ((c : Thread nD τ).loc main_arg4)) :=
  (h2_v72 (W4 (F := Ideal) m ρ c)).trans (by rw [W4_arg4 m ρ c])
theorem W5_v1 : W5 (F := Ideal) m ρ c (Proc.devRef .tc main_v1) = idx0 (m ((c : Thread nD τ).loc main_arg1)) :=
  (h2_keep_v1 (W4 (F := Ideal) m ρ c)).trans (W4_v1 m ρ c)
theorem W5_v3 : W5 (F := Ideal) m ρ c (Proc.devRef .tc main_v3) = idx1 (m ((c : Thread nD τ).loc main_arg1)) :=
  (h2_keep_v3 (W4 (F := Ideal) m ρ c)).trans (W4_v3 m ρ c)
theorem W5_v15 : W5 (F := Ideal) m ρ c (Proc.devRef .tc main_v15) = invNode (m ((c : Thread nD τ).loc main_arg1)) :=
  (h2_keep_v15 (W4 (F := Ideal) m ρ c)).trans (W4_v15 m ρ c)
theorem W5_v20 : W5 (F := Ideal) m ρ c (Proc.devRef .tc main_v20) = invHe (m ((c : Thread nD τ).loc main_arg1)) :=
  (h2_keep_v20 (W4 (F := Ideal) m ρ c)).trans (W4_v20 m ρ c)
theorem W5_v21 : W5 (F := Ideal) m ρ c (Proc.devRef .tc main_v21) = hwCol (m ((c : Thread nD τ).loc main_arg2)) :=
  (h2_keep_v21 (W4 (F := Ideal) m ρ c)).trans (W4_v21 m ρ c)
theorem W5_v27 : W5 (F := Ideal) m ρ c (Proc.devRef .tc main_v27) = xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (h2_keep_v27 (W4 (F := Ideal) m ρ c)).trans (W4_v27 m ρ c)
theorem W5_v41 : W5 (F := Ideal) m ρ c (Proc.devRef .tc main_v41) = row0 (m ((c : Thread nD τ).loc main_arg7)) :=
  (h2_keep_v41 (W4 (F := Ideal) m ρ c)).trans (W4_v41 m ρ c)
theorem W5_v44 : W5 (F := Ideal) m ρ c (Proc.devRef .tc main_v44) = row0 (m ((c : Thread nD τ).loc main_arg8)) :=
  (h2_keep_v44 (W4 (F := Ideal) m ρ c)).trans (W4_v44 m ρ c)
theorem W5_v47 : W5 (F := Ideal) m ρ c (Proc.devRef .tc main_v47) = row0 (m ((c : Thread nD τ).loc main_arg9)) :=
  (h2_keep_v47 (W4 (F := Ideal) m ρ c)).trans (W4_v47 m ρ c)
theorem W5_v50 : W5 (F := Ideal) m ρ c (Proc.devRef .tc main_v50) = row0 (m ((c : Thread nD τ).loc main_arg10)) :=
  (h2_keep_v50 (W4 (F := Ideal) m ρ c)).trans (W4_v50 m ρ c)
theorem W5_arg5 : W5 (F := Ideal) m ρ c (Proc.devRef .tc main_arg5) = m ((c : Thread nD τ).loc main_arg5) :=
  (h2_keep_arg5 (W4 (F := Ideal) m ρ c)).trans (W4_arg5 m ρ c)
theorem W5_arg6 : W5 (F := Ideal) m ρ c (Proc.devRef .tc main_arg6) = m ((c : Thread nD τ).loc main_arg6) :=
  (h2_keep_arg6 (W4 (F := Ideal) m ρ c)).trans (W4_arg6 m ρ c)
theorem W5_arg7 : W5 (F := Ideal) m ρ c (Proc.devRef .tc main_arg7) = m ((c : Thread nD τ).loc main_arg7) :=
  (h2_keep_arg7 (W4 (F := Ideal) m ρ c)).trans (W4_arg7 m ρ c)
theorem W5_arg8 : W5 (F := Ideal) m ρ c (Proc.devRef .tc main_arg8) = m ((c : Thread nD τ).loc main_arg8) :=
  (h2_keep_arg8 (W4 (F := Ideal) m ρ c)).trans (W4_arg8 m ρ c)
theorem W5_arg9 : W5 (F := Ideal) m ρ c (Proc.devRef .tc main_arg9) = m ((c : Thread nD τ).loc main_arg9) :=
  (h2_keep_arg9 (W4 (F := Ideal) m ρ c)).trans (W4_arg9 m ρ c)
theorem W5_arg10 : W5 (F := Ideal) m ρ c (Proc.devRef .tc main_arg10) = m ((c : Thread nD τ).loc main_arg10) :=
  (h2_keep_arg10 (W4 (F := Ideal) m ρ c)).trans (W4_arg10 m ρ c)

theorem V5_v67 : V5 (F := Ideal) m ρ c main_v67 = toNodes (he0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) := W5_v67 m ρ c
theorem V5_v15 : V5 (F := Ideal) m ρ c main_v15 = invNode (m ((c : Thread nD τ).loc main_arg1)) := W5_v15 m ρ c
theorem V5_v27 : V5 (F := Ideal) m ρ c main_v27 = xt0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := W5_v27 m ρ c
theorem V5_v41 : V5 (F := Ideal) m ρ c main_v41 = row0 (m ((c : Thread nD τ).loc main_arg7)) := W5_v41 m ρ c
theorem V5_v44 : V5 (F := Ideal) m ρ c main_v44 = row0 (m ((c : Thread nD τ).loc main_arg8)) := W5_v44 m ρ c
theorem V5_v47 : V5 (F := Ideal) m ρ c main_v47 = row0 (m ((c : Thread nD τ).loc main_arg9)) := W5_v47 m ρ c
theorem V5_v50 : V5 (F := Ideal) m ρ c main_v50 = row0 (m ((c : Thread nD τ).loc main_arg10)) := W5_v50 m ρ c
theorem V5_v69 : V5 (F := Ideal) m ρ c main_v69 = mat1 (m ((c : Thread nD τ).loc main_arg3)) := W5_v69 m ρ c
theorem V5_v72 : V5 (F := Ideal) m ρ c main_v72 = row1 (m ((c : Thread nD τ).loc main_arg4)) := W5_v72 m ρ c

/-! ## Boundary 6 -/

theorem W6_v73_0 : W6 (F := Ideal) m ρ c (Proc.devRef .tc main_v73_0) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 9).trans ((final2x Cert.KernelIdeal.Pay.pay2x (V5 (F := Ideal) m ρ) c).trans (by
    rw [V5_v67 m ρ c, V5_v15 m ρ c, V5_v27 m ρ c, V5_v41 m ρ c, V5_v44 m ρ c, V5_v47 m ρ c, V5_v50 m ρ c] <;> rfl))
theorem W6_v73_1 : W6 (F := Ideal) m ρ c (Proc.devRef .tc main_v73_1) = xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 10).trans ((final2t Cert.KernelIdeal.Pay.pay2t (V5 (F := Ideal) m ρ) c).trans (by
    rw [V5_v67 m ρ c, V5_v15 m ρ c, V5_v27 m ρ c, V5_v41 m ρ c, V5_v44 m ρ c, V5_v47 m ρ c, V5_v50 m ρ c, V5_v69 m ρ c, V5_v72 m ρ c] <;> rfl))
theorem W6_v1 : W6 (F := Ideal) m ρ c (Proc.devRef .tc main_v1) = idx0 (m ((c : Thread nD τ).loc main_arg1)) :=
  (W6_of_ne m ρ c main_v1 (by decide)).trans (W5_v1 m ρ c)
theorem W6_v3 : W6 (F := Ideal) m ρ c (Proc.devRef .tc main_v3) = idx1 (m ((c : Thread nD τ).loc main_arg1)) :=
  (W6_of_ne m ρ c main_v3 (by decide)).trans (W5_v3 m ρ c)
theorem W6_v15 : W6 (F := Ideal) m ρ c (Proc.devRef .tc main_v15) = invNode (m ((c : Thread nD τ).loc main_arg1)) :=
  (W6_arr m ρ c 1).trans ((((dat2 (V5 (F := Ideal) m ρ) c).arrAt_in 1 rfl _).trans (A_eq2 (V5 (F := Ideal) m ρ) c 1)).trans (W5_v15 m ρ c))
theorem W6_v20 : W6 (F := Ideal) m ρ c (Proc.devRef .tc main_v20) = invHe (m ((c : Thread nD τ).loc main_arg1)) :=
  (W6_of_ne m ρ c main_v20 (by decide)).trans (W5_v20 m ρ c)
theorem W6_v21 : W6 (F := Ideal) m ρ c (Proc.devRef .tc main_v21) = hwCol (m ((c : Thread nD τ).loc main_arg2)) :=
  (W6_of_ne m ρ c main_v21 (by decide)).trans (W5_v21 m ρ c)
theorem W6_arg5 : W6 (F := Ideal) m ρ c (Proc.devRef .tc main_arg5) = m ((c : Thread nD τ).loc main_arg5) :=
  (W6_of_ne m ρ c main_arg5 (by decide)).trans (W5_arg5 m ρ c)
theorem W6_arg6 : W6 (F := Ideal) m ρ c (Proc.devRef .tc main_arg6) = m ((c : Thread nD τ).loc main_arg6) :=
  (W6_of_ne m ρ c main_arg6 (by decide)).trans (W5_arg6 m ρ c)
theorem W6_arg7 : W6 (F := Ideal) m ρ c (Proc.devRef .tc main_arg7) = m ((c : Thread nD τ).loc main_arg7) :=
  (W6_of_ne m ρ c main_arg7 (by decide)).trans (W5_arg7 m ρ c)
theorem W6_arg8 : W6 (F := Ideal) m ρ c (Proc.devRef .tc main_arg8) = m ((c : Thread nD τ).loc main_arg8) :=
  (W6_of_ne m ρ c main_arg8 (by decide)).trans (W5_arg8 m ρ c)
theorem W6_arg9 : W6 (F := Ideal) m ρ c (Proc.devRef .tc main_arg9) = m ((c : Thread nD τ).loc main_arg9) :=
  (W6_of_ne m ρ c main_arg9 (by decide)).trans (W5_arg9 m ρ c)
theorem W6_arg10 : W6 (F := Ideal) m ρ c (Proc.devRef .tc main_arg10) = m ((c : Thread nD τ).loc main_arg10) :=
  (W6_of_ne m ρ c main_arg10 (by decide)).trans (W5_arg10 m ρ c)

/-! ## Boundary 7 -/

theorem W7_v84 : W7 (F := Ideal) m ρ c (Proc.devRef .tc main_v84) = toEdges (xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) :=
  (h3_v84 (W6 (F := Ideal) m ρ c)).trans (by rw [W6_v73_1 m ρ c, W6_v1 m ρ c, W6_v3 m ρ c])
theorem W7_v87 : W7 (F := Ideal) m ρ c (Proc.devRef .tc main_v87) = row1 (m ((c : Thread nD τ).loc main_arg7)) :=
  (h3_v87 (W6 (F := Ideal) m ρ c)).trans (by rw [W6_arg7 m ρ c])
theorem W7_v90 : W7 (F := Ideal) m ρ c (Proc.devRef .tc main_v90) = row1 (m ((c : Thread nD τ).loc main_arg8)) :=
  (h3_v90 (W6 (F := Ideal) m ρ c)).trans (by rw [W6_arg8 m ρ c])
theorem W7_v93 : W7 (F := Ideal) m ρ c (Proc.devRef .tc main_v93) = row1 (m ((c : Thread nD τ).loc main_arg9)) :=
  (h3_v93 (W6 (F := Ideal) m ρ c)).trans (by rw [W6_arg9 m ρ c])
theorem W7_v96 : W7 (F := Ideal) m ρ c (Proc.devRef .tc main_v96) = row1 (m ((c : Thread nD τ).loc main_arg10)) :=
  (h3_v96 (W6 (F := Ideal) m ρ c)).trans (by rw [W6_arg10 m ρ c])
theorem W7_v98 : W7 (F := Ideal) m ρ c (Proc.devRef .tc main_v98) = mat1 (m ((c : Thread nD τ).loc main_arg5)) :=
  (h3_v98 (W6 (F := Ideal) m ρ c)).trans (by rw [W6_arg5 m ρ c])
theorem W7_v101 : W7 (F := Ideal) m ρ c (Proc.devRef .tc main_v101) = row1 (m ((c : Thread nD τ).loc main_arg6)) :=
  (h3_v101 (W6 (F := Ideal) m ρ c)).trans (by rw [W6_arg6 m ρ c])
theorem W7_v1 : W7 (F := Ideal) m ρ c (Proc.devRef .tc main_v1) = idx0 (m ((c : Thread nD τ).loc main_arg1)) :=
  (h3_keep_v1 (W6 (F := Ideal) m ρ c)).trans (W6_v1 m ρ c)
theorem W7_v3 : W7 (F := Ideal) m ρ c (Proc.devRef .tc main_v3) = idx1 (m ((c : Thread nD τ).loc main_arg1)) :=
  (h3_keep_v3 (W6 (F := Ideal) m ρ c)).trans (W6_v3 m ρ c)
theorem W7_v15 : W7 (F := Ideal) m ρ c (Proc.devRef .tc main_v15) = invNode (m ((c : Thread nD τ).loc main_arg1)) :=
  (h3_keep_v15 (W6 (F := Ideal) m ρ c)).trans (W6_v15 m ρ c)
theorem W7_v20 : W7 (F := Ideal) m ρ c (Proc.devRef .tc main_v20) = invHe (m ((c : Thread nD τ).loc main_arg1)) :=
  (h3_keep_v20 (W6 (F := Ideal) m ρ c)).trans (W6_v20 m ρ c)
theorem W7_v21 : W7 (F := Ideal) m ρ c (Proc.devRef .tc main_v21) = hwCol (m ((c : Thread nD τ).loc main_arg2)) :=
  (h3_keep_v21 (W6 (F := Ideal) m ρ c)).trans (W6_v21 m ρ c)
theorem W7_v73_0 : W7 (F := Ideal) m ρ c (Proc.devRef .tc main_v73_0) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (h3_keep_v73_0 (W6 (F := Ideal) m ρ c)).trans (W6_v73_0 m ρ c)
theorem W7_v73_1 : W7 (F := Ideal) m ρ c (Proc.devRef .tc main_v73_1) = xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (h3_keep_v73_1 (W6 (F := Ideal) m ρ c)).trans (W6_v73_1 m ρ c)

theorem V7_v84 : V7 (F := Ideal) m ρ c main_v84 = toEdges (xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) := W7_v84 m ρ c
theorem V7_v20 : V7 (F := Ideal) m ρ c main_v20 = invHe (m ((c : Thread nD τ).loc main_arg1)) := W7_v20 m ρ c
theorem V7_v98 : V7 (F := Ideal) m ρ c main_v98 = mat1 (m ((c : Thread nD τ).loc main_arg5)) := W7_v98 m ρ c
theorem V7_v101 : V7 (F := Ideal) m ρ c main_v101 = row1 (m ((c : Thread nD τ).loc main_arg6)) := W7_v101 m ρ c
theorem V7_v21 : V7 (F := Ideal) m ρ c main_v21 = hwCol (m ((c : Thread nD τ).loc main_arg2)) := W7_v21 m ρ c

/-! ## Boundary 8 -/

theorem W8_v102 : W8 (F := Ideal) m ρ c (Proc.devRef .tc main_v102) = he1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 5).trans ((final3 Cert.KernelIdeal.Pay.pay3 (V7 (F := Ideal) m ρ) c).trans (by
    rw [V7_v84 m ρ c, V7_v20 m ρ c, V7_v98 m ρ c, V7_v101 m ρ c, V7_v21 m ρ c] <;> rfl))
theorem W8_v1 : W8 (F := Ideal) m ρ c (Proc.devRef .tc main_v1) = idx0 (m ((c : Thread nD τ).loc main_arg1)) :=
  (W8_of_ne m ρ c main_v1 (by decide)).trans (W7_v1 m ρ c)
theorem W8_v3 : W8 (F := Ideal) m ρ c (Proc.devRef .tc main_v3) = idx1 (m ((c : Thread nD τ).loc main_arg1)) :=
  (W8_of_ne m ρ c main_v3 (by decide)).trans (W7_v3 m ρ c)
theorem W8_v15 : W8 (F := Ideal) m ρ c (Proc.devRef .tc main_v15) = invNode (m ((c : Thread nD τ).loc main_arg1)) :=
  (W8_of_ne m ρ c main_v15 (by decide)).trans (W7_v15 m ρ c)
theorem W8_v73_0 : W8 (F := Ideal) m ρ c (Proc.devRef .tc main_v73_0) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_of_ne m ρ c main_v73_0 (by decide)).trans (W7_v73_0 m ρ c)
theorem W8_v73_1 : W8 (F := Ideal) m ρ c (Proc.devRef .tc main_v73_1) = xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_of_ne m ρ c main_v73_1 (by decide)).trans (W7_v73_1 m ρ c)
theorem W8_v87 : W8 (F := Ideal) m ρ c (Proc.devRef .tc main_v87) = row1 (m ((c : Thread nD τ).loc main_arg7)) :=
  (W8_of_ne m ρ c main_v87 (by decide)).trans (W7_v87 m ρ c)
theorem W8_v90 : W8 (F := Ideal) m ρ c (Proc.devRef .tc main_v90) = row1 (m ((c : Thread nD τ).loc main_arg8)) :=
  (W8_of_ne m ρ c main_v90 (by decide)).trans (W7_v90 m ρ c)
theorem W8_v93 : W8 (F := Ideal) m ρ c (Proc.devRef .tc main_v93) = row1 (m ((c : Thread nD τ).loc main_arg9)) :=
  (W8_of_ne m ρ c main_v93 (by decide)).trans (W7_v93 m ρ c)
theorem W8_v96 : W8 (F := Ideal) m ρ c (Proc.devRef .tc main_v96) = row1 (m ((c : Thread nD τ).loc main_arg10)) :=
  (W8_of_ne m ρ c main_v96 (by decide)).trans (W7_v96 m ρ c)

/-! ## Boundary 9 -/

theorem W9_v113 : W9 (F := Ideal) m ρ c (Proc.devRef .tc main_v113) = toNodes (he1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) :=
  (h4_v113 (W8 (F := Ideal) m ρ c)).trans (by rw [W8_v102 m ρ c, W8_v1 m ρ c, W8_v3 m ρ c])
theorem W9_v15 : W9 (F := Ideal) m ρ c (Proc.devRef .tc main_v15) = invNode (m ((c : Thread nD τ).loc main_arg1)) :=
  (h4_keep_v15 (W8 (F := Ideal) m ρ c)).trans (W8_v15 m ρ c)
theorem W9_v73_0 : W9 (F := Ideal) m ρ c (Proc.devRef .tc main_v73_0) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (h4_keep_v73_0 (W8 (F := Ideal) m ρ c)).trans (W8_v73_0 m ρ c)
theorem W9_v73_1 : W9 (F := Ideal) m ρ c (Proc.devRef .tc main_v73_1) = xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (h4_keep_v73_1 (W8 (F := Ideal) m ρ c)).trans (W8_v73_1 m ρ c)
theorem W9_v87 : W9 (F := Ideal) m ρ c (Proc.devRef .tc main_v87) = row1 (m ((c : Thread nD τ).loc main_arg7)) :=
  (h4_keep_v87 (W8 (F := Ideal) m ρ c)).trans (W8_v87 m ρ c)
theorem W9_v90 : W9 (F := Ideal) m ρ c (Proc.devRef .tc main_v90) = row1 (m ((c : Thread nD τ).loc main_arg8)) :=
  (h4_keep_v90 (W8 (F := Ideal) m ρ c)).trans (W8_v90 m ρ c)
theorem W9_v93 : W9 (F := Ideal) m ρ c (Proc.devRef .tc main_v93) = row1 (m ((c : Thread nD τ).loc main_arg9)) :=
  (h4_keep_v93 (W8 (F := Ideal) m ρ c)).trans (W8_v93 m ρ c)
theorem W9_v96 : W9 (F := Ideal) m ρ c (Proc.devRef .tc main_v96) = row1 (m ((c : Thread nD τ).loc main_arg10)) :=
  (h4_keep_v96 (W8 (F := Ideal) m ρ c)).trans (W8_v96 m ρ c)

theorem V9_v113 : V9 (F := Ideal) m ρ c main_v113 = toNodes (he1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (idx0 (m ((c : Thread nD τ).loc main_arg1))) (idx1 (m ((c : Thread nD τ).loc main_arg1))) := W9_v113 m ρ c
theorem V9_v15 : V9 (F := Ideal) m ρ c main_v15 = invNode (m ((c : Thread nD τ).loc main_arg1)) := W9_v15 m ρ c
theorem V9_v73_1 : V9 (F := Ideal) m ρ c main_v73_1 = xt1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := W9_v73_1 m ρ c
theorem V9_v87 : V9 (F := Ideal) m ρ c main_v87 = row1 (m ((c : Thread nD τ).loc main_arg7)) := W9_v87 m ρ c
theorem V9_v90 : V9 (F := Ideal) m ρ c main_v90 = row1 (m ((c : Thread nD τ).loc main_arg8)) := W9_v90 m ρ c
theorem V9_v93 : V9 (F := Ideal) m ρ c main_v93 = row1 (m ((c : Thread nD τ).loc main_arg9)) := W9_v93 m ρ c
theorem V9_v96 : V9 (F := Ideal) m ρ c main_v96 = row1 (m ((c : Thread nD τ).loc main_arg10)) := W9_v96 m ρ c
theorem V9_v73_0 : V9 (F := Ideal) m ρ c main_v73_0 = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := W9_v73_0 m ρ c

/-! ## Boundary 10 -/

theorem W10_v114 : W10 (F := Ideal) m ρ c (Proc.devRef .tc main_v114) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W10_arr m ρ c 8).trans ((final4 Cert.KernelIdeal.Pay.pay4 (V9 (F := Ideal) m ρ) c).trans (by
    rw [V9_v113 m ρ c, V9_v15 m ρ c, V9_v73_1 m ρ c, V9_v87 m ρ c, V9_v90 m ρ c, V9_v93 m ρ c, V9_v96 m ρ c, V9_v73_0 m ρ c] <;> rfl))

end Cert.KernelIdeal.KChain

end
-- ==== Proof.RefStages.lean ====
/-
  The reference network, stage by stage, as whole-array functions of its eleven arguments on the extended reals.

  A two-layer hypergraph network.  From the 2 x 600000 incidence list (row 0: node ids, row 1: hyperedge ids) come the
  two index vectors, the two degree columns (how many incidences a hyperedge / a node has; the node column floored at
  one, the hyperedge column shifted by a tiny constant) and the gather / scatter index columns.  One layer is:
  a dense layer on the nodes (hAffine), the sum of the node rows over every hyperedge (toEdges), that sum divided by the
  hyperedge degree, a second dense layer and a per-hyperedge weight (hWeighted), the sum of the hyperedge rows back over
  every node (toNodes), divided by the node degree and added to the dense layer's output (hDivAdd), then
  layer-normalise, leaky-rectify, layer-normalise again (hFinalize).  The network is two such layers, the second one
  reading the first one's output, whose output is added back at the end (refOut).

  Every definition is spelled with the host operations the printed program uses, in its order, so that the value a
  stretch of the program leaves in a buffer is the corresponding stage by unfolding.
-/
import proofs.«120254_j65652870087174_2_alg».proof.Proof.Gen.ReferenceIdeal
import Idealize.ShloMosaic.Lib.StableHlo
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-- A float array of shape S over the extended reals. -/
local notation "𝔽[" S "]" => FVec Ideal S FTy.f32
/-- An array of 32-bit integers of shape S. -/
local notation "𝕀[" S "]" => IVec S 32

/-! ## The index vectors, the degree columns, the index columns -/

/-- Row 0 of the incidence list: the node id of every incidence. -/
def idx0 (a1 : 𝕀[S2x600000]) : 𝕀[S600000] :=
  shapeCast S600000 (extractStridedSlice S1x600000 ![0, 0] a1 slices_S2x600000_S1x600000_0_0) shapeCasts_S1x600000_S600000

/-- Row 1 of the incidence list: the hyperedge id of every incidence. -/
def idx1 (a1 : 𝕀[S2x600000]) : 𝕀[S600000] :=
  shapeCast S600000 (extractStridedSlice S1x600000 ![1, 0] a1 slices_S2x600000_S1x600000_1_0) shapeCasts_S1x600000_S600000

/-- An index vector as a column of scatter indices. -/
def colOf (i : 𝕀[S600000]) : 𝕀[S600000x1] := broadcastInDim S600000x1 ![0] bcast_S600000_S600000x1_0 i

/-- The node ids as a column of scatter indices. -/
def col0 (a1 : 𝕀[S2x600000]) : 𝕀[S600000x1] := colOf (idx0 a1)

/-- The hyperedge ids as a column of scatter indices. -/
def col1 (a1 : 𝕀[S2x600000]) : 𝕀[S600000x1] := colOf (idx1 a1)

/-- One per incidence. -/
def ones : 𝔽[S600000] := broadcastInDim S600000 ![] bcast_S_S600000 (constant (F := Ideal) S_ .f32 0x3F800000#32)

/-- The number of incidences of every hyperedge, from the hyperedge ids. -/
def heCountOf (i1 : 𝕀[S600000]) : 𝔽[S20000] :=
  Host.scatterAdd (F := Ideal) scatter_S20000_S600000x1_S600000_n_0_0_1
    (broadcastInDim S20000 ![] bcast_S_S20000 (constant (F := Ideal) S_ .f32 0x00000000#32)) (colOf i1) ones

/-- The number of incidences of every node, from the node ids. -/
def nodeCountOf (i0 : 𝕀[S600000]) : 𝔽[S100000] :=
  Host.scatterAdd (F := Ideal) scatter_S100000_S600000x1_S600000_n_0_0_1
    (broadcastInDim S100000 ![] bcast_S_S100000 (constant (F := Ideal) S_ .f32 0x00000000#32)) (colOf i0) ones

/-- The number of incidences of every hyperedge. -/
def heCount (a1 : 𝕀[S2x600000]) : 𝔽[S20000] := heCountOf (idx1 a1)

/-- The number of incidences of every node. -/
def nodeCount (a1 : 𝕀[S2x600000]) : 𝔽[S100000] := nodeCountOf (idx0 a1)

/-- The node denominators: the node counts floored at one, as a column. -/
def nodeDen (a1 : 𝕀[S2x600000]) : 𝔽[S100000x1] :=
  broadcastInDim S100000x1 ![0] bcast_S100000_S100000x1_0
    (maximumf (F := Ideal) (nodeCount a1) (broadcastInDim S100000 ![] bcast_S_S100000 (constant (F := Ideal) S_ .f32 0x3F800000#32)))

/-- The hyperedge denominators: the hyperedge counts plus a tiny constant, as a column. -/
def heDen (a1 : 𝕀[S2x600000]) : 𝔽[S20000x1] :=
  broadcastInDim S20000x1 ![0] bcast_S20000_S20000x1_0
    (addf (F := Ideal) (heCount a1) (broadcastInDim S20000 ![] bcast_S_S20000 (constant (F := Ideal) S_ .f32 0x322BCC77#32)))

/-- The hyperedge weights as a column. -/
def hwCol (a2 : 𝔽[S20000]) : 𝔽[S20000x1] :=
  broadcastInDim S20000x1 ![0] bcast_S20000_S20000x1_0 a2

/-- An index vector as a column of gather indices, a negative id wrapped by n. -/
def wrapBy (n : BitVec 32) (i : 𝕀[S600000]) : 𝕀[S600000x1] :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 n))) i)

/-- The node ids as a column of gather indices, a negative id wrapped by the number of nodes. -/
def wrap0 (a1 : 𝕀[S2x600000]) : 𝕀[S600000x1] := wrapBy 100000#32 (idx0 a1)

/-- The hyperedge ids as a column of gather indices, a negative id wrapped by the number of hyperedges. -/
def wrap1 (a1 : 𝕀[S2x600000]) : 𝕀[S600000x1] := wrapBy 20000#32 (idx1 a1)

/-! ## The two sums over the incidences -/

/-- Every hyperedge's sum of the rows of its nodes, from the two index vectors (node ids i0, hyperedge ids i1). -/
def edgesOf (xt : 𝔽[S100000x128]) (i0 i1 : 𝕀[S600000]) : 𝔽[S20000x128] :=
  Host.scatterAdd (F := Ideal) scatter_S20000x128_S600000x1_S600000x128_1_0_0_1
    (broadcastInDim S20000x128 ![] bcast_S_S20000x128 (constant (F := Ideal) S_ .f32 0x00000000#32)) (colOf i1)
    (Host.gather gather_S100000x128_S600000x1_S600000x128_1_0_n_n_0_1_1128 xt (wrapBy 100000#32 i0))

/-- Every node's sum of the rows of its hyperedges, from the two index vectors. -/
def nodesOf (he : 𝔽[S20000x128]) (i0 i1 : 𝕀[S600000]) : 𝔽[S100000x128] :=
  Host.scatterAdd (F := Ideal) scatter_S100000x128_S600000x1_S600000x128_1_0_0_1
    (broadcastInDim S100000x128 ![] bcast_S_S100000x128 (constant (F := Ideal) S_ .f32 0x00000000#32)) (colOf i0)
    (Host.gather gather_S20000x128_S600000x1_S600000x128_1_0_n_n_0_1_1128 he (wrapBy 20000#32 i1))

/-- Every hyperedge's sum of the rows of its nodes. -/
def toEdges (xt : 𝔽[S100000x128]) (a1 : 𝕀[S2x600000]) : 𝔽[S20000x128] := edgesOf xt (idx0 a1) (idx1 a1)

/-- Every node's sum of the rows of its hyperedges. -/
def toNodes (he : 𝔽[S20000x128]) (a1 : 𝕀[S2x600000]) : 𝔽[S100000x128] := nodesOf he (idx0 a1) (idx1 a1)

/-! ## The parameters of one layer -/

/-- Layer l's 128 x 128 matrix out of a stacked pair. -/
def mat (l : Fin 2) (P : 𝔽[S2x128x128]) : 𝔽[S128x128] :=
  match l with
  | 0 => shapeCast S128x128 (extractStridedSlice S1x128x128 ![0, 0, 0] P slices_S2x128x128_S1x128x128_0_0_0) shapeCasts_S1x128x128_S128x128
  | 1 => shapeCast S128x128 (extractStridedSlice S1x128x128 ![1, 0, 0] P slices_S2x128x128_S1x128x128_1_0_0) shapeCasts_S1x128x128_S128x128

/-- Layer l's vector of 128 out of a stacked pair, as a one-row matrix. -/
def row (l : Fin 2) (P : 𝔽[S2x128]) : 𝔽[S1x128] :=
  match l with
  | 0 => broadcastInDim S1x128 ![1] bcast_S128_S1x128_1
      (shapeCast S128 (extractStridedSlice S1x128 ![0, 0] P slices_S2x128_S1x128_0_0) shapeCasts_S1x128_S128)
  | 1 => broadcastInDim S1x128 ![1] bcast_S128_S1x128_1
      (shapeCast S128 (extractStridedSlice S1x128 ![1, 0] P slices_S2x128_S1x128_1_0) shapeCasts_S1x128_S128)

/-! ## The stages of one layer -/

/-- The dense layer on the nodes: x · w + r, the one-row matrix r laid along every row. -/
def hAffine (x : 𝔽[S100000x128]) (w : 𝔽[S128x128]) (r : 𝔽[S1x128]) : 𝔽[S100000x128] :=
  addf (F := Ideal) (Host.dotGeneral (F := Ideal) dot_S100000x128_S128x128_S100000x128_1_0_0_1_n_n none x w)
    (broadcastInDim S100000x128 ![0, 1] bcast_S1x128_S100000x128_0_1 r)

/-- On the hyperedges: the sums divided by the denominators, a dense layer, a per-row weight. -/
def hWeighted (S : 𝔽[S20000x128]) (dcol : 𝔽[S20000x1]) (w : 𝔽[S128x128]) (r : 𝔽[S1x128])
    (hcol : 𝔽[S20000x1]) : 𝔽[S20000x128] :=
  mulf (F := Ideal)
    (addf (F := Ideal)
      (Host.dotGeneral (F := Ideal) dot_S20000x128_S128x128_S20000x128_1_0_0_1_n_n none
        (Host.divf (F := Ideal) S (broadcastInDim S20000x128 ![0, 1] bcast_S20000x1_S20000x128_0_1 dcol)) w)
      (broadcastInDim S20000x128 ![0, 1] bcast_S1x128_S20000x128_0_1 r))
    (broadcastInDim S20000x128 ![0, 1] bcast_S20000x1_S20000x128_0_1 hcol)

/-- On the nodes: the sums divided by the denominators, plus the dense layer's output. -/
def hDivAdd (S : 𝔽[S100000x128]) (dcol : 𝔽[S100000x1]) (xt : 𝔽[S100000x128]) : 𝔽[S100000x128] :=
  addf (F := Ideal) (Host.divf (F := Ideal) S (broadcastInDim S100000x128 ![0, 1] bcast_S100000x1_S100000x128_0_1 dcol)) xt

/-- The mean of every row, as a column: the row's sum over 128.0. -/
def hMean (A : 𝔽[S100000x128]) : 𝔽[S100000x1] :=
  Host.divf (F := Ideal)
    (broadcastInDim S100000x1 ![0] bcast_S100000_S100000x1_0
      (Host.reduceAdd (F := Ideal) A (constant (F := Ideal) S_ .f32 0x00000000#32) reducesTo_S100000x128_S100000_d1 h_S_))
    (broadcastInDim S100000x1 ![] bcast_S_S100000x1 (constant (F := Ideal) S_ .f32 0x43000000#32))

/-- Every entry minus its row's mean. -/
def hCentered (A : 𝔽[S100000x128]) : 𝔽[S100000x128] :=
  subf (F := Ideal) A (broadcastInDim S100000x128 ![0, 1] bcast_S100000x1_S100000x128_0_1 (hMean A))

/-- The mean of the squared deviations of every row, as a column. -/
def hVar (A : 𝔽[S100000x128]) : 𝔽[S100000x1] :=
  Host.divf (F := Ideal)
    (broadcastInDim S100000x1 ![0] bcast_S100000_S100000x1_0
      (Host.reduceAdd (F := Ideal) (mulf (F := Ideal) (hCentered A) (hCentered A)) (constant (F := Ideal) S_ .f32 0x00000000#32)
        reducesTo_S100000x128_S100000_d1 h_S_))
    (broadcastInDim S100000x1 ![] bcast_S_S100000x1 (constant (F := Ideal) S_ .f32 0x43000000#32))

/-- The reciprocal square root of every row's variance plus epsilon, as a column. -/
def hRstd (A : 𝔽[S100000x128]) : 𝔽[S100000x1] :=
  Host.rsqrt (F := Ideal)
    (addf (F := Ideal) (hVar A) (broadcastInDim S100000x1 ![] bcast_S_S100000x1 (constant (F := Ideal) S_ .f32 0x3727C5AC#32)))

/-- Layer normalisation along the rows: (A − mean) · rsqrt(var + ε) · g + b, g and b one-row matrices. -/
def hLayerNorm (A : 𝔽[S100000x128]) (g b : 𝔽[S1x128]) : 𝔽[S100000x128] :=
  addf (F := Ideal)
    (mulf (F := Ideal)
      (mulf (F := Ideal) (hCentered A) (broadcastInDim S100000x128 ![0, 1] bcast_S100000x1_S100000x128_0_1 (hRstd A)))
      (broadcastInDim S100000x128 ![0, 1] bcast_S1x128_S100000x128_0_1 g))
    (broadcastInDim S100000x128 ![0, 1] bcast_S1x128_S100000x128_0_1 b)

/-- The leaky rectifier: A where A ≥ 0, 0.2 · A elsewhere. -/
def hLeaky (A : 𝔽[S100000x128]) : 𝔽[S100000x128] :=
  select (cmpf (F := Ideal) .oge A (broadcastInDim S100000x128 ![] bcast_S_S100000x128 (constant (F := Ideal) S_ .f32 0x00000000#32)))
    A (mulf (F := Ideal) (broadcastInDim S100000x128 ![] bcast_S_S100000x128 (constant (F := Ideal) S_ .f32 0x3E4CCCCD#32)) A)

/-- Normalise, rectify, normalise again. -/
def hFinalize (Z : 𝔽[S100000x128]) (g1 b1 g2 b2 : 𝔽[S1x128]) : 𝔽[S100000x128] :=
  hLayerNorm (hLeaky (hLayerNorm Z g1 b1)) g2 b2

/-! ## The network -/

section
variable (a0 : 𝔽[S100000x128]) (a1 : 𝕀[S2x600000]) (a2 : 𝔽[S20000]) (a3 : 𝔽[S2x128x128])
  (a4 : 𝔽[S2x128]) (a5 : 𝔽[S2x128x128]) (a6 a7 a8 a9 a10 : 𝔽[S2x128])

/-- Layer 0's dense output on the nodes. -/
def refXt0 : 𝔽[S100000x128] := hAffine a0 (mat 0 a3) (row 0 a4)

/-- Layer 0's hyperedge rows. -/
def refHe0 : 𝔽[S20000x128] := hWeighted (toEdges (refXt0 a0 a3 a4) a1) (heDen a1) (mat 0 a5) (row 0 a6) (hwCol a2)

/-- Layer 0's output. -/
def refX1 : 𝔽[S100000x128] :=
  hFinalize (hDivAdd (toNodes (refHe0 a0 a1 a2 a3 a4 a5 a6) a1) (nodeDen a1) (refXt0 a0 a3 a4)) (row 0 a7) (row 0 a8) (row 0 a9) (row 0 a10)

/-- Layer 1's dense output on the nodes. -/
def refXt1 : 𝔽[S100000x128] := hAffine (refX1 a0 a1 a2 a3 a4 a5 a6 a7 a8 a9 a10) (mat 1 a3) (row 1 a4)

/-- Layer 1's hyperedge rows. -/
def refHe1 : 𝔽[S20000x128] :=
  hWeighted (toEdges (refXt1 a0 a1 a2 a3 a4 a5 a6 a7 a8 a9 a10) a1) (heDen a1) (mat 1 a5) (row 1 a6) (hwCol a2)

/-- The network's output: layer 1's output plus layer 0's. -/
def refOut : 𝔽[S100000x128] :=
  addf (F := Ideal)
    (hFinalize (hDivAdd (toNodes (refHe1 a0 a1 a2 a3 a4 a5 a6 a7 a8 a9 a10) a1) (nodeDen a1) (refXt1 a0 a1 a2 a3 a4 a5 a6 a7 a8 a9 a10))
      (row 1 a7) (row 1 a8) (row 1 a9) (row 1 a10))
    (refX1 a0 a1 a2 a3 a4 a5 a6 a7 a8 a9 a10)

end

end Cert.ReferenceIdeal.Hand

end
-- ==== Proof.RefWindows.lean ====
/-
  The reference program's line of operations, cut into stretches, and what each stretch leaves behind.

  The program is a straight line of 269 host operations.  It is cut into twelve consecutive stretches at the
  boundaries of the network's stages.  What a stretch leaves in a buffer, from ANY contents V of the buffers before
  it, is one stage applied to V at the buffers the stretch reads, or V at that buffer when the stretch does not write
  it.  Running two stretches one after the other is running their concatenation, so the value the whole line leaves in
  the result buffer is the composition of the stages: the network refOut of the eleven arguments' launch contents;
  and every argument buffer ends as it started.
-/
import proofs.«120254_j65652870087174_2_alg».proof.Proof.RefOps
import proofs.«120254_j65652870087174_2_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

/-- Running two lines one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## The twelve stretches -/

section Stretches
variable {F : FTy → Type} [FloatOps F]

/-- Operations 1 … 30: the index vectors, the degree columns and layer 0's dense output. -/
abbrev w0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S20000 ![] bcast_S_S20000 : (⟨S_, .f32⟩ : BufTy).Contents (Elt F) → (⟨S20000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S20000_S600000x1_S600000_n_0_0_1 x i u) : (⟨S20000, .f32⟩ : BufTy).Contents (Elt F) → (⟨S600000x1, .i32⟩ : BufTy).Contents (Elt F) → (⟨S600000, .f32⟩ : BufTy).Contents (Elt F) → (⟨S20000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    unary main_v1 main_v9 (broadcastInDim S600000x1 ![0] bcast_S600000_S600000x1_0 : (⟨S600000, .i32⟩ : BufTy).Contents (Elt F) → (⟨S600000x1, .i32⟩ : BufTy).Contents (Elt F)),
    ternary main_v8 main_v9 main_v4 main_v10 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_2 (constant S_ .f32 0x3F800000#32),
    unary main_cst_2 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (broadcastInDim S100000x1 ![0] bcast_S100000_S100000x1_0 : (⟨S100000, .f32⟩ : BufTy).Contents (Elt F) → (⟨S100000x1, .f32⟩ : BufTy).Contents (Elt F)),
    nullary main_cst_3 (constant S_ .f32 0x322BCC77#32),
    unary main_cst_3 main_v14 (broadcastInDim S20000 ![] bcast_S_S20000 : (⟨S_, .f32⟩ : BufTy).Contents (Elt F) → (⟨S20000, .f32⟩ : BufTy).Contents (Elt F)),
    binary main_v7 main_v14 main_v15 (addf : (⟨S20000, .f32⟩ : BufTy).Contents (Elt F) → (⟨S20000, .f32⟩ : BufTy).Contents (Elt F) → (⟨S20000, .f32⟩ : BufTy).Contents (Elt F)),
    unary main_v15 main_v16 (broadcastInDim S20000x1 ![0] bcast_S20000_S20000x1_0 : (⟨S20000, .f32⟩ : BufTy).Contents (Elt F) → (⟨S20000x1, .f32⟩ : BufTy).Contents (Elt F)),
    unary main_arg3 main_v17 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v17 main_v18 rfl shapeCasts_S1x128x128_S128x128,
    binary main_arg0 main_v18 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v20 ((extractStridedSlice S1x128 ![0, 0] · slices_S2x128_S1x128_0_0) : (⟨S2x128, .f32⟩ : BufTy).Contents (Elt F) → (⟨S1x128, .f32⟩ : BufTy).Contents (Elt F)),
    reshape main_v20 main_v21 rfl shapeCasts_S1x128_S128,
    unary main_v21 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v19 main_v23 main_v24 (addf : (⟨S100000x128, .f32⟩ : BufTy).Contents (Elt F) → (⟨S100000x128, .f32⟩ : BufTy).Contents (Elt F) → (⟨S100000x128, .f32⟩ : BufTy).Contents (Elt F)) ]

/-- Operations 31 … 56: layer 0's hyperedge rows. -/
abbrev w1 : List (HloOp τ sig (Elt F)) :=
  [ nullary main_c (constantI S_ 32 0#32),
    unary main_c main_v25 (broadcastInDim S600000 ![] bcast_S_S600000 : (⟨S_, .i32⟩ : BufTy).Contents (Elt F) → (⟨S600000, .i32⟩ : BufTy).Contents (Elt F)),
    binary main_v1 main_v25 main_v26 (cmpi .slt : (⟨S600000, .i32⟩ : BufTy).Contents (Elt F) → (⟨S600000, .i32⟩ : BufTy).Contents (Elt F) → (⟨S600000, .i1⟩ : BufTy).Contents (Elt F)),
    nullary main_c_4 (constantI S_ 32 100000#32),
    unary main_c_4 main_v27 (broadcastInDim S600000 ![] bcast_S_S600000 : (⟨S_, .i32⟩ : BufTy).Contents (Elt F) → (⟨S600000, .i32⟩ : BufTy).Contents (Elt F)),
    binary main_v1 main_v27 main_v28 (addi : (⟨S600000, .i32⟩ : BufTy).Contents (Elt F) → (⟨S600000, .i32⟩ : BufTy).Contents (Elt F) → (⟨S600000, .i32⟩ : BufTy).Contents (Elt F)),
    ternary main_v26 main_v28 main_v1 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v29 main_v30 (broadcastInDim S600000x1 ![0] bcast_S600000_S600000x1_0 : (⟨S600000, .i32⟩ : BufTy).Contents (Elt F) → (⟨S600000x1, .i32⟩ : BufTy).Contents (Elt F)),
    binary main_v24 main_v30 main_v31 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_5 (constant S_ .f32 0x00000000#32),
    unary main_cst_5 main_v32 (broadcastInDim S20000x128 ![] bcast_S_S20000x128 : (⟨S_, .f32⟩ : BufTy).Contents (Elt F) → (⟨S20000x128, .f32⟩ : BufTy).Contents (Elt F)),
    unary main_v3 main_v33 (broadcastInDim S600000x1 ![0] bcast_S600000_S600000x1_0 : (⟨S600000, .i32⟩ : BufTy).Contents (Elt F) → (⟨S600000x1, .i32⟩ : BufTy).Contents (Elt F)),
    ternary main_v32 main_v33 main_v31 main_v34 ((fun x i u => Host.scatterAdd scatter_S20000x128_S600000x1_S600000x128_1_0_0_1 x i u) : (⟨S20000x128, .f32⟩ : BufTy).Contents (Elt F) → (⟨S600000x1, .i32⟩ : BufTy).Contents (Elt F) → (⟨S600000x128, .f32⟩ : BufTy).Contents (Elt F) → (⟨S20000x128, .f32⟩ : BufTy).Contents (Elt F)),
    unary main_v16 main_v35 (broadcastInDim S20000x128 ![0, 1] bcast_S20000x1_S20000x128_0_1 : (⟨S20000x1, .f32⟩ : BufTy).Contents (Elt F) → (⟨S20000x128, .f32⟩ : BufTy).Contents (Elt F)),
    binary main_v34 main_v35 main_v36 (Host.divf : (⟨S20000x128, .f32⟩ : BufTy).Contents (Elt F) → (⟨S20000x128, .f32⟩ : BufTy).Contents (Elt F) → (⟨S20000x128, .f32⟩ : BufTy).Contents (Elt F)),
    unary main_arg5 main_v37 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v37 main_v38 rfl shapeCasts_S1x128x128_S128x128,
    binary main_v36 main_v38 main_v39 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg6 main_v40 ((extractStridedSlice S1x128 ![0, 0] · slices_S2x128_S1x128_0_0) : (⟨S2x128, .f32⟩ : BufTy).Contents (Elt F) → (⟨S1x128, .f32⟩ : BufTy).Contents (Elt F)),
    reshape main_v40 main_v41 rfl shapeCasts_S1x128_S128,
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S20000x128 ![0, 1] bcast_S1x128_S20000x128_0_1 : (⟨S1x128, .f32⟩ : BufTy).Contents (Elt F) → (⟨S20000x128, .f32⟩ : BufTy).Contents (Elt F)),
    binary main_v39 main_v43 main_v44 (addf : (⟨S20000x128, .f32⟩ : BufTy).Contents (Elt F) → (⟨S20000x128, .f32⟩ : BufTy).Contents (Elt F) → (⟨S20000x128, .f32⟩ : BufTy).Contents (Elt F)),
    unary main_arg2 main_v45 (broadcastInDim S20000x1 ![0] bcast_S20000_S20000x1_0 : (⟨S20000, .f32⟩ : BufTy).Contents (Elt F) → (⟨S20000x1, .f32⟩ : BufTy).Contents (Elt F)),
    unary main_v45 main_v46 (broadcastInDim S20000x128 ![0, 1] bcast_S20000x1_S20000x128_0_1 : (⟨S20000x1, .f32⟩ : BufTy).Contents (Elt F) → (⟨S20000x128, .f32⟩ : BufTy).Contents (Elt F)),
    binary main_v44 main_v46 main_v47 (mulf : (⟨S20000x128, .f32⟩ : BufTy).Contents (Elt F) → (⟨S20000x128, .f32⟩ : BufTy).Contents (Elt F) → (⟨S20000x128, .f32⟩ : BufTy).Contents (Elt F)) ]

/-- Operations 57 … 72: layer 0's node sums over the denominators plus the dense output. -/
abbrev w2 : List (HloOp τ sig (Elt F)) :=
  [ nullary main_c_6 (constantI S_ 32 0#32),
    unary main_c_6 main_v48 (broadcastInDim S600000 ![] bcast_S_S600000 : (⟨S_, .i32⟩ : BufTy).Contents (Elt F) → (⟨S600000, .i32⟩ : BufTy).Contents (Elt F)),
    binary main_v3 main_v48 main_v49 (cmpi .slt : (⟨S600000, .i32⟩ : BufTy).Contents (Elt F) → (⟨S600000, .i32⟩ : BufTy).Contents (Elt F) → (⟨S600000, .i1⟩ : BufTy).Contents (Elt F)),
    nullary main_c_7 (constantI S_ 32 20000#32),
    unary main_c_7 main_v50 (broadcastInDim S600000 ![] bcast_S_S600000 : (⟨S_, .i32⟩ : BufTy).Contents (Elt F) → (⟨S600000, .i32⟩ : BufTy).Contents (Elt F)),
    binary main_v3 main_v50 main_v51 (addi : (⟨S600000, .i32⟩ : BufTy).Contents (Elt F) → (⟨S600000, .i32⟩ : BufTy).Contents (Elt F) → (⟨S600000, .i32⟩ : BufTy).Contents (Elt F)),
    ternary main_v49 main_v51 main_v3 main_v52 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v52 main_v53 (broadcastInDim S600000x1 ![0] bcast_S600000_S600000x1_0 : (⟨S600000, .i32⟩ : BufTy).Contents (Elt F) → (⟨S600000x1, .i32⟩ : BufTy).Contents (Elt F)),
    binary main_v47 main_v53 main_v54 ((fun x i => Host.gather gather_S20000x128_S600000x1_S600000x128_1_0_n_n_0_1_1128 x i) : (⟨S20000x128, .f32⟩ : BufTy).Contents (Elt F) → (⟨S600000x1, .i32⟩ : BufTy).Contents (Elt F) → (⟨S600000x128, .f32⟩ : BufTy).Contents (Elt F)),
    nullary main_cst_8 (constant S_ .f32 0x00000000#32),
    unary main_cst_8 main_v55 (broadcastInDim S100000x128 ![] bcast_S_S100000x128 : (⟨S_, .f32⟩ : BufTy).Contents (Elt F) → (⟨S100000x128, .f32⟩ : BufTy).Contents (Elt F)),
    unary main_v1 main_v56 (broadcastInDim S600000x1 ![0] bcast_S600000_S600000x1_0 : (⟨S600000, .i32⟩ : BufTy).Contents (Elt F) → (⟨S600000x1, .i32⟩ : BufTy).Contents (Elt F)),
    ternary main_v55 main_v56 main_v54 main_v57 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v13 main_v58 (broadcastInDim S100000x128 ![0, 1] bcast_S100000x1_S100000x128_0_1 : (⟨S100000x1, .f32⟩ : BufTy).Contents (Elt F) → (⟨S100000x128, .f32⟩ : BufTy).Contents (Elt F)),
    binary main_v57 main_v58 main_v59 (Host.divf : (⟨S100000x128, .f32⟩ : BufTy).Contents (Elt F) → (⟨S100000x128, .f32⟩ : BufTy).Contents (Elt F) → (⟨S100000x128, .f32⟩ : BufTy).Contents (Elt F)),
    binary main_v59 main_v24 main_v60 (addf : (⟨S100000x128, .f32⟩ : BufTy).Contents (Elt F) → (⟨S100000x128, .f32⟩ : BufTy).Contents (Elt F) → (⟨S100000x128, .f32⟩ : BufTy).Contents (Elt F)) ]

/-- Operations 73 … 105: layer 0's first normalisation. -/
abbrev w3 : List (HloOp τ sig (Elt F)) :=
  [ unary main_arg7 main_v61 ((extractStridedSlice S1x128 ![0, 0] · slices_S2x128_S1x128_0_0) : (⟨S2x128, .f32⟩ : BufTy).Contents (Elt F) → (⟨S1x128, .f32⟩ : BufTy).Contents (Elt F)),
    reshape main_v61 main_v62 rfl shapeCasts_S1x128_S128,
    unary main_arg8 main_v63 ((extractStridedSlice S1x128 ![0, 0] · slices_S2x128_S1x128_0_0) : (⟨S2x128, .f32⟩ : BufTy).Contents (Elt F) → (⟨S1x128, .f32⟩ : BufTy).Contents (Elt F)),
    reshape main_v63 main_v64 rfl shapeCasts_S1x128_S128,
    nullary main_cst_9 (constant S_ .f32 0x00000000#32),
    binary main_v60 main_cst_9 main_v65 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v67 (broadcastInDim S100000x1 ![] bcast_S_S100000x1 : (⟨S_, .f32⟩ : BufTy).Contents (Elt F) → (⟨S100000x1, .f32⟩ : BufTy).Contents (Elt F)),
    binary main_v66 main_v67 main_v68 (Host.divf : (⟨S100000x1, .f32⟩ : BufTy).Contents (Elt F) → (⟨S100000x1, .f32⟩ : BufTy).Contents (Elt F) → (⟨S100000x1, .f32⟩ : BufTy).Contents (Elt F)),
    unary main_v68 main_v69 (broadcastInDim S100000x128 ![0, 1] bcast_S100000x1_S100000x128_0_1 : (⟨S100000x1, .f32⟩ : BufTy).Contents (Elt F) → (⟨S100000x128, .f32⟩ : BufTy).Contents (Elt F)),
    binary main_v60 main_v69 main_v70 (subf : (⟨S100000x128, .f32⟩ : BufTy).Contents (Elt F) → (⟨S100000x128, .f32⟩ : BufTy).Contents (Elt F) → (⟨S100000x128, .f32⟩ : BufTy).Contents (Elt F)),
    binary main_v70 main_v70 main_v71 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v71 main_cst_11 main_v72 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v72 main_v73 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v74 (broadcastInDim S100000x1 ![] bcast_S_S100000x1 : (⟨S_, .f32⟩ : BufTy).Contents (Elt F) → (⟨S100000x1, .f32⟩ : BufTy).Contents (Elt F)),
    binary main_v73 main_v74 main_v75 (Host.divf : (⟨S100000x1, .f32⟩ : BufTy).Contents (Elt F) → (⟨S100000x1, .f32⟩ : BufTy).Contents (Elt F) → (⟨S100000x1, .f32⟩ : BufTy).Contents (Elt F)),
    unary main_v68 main_v76 (broadcastInDim S100000x128 ![0, 1] bcast_S100000x1_S100000x128_0_1 : (⟨S100000x1, .f32⟩ : BufTy).Contents (Elt F) → (⟨S100000x128, .f32⟩ : BufTy).Contents (Elt F)),
    binary main_v60 main_v76 main_v77 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v78 (broadcastInDim S100000x1 ![] bcast_S_S100000x1 : (⟨S_, .f32⟩ : BufTy).Contents (Elt F) → (⟨S100000x1, .f32⟩ : BufTy).Contents (Elt F)),
    binary main_v75 main_v78 main_v79 (addf : (⟨S100000x1, .f32⟩ : BufTy).Contents (Elt F) → (⟨S100000x1, .f32⟩ : BufTy).Contents (Elt F) → (⟨S100000x1, .f32⟩ : BufTy).Contents (Elt F)),
    unary main_v79 main_v80 (Host.rsqrt : (⟨S100000x1, .f32⟩ : BufTy).Contents (Elt F) → (⟨S100000x1, .f32⟩ : BufTy).Contents (Elt F)),
    unary main_v80 main_v81 (broadcastInDim S100000x128 ![0, 1] bcast_S100000x1_S100000x128_0_1 : (⟨S100000x1, .f32⟩ : BufTy).Contents (Elt F) → (⟨S100000x128, .f32⟩ : BufTy).Contents (Elt F)),
    binary main_v77 main_v81 main_v82 (mulf : (⟨S100000x128, .f32⟩ : BufTy).Contents (Elt F) → (⟨S100000x128, .f32⟩ : BufTy).Contents (Elt F) → (⟨S100000x128, .f32⟩ : BufTy).Contents (Elt F)),
    unary main_v62 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (mulf : (⟨S100000x128, .f32⟩ : BufTy).Contents (Elt F) → (⟨S100000x128, .f32⟩ : BufTy).Contents (Elt F) → (⟨S100000x128, .f32⟩ : BufTy).Contents (Elt F)),
    unary main_v64 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (addf : (⟨S100000x128, .f32⟩ : BufTy).Contents (Elt F) → (⟨S100000x128, .f32⟩ : BufTy).Contents (Elt F) → (⟨S100000x128, .f32⟩ : BufTy).Contents (Elt F)) ]

/-- Operations 106 … 112: layer 0's rectifier. -/
abbrev w4 : List (HloOp τ sig (Elt F)) :=
  [ nullary main_cst_14 (constant S_ .f32 0x00000000#32),
    unary main_cst_14 main_v89 (broadcastInDim S100000x128 ![] bcast_S_S100000x128 : (⟨S_, .f32⟩ : BufTy).Contents (Elt F) → (⟨S100000x128, .f32⟩ : BufTy).Contents (Elt F)),
    binary main_v88 main_v89 main_v90 (cmpf .oge : (⟨S100000x128, .f32⟩ : BufTy).Contents (Elt F) → (⟨S100000x128, .f32⟩ : BufTy).Contents (Elt F) → (⟨S100000x128, .i1⟩ : BufTy).Contents (Elt F)),
    nullary main_cst_15 (constant S_ .f32 0x3E4CCCCD#32),
    unary main_cst_15 main_v91 (broadcastInDim S100000x128 ![] bcast_S_S100000x128 : (⟨S_, .f32⟩ : BufTy).Contents (Elt F) → (⟨S100000x128, .f32⟩ : BufTy).Contents (Elt F)),
    binary main_v91 main_v88 main_v92 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v90) (TRef.of (T := ⟨S100000x128, .f32⟩) main_v88) (TRef.of (T := ⟨S100000x128, .f32⟩) main_v92) (TRef.of (T := ⟨S100000x128, .f32⟩) main_v93) select ]

/-- Operations 113 … 145: layer 0's second normalisation: layer 0's output. -/
abbrev w5 : List (HloOp τ sig (Elt F)) :=
  [ unary main_arg9 main_v94 ((extractStridedSlice S1x128 ![0, 0] · slices_S2x128_S1x128_0_0) : (⟨S2x128, .f32⟩ : BufTy).Contents (Elt F) → (⟨S1x128, .f32⟩ : BufTy).Contents (Elt F)),
    reshape main_v94 main_v95 rfl shapeCasts_S1x128_S128,
    unary main_arg10 main_v96 ((extractStridedSlice S1x128 ![0, 0] · slices_S2x128_S1x128_0_0) : (⟨S2x128, .f32⟩ : BufTy).Contents (Elt F) → (⟨S1x128, .f32⟩ : BufTy).Contents (Elt F)),
    reshape main_v96 main_v97 rfl shapeCasts_S1x128_S128,
    nullary main_cst_16 (constant S_ .f32 0x00000000#32),
    binary main_v93 main_cst_16 main_v98 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v98 main_v99 (broadcastInDim S100000x1 ![0] bcast_S100000_S100000x1_0 : (⟨S100000, .f32⟩ : BufTy).Contents (Elt F) → (⟨S100000x1, .f32⟩ : BufTy).Contents (Elt F)),
    nullary main_cst_17 (constant S_ .f32 0x43000000#32),
    unary main_cst_17 main_v100 (broadcastInDim S100000x1 ![] bcast_S_S100000x1 : (⟨S_, .f32⟩ : BufTy).Contents (Elt F) → (⟨S100000x1, .f32⟩ : BufTy).Contents (Elt F)),
    binary main_v99 main_v100 main_v101 (Host.divf : (⟨S100000x1, .f32⟩ : BufTy).Contents (Elt F) → (⟨S100000x1, .f32⟩ : BufTy).Contents (Elt F) → (⟨S100000x1, .f32⟩ : BufTy).Contents (Elt F)),
    unary main_v101 main_v102 (broadcastInDim S100000x128 ![0, 1] bcast_S100000x1_S100000x128_0_1 : (⟨S100000x1, .f32⟩ : BufTy).Contents (Elt F) → (⟨S100000x128, .f32⟩ : BufTy).Contents (Elt F)),
    binary main_v93 main_v102 main_v103 (subf : (⟨S100000x128, .f32⟩ : BufTy).Contents (Elt F) → (⟨S100000x128, .f32⟩ : BufTy).Contents (Elt F) → (⟨S100000x128, .f32⟩ : BufTy).Contents (Elt F)),
    binary main_v103 main_v103 main_v104 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v104 main_cst_18 main_v105 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v105 main_v106 (broadcastInDim S100000x1 ![0] bcast_S100000_S100000x1_0 : (⟨S100000, .f32⟩ : BufTy).Contents (Elt F) → (⟨S100000x1, .f32⟩ : BufTy).Contents (Elt F)),
    nullary main_cst_19 (constant S_ .f32 0x43000000#32),
    unary main_cst_19 main_v107 (broadcastInDim S100000x1 ![] bcast_S_S100000x1 : (⟨S_, .f32⟩ : BufTy).Contents (Elt F) → (⟨S100000x1, .f32⟩ : BufTy).Contents (Elt F)),
    binary main_v106 main_v107 main_v108 (Host.divf : (⟨S100000x1, .f32⟩ : BufTy).Contents (Elt F) → (⟨S100000x1, .f32⟩ : BufTy).Contents (Elt F) → (⟨S100000x1, .f32⟩ : BufTy).Contents (Elt F)),
    unary main_v101 main_v109 (broadcastInDim S100000x128 ![0, 1] bcast_S100000x1_S100000x128_0_1 : (⟨S100000x1, .f32⟩ : BufTy).Contents (Elt F) → (⟨S100000x128, .f32⟩ : BufTy).Contents (Elt F)),
    binary main_v93 main_v109 main_v110 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v111 (broadcastInDim S100000x1 ![] bcast_S_S100000x1 : (⟨S_, .f32⟩ : BufTy).Contents (Elt F) → (⟨S100000x1, .f32⟩ : BufTy).Contents (Elt F)),
    binary main_v108 main_v111 main_v112 (addf : (⟨S100000x1, .f32⟩ : BufTy).Contents (Elt F) → (⟨S100000x1, .f32⟩ : BufTy).Contents (Elt F) → (⟨S100000x1, .f32⟩ : BufTy).Contents (Elt F)),
    unary main_v112 main_v113 (Host.rsqrt : (⟨S100000x1, .f32⟩ : BufTy).Contents (Elt F) → (⟨S100000x1, .f32⟩ : BufTy).Contents (Elt F)),
    unary main_v113 main_v114 (broadcastInDim S100000x128 ![0, 1] bcast_S100000x1_S100000x128_0_1 : (⟨S100000x1, .f32⟩ : BufTy).Contents (Elt F) → (⟨S100000x128, .f32⟩ : BufTy).Contents (Elt F)),
    binary main_v110 main_v114 main_v115 (mulf : (⟨S100000x128, .f32⟩ : BufTy).Contents (Elt F) → (⟨S100000x128, .f32⟩ : BufTy).Contents (Elt F) → (⟨S100000x128, .f32⟩ : BufTy).Contents (Elt F)),
    unary main_v95 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v115 main_v117 main_v118 (mulf : (⟨S100000x128, .f32⟩ : BufTy).Contents (Elt F) → (⟨S100000x128, .f32⟩ : BufTy).Contents (Elt F) → (⟨S100000x128, .f32⟩ : BufTy).Contents (Elt F)),
    unary main_v97 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v118 main_v120 main_v121 (addf : (⟨S100000x128, .f32⟩ : BufTy).Contents (Elt F) → (⟨S100000x128, .f32⟩ : BufTy).Contents (Elt F) → (⟨S100000x128, .f32⟩ : BufTy).Contents (Elt F)) ]

/-- Operations 146 … 153: layer 1's dense output. -/
abbrev w6 : List (HloOp τ sig (Elt F)) :=
  [ unary main_arg3 main_v122 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v122 main_v123 rfl shapeCasts_S1x128x128_S128x128,
    binary main_v121 main_v123 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v125 ((extractStridedSlice S1x128 ![1, 0] · slices_S2x128_S1x128_1_0) : (⟨S2x128, .f32⟩ : BufTy).Contents (Elt F) → (⟨S1x128, .f32⟩ : BufTy).Contents (Elt F)),
    reshape main_v125 main_v126 rfl shapeCasts_S1x128_S128,
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v124 main_v128 main_v129 (addf : (⟨S100000x128, .f32⟩ : BufTy).Contents (Elt F) → (⟨S100000x128, .f32⟩ : BufTy).Contents (Elt F) → (⟨S100000x128, .f32⟩ : BufTy).Contents (Elt F)) ]

/-- Operations 154 … 179: layer 1's hyperedge rows. -/
abbrev w7 : List (HloOp τ sig (Elt F)) :=
  [ nullary main_c_21 (constantI S_ 32 0#32),
    unary main_c_21 main_v130 (broadcastInDim S600000 ![] bcast_S_S600000 : (⟨S_, .i32⟩ : BufTy).Contents (Elt F) → (⟨S600000, .i32⟩ : BufTy).Contents (Elt F)),
    binary main_v1 main_v130 main_v131 (cmpi .slt : (⟨S600000, .i32⟩ : BufTy).Contents (Elt F) → (⟨S600000, .i32⟩ : BufTy).Contents (Elt F) → (⟨S600000, .i1⟩ : BufTy).Contents (Elt F)),
    nullary main_c_22 (constantI S_ 32 100000#32),
    unary main_c_22 main_v132 (broadcastInDim S600000 ![] bcast_S_S600000 : (⟨S_, .i32⟩ : BufTy).Contents (Elt F) → (⟨S600000, .i32⟩ : BufTy).Contents (Elt F)),
    binary main_v1 main_v132 main_v133 (addi : (⟨S600000, .i32⟩ : BufTy).Contents (Elt F) → (⟨S600000, .i32⟩ : BufTy).Contents (Elt F) → (⟨S600000, .i32⟩ : BufTy).Contents (Elt F)),
    ternary main_v131 main_v133 main_v1 main_v134 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v134 main_v135 (broadcastInDim S600000x1 ![0] bcast_S600000_S600000x1_0 : (⟨S600000, .i32⟩ : BufTy).Contents (Elt F) → (⟨S600000x1, .i32⟩ : BufTy).Contents (Elt F)),
    binary main_v129 main_v135 main_v136 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_23 (constant S_ .f32 0x00000000#32),
    unary main_cst_23 main_v137 (broadcastInDim S20000x128 ![] bcast_S_S20000x128 : (⟨S_, .f32⟩ : BufTy).Contents (Elt F) → (⟨S20000x128, .f32⟩ : BufTy).Contents (Elt F)),
    unary main_v3 main_v138 (broadcastInDim S600000x1 ![0] bcast_S600000_S600000x1_0 : (⟨S600000, .i32⟩ : BufTy).Contents (Elt F) → (⟨S600000x1, .i32⟩ : BufTy).Contents (Elt F)),
    ternary main_v137 main_v138 main_v136 main_v139 ((fun x i u => Host.scatterAdd scatter_S20000x128_S600000x1_S600000x128_1_0_0_1 x i u) : (⟨S20000x128, .f32⟩ : BufTy).Contents (Elt F) → (⟨S600000x1, .i32⟩ : BufTy).Contents (Elt F) → (⟨S600000x128, .f32⟩ : BufTy).Contents (Elt F) → (⟨S20000x128, .f32⟩ : BufTy).Contents (Elt F)),
    unary main_v16 main_v140 (broadcastInDim S20000x128 ![0, 1] bcast_S20000x1_S20000x128_0_1 : (⟨S20000x1, .f32⟩ : BufTy).Contents (Elt F) → (⟨S20000x128, .f32⟩ : BufTy).Contents (Elt F)),
    binary main_v139 main_v140 main_v141 (Host.divf : (⟨S20000x128, .f32⟩ : BufTy).Contents (Elt F) → (⟨S20000x128, .f32⟩ : BufTy).Contents (Elt F) → (⟨S20000x128, .f32⟩ : BufTy).Contents (Elt F)),
    unary main_arg5 main_v142 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v142 main_v143 rfl shapeCasts_S1x128x128_S128x128,
    binary main_v141 main_v143 main_v144 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg6 main_v145 ((extractStridedSlice S1x128 ![1, 0] · slices_S2x128_S1x128_1_0) : (⟨S2x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S20000x128 ![0, 1] bcast_S1x128_S20000x128_0_1 : (⟨S1x128, .f32⟩ : BufTy).Contents (Elt F) → (⟨S20000x128, .f32⟩ : BufTy).Contents (Elt F)),
    binary main_v144 main_v148 main_v149 (addf : (⟨S20000x128, .f32⟩ : BufTy).Contents (Elt F) → (⟨S20000x128, .f32⟩ : BufTy).Contents (Elt F) → (⟨S20000x128, .f32⟩ : BufTy).Contents (Elt F)),
    unary main_arg2 main_v150 (broadcastInDim S20000x1 ![0] bcast_S20000_S20000x1_0 : (⟨S20000, .f32⟩ : BufTy).Contents (Elt F) → (⟨S20000x1, .f32⟩ : BufTy).Contents (Elt F)),
    unary main_v150 main_v151 (broadcastInDim S20000x128 ![0, 1] bcast_S20000x1_S20000x128_0_1 : (⟨S20000x1, .f32⟩ : BufTy).Contents (Elt F) → (⟨S20000x128, .f32⟩ : BufTy).Contents (Elt F)),
    binary main_v149 main_v151 main_v152 (mulf : (⟨S20000x128, .f32⟩ : BufTy).Contents (Elt F) → (⟨S20000x128, .f32⟩ : BufTy).Contents (Elt F) → (⟨S20000x128, .f32⟩ : BufTy).Contents (Elt F)) ]

/-- Operations 180 … 195: layer 1's node sums over the denominators plus the dense output. -/
abbrev w8 : List (HloOp τ sig (Elt F)) :=
  [ nullary main_c_24 (constantI S_ 32 0#32),
    unary main_c_24 main_v153 (broadcastInDim S600000 ![] bcast_S_S600000 : (⟨S_, .i32⟩ : BufTy).Contents (Elt F) → (⟨S600000, .i32⟩ : BufTy).Contents (Elt F)),
    binary main_v3 main_v153 main_v154 (cmpi .slt : (⟨S600000, .i32⟩ : BufTy).Contents (Elt F) → (⟨S600000, .i32⟩ : BufTy).Contents (Elt F) → (⟨S600000, .i1⟩ : BufTy).Contents (Elt F)),
    nullary main_c_25 (constantI S_ 32 20000#32),
    unary main_c_25 main_v155 (broadcastInDim S600000 ![] bcast_S_S600000 : (⟨S_, .i32⟩ : BufTy).Contents (Elt F) → (⟨S600000, .i32⟩ : BufTy).Contents (Elt F)),
    binary main_v3 main_v155 main_v156 (addi : (⟨S600000, .i32⟩ : BufTy).Contents (Elt F) → (⟨S600000, .i32⟩ : BufTy).Contents (Elt F) → (⟨S600000, .i32⟩ : BufTy).Contents (Elt F)),
    ternary main_v154 main_v156 main_v3 main_v157 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v157 main_v158 (broadcastInDim S600000x1 ![0] bcast_S600000_S600000x1_0 : (⟨S600000, .i32⟩ : BufTy).Contents (Elt F) → (⟨S600000x1, .i32⟩ : BufTy).Contents (Elt F)),
    binary main_v152 main_v158 main_v159 ((fun x i => Host.gather gather_S20000x128_S600000x1_S600000x128_1_0_n_n_0_1_1128 x i) : (⟨S20000x128, .f32⟩ : BufTy).Contents (Elt F) → (⟨S600000x1, .i32⟩ : BufTy).Contents (Elt F) → (⟨S600000x128, .f32⟩ : BufTy).Contents (Elt F)),
    nullary main_cst_26 (constant S_ .f32 0x00000000#32),
    unary main_cst_26 main_v160 (broadcastInDim S100000x128 ![] bcast_S_S100000x128 : (⟨S_, .f32⟩ : BufTy).Contents (Elt F) → (⟨S100000x128, .f32⟩ : BufTy).Contents (Elt F)),
    unary main_v1 main_v161 (broadcastInDim S600000x1 ![0] bcast_S600000_S600000x1_0 : (⟨S600000, .i32⟩ : BufTy).Contents (Elt F) → (⟨S600000x1, .i32⟩ : BufTy).Contents (Elt F)),
    ternary main_v160 main_v161 main_v159 main_v162 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v13 main_v163 (broadcastInDim S100000x128 ![0, 1] bcast_S100000x1_S100000x128_0_1 : (⟨S100000x1, .f32⟩ : BufTy).Contents (Elt F) → (⟨S100000x128, .f32⟩ : BufTy).Contents (Elt F)),
    binary main_v162 main_v163 main_v164 (Host.divf : (⟨S100000x128, .f32⟩ : BufTy).Contents (Elt F) → (⟨S100000x128, .f32⟩ : BufTy).Contents (Elt F) → (⟨S100000x128, .f32⟩ : BufTy).Contents (Elt F)),
    binary main_v164 main_v129 main_v165 (addf : (⟨S100000x128, .f32⟩ : BufTy).Contents (Elt F) → (⟨S100000x128, .f32⟩ : BufTy).Contents (Elt F) → (⟨S100000x128, .f32⟩ : BufTy).Contents (Elt F)) ]

/-- Operations 196 … 228: layer 1's first normalisation. -/
abbrev w9 : List (HloOp τ sig (Elt F)) :=
  [ unary main_arg7 main_v166 ((extractStridedSlice S1x128 ![1, 0] · slices_S2x128_S1x128_1_0) : (⟨S2x128, .f32⟩ : BufTy).Contents (Elt F) → (⟨S1x128, .f32⟩ : BufTy).Contents (Elt F)),
    reshape main_v166 main_v167 rfl shapeCasts_S1x128_S128,
    unary main_arg8 main_v168 ((extractStridedSlice S1x128 ![1, 0] · slices_S2x128_S1x128_1_0) : (⟨S2x128, .f32⟩ : BufTy).Contents (Elt F) → (⟨S1x128, .f32⟩ : BufTy).Contents (Elt F)),
    reshape main_v168 main_v169 rfl shapeCasts_S1x128_S128,
    nullary main_cst_27 (constant S_ .f32 0x00000000#32),
    binary main_v165 main_cst_27 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v170 main_v171 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v172 (broadcastInDim S100000x1 ![] bcast_S_S100000x1 : (⟨S_, .f32⟩ : BufTy).Contents (Elt F) → (⟨S100000x1, .f32⟩ : BufTy).Contents (Elt F)),
    binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    unary main_v173 main_v174 (broadcastInDim S100000x128 ![0, 1] bcast_S100000x1_S100000x128_0_1 : (⟨S100000x1, .f32⟩ : BufTy).Contents (Elt F) → (⟨S100000x128, .f32⟩ : BufTy).Contents (Elt F)),
    binary main_v165 main_v174 main_v175 (subf : (⟨S100000x128, .f32⟩ : BufTy).Contents (Elt F) → (⟨S100000x128, .f32⟩ : BufTy).Contents (Elt F) → (⟨S100000x128, .f32⟩ : BufTy).Contents (Elt F)),
    binary main_v175 main_v175 main_v176 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x00000000#32),
    binary main_v176 main_cst_29 main_v177 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v177 main_v178 (broadcastInDim S100000x1 ![0] bcast_S100000_S100000x1_0 : (⟨S100000, .f32⟩ : BufTy).Contents (Elt F) → (⟨S100000x1, .f32⟩ : BufTy).Contents (Elt F)),
    nullary main_cst_30 (constant S_ .f32 0x43000000#32),
    unary main_cst_30 main_v179 (broadcastInDim S100000x1 ![] bcast_S_S100000x1 : (⟨S_, .f32⟩ : BufTy).Contents (Elt F) → (⟨S100000x1, .f32⟩ : BufTy).Contents (Elt F)),
    binary main_v178 main_v179 main_v180 (Host.divf : (⟨S100000x1, .f32⟩ : BufTy).Contents (Elt F) → (⟨S100000x1, .f32⟩ : BufTy).Contents (Elt F) → (⟨S100000x1, .f32⟩ : BufTy).Contents (Elt F)),
    unary main_v173 main_v181 (broadcastInDim S100000x128 ![0, 1] bcast_S100000x1_S100000x128_0_1 : (⟨S100000x1, .f32⟩ : BufTy).Contents (Elt F) → (⟨S100000x128, .f32⟩ : BufTy).Contents (Elt F)),
    binary main_v165 main_v181 main_v182 (subf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x3727C5AC#32),
    unary main_cst_31 main_v183 (broadcastInDim S100000x1 ![] bcast_S_S100000x1 : (⟨S_, .f32⟩ : BufTy).Contents (Elt F) → (⟨S100000x1, .f32⟩ : BufTy).Contents (Elt F)),
    binary main_v180 main_v183 main_v184 (addf : (⟨S100000x1, .f32⟩ : BufTy).Contents (Elt F) → (⟨S100000x1, .f32⟩ : BufTy).Contents (Elt F) → (⟨S100000x1, .f32⟩ : BufTy).Contents (Elt F)),
    unary main_v184 main_v185 (Host.rsqrt : (⟨S100000x1, .f32⟩ : BufTy).Contents (Elt F) → (⟨S100000x1, .f32⟩ : BufTy).Contents (Elt F)),
    unary main_v185 main_v186 (broadcastInDim S100000x128 ![0, 1] bcast_S100000x1_S100000x128_0_1 : (⟨S100000x1, .f32⟩ : BufTy).Contents (Elt F) → (⟨S100000x128, .f32⟩ : BufTy).Contents (Elt F)),
    binary main_v182 main_v186 main_v187 (mulf : (⟨S100000x128, .f32⟩ : BufTy).Contents (Elt F) → (⟨S100000x128, .f32⟩ : BufTy).Contents (Elt F) → (⟨S100000x128, .f32⟩ : BufTy).Contents (Elt F)),
    unary main_v167 main_v188 (broadcastInDim S1x128 ![1] bcast_S128_S1x128_1 : (⟨S128, .f32⟩ : BufTy).Contents (Elt F) → (⟨S1x128, .f32⟩ : BufTy).Contents (Elt F)),
    unary main_v188 main_v189 (broadcastInDim S100000x128 ![0, 1] bcast_S1x128_S100000x128_0_1 : (⟨S1x128, .f32⟩ : BufTy).Contents (Elt F) → (⟨S100000x128, .f32⟩ : BufTy).Contents (Elt F)),
    binary main_v187 main_v189 main_v190 (mulf : (⟨S100000x128, .f32⟩ : BufTy).Contents (Elt F) → (⟨S100000x128, .f32⟩ : BufTy).Contents (Elt F) → (⟨S100000x128, .f32⟩ : BufTy).Contents (Elt F)),
    unary main_v169 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v190 main_v192 main_v193 (addf : (⟨S100000x128, .f32⟩ : BufTy).Contents (Elt F) → (⟨S100000x128, .f32⟩ : BufTy).Contents (Elt F) → (⟨S100000x128, .f32⟩ : BufTy).Contents (Elt F)) ]

/-- Operations 229 … 235: layer 1's rectifier. -/
abbrev w10 : List (HloOp τ sig (Elt F)) :=
  [ nullary main_cst_32 (constant S_ .f32 0x00000000#32),
    unary main_cst_32 main_v194 (broadcastInDim S100000x128 ![] bcast_S_S100000x128 : (⟨S_, .f32⟩ : BufTy).Contents (Elt F) → (⟨S100000x128, .f32⟩ : BufTy).Contents (Elt F)),
    binary main_v193 main_v194 main_v195 (cmpf .oge : (⟨S100000x128, .f32⟩ : BufTy).Contents (Elt F) → (⟨S100000x128, .f32⟩ : BufTy).Contents (Elt F) → (⟨S100000x128, .i1⟩ : BufTy).Contents (Elt F)),
    nullary main_cst_33 (constant S_ .f32 0x3E4CCCCD#32),
    unary main_cst_33 main_v196 (broadcastInDim S100000x128 ![] bcast_S_S100000x128 : (⟨S_, .f32⟩ : BufTy).Contents (Elt F) → (⟨S100000x128, .f32⟩ : BufTy).Contents (Elt F)),
    binary main_v196 main_v193 main_v197 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v195) (TRef.of (T := ⟨S100000x128, .f32⟩) main_v193) (TRef.of (T := ⟨S100000x128, .f32⟩) main_v197) (TRef.of (T := ⟨S100000x128, .f32⟩) main_v198) select ]

/-- Operations 236 … 269: layer 1's second normalisation and the sum with layer 0's output. -/
abbrev w11 : List (HloOp τ sig (Elt F)) :=
  [ unary main_arg9 main_v199 ((extractStridedSlice S1x128 ![1, 0] · slices_S2x128_S1x128_1_0) : (⟨S2x128, .f32⟩ : BufTy).Contents (Elt F) → (⟨S1x128, .f32⟩ : BufTy).Contents (Elt F)),
    reshape main_v199 main_v200 rfl shapeCasts_S1x128_S128,
    unary main_arg10 main_v201 ((extractStridedSlice S1x128 ![1, 0] · slices_S2x128_S1x128_1_0) : (⟨S2x128, .f32⟩ : BufTy).Contents (Elt F) → (⟨S1x128, .f32⟩ : BufTy).Contents (Elt F)),
    reshape main_v201 main_v202 rfl shapeCasts_S1x128_S128,
    nullary main_cst_34 (constant S_ .f32 0x00000000#32),
    binary main_v198 main_cst_34 main_v203 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v203 main_v204 (broadcastInDim S100000x1 ![0] bcast_S100000_S100000x1_0 : (⟨S100000, .f32⟩ : BufTy).Contents (Elt F) → (⟨S100000x1, .f32⟩ : BufTy).Contents (Elt F)),
    nullary main_cst_35 (constant S_ .f32 0x43000000#32),
    unary main_cst_35 main_v205 (broadcastInDim S100000x1 ![] bcast_S_S100000x1 : (⟨S_, .f32⟩ : BufTy).Contents (Elt F) → (⟨S100000x1, .f32⟩ : BufTy).Contents (Elt F)),
    binary main_v204 main_v205 main_v206 (Host.divf : (⟨S100000x1, .f32⟩ : BufTy).Contents (Elt F) → (⟨S100000x1, .f32⟩ : BufTy).Contents (Elt F) → (⟨S100000x1, .f32⟩ : BufTy).Contents (Elt F)),
    unary main_v206 main_v207 (broadcastInDim S100000x128 ![0, 1] bcast_S100000x1_S100000x128_0_1 : (⟨S100000x1, .f32⟩ : BufTy).Contents (Elt F) → (⟨S100000x128, .f32⟩ : BufTy).Contents (Elt F)),
    binary main_v198 main_v207 main_v208 (subf : (⟨S100000x128, .f32⟩ : BufTy).Contents (Elt F) → (⟨S100000x128, .f32⟩ : BufTy).Contents (Elt F) → (⟨S100000x128, .f32⟩ : BufTy).Contents (Elt F)),
    binary main_v208 main_v208 main_v209 (mulf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x00000000#32),
    binary main_v209 main_cst_36 main_v210 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v210 main_v211 (broadcastInDim S100000x1 ![0] bcast_S100000_S100000x1_0 : (⟨S100000, .f32⟩ : BufTy).Contents (Elt F) → (⟨S100000x1, .f32⟩ : BufTy).Contents (Elt F)),
    nullary main_cst_37 (constant S_ .f32 0x43000000#32),
    unary main_cst_37 main_v212 (broadcastInDim S100000x1 ![] bcast_S_S100000x1 : (⟨S_, .f32⟩ : BufTy).Contents (Elt F) → (⟨S100000x1, .f32⟩ : BufTy).Contents (Elt F)),
    binary main_v211 main_v212 main_v213 (Host.divf : (⟨S100000x1, .f32⟩ : BufTy).Contents (Elt F) → (⟨S100000x1, .f32⟩ : BufTy).Contents (Elt F) → (⟨S100000x1, .f32⟩ : BufTy).Contents (Elt F)),
    unary main_v206 main_v214 (broadcastInDim S100000x128 ![0, 1] bcast_S100000x1_S100000x128_0_1 : (⟨S100000x1, .f32⟩ : BufTy).Contents (Elt F) → (⟨S100000x128, .f32⟩ : BufTy).Contents (Elt F)),
    binary main_v198 main_v214 main_v215 (subf : (⟨S100000x128, .f32⟩ : BufTy).Contents (Elt F) → (⟨S100000x128, .f32⟩ : BufTy).Contents (Elt F) → (⟨S100000x128, .f32⟩ : BufTy).Contents (Elt F)),
    nullary main_cst_38 (constant S_ .f32 0x3727C5AC#32),
    unary main_cst_38 main_v216 (broadcastInDim S100000x1 ![] bcast_S_S100000x1 : (⟨S_, .f32⟩ : BufTy).Contents (Elt F) → (⟨S100000x1, .f32⟩ : BufTy).Contents (Elt F)),
    binary main_v213 main_v216 main_v217 (addf : (⟨S100000x1, .f32⟩ : BufTy).Contents (Elt F) → (⟨S100000x1, .f32⟩ : BufTy).Contents (Elt F) → (⟨S100000x1, .f32⟩ : BufTy).Contents (Elt F)),
    unary main_v217 main_v218 (Host.rsqrt : (⟨S100000x1, .f32⟩ : BufTy).Contents (Elt F) → (⟨S100000x1, .f32⟩ : BufTy).Contents (Elt F)),
    unary main_v218 main_v219 (broadcastInDim S100000x128 ![0, 1] bcast_S100000x1_S100000x128_0_1 : (⟨S100000x1, .f32⟩ : BufTy).Contents (Elt F) → (⟨S100000x128, .f32⟩ : BufTy).Contents (Elt F)),
    binary main_v215 main_v219 main_v220 (mulf : (⟨S100000x128, .f32⟩ : BufTy).Contents (Elt F) → (⟨S100000x128, .f32⟩ : BufTy).Contents (Elt F) → (⟨S100000x128, .f32⟩ : BufTy).Contents (Elt F)),
    unary main_v200 main_v221 (broadcastInDim S1x128 ![1] bcast_S128_S1x128_1 : (⟨S128, .f32⟩ : BufTy).Contents (Elt F) → (⟨S1x128, .f32⟩ : BufTy).Contents (Elt F)),
    unary main_v221 main_v222 (broadcastInDim S100000x128 ![0, 1] bcast_S1x128_S100000x128_0_1 : (⟨S1x128, .f32⟩ : BufTy).Contents (Elt F) → (⟨S100000x128, .f32⟩ : BufTy).Contents (Elt F)),
    binary main_v220 main_v222 main_v223 (mulf : (⟨S100000x128, .f32⟩ : BufTy).Contents (Elt F) → (⟨S100000x128, .f32⟩ : BufTy).Contents (Elt F) → (⟨S100000x128, .f32⟩ : BufTy).Contents (Elt F)),
    unary main_v202 main_v224 (broadcastInDim S1x128 ![1] bcast_S128_S1x128_1 : (⟨S128, .f32⟩ : BufTy).Contents (Elt F) → (⟨S1x128, .f32⟩ : BufTy).Contents (Elt F)),
    unary main_v224 main_v225 (broadcastInDim S100000x128 ![0, 1] bcast_S1x128_S100000x128_0_1 : (⟨S1x128, .f32⟩ : BufTy).Contents (Elt F) → (⟨S100000x128, .f32⟩ : BufTy).Contents (Elt F)),
    binary main_v223 main_v225 main_v226 (addf : (⟨S100000x128, .f32⟩ : BufTy).Contents (Elt F) → (⟨S100000x128, .f32⟩ : BufTy).Contents (Elt F) → (⟨S100000x128, .f32⟩ : BufTy).Contents (Elt F)),
    binary main_v226 main_v121 main_v227 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The program is the twelve stretches in order. -/
theorem ops_eq : (ops (F := F)) = w0 ++ w1 ++ w2 ++ w3 ++ w4 ++ w5 ++ w6 ++ w7 ++ w8 ++ w9 ++ w10 ++ w11 := rfl

end Stretches

/-! ## What each stretch leaves in the buffers read after it -/

section Windows
variable (V : Valuation τ sig (Elt Ideal))

theorem w0_main_arg0 : after (w0 (F := Ideal)) V (Proc.devRef .tc main_arg0) = V (Proc.devRef .tc main_arg0) := by after_results_simp <;> rfl
theorem w0_main_arg1 : after (w0 (F := Ideal)) V (Proc.devRef .tc main_arg1) = V (Proc.devRef .tc main_arg1) := by after_results_simp <;> rfl
theorem w0_main_arg2 : after (w0 (F := Ideal)) V (Proc.devRef .tc main_arg2) = V (Proc.devRef .tc main_arg2) := by after_results_simp <;> rfl
theorem w0_main_arg3 : after (w0 (F := Ideal)) V (Proc.devRef .tc main_arg3) = V (Proc.devRef .tc main_arg3) := by after_results_simp <;> rfl
theorem w0_main_arg4 : after (w0 (F := Ideal)) V (Proc.devRef .tc main_arg4) = V (Proc.devRef .tc main_arg4) := by after_results_simp <;> rfl
theorem w0_main_arg5 : after (w0 (F := Ideal)) V (Proc.devRef .tc main_arg5) = V (Proc.devRef .tc main_arg5) := by after_results_simp <;> rfl
theorem w0_main_arg6 : after (w0 (F := Ideal)) V (Proc.devRef .tc main_arg6) = V (Proc.devRef .tc main_arg6) := by after_results_simp <;> rfl
theorem w0_main_arg7 : after (w0 (F := Ideal)) V (Proc.devRef .tc main_arg7) = V (Proc.devRef .tc main_arg7) := by after_results_simp <;> rfl
theorem w0_main_arg8 : after (w0 (F := Ideal)) V (Proc.devRef .tc main_arg8) = V (Proc.devRef .tc main_arg8) := by after_results_simp <;> rfl
theorem w0_main_arg9 : after (w0 (F := Ideal)) V (Proc.devRef .tc main_arg9) = V (Proc.devRef .tc main_arg9) := by after_results_simp <;> rfl
theorem w0_main_arg10 : after (w0 (F := Ideal)) V (Proc.devRef .tc main_arg10) = V (Proc.devRef .tc main_arg10) := by after_results_simp <;> rfl
set_option maxRecDepth 65536 in
theorem w0_main_v3 : after (w0 (F := Ideal)) V (Proc.devRef .tc main_v3) = idx1 (V (Proc.devRef .tc main_arg1)) := by
  after_results_simp <;> rfl
set_option maxRecDepth 65536 in
theorem w0_main_v1 : after (w0 (F := Ideal)) V (Proc.devRef .tc main_v1) = idx0 (V (Proc.devRef .tc main_arg1)) := by
  after_results_simp <;> rfl
set_option maxRecDepth 65536 in
theorem w0_main_v13 : after (w0 (F := Ideal)) V (Proc.devRef .tc main_v13) = nodeDen (V (Proc.devRef .tc main_arg1)) := by
  after_results_simp <;> rfl
set_option maxRecDepth 65536 in
theorem w0_main_v16 : after (w0 (F := Ideal)) V (Proc.devRef .tc main_v16) = heDen (V (Proc.devRef .tc main_arg1)) := by
  after_results_simp <;> rfl
set_option maxRecDepth 65536 in
theorem w0_main_v24 : after (w0 (F := Ideal)) V (Proc.devRef .tc main_v24) = hAffine (V (Proc.devRef .tc main_arg0)) (mat 0 (V (Proc.devRef .tc main_arg3))) (row 0 (V (Proc.devRef .tc main_arg4))) := by
  after_results_simp <;> rfl

theorem w1_main_arg0 : after (w1 (F := Ideal)) V (Proc.devRef .tc main_arg0) = V (Proc.devRef .tc main_arg0) := by after_results_simp <;> rfl
theorem w1_main_arg1 : after (w1 (F := Ideal)) V (Proc.devRef .tc main_arg1) = V (Proc.devRef .tc main_arg1) := by after_results_simp <;> rfl
theorem w1_main_arg2 : after (w1 (F := Ideal)) V (Proc.devRef .tc main_arg2) = V (Proc.devRef .tc main_arg2) := by after_results_simp <;> rfl
theorem w1_main_arg3 : after (w1 (F := Ideal)) V (Proc.devRef .tc main_arg3) = V (Proc.devRef .tc main_arg3) := by after_results_simp <;> rfl
theorem w1_main_arg4 : after (w1 (F := Ideal)) V (Proc.devRef .tc main_arg4) = V (Proc.devRef .tc main_arg4) := by after_results_simp <;> rfl
theorem w1_main_arg5 : after (w1 (F := Ideal)) V (Proc.devRef .tc main_arg5) = V (Proc.devRef .tc main_arg5) := by after_results_simp <;> rfl
theorem w1_main_arg6 : after (w1 (F := Ideal)) V (Proc.devRef .tc main_arg6) = V (Proc.devRef .tc main_arg6) := by after_results_simp <;> rfl
theorem w1_main_arg7 : after (w1 (F := Ideal)) V (Proc.devRef .tc main_arg7) = V (Proc.devRef .tc main_arg7) := by after_results_simp <;> rfl
theorem w1_main_arg8 : after (w1 (F := Ideal)) V (Proc.devRef .tc main_arg8) = V (Proc.devRef .tc main_arg8) := by after_results_simp <;> rfl
theorem w1_main_arg9 : after (w1 (F := Ideal)) V (Proc.devRef .tc main_arg9) = V (Proc.devRef .tc main_arg9) := by after_results_simp <;> rfl
theorem w1_main_arg10 : after (w1 (F := Ideal)) V (Proc.devRef .tc main_arg10) = V (Proc.devRef .tc main_arg10) := by after_results_simp <;> rfl
theorem w1_main_v3 : after (w1 (F := Ideal)) V (Proc.devRef .tc main_v3) = V (Proc.devRef .tc main_v3) := by after_results_simp <;> rfl
theorem w1_main_v1 : after (w1 (F := Ideal)) V (Proc.devRef .tc main_v1) = V (Proc.devRef .tc main_v1) := by after_results_simp <;> rfl
theorem w1_main_v13 : after (w1 (F := Ideal)) V (Proc.devRef .tc main_v13) = V (Proc.devRef .tc main_v13) := by after_results_simp <;> rfl
theorem w1_main_v16 : after (w1 (F := Ideal)) V (Proc.devRef .tc main_v16) = V (Proc.devRef .tc main_v16) := by after_results_simp <;> rfl
set_option maxRecDepth 65536 in
theorem w1_main_v47 : after (w1 (F := Ideal)) V (Proc.devRef .tc main_v47) = hWeighted (edgesOf (V (Proc.devRef .tc main_v24)) (V (Proc.devRef .tc main_v1)) (V (Proc.devRef .tc main_v3))) (V (Proc.devRef .tc main_v16)) (mat 0 (V (Proc.devRef .tc main_arg5))) (row 0 (V (Proc.devRef .tc main_arg6))) (hwCol (V (Proc.devRef .tc main_arg2))) := by
  after_results_simp <;> rfl
theorem w1_main_v24 : after (w1 (F := Ideal)) V (Proc.devRef .tc main_v24) = V (Proc.devRef .tc main_v24) := by after_results_simp <;> rfl

theorem w2_main_arg0 : after (w2 (F := Ideal)) V (Proc.devRef .tc main_arg0) = V (Proc.devRef .tc main_arg0) := by after_results_simp <;> rfl
theorem w2_main_arg1 : after (w2 (F := Ideal)) V (Proc.devRef .tc main_arg1) = V (Proc.devRef .tc main_arg1) := by after_results_simp <;> rfl
theorem w2_main_arg2 : after (w2 (F := Ideal)) V (Proc.devRef .tc main_arg2) = V (Proc.devRef .tc main_arg2) := by after_results_simp <;> rfl
theorem w2_main_arg3 : after (w2 (F := Ideal)) V (Proc.devRef .tc main_arg3) = V (Proc.devRef .tc main_arg3) := by after_results_simp <;> rfl
theorem w2_main_arg4 : after (w2 (F := Ideal)) V (Proc.devRef .tc main_arg4) = V (Proc.devRef .tc main_arg4) := by after_results_simp <;> rfl
theorem w2_main_arg5 : after (w2 (F := Ideal)) V (Proc.devRef .tc main_arg5) = V (Proc.devRef .tc main_arg5) := by after_results_simp <;> rfl
theorem w2_main_arg6 : after (w2 (F := Ideal)) V (Proc.devRef .tc main_arg6) = V (Proc.devRef .tc main_arg6) := by after_results_simp <;> rfl
theorem w2_main_arg7 : after (w2 (F := Ideal)) V (Proc.devRef .tc main_arg7) = V (Proc.devRef .tc main_arg7) := by after_results_simp <;> rfl
theorem w2_main_arg8 : after (w2 (F := Ideal)) V (Proc.devRef .tc main_arg8) = V (Proc.devRef .tc main_arg8) := by after_results_simp <;> rfl
theorem w2_main_arg9 : after (w2 (F := Ideal)) V (Proc.devRef .tc main_arg9) = V (Proc.devRef .tc main_arg9) := by after_results_simp <;> rfl
theorem w2_main_arg10 : after (w2 (F := Ideal)) V (Proc.devRef .tc main_arg10) = V (Proc.devRef .tc main_arg10) := by after_results_simp <;> rfl
theorem w2_main_v3 : after (w2 (F := Ideal)) V (Proc.devRef .tc main_v3) = V (Proc.devRef .tc main_v3) := by after_results_simp <;> rfl
theorem w2_main_v1 : after (w2 (F := Ideal)) V (Proc.devRef .tc main_v1) = V (Proc.devRef .tc main_v1) := by after_results_simp <;> rfl
theorem w2_main_v13 : after (w2 (F := Ideal)) V (Proc.devRef .tc main_v13) = V (Proc.devRef .tc main_v13) := by after_results_simp <;> rfl
theorem w2_main_v16 : after (w2 (F := Ideal)) V (Proc.devRef .tc main_v16) = V (Proc.devRef .tc main_v16) := by after_results_simp <;> rfl
set_option maxRecDepth 65536 in
theorem w2_main_v60 : after (w2 (F := Ideal)) V (Proc.devRef .tc main_v60) = hDivAdd (nodesOf (V (Proc.devRef .tc main_v47)) (V (Proc.devRef .tc main_v1)) (V (Proc.devRef .tc main_v3))) (V (Proc.devRef .tc main_v13)) (V (Proc.devRef .tc main_v24)) := by
  after_results_simp <;> rfl

theorem w3_main_arg0 : after (w3 (F := Ideal)) V (Proc.devRef .tc main_arg0) = V (Proc.devRef .tc main_arg0) := by after_results_simp <;> rfl
theorem w3_main_arg1 : after (w3 (F := Ideal)) V (Proc.devRef .tc main_arg1) = V (Proc.devRef .tc main_arg1) := by after_results_simp <;> rfl
theorem w3_main_arg2 : after (w3 (F := Ideal)) V (Proc.devRef .tc main_arg2) = V (Proc.devRef .tc main_arg2) := by after_results_simp <;> rfl
theorem w3_main_arg3 : after (w3 (F := Ideal)) V (Proc.devRef .tc main_arg3) = V (Proc.devRef .tc main_arg3) := by after_results_simp <;> rfl
theorem w3_main_arg4 : after (w3 (F := Ideal)) V (Proc.devRef .tc main_arg4) = V (Proc.devRef .tc main_arg4) := by after_results_simp <;> rfl
theorem w3_main_arg5 : after (w3 (F := Ideal)) V (Proc.devRef .tc main_arg5) = V (Proc.devRef .tc main_arg5) := by after_results_simp <;> rfl
theorem w3_main_arg6 : after (w3 (F := Ideal)) V (Proc.devRef .tc main_arg6) = V (Proc.devRef .tc main_arg6) := by after_results_simp <;> rfl
theorem w3_main_arg7 : after (w3 (F := Ideal)) V (Proc.devRef .tc main_arg7) = V (Proc.devRef .tc main_arg7) := by after_results_simp <;> rfl
theorem w3_main_arg8 : after (w3 (F := Ideal)) V (Proc.devRef .tc main_arg8) = V (Proc.devRef .tc main_arg8) := by after_results_simp <;> rfl
theorem w3_main_arg9 : after (w3 (F := Ideal)) V (Proc.devRef .tc main_arg9) = V (Proc.devRef .tc main_arg9) := by after_results_simp <;> rfl
theorem w3_main_arg10 : after (w3 (F := Ideal)) V (Proc.devRef .tc main_arg10) = V (Proc.devRef .tc main_arg10) := by after_results_simp <;> rfl
theorem w3_main_v3 : after (w3 (F := Ideal)) V (Proc.devRef .tc main_v3) = V (Proc.devRef .tc main_v3) := by after_results_simp <;> rfl
theorem w3_main_v1 : after (w3 (F := Ideal)) V (Proc.devRef .tc main_v1) = V (Proc.devRef .tc main_v1) := by after_results_simp <;> rfl
theorem w3_main_v13 : after (w3 (F := Ideal)) V (Proc.devRef .tc main_v13) = V (Proc.devRef .tc main_v13) := by after_results_simp <;> rfl
theorem w3_main_v16 : after (w3 (F := Ideal)) V (Proc.devRef .tc main_v16) = V (Proc.devRef .tc main_v16) := by after_results_simp <;> rfl
set_option maxRecDepth 65536 in
theorem w3_main_v88 : after (w3 (F := Ideal)) V (Proc.devRef .tc main_v88) = hLayerNorm (V (Proc.devRef .tc main_v60)) (row 0 (V (Proc.devRef .tc main_arg7))) (row 0 (V (Proc.devRef .tc main_arg8))) := by
  after_results_simp <;> rfl

theorem w4_main_arg0 : after (w4 (F := Ideal)) V (Proc.devRef .tc main_arg0) = V (Proc.devRef .tc main_arg0) := by after_results_simp <;> rfl
theorem w4_main_arg1 : after (w4 (F := Ideal)) V (Proc.devRef .tc main_arg1) = V (Proc.devRef .tc main_arg1) := by after_results_simp <;> rfl
theorem w4_main_arg2 : after (w4 (F := Ideal)) V (Proc.devRef .tc main_arg2) = V (Proc.devRef .tc main_arg2) := by after_results_simp <;> rfl
theorem w4_main_arg3 : after (w4 (F := Ideal)) V (Proc.devRef .tc main_arg3) = V (Proc.devRef .tc main_arg3) := by after_results_simp <;> rfl
theorem w4_main_arg4 : after (w4 (F := Ideal)) V (Proc.devRef .tc main_arg4) = V (Proc.devRef .tc main_arg4) := by after_results_simp <;> rfl
theorem w4_main_arg5 : after (w4 (F := Ideal)) V (Proc.devRef .tc main_arg5) = V (Proc.devRef .tc main_arg5) := by after_results_simp <;> rfl
theorem w4_main_arg6 : after (w4 (F := Ideal)) V (Proc.devRef .tc main_arg6) = V (Proc.devRef .tc main_arg6) := by after_results_simp <;> rfl
theorem w4_main_arg7 : after (w4 (F := Ideal)) V (Proc.devRef .tc main_arg7) = V (Proc.devRef .tc main_arg7) := by after_results_simp <;> rfl
theorem w4_main_arg8 : after (w4 (F := Ideal)) V (Proc.devRef .tc main_arg8) = V (Proc.devRef .tc main_arg8) := by after_results_simp <;> rfl
theorem w4_main_arg9 : after (w4 (F := Ideal)) V (Proc.devRef .tc main_arg9) = V (Proc.devRef .tc main_arg9) := by after_results_simp <;> rfl
theorem w4_main_arg10 : after (w4 (F := Ideal)) V (Proc.devRef .tc main_arg10) = V (Proc.devRef .tc main_arg10) := by after_results_simp <;> rfl
theorem w4_main_v3 : after (w4 (F := Ideal)) V (Proc.devRef .tc main_v3) = V (Proc.devRef .tc main_v3) := by after_results_simp <;> rfl
theorem w4_main_v1 : after (w4 (F := Ideal)) V (Proc.devRef .tc main_v1) = V (Proc.devRef .tc main_v1) := by after_results_simp <;> rfl
theorem w4_main_v13 : after (w4 (F := Ideal)) V (Proc.devRef .tc main_v13) = V (Proc.devRef .tc main_v13) := by after_results_simp <;> rfl
theorem w4_main_v16 : after (w4 (F := Ideal)) V (Proc.devRef .tc main_v16) = V (Proc.devRef .tc main_v16) := by after_results_simp <;> rfl
set_option maxRecDepth 65536 in
theorem w4_main_v93 : after (w4 (F := Ideal)) V (Proc.devRef .tc main_v93) = hLeaky (V (Proc.devRef .tc main_v88)) := by
  after_results_simp <;> rfl

theorem w5_main_arg0 : after (w5 (F := Ideal)) V (Proc.devRef .tc main_arg0) = V (Proc.devRef .tc main_arg0) := by after_results_simp <;> rfl
theorem w5_main_arg1 : after (w5 (F := Ideal)) V (Proc.devRef .tc main_arg1) = V (Proc.devRef .tc main_arg1) := by after_results_simp <;> rfl
theorem w5_main_arg2 : after (w5 (F := Ideal)) V (Proc.devRef .tc main_arg2) = V (Proc.devRef .tc main_arg2) := by after_results_simp <;> rfl
theorem w5_main_arg3 : after (w5 (F := Ideal)) V (Proc.devRef .tc main_arg3) = V (Proc.devRef .tc main_arg3) := by after_results_simp <;> rfl
theorem w5_main_arg4 : after (w5 (F := Ideal)) V (Proc.devRef .tc main_arg4) = V (Proc.devRef .tc main_arg4) := by after_results_simp <;> rfl
theorem w5_main_arg5 : after (w5 (F := Ideal)) V (Proc.devRef .tc main_arg5) = V (Proc.devRef .tc main_arg5) := by after_results_simp <;> rfl
theorem w5_main_arg6 : after (w5 (F := Ideal)) V (Proc.devRef .tc main_arg6) = V (Proc.devRef .tc main_arg6) := by after_results_simp <;> rfl
theorem w5_main_arg7 : after (w5 (F := Ideal)) V (Proc.devRef .tc main_arg7) = V (Proc.devRef .tc main_arg7) := by after_results_simp <;> rfl
theorem w5_main_arg8 : after (w5 (F := Ideal)) V (Proc.devRef .tc main_arg8) = V (Proc.devRef .tc main_arg8) := by after_results_simp <;> rfl
theorem w5_main_arg9 : after (w5 (F := Ideal)) V (Proc.devRef .tc main_arg9) = V (Proc.devRef .tc main_arg9) := by after_results_simp <;> rfl
theorem w5_main_arg10 : after (w5 (F := Ideal)) V (Proc.devRef .tc main_arg10) = V (Proc.devRef .tc main_arg10) := by after_results_simp <;> rfl
set_option maxRecDepth 65536 in
theorem w5_main_v121 : after (w5 (F := Ideal)) V (Proc.devRef .tc main_v121) = hLayerNorm (V (Proc.devRef .tc main_v93)) (row 0 (V (Proc.devRef .tc main_arg9))) (row 0 (V (Proc.devRef .tc main_arg10))) := by
  after_results_simp <;> rfl
theorem w5_main_v3 : after (w5 (F := Ideal)) V (Proc.devRef .tc main_v3) = V (Proc.devRef .tc main_v3) := by after_results_simp <;> rfl
theorem w5_main_v1 : after (w5 (F := Ideal)) V (Proc.devRef .tc main_v1) = V (Proc.devRef .tc main_v1) := by after_results_simp <;> rfl
theorem w5_main_v13 : after (w5 (F := Ideal)) V (Proc.devRef .tc main_v13) = V (Proc.devRef .tc main_v13) := by after_results_simp <;> rfl
theorem w5_main_v16 : after (w5 (F := Ideal)) V (Proc.devRef .tc main_v16) = V (Proc.devRef .tc main_v16) := by after_results_simp <;> rfl

theorem w6_main_arg0 : after (w6 (F := Ideal)) V (Proc.devRef .tc main_arg0) = V (Proc.devRef .tc main_arg0) := by after_results_simp <;> rfl
theorem w6_main_arg1 : after (w6 (F := Ideal)) V (Proc.devRef .tc main_arg1) = V (Proc.devRef .tc main_arg1) := by after_results_simp <;> rfl
theorem w6_main_arg2 : after (w6 (F := Ideal)) V (Proc.devRef .tc main_arg2) = V (Proc.devRef .tc main_arg2) := by after_results_simp <;> rfl
theorem w6_main_arg3 : after (w6 (F := Ideal)) V (Proc.devRef .tc main_arg3) = V (Proc.devRef .tc main_arg3) := by after_results_simp <;> rfl
theorem w6_main_arg4 : after (w6 (F := Ideal)) V (Proc.devRef .tc main_arg4) = V (Proc.devRef .tc main_arg4) := by after_results_simp <;> rfl
theorem w6_main_arg5 : after (w6 (F := Ideal)) V (Proc.devRef .tc main_arg5) = V (Proc.devRef .tc main_arg5) := by after_results_simp <;> rfl
theorem w6_main_arg6 : after (w6 (F := Ideal)) V (Proc.devRef .tc main_arg6) = V (Proc.devRef .tc main_arg6) := by after_results_simp <;> rfl
theorem w6_main_arg7 : after (w6 (F := Ideal)) V (Proc.devRef .tc main_arg7) = V (Proc.devRef .tc main_arg7) := by after_results_simp <;> rfl
theorem w6_main_arg8 : after (w6 (F := Ideal)) V (Proc.devRef .tc main_arg8) = V (Proc.devRef .tc main_arg8) := by after_results_simp <;> rfl
theorem w6_main_arg9 : after (w6 (F := Ideal)) V (Proc.devRef .tc main_arg9) = V (Proc.devRef .tc main_arg9) := by after_results_simp <;> rfl
theorem w6_main_arg10 : after (w6 (F := Ideal)) V (Proc.devRef .tc main_arg10) = V (Proc.devRef .tc main_arg10) := by after_results_simp <;> rfl
theorem w6_main_v121 : after (w6 (F := Ideal)) V (Proc.devRef .tc main_v121) = V (Proc.devRef .tc main_v121) := by after_results_simp <;> rfl
theorem w6_main_v3 : after (w6 (F := Ideal)) V (Proc.devRef .tc main_v3) = V (Proc.devRef .tc main_v3) := by after_results_simp <;> rfl
theorem w6_main_v1 : after (w6 (F := Ideal)) V (Proc.devRef .tc main_v1) = V (Proc.devRef .tc main_v1) := by after_results_simp <;> rfl
theorem w6_main_v13 : after (w6 (F := Ideal)) V (Proc.devRef .tc main_v13) = V (Proc.devRef .tc main_v13) := by after_results_simp <;> rfl
set_option maxRecDepth 65536 in
theorem w6_main_v129 : after (w6 (F := Ideal)) V (Proc.devRef .tc main_v129) = hAffine (V (Proc.devRef .tc main_v121)) (mat 1 (V (Proc.devRef .tc main_arg3))) (row 1 (V (Proc.devRef .tc main_arg4))) := by
  after_results_simp <;> rfl
theorem w6_main_v16 : after (w6 (F := Ideal)) V (Proc.devRef .tc main_v16) = V (Proc.devRef .tc main_v16) := by after_results_simp <;> rfl

theorem w7_main_arg0 : after (w7 (F := Ideal)) V (Proc.devRef .tc main_arg0) = V (Proc.devRef .tc main_arg0) := by after_results_simp <;> rfl
theorem w7_main_arg1 : after (w7 (F := Ideal)) V (Proc.devRef .tc main_arg1) = V (Proc.devRef .tc main_arg1) := by after_results_simp <;> rfl
theorem w7_main_arg2 : after (w7 (F := Ideal)) V (Proc.devRef .tc main_arg2) = V (Proc.devRef .tc main_arg2) := by after_results_simp <;> rfl
theorem w7_main_arg3 : after (w7 (F := Ideal)) V (Proc.devRef .tc main_arg3) = V (Proc.devRef .tc main_arg3) := by after_results_simp <;> rfl
theorem w7_main_arg4 : after (w7 (F := Ideal)) V (Proc.devRef .tc main_arg4) = V (Proc.devRef .tc main_arg4) := by after_results_simp <;> rfl
theorem w7_main_arg5 : after (w7 (F := Ideal)) V (Proc.devRef .tc main_arg5) = V (Proc.devRef .tc main_arg5) := by after_results_simp <;> rfl
theorem w7_main_arg6 : after (w7 (F := Ideal)) V (Proc.devRef .tc main_arg6) = V (Proc.devRef .tc main_arg6) := by after_results_simp <;> rfl
theorem w7_main_arg7 : after (w7 (F := Ideal)) V (Proc.devRef .tc main_arg7) = V (Proc.devRef .tc main_arg7) := by after_results_simp <;> rfl
theorem w7_main_arg8 : after (w7 (F := Ideal)) V (Proc.devRef .tc main_arg8) = V (Proc.devRef .tc main_arg8) := by after_results_simp <;> rfl
theorem w7_main_arg9 : after (w7 (F := Ideal)) V (Proc.devRef .tc main_arg9) = V (Proc.devRef .tc main_arg9) := by after_results_simp <;> rfl
theorem w7_main_arg10 : after (w7 (F := Ideal)) V (Proc.devRef .tc main_arg10) = V (Proc.devRef .tc main_arg10) := by after_results_simp <;> rfl
theorem w7_main_v121 : after (w7 (F := Ideal)) V (Proc.devRef .tc main_v121) = V (Proc.devRef .tc main_v121) := by after_results_simp <;> rfl
theorem w7_main_v3 : after (w7 (F := Ideal)) V (Proc.devRef .tc main_v3) = V (Proc.devRef .tc main_v3) := by after_results_simp <;> rfl
set_option maxRecDepth 65536 in
theorem w7_main_v152 : after (w7 (F := Ideal)) V (Proc.devRef .tc main_v152) = hWeighted (edgesOf (V (Proc.devRef .tc main_v129)) (V (Proc.devRef .tc main_v1)) (V (Proc.devRef .tc main_v3))) (V (Proc.devRef .tc main_v16)) (mat 1 (V (Proc.devRef .tc main_arg5))) (row 1 (V (Proc.devRef .tc main_arg6))) (hwCol (V (Proc.devRef .tc main_arg2))) := by
  after_results_simp <;> rfl
theorem w7_main_v1 : after (w7 (F := Ideal)) V (Proc.devRef .tc main_v1) = V (Proc.devRef .tc main_v1) := by after_results_simp <;> rfl
theorem w7_main_v13 : after (w7 (F := Ideal)) V (Proc.devRef .tc main_v13) = V (Proc.devRef .tc main_v13) := by after_results_simp <;> rfl
theorem w7_main_v129 : after (w7 (F := Ideal)) V (Proc.devRef .tc main_v129) = V (Proc.devRef .tc main_v129) := by after_results_simp <;> rfl

theorem w8_main_arg0 : after (w8 (F := Ideal)) V (Proc.devRef .tc main_arg0) = V (Proc.devRef .tc main_arg0) := by after_results_simp <;> rfl
theorem w8_main_arg1 : after (w8 (F := Ideal)) V (Proc.devRef .tc main_arg1) = V (Proc.devRef .tc main_arg1) := by after_results_simp <;> rfl
theorem w8_main_arg2 : after (w8 (F := Ideal)) V (Proc.devRef .tc main_arg2) = V (Proc.devRef .tc main_arg2) := by after_results_simp <;> rfl
theorem w8_main_arg3 : after (w8 (F := Ideal)) V (Proc.devRef .tc main_arg3) = V (Proc.devRef .tc main_arg3) := by after_results_simp <;> rfl
theorem w8_main_arg4 : after (w8 (F := Ideal)) V (Proc.devRef .tc main_arg4) = V (Proc.devRef .tc main_arg4) := by after_results_simp <;> rfl
theorem w8_main_arg5 : after (w8 (F := Ideal)) V (Proc.devRef .tc main_arg5) = V (Proc.devRef .tc main_arg5) := by after_results_simp <;> rfl
theorem w8_main_arg6 : after (w8 (F := Ideal)) V (Proc.devRef .tc main_arg6) = V (Proc.devRef .tc main_arg6) := by after_results_simp <;> rfl
theorem w8_main_arg7 : after (w8 (F := Ideal)) V (Proc.devRef .tc main_arg7) = V (Proc.devRef .tc main_arg7) := by after_results_simp <;> rfl
theorem w8_main_arg8 : after (w8 (F := Ideal)) V (Proc.devRef .tc main_arg8) = V (Proc.devRef .tc main_arg8) := by after_results_simp <;> rfl
theorem w8_main_arg9 : after (w8 (F := Ideal)) V (Proc.devRef .tc main_arg9) = V (Proc.devRef .tc main_arg9) := by after_results_simp <;> rfl
theorem w8_main_arg10 : after (w8 (F := Ideal)) V (Proc.devRef .tc main_arg10) = V (Proc.devRef .tc main_arg10) := by after_results_simp <;> rfl
theorem w8_main_v121 : after (w8 (F := Ideal)) V (Proc.devRef .tc main_v121) = V (Proc.devRef .tc main_v121) := by after_results_simp <;> rfl
set_option maxRecDepth 65536 in
theorem w8_main_v165 : after (w8 (F := Ideal)) V (Proc.devRef .tc main_v165) = hDivAdd (nodesOf (V (Proc.devRef .tc main_v152)) (V (Proc.devRef .tc main_v1)) (V (Proc.devRef .tc main_v3))) (V (Proc.devRef .tc main_v13)) (V (Proc.devRef .tc main_v129)) := by
  after_results_simp <;> rfl

theorem w9_main_arg0 : after (w9 (F := Ideal)) V (Proc.devRef .tc main_arg0) = V (Proc.devRef .tc main_arg0) := by after_results_simp <;> rfl
theorem w9_main_arg1 : after (w9 (F := Ideal)) V (Proc.devRef .tc main_arg1) = V (Proc.devRef .tc main_arg1) := by after_results_simp <;> rfl
theorem w9_main_arg2 : after (w9 (F := Ideal)) V (Proc.devRef .tc main_arg2) = V (Proc.devRef .tc main_arg2) := by after_results_simp <;> rfl
theorem w9_main_arg3 : after (w9 (F := Ideal)) V (Proc.devRef .tc main_arg3) = V (Proc.devRef .tc main_arg3) := by after_results_simp <;> rfl
theorem w9_main_arg4 : after (w9 (F := Ideal)) V (Proc.devRef .tc main_arg4) = V (Proc.devRef .tc main_arg4) := by after_results_simp <;> rfl
theorem w9_main_arg5 : after (w9 (F := Ideal)) V (Proc.devRef .tc main_arg5) = V (Proc.devRef .tc main_arg5) := by after_results_simp <;> rfl
theorem w9_main_arg6 : after (w9 (F := Ideal)) V (Proc.devRef .tc main_arg6) = V (Proc.devRef .tc main_arg6) := by after_results_simp <;> rfl
theorem w9_main_arg7 : after (w9 (F := Ideal)) V (Proc.devRef .tc main_arg7) = V (Proc.devRef .tc main_arg7) := by after_results_simp <;> rfl
theorem w9_main_arg8 : after (w9 (F := Ideal)) V (Proc.devRef .tc main_arg8) = V (Proc.devRef .tc main_arg8) := by after_results_simp <;> rfl
theorem w9_main_arg9 : after (w9 (F := Ideal)) V (Proc.devRef .tc main_arg9) = V (Proc.devRef .tc main_arg9) := by after_results_simp <;> rfl
theorem w9_main_arg10 : after (w9 (F := Ideal)) V (Proc.devRef .tc main_arg10) = V (Proc.devRef .tc main_arg10) := by after_results_simp <;> rfl
theorem w9_main_v121 : after (w9 (F := Ideal)) V (Proc.devRef .tc main_v121) = V (Proc.devRef .tc main_v121) := by after_results_simp <;> rfl
set_option maxRecDepth 65536 in
theorem w9_main_v193 : after (w9 (F := Ideal)) V (Proc.devRef .tc main_v193) = hLayerNorm (V (Proc.devRef .tc main_v165)) (row 1 (V (Proc.devRef .tc main_arg7))) (row 1 (V (Proc.devRef .tc main_arg8))) := by
  after_results_simp <;> rfl

theorem w10_main_arg0 : after (w10 (F := Ideal)) V (Proc.devRef .tc main_arg0) = V (Proc.devRef .tc main_arg0) := by after_results_simp <;> rfl
theorem w10_main_arg1 : after (w10 (F := Ideal)) V (Proc.devRef .tc main_arg1) = V (Proc.devRef .tc main_arg1) := by after_results_simp <;> rfl
theorem w10_main_arg2 : after (w10 (F := Ideal)) V (Proc.devRef .tc main_arg2) = V (Proc.devRef .tc main_arg2) := by after_results_simp <;> rfl
theorem w10_main_arg3 : after (w10 (F := Ideal)) V (Proc.devRef .tc main_arg3) = V (Proc.devRef .tc main_arg3) := by after_results_simp <;> rfl
theorem w10_main_arg4 : after (w10 (F := Ideal)) V (Proc.devRef .tc main_arg4) = V (Proc.devRef .tc main_arg4) := by after_results_simp <;> rfl
theorem w10_main_arg5 : after (w10 (F := Ideal)) V (Proc.devRef .tc main_arg5) = V (Proc.devRef .tc main_arg5) := by after_results_simp <;> rfl
theorem w10_main_arg6 : after (w10 (F := Ideal)) V (Proc.devRef .tc main_arg6) = V (Proc.devRef .tc main_arg6) := by after_results_simp <;> rfl
theorem w10_main_arg7 : after (w10 (F := Ideal)) V (Proc.devRef .tc main_arg7) = V (Proc.devRef .tc main_arg7) := by after_results_simp <;> rfl
theorem w10_main_arg8 : after (w10 (F := Ideal)) V (Proc.devRef .tc main_arg8) = V (Proc.devRef .tc main_arg8) := by after_results_simp <;> rfl
theorem w10_main_arg9 : after (w10 (F := Ideal)) V (Proc.devRef .tc main_arg9) = V (Proc.devRef .tc main_arg9) := by after_results_simp <;> rfl
theorem w10_main_arg10 : after (w10 (F := Ideal)) V (Proc.devRef .tc main_arg10) = V (Proc.devRef .tc main_arg10) := by after_results_simp <;> rfl
set_option maxRecDepth 65536 in
theorem w10_main_v198 : after (w10 (F := Ideal)) V (Proc.devRef .tc main_v198) = hLeaky (V (Proc.devRef .tc main_v193)) := by
  after_results_simp <;> rfl
theorem w10_main_v121 : after (w10 (F := Ideal)) V (Proc.devRef .tc main_v121) = V (Proc.devRef .tc main_v121) := by after_results_simp <;> rfl

set_option maxRecDepth 65536 in
theorem w11_main_v227 : after (w11 (F := Ideal)) V (Proc.devRef .tc main_v227) = addf (F := Ideal) (hLayerNorm (V (Proc.devRef .tc main_v198)) (row 1 (V (Proc.devRef .tc main_arg9))) (row 1 (V (Proc.devRef .tc main_arg10)))) (V (Proc.devRef .tc main_v121)) := by
  after_results_simp <;> rfl
theorem w11_main_arg0 : after (w11 (F := Ideal)) V (Proc.devRef .tc main_arg0) = V (Proc.devRef .tc main_arg0) := by after_results_simp <;> rfl
theorem w11_main_arg1 : after (w11 (F := Ideal)) V (Proc.devRef .tc main_arg1) = V (Proc.devRef .tc main_arg1) := by after_results_simp <;> rfl
theorem w11_main_arg2 : after (w11 (F := Ideal)) V (Proc.devRef .tc main_arg2) = V (Proc.devRef .tc main_arg2) := by after_results_simp <;> rfl
theorem w11_main_arg3 : after (w11 (F := Ideal)) V (Proc.devRef .tc main_arg3) = V (Proc.devRef .tc main_arg3) := by after_results_simp <;> rfl
theorem w11_main_arg4 : after (w11 (F := Ideal)) V (Proc.devRef .tc main_arg4) = V (Proc.devRef .tc main_arg4) := by after_results_simp <;> rfl
theorem w11_main_arg5 : after (w11 (F := Ideal)) V (Proc.devRef .tc main_arg5) = V (Proc.devRef .tc main_arg5) := by after_results_simp <;> rfl
theorem w11_main_arg6 : after (w11 (F := Ideal)) V (Proc.devRef .tc main_arg6) = V (Proc.devRef .tc main_arg6) := by after_results_simp <;> rfl
theorem w11_main_arg7 : after (w11 (F := Ideal)) V (Proc.devRef .tc main_arg7) = V (Proc.devRef .tc main_arg7) := by after_results_simp <;> rfl
theorem w11_main_arg8 : after (w11 (F := Ideal)) V (Proc.devRef .tc main_arg8) = V (Proc.devRef .tc main_arg8) := by after_results_simp <;> rfl
theorem w11_main_arg9 : after (w11 (F := Ideal)) V (Proc.devRef .tc main_arg9) = V (Proc.devRef .tc main_arg9) := by after_results_simp <;> rfl
theorem w11_main_arg10 : after (w11 (F := Ideal)) V (Proc.devRef .tc main_arg10) = V (Proc.devRef .tc main_arg10) := by after_results_simp <;> rfl

end Windows

end Cert.ReferenceIdeal.Hand

end
-- ==== Proof.RefRun.lean ====
/-
  The reference program's run, read back stage by stage.

  The value the whole line of operations leaves in the result buffer is the composition of what its twelve stretches
  leave: the network refOut of the eleven arguments' contents; every argument buffer ends as it started.  With the
  library's rule for a straight line of host operations this is the statement about every weakly fair execution.
-/
import proofs.«120254_j65652870087174_2_alg».proof.Proof.RefWindows

noncomputable section

namespace Cert.ReferenceIdeal.Hand

open Cert.ReferenceIdeal Cert.ReferenceIdeal.Gen Idealize.ShloMosaic Idealize.ShloMosaic.TcCoe Idealize.SL.Sem Idealize.ShloMosaic.StableHlo

section Reads
variable (V : Valuation τ sig (Elt Ideal))

set_option maxRecDepth 65536 in
/-- The result buffer ends at the network of the arguments' contents. -/
theorem read_main_v227 :
    after (ops (F := Ideal)) V (Proc.devRef .tc main_v227)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_eq]
  simp only [after_append]
  rw [w11_main_v227]
  rw [w10_main_arg9, w10_main_arg10, w10_main_v198, w10_main_v121]
  rw [w9_main_arg9, w9_main_arg10, w9_main_v121, w9_main_v193]
  rw [w8_main_arg9, w8_main_arg10, w8_main_v121, w8_main_arg7, w8_main_arg8, w8_main_v165]
  rw [w7_main_arg9, w7_main_arg10, w7_main_v121, w7_main_arg7, w7_main_arg8, w7_main_v3, w7_main_v152, w7_main_v1, w7_main_v13, w7_main_v129]
  rw [w6_main_arg9, w6_main_arg10, w6_main_v121, w6_main_arg7, w6_main_arg8, w6_main_v3, w6_main_v1, w6_main_v13, w6_main_v129, w6_main_v16, w6_main_arg5, w6_main_arg6, w6_main_arg2]
  rw [w5_main_arg9, w5_main_arg10, w5_main_v121, w5_main_arg7, w5_main_arg8, w5_main_v3, w5_main_v1, w5_main_v13, w5_main_v16, w5_main_arg5, w5_main_arg6, w5_main_arg2, w5_main_arg3, w5_main_arg4]
  rw [w4_main_arg9, w4_main_arg10, w4_main_arg7, w4_main_arg8, w4_main_v3, w4_main_v1, w4_main_v13, w4_main_v16, w4_main_arg5, w4_main_arg6, w4_main_arg2, w4_main_arg3, w4_main_arg4, w4_main_v93]
  rw [w3_main_arg9, w3_main_arg10, w3_main_arg7, w3_main_arg8, w3_main_v3, w3_main_v1, w3_main_v13, w3_main_v16, w3_main_arg5, w3_main_arg6, w3_main_arg2, w3_main_arg3, w3_main_arg4, w3_main_v88]
  rw [w2_main_arg9, w2_main_arg10, w2_main_arg7, w2_main_arg8, w2_main_v3, w2_main_v1, w2_main_v13, w2_main_v16, w2_main_arg5, w2_main_arg6, w2_main_arg2, w2_main_arg3, w2_main_arg4, w2_main_v60]
  rw [w1_main_arg9, w1_main_arg10, w1_main_arg7, w1_main_arg8, w1_main_v3, w1_main_v1, w1_main_v13, w1_main_v16, w1_main_arg5, w1_main_arg6, w1_main_arg2, w1_main_arg3, w1_main_arg4, w1_main_v47, w1_main_v24]
  rw [w0_main_arg9, w0_main_arg10, w0_main_arg7, w0_main_arg8, w0_main_v3, w0_main_v1, w0_main_v13, w0_main_v16, w0_main_arg5, w0_main_arg6, w0_main_arg2, w0_main_arg3, w0_main_arg4, w0_main_v24]
  rfl

/-- Argument 0's buffer ends as it started. -/
theorem read_main_arg0 : after (ops (F := Ideal)) V (Proc.devRef .tc main_arg0) = V (Proc.devRef .tc main_arg0) := by
  rw [ops_eq]
  simp only [after_append]
  rw [w11_main_arg0, w10_main_arg0, w9_main_arg0, w8_main_arg0, w7_main_arg0, w6_main_arg0, w5_main_arg0, w4_main_arg0, w3_main_arg0, w2_main_arg0, w1_main_arg0, w0_main_arg0]

/-- Argument 1's buffer ends as it started. -/
theorem read_main_arg1 : after (ops (F := Ideal)) V (Proc.devRef .tc main_arg1) = V (Proc.devRef .tc main_arg1) := by
  rw [ops_eq]
  simp only [after_append]
  rw [w11_main_arg1, w10_main_arg1, w9_main_arg1, w8_main_arg1, w7_main_arg1, w6_main_arg1, w5_main_arg1, w4_main_arg1, w3_main_arg1, w2_main_arg1, w1_main_arg1, w0_main_arg1]

/-- Argument 2's buffer ends as it started. -/
theorem read_main_arg2 : after (ops (F := Ideal)) V (Proc.devRef .tc main_arg2) = V (Proc.devRef .tc main_arg2) := by
  rw [ops_eq]
  simp only [after_append]
  rw [w11_main_arg2, w10_main_arg2, w9_main_arg2, w8_main_arg2, w7_main_arg2, w6_main_arg2, w5_main_arg2, w4_main_arg2, w3_main_arg2, w2_main_arg2, w1_main_arg2, w0_main_arg2]

/-- Argument 3's buffer ends as it started. -/
theorem read_main_arg3 : after (ops (F := Ideal)) V (Proc.devRef .tc main_arg3) = V (Proc.devRef .tc main_arg3) := by
  rw [ops_eq]
  simp only [after_append]
  rw [w11_main_arg3, w10_main_arg3, w9_main_arg3, w8_main_arg3, w7_main_arg3, w6_main_arg3, w5_main_arg3, w4_main_arg3, w3_main_arg3, w2_main_arg3, w1_main_arg3, w0_main_arg3]

/-- Argument 4's buffer ends as it started. -/
theorem read_main_arg4 : after (ops (F := Ideal)) V (Proc.devRef .tc main_arg4) = V (Proc.devRef .tc main_arg4) := by
  rw [ops_eq]
  simp only [after_append]
  rw [w11_main_arg4, w10_main_arg4, w9_main_arg4, w8_main_arg4, w7_main_arg4, w6_main_arg4, w5_main_arg4, w4_main_arg4, w3_main_arg4, w2_main_arg4, w1_main_arg4, w0_main_arg4]

/-- Argument 5's buffer ends as it started. -/
theorem read_main_arg5 : after (ops (F := Ideal)) V (Proc.devRef .tc main_arg5) = V (Proc.devRef .tc main_arg5) := by
  rw [ops_eq]
  simp only [after_append]
  rw [w11_main_arg5, w10_main_arg5, w9_main_arg5, w8_main_arg5, w7_main_arg5, w6_main_arg5, w5_main_arg5, w4_main_arg5, w3_main_arg5, w2_main_arg5, w1_main_arg5, w0_main_arg5]

/-- Argument 6's buffer ends as it started. -/
theorem read_main_arg6 : after (ops (F := Ideal)) V (Proc.devRef .tc main_arg6) = V (Proc.devRef .tc main_arg6) := by
  rw [ops_eq]
  simp only [after_append]
  rw [w11_main_arg6, w10_main_arg6, w9_main_arg6, w8_main_arg6, w7_main_arg6, w6_main_arg6, w5_main_arg6, w4_main_arg6, w3_main_arg6, w2_main_arg6, w1_main_arg6, w0_main_arg6]

/-- Argument 7's buffer ends as it started. -/
theorem read_main_arg7 : after (ops (F := Ideal)) V (Proc.devRef .tc main_arg7) = V (Proc.devRef .tc main_arg7) := by
  rw [ops_eq]
  simp only [after_append]
  rw [w11_main_arg7, w10_main_arg7, w9_main_arg7, w8_main_arg7, w7_main_arg7, w6_main_arg7, w5_main_arg7, w4_main_arg7, w3_main_arg7, w2_main_arg7, w1_main_arg7, w0_main_arg7]

/-- Argument 8's buffer ends as it started. -/
theorem read_main_arg8 : after (ops (F := Ideal)) V (Proc.devRef .tc main_arg8) = V (Proc.devRef .tc main_arg8) := by
  rw [ops_eq]
  simp only [after_append]
  rw [w11_main_arg8, w10_main_arg8, w9_main_arg8, w8_main_arg8, w7_main_arg8, w6_main_arg8, w5_main_arg8, w4_main_arg8, w3_main_arg8, w2_main_arg8, w1_main_arg8, w0_main_arg8]

/-- Argument 9's buffer ends as it started. -/
theorem read_main_arg9 : after (ops (F := Ideal)) V (Proc.devRef .tc main_arg9) = V (Proc.devRef .tc main_arg9) := by
  rw [ops_eq]
  simp only [after_append]
  rw [w11_main_arg9, w10_main_arg9, w9_main_arg9, w8_main_arg9, w7_main_arg9, w6_main_arg9, w5_main_arg9, w4_main_arg9, w3_main_arg9, w2_main_arg9, w1_main_arg9, w0_main_arg9]

/-- Argument 10's buffer ends as it started. -/
theorem read_main_arg10 : after (ops (F := Ideal)) V (Proc.devRef .tc main_arg10) = V (Proc.devRef .tc main_arg10) := by
  rw [ops_eq]
  simp only [after_append]
  rw [w11_main_arg10, w10_main_arg10, w9_main_arg10, w8_main_arg10, w7_main_arg10, w6_main_arg10, w5_main_arg10, w4_main_arg10, w3_main_arg10, w2_main_arg10, w1_main_arg10, w0_main_arg10]

end Reads

/-- On every device, from any memory with zero counters: every weakly fair execution of the reference program
    terminates with the result buffer at the network refOut of the eleven arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v227) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => ⟨(h c main_v227).trans (read_main_v227 (launchContents m c)),
      (h c main_arg0).trans (read_main_arg0 (launchContents m c)),
      (h c main_arg1).trans (read_main_arg1 (launchContents m c)),
      (h c main_arg2).trans (read_main_arg2 (launchContents m c)),
      (h c main_arg3).trans (read_main_arg3 (launchContents m c)),
      (h c main_arg4).trans (read_main_arg4 (launchContents m c)),
      (h c main_arg5).trans (read_main_arg5 (launchContents m c)),
      (h c main_arg6).trans (read_main_arg6 (launchContents m c)),
      (h c main_arg7).trans (read_main_arg7 (launchContents m c)),
      (h c main_arg8).trans (read_main_arg8 (launchContents m c)),
      (h c main_arg9).trans (read_main_arg9 (launchContents m c)),
      (h c main_arg10).trans (read_main_arg10 (launchContents m c))⟩)
    (run_seq scopedRefs_eq scopedSems_eq (defs (F := Ideal)) (main (F := Ideal)) (fun _ => ops (F := Ideal)) main_eq (fun _ => ops_sub) m ρ)

end Cert.ReferenceIdeal.Hand

end
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibHostRows.lean ====
/-
  The host's reductions along the rows of a matrix, read at an index; nothing here depends on a program.

  A matrix [a, b] reduced over its second axis gives a vector [a]. With a maximum body, entry i of the result is the
  fold of max over the entries of row i, started from the initial value; with a sum body it is the initial value plus
  the sum of the entries of row i. Stated for any extents a and b, at the ideal values.
-/
import Idealize.ShloMosaic.Lib.Pipeline.Value
import Idealize.ShloMosaic.Lib.ValueIdx
import Idealize.ShloMosaic.PureOps.Ideal.Laws

noncomputable section

open scoped BigOperators

namespace Cert.LibHostRows

open Idealize.ShloMosaic Idealize.ShloMosaic.ValueIdx

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- The maximum along each row of a matrix, folded from an initial value: entry i is the fold of max over row i. -/
theorem hostRowsMax_apply {a b : ℕ} (x : (⟨2, ![a, b]⟩ : Shape).Idx → EReal) (init : (⟨0, ![]⟩ : Shape).Idx → EReal)
    (h' : (⟨2, ![a, b]⟩ : Shape).ReducesTo [1] ⟨1, ![a]⟩) (hu : 0 < (⟨0, ![]⟩ : Shape).numel) (i : Fin a) :
    Host.reduce (FloatOps.maximumf (F := Ideal) (φ := .f32)) x init h' hu (ix1 i)
      = (Finset.univ : Finset (Fin b)).fold max (init (Shape.Idx.first hu)) (fun k => x (ix2 i k)) := by
  have h : (⟨2, ![a, b]⟩ : Shape).Reduces [1] ⟨1, ![a]⟩ := ⟨h'.1, Nat.one_pos, h'.2⟩
  rw [Host.reduce_eq_fold_single (FloatOps.maximumf (F := Ideal) (φ := .f32)) x init h' h hu]
  show (Finset.univ : Finset (Fin b)).fold max (init (Shape.Idx.first hu)) (fun k => x (h.lift (ix1 i) k)) = _
  exact Finset.fold_congr fun (k : Fin b) _ => congrArg x (lift_row h i k)

/-- The sum along each row of a matrix, from an initial value: entry i is that value plus the sum of row i. -/
theorem hostRowsSum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (i : Fin a) :
    Host.reduceAdd (F := Ideal) (φ := .f32) x init h' hu (ix1 i) = init (Shape.Idx.first hu) + ∑ k : Fin b, x (ix2 i k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  show init (Shape.Idx.first hu) + ∑ k : Fin b, x (h.lift (ix1 i) k) = _
  exact congrArg (_ + ·) (Finset.sum_congr rfl fun (k : Fin b) _ => congrArg x (lift_row h i k))

end Cert.LibHostRows

end
-- ==== Proof.LibScatterSet.lean ====
/-
  A scatter whose body returns the update, read at one index.

  The scatter runs through its updates in order; update j either lands at an operand index (its start, read signed
  off the index array, plus its window coordinate, when that is inside the operand on every axis) and replaces the
  entry there, or is dropped.  Read at one index i' the result is therefore decided by the updates that land at i':
  if none does, the entry is the operand's; if exactly one does, the entry is that update.  (With several the last
  one in the order would win; that case is not needed here.)  An update lands at i' exactly when start plus window
  coordinate equals i''s coordinate on every axis.

  For the dimension numbers of a point-wise write into a matrix — no window axes, both operand axes inserted, the
  index array [N, 2] holding one (row, column) pair per update, updates [N] — update n has start
  (idx(n, 0), idx(n, 1)) read signed and no window offset, so it lands at (a, b) exactly when idx(n, 0) = a and
  idx(n, 1) = b as integers.  Nothing here depends on a program.
-/
import Idealize.ShloMosaic.PureOps
import Idealize.ShloMosaic.Lib.ValueIdx

namespace Cert.ScatterSet

open Idealize.ShloMosaic Idealize.ShloMosaic.ValueIdx

section Fold

variable {ι β γ : Type}

/-- A left fold of steps that each either overwrite the entry at `i'` (when `P n`) or leave it: when no step of the
    list overwrites it, the entry is the initial one. -/
theorem foldl_apply_of_none (step : (γ → β) → ι → (γ → β)) (P : ι → Prop) (i' : γ)
    (hneg : ∀ r n, ¬ P n → step r n i' = r i') :
    ∀ (l : List ι) (x : γ → β), (∀ n ∈ l, ¬ P n) → l.foldl step x i' = x i'
  | [], _, _ => rfl
  | a :: l, x, h => by
    rw [List.foldl_cons, foldl_apply_of_none step P i' hneg l (step x a) fun n hn => h n (List.mem_cons_of_mem _ hn),
      hneg _ _ (h a (List.mem_cons.2 (Or.inl rfl)))]

/-- When exactly one member `n0` of the list overwrites the entry at `i'`, the entry ends as what `n0` wrote. -/
theorem foldl_apply_of_unique (step : (γ → β) → ι → (γ → β)) (P : ι → Prop) (v : ι → β) (i' : γ)
    (hpos : ∀ r n, P n → step r n i' = v n) (hneg : ∀ r n, ¬ P n → step r n i' = r i') (n0 : ι) (hP : P n0) :
    ∀ (l : List ι) (x : γ → β), n0 ∈ l → (∀ n ∈ l, P n → n = n0) → l.foldl step x i' = v n0
  | [], _, h, _ => nomatch h
  | a :: l, x, hmem, huniq => by
    rw [List.foldl_cons]
    by_cases hl : n0 ∈ l
    · exact foldl_apply_of_unique step P v i' hpos hneg n0 hP l (step x a) hl fun n hn => huniq n (List.mem_cons_of_mem _ hn)
    · have ha : a = n0 := by
        rcases List.mem_cons.1 hmem with h | h
        · exact h.symm
        · exact absurd h hl
      rw [foldl_apply_of_none step P i' hneg l (step x a)
        (fun n hn hp => hl (huniq n (List.mem_cons_of_mem _ hn) hp ▸ hn)), ha, hpos _ _ hP]

end Fold

section Scatter

variable {α : Type} {w : Nat} {s si u : Shape}

/-- One step of the scatter whose body returns the update, read at the index the update lands at. -/
theorem step_hit (d : ScatterDims s si u) (idx : IVec si w) (upd : u.Idx → α) (r : s.Idx → α) (n : Fin u.numel)
    (i' : s.Idx) (h : d.resultIdx? (u.rowMajor.symm n) idx = some i') :
    (match d.resultIdx? (u.rowMajor.symm n) idx with
      | some i => fun i' => if i' = i then (fun (_ : α) b => b) (r i) (upd (u.rowMajor.symm n)) else r i'
      | none => r) i' = upd (u.rowMajor.symm n) := by
  rw [h]; simp

/-- One step of the scatter, read at an index the update does not land at. -/
theorem step_miss (d : ScatterDims s si u) (idx : IVec si w) (upd : u.Idx → α) (r : s.Idx → α) (n : Fin u.numel)
    (i' : s.Idx) (h : ¬ d.resultIdx? (u.rowMajor.symm n) idx = some i') :
    (match d.resultIdx? (u.rowMajor.symm n) idx with
      | some i => fun i' => if i' = i then (fun (_ : α) b => b) (r i) (upd (u.rowMajor.symm n)) else r i'
      | none => r) i' = r i' := by
  cases hres : d.resultIdx? (u.rowMajor.symm n) idx with
  | none => rfl
  | some i =>
    have hi : ¬ i' = i := fun e => h (by rw [hres, e])
    simp [hi]

/-- No update lands at `i'`: the scatter leaves the operand's entry. -/
theorem scatter_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact foldl_apply_of_none _ (fun n => d.resultIdx? (u.rowMajor.symm n) idx = some i') i'
    (fun r n => step_miss d idx upd r n i') _ x (fun n _ => h _)

/-- Exactly one update `j0` lands at `i'`: the scatter's entry there is that update. -/
theorem scatter_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  unfold Host.scatter
  refine (foldl_apply_of_unique _ (fun n => d.resultIdx? (u.rowMajor.symm n) idx = some i')
    (fun n => upd (u.rowMajor.symm n)) i' (fun r n => step_hit d idx upd r n i') (fun r n => step_miss d idx upd r n i')
    (u.rowMajor j0) ?_ (List.finRange u.numel) x (List.mem_finRange _) ?_).trans
    (congrArg upd (Equiv.symm_apply_apply _ _))
  · show d.resultIdx? (u.rowMajor.symm (u.rowMajor j0)) idx = some i'
    rw [Equiv.symm_apply_apply]; exact h0
  · intro n _ hn
    have := huniq _ hn
    rw [← this, Equiv.apply_symm_apply]

end Scatter

section ResultIdx

variable {w : Nat} {s si u : Shape}

/-- An update lands at `i'` exactly when, on every axis, its start plus its window coordinate is `i'`'s coordinate. -/
theorem resultIdx?_eq_some_iff_forall (d : ScatterDims s si u) (j : u.Idx) (idx : IVec si w) (i' : s.Idx) :
    d.resultIdx? j idx = some i' ↔ ∀ a, d.start j idx a + d.window j a = ((i' a).val : Int) := by
  unfold ScatterDims.resultIdx?
  constructor
  · intro h a
    split at h
    · rename_i hin
      have h1 := congrArg Fin.val (congrFun (Option.some.inj h) a)
      have h2 := (hin a).1
      simp only at h1
      omega
    · exact absurd h (by simp)
  · intro h
    have hin : ∀ a, 0 ≤ d.start j idx a + d.window j a ∧ d.start j idx a + d.window j a < s.size a := fun a => by
      have := (i' a).isLt
      rw [h a]; omega
    rw [dif_pos hin]
    congr 1
    funext a
    apply Fin.ext
    show (d.start j idx a + d.window j a).toNat = (i' a).val
    rw [h a]; simp

end ResultIdx

section Pairs

variable {w R Cn N : Nat}

/-- Update n reads component c of its start at (n, c) of the index array. -/
theorem siIdx_eq (wf) (j : (⟨1, ![N]⟩ : Shape).Idx) (c : Fin 2) :
    ScatterDims.siIdx (s := ⟨2, ![R, Cn]⟩) (si := ⟨2, ![N, 2]⟩) (u := ⟨1, ![N]⟩) ⟨[], [0, 1], [0, 1], 1, wf⟩ j c = ix2 (j 0) c := by
  funext b
  match b with
  | ⟨0, _⟩ => rfl
  | ⟨1, _⟩ => rfl

/-- Its start on operand axis a is the word at (n, a), read signed. -/
theorem start_eq (wf) (idx : IVec ⟨2, ![N, 2]⟩ w) (j : (⟨1, ![N]⟩ : Shape).Idx) (a : Fin 2) :
    ScatterDims.start (s := ⟨2, ![R, Cn]⟩) (si := ⟨2, ![N, 2]⟩) (u := ⟨1, ![N]⟩) ⟨[], [0, 1], [0, 1], 1, wf⟩ j idx a
      = (idx (ix2 (j 0) a)).toInt := by
  match a with
  | ⟨0, _⟩ =>
    unfold ScatterDims.start
    exact (dif_pos (List.mem_cons.2 (Or.inl rfl))).trans (congrArg (fun k => (idx k).toInt) (siIdx_eq wf j _))
  | ⟨1, _⟩ =>
    unfold ScatterDims.start
    exact (dif_pos (List.mem_cons.2 (Or.inr (List.mem_cons.2 (Or.inl rfl))))).trans
      (congrArg (fun k => (idx k).toInt) (siIdx_eq wf j _))

/-- Both operand axes are inserted: there is no window offset. -/
theorem window_eq (wf) (j : (⟨1, ![N]⟩ : Shape).Idx) (a : Fin 2) :
    ScatterDims.window (s := ⟨2, ![R, Cn]⟩) (si := ⟨2, ![N, 2]⟩) (u := ⟨1, ![N]⟩) ⟨[], [0, 1], [0, 1], 1, wf⟩ j a = 0 := by
  unfold ScatterDims.window
  refine dif_neg ?_
  match a with
  | ⟨0, _⟩ => simp [ScatterDims.sKept, Shape.kept]
  | ⟨1, _⟩ => simp [ScatterDims.sKept, Shape.kept]

/-- Update n lands at (a, b) exactly when its row word is a and its column word is b, as integers. -/
theorem resultIdx?_eq_some_iff (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (j : (⟨1, ![N]⟩ : Shape).Idx)
    (i' : (⟨2, ![R, Cn]⟩ : Shape).Idx) :
    d.resultIdx? j idx = some i' ↔
      (idx (ix2 (j 0) 0)).toInt = ((i' 0).val : Int) ∧ (idx (ix2 (j 0) 1)).toInt = ((i' 1).val : Int) := by
  obtain ⟨uw, iw, sd, iv, wf⟩ := d
  dsimp only at h1 h2 h3 h4
  subst h1 h2 h3 h4
  rw [resultIdx?_eq_some_iff_forall, Fin.forall_fin_two, start_eq, start_eq, window_eq, window_eq]
  simp

end Pairs

section PairsAt

variable {α : Type} {w R Cn N : Nat}

/-- A point-wise write into a matrix, read where exactly one update's (row, column) pair points. -/
theorem scatter_pairs_hit (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx) (n0 : Fin N)
    (hr : (idx (ix2 n0 0)).toInt = ((i' 0).val : Int)) (hc : (idx (ix2 n0 1)).toInt = ((i' 1).val : Int))
    (huniq : ∀ n : Fin N, (idx (ix2 n 0)).toInt = ((i' 0).val : Int) → (idx (ix2 n 1)).toInt = ((i' 1).val : Int) →
      n = n0) :
    Host.scatter d (fun _ b => b) x idx upd i' = upd (ix1 n0) := by
  refine scatter_hit d x idx upd i' (ix1 n0) ((resultIdx?_eq_some_iff d h1 h2 h3 h4 idx (ix1 n0) i').2 ⟨hr, hc⟩) ?_
  intro j hj
  obtain ⟨hjr, hjc⟩ := (resultIdx?_eq_some_iff d h1 h2 h3 h4 idx j i').1 hj
  exact (eq_ix1 j).trans (congrArg (fun k : Fin N => ix1 k) (huniq (j 0) hjr hjc))

/-- A point-wise write into a matrix, read where no update's (row, column) pair points. -/
theorem scatter_pairs_miss (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx)
    (h : ∀ n : Fin N, (idx (ix2 n 0)).toInt = ((i' 0).val : Int) → ¬ (idx (ix2 n 1)).toInt = ((i' 1).val : Int)) :
    Host.scatter d (fun _ b => b) x idx upd i' = x i' := by
  refine scatter_miss d x idx upd i' fun j hj => ?_
  obtain ⟨hjr, hjc⟩ := (resultIdx?_eq_some_iff d h1 h2 h3 h4 idx j i').1 hj
  exact h (j 0) hjr hjc

end PairsAt

end Cert.ScatterSet
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibSegmentSum.lean ====
/-
  A segment sum, read at one index, and its linearity.

  A segment sum takes E updates (edges), each carrying a segment id, and adds every update into the operand entry
  (or row) its id names.  As a scatter whose body adds, over a start-index array of shape [E, 1], update e has its
  start on the operand's first axis at the word (e, 0) of the index array, read signed; an update whose id is
  outside the operand is dropped.  At the ideal (extended-real) values the scatter's entry is the operand's entry
  plus the exact sum of the updates that land on it, so read at one index n (or (n, k)) the result is

      x n + ∑ over the edges e with id(e) = n of upd e        (a vector of E updates into N entries),
      x (n, k) + ∑ over the edges e with id(e) = n of upd (e, k)   (E rows of width C into N rows).

  An update lands on an entry exactly when, on every operand axis, its start plus its window coordinate is the
  entry's coordinate.  For a vector there is no window axis: update e lands at n exactly when id(e) = n.  For rows
  the second axis is a window axis with start 0: update (e, c) lands at (n, k) exactly when id(e) = n and c = k.

  Linearity: over real entries, ∑ₑ ((∑ₖ a(e,k) · w(k)) + c) = (∑ₖ (∑ₑ a(e,k)) · w(k)) + (∑ₑ 1) · c.  A real factor
  moves across a finite sum of real entries; that is not a law of the extended reals in general.  Nothing here
  depends on a program.
-/
import Idealize.ShloMosaic.PureOps
import Idealize.ShloMosaic.PureOps.Ideal
import Idealize.ShloMosaic.Lib.ValueIdx
import Mathlib.Algebra.BigOperators.Fin
import proofs.«120254_j65652870087174_2_alg».proof.Proof.LibScatterSet
import proofs.«120254_j65652870087174_2_alg».proof.Proof.LibRealEntries

noncomputable section
namespace Cert.SegmentSum
open Idealize.ShloMosaic Idealize.ShloMosaic.ValueIdx Cert.RealEntries

/-- The updates (edges) whose segment id — the word at (e, 0) of the start-index array, read signed — is n. -/
def edgesAt {E N w : Nat} (idx : IVec ⟨2, ![E, 1]⟩ w) (n : Fin N) : Finset (Fin E) :=
  Finset.univ.filter fun e => (idx (ix2 e (0 : Fin 1))).toInt = ((n.val : Nat) : Int)

/-- Membership in the edges of segment n: the edge's id, read signed, is n. -/
theorem mem_edgesAt {E N w : Nat} (idx : IVec ⟨2, ![E, 1]⟩ w) (n : Fin N) (e : Fin E) :
    e ∈ edgesAt idx n ↔ (idx (ix2 e (0 : Fin 1))).toInt = ((n.val : Nat) : Int) := by
  unfold edgesAt
  simp

section Vec

variable {w E N : Nat}

/-- Update e reads the one component of its start at (e, 0) of the index array. -/
theorem siIdx_vec (wf) (j : (⟨1, ![E]⟩ : Shape).Idx) (c : Fin 1) :
    ScatterDims.siIdx (s := ⟨1, ![N]⟩) (si := ⟨2, ![E, 1]⟩) (u := ⟨1, ![E]⟩) ⟨[], [0], [0], 1, wf⟩ j c = ix2 (j 0) c := by
  funext b
  match b with
  | ⟨0, _⟩ => rfl
  | ⟨1, _⟩ => rfl

/-- Its start on the operand's one axis is the word at (e, 0), read signed. -/
theorem start_vec (wf) (idx : IVec ⟨2, ![E, 1]⟩ w) (j : (⟨1, ![E]⟩ : Shape).Idx) (a : Fin 1) :
    ScatterDims.start (s := ⟨1, ![N]⟩) (si := ⟨2, ![E, 1]⟩) (u := ⟨1, ![E]⟩) ⟨[], [0], [0], 1, wf⟩ j idx a
      = (idx (ix2 (j 0) (0 : Fin 1))).toInt := by
  match a with
  | ⟨0, _⟩ =>
    unfold ScatterDims.start
    exact (dif_pos (List.mem_cons.2 (Or.inl rfl))).trans (congrArg (fun k => (idx k).toInt) (siIdx_vec wf j _))

/-- The operand's one axis is inserted: there is no window offset. -/
theorem window_vec (wf) (j : (⟨1, ![E]⟩ : Shape).Idx) (a : Fin 1) :
    ScatterDims.window (s := ⟨1, ![N]⟩) (si := ⟨2, ![E, 1]⟩) (u := ⟨1, ![E]⟩) ⟨[], [0], [0], 1, wf⟩ j a = 0 := by
  unfold ScatterDims.window
  refine dif_neg ?_
  match a with
  | ⟨0, _⟩ => simp [ScatterDims.sKept, Shape.kept]

/-- Update e lands at entry i' exactly when its id is i', as integers. -/
theorem resultIdx?_vec_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (j : (⟨1, ![E]⟩ : Shape).Idx)
    (i' : (⟨1, ![N]⟩ : Shape).Idx) :
    d.resultIdx? j idx = some i' ↔ (idx (ix2 (j 0) (0 : Fin 1))).toInt = ((i' 0).val : Int) := by
  obtain ⟨uw, iw, sd, iv, wf⟩ := d
  dsimp only at h1 h2 h3 h4
  subst h1 h2 h3 h4
  rw [Cert.ScatterSet.resultIdx?_eq_some_iff_forall, Fin.forall_fin_one, start_vec, window_vec]
  simp

end Vec

section Rows

variable {w E N C : Nat}

/-- Update (e, c) reads the one component of its start at (e, 0) of the index array. -/
theorem siIdx_rows (wf) (j : (⟨2, ![E, C]⟩ : Shape).Idx) (c : Fin 1) :
    ScatterDims.siIdx (s := ⟨2, ![N, C]⟩) (si := ⟨2, ![E, 1]⟩) (u := ⟨2, ![E, C]⟩) ⟨[1], [0], [0], 1, wf⟩ j c = ix2 (j 0) c := by
  funext b
  match b with
  | ⟨0, _⟩ => rfl
  | ⟨1, _⟩ => rfl

/-- Its start on the operand's first axis is the word at (e, 0), read signed. -/
theorem start_rows_zero (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 0
      = (idx (ix2 (j 0) (0 : Fin 1))).toInt := by
  unfold ScatterDims.start
  exact (dif_pos (List.mem_cons.2 (Or.inl rfl))).trans (congrArg (fun k => (idx k).toInt) (siIdx_rows wf j _))

/-- Its start on the operand's second axis, which the map does not name, is 0. -/
theorem start_rows_one (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 1 = 0 := by
  unfold ScatterDims.start
  refine dif_neg ?_
  simp

/-- The operand's first axis is inserted: no window offset there. -/
theorem window_rows_zero (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 0 = 0 := by
  unfold ScatterDims.window
  refine dif_neg ?_
  simp [ScatterDims.sKept, Shape.kept]

/-- On the operand's second axis the window coordinate is the update's column. -/
theorem window_rows_one (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 1 = (j 1).val := by
  unfold ScatterDims.window
  have hmem : (1 : Fin 2) ∈ ScatterDims.sKept (s := ⟨2, ![N, C]⟩) (si := ⟨2, ![E, 1]⟩) (u := ⟨2, ![E, C]⟩) ⟨[1], [0], [0], 1, wf⟩ := by
    simp [ScatterDims.sKept, Shape.kept]
  exact (dif_pos hmem).trans rfl

/-- Update (e, c) lands at (n, k) exactly when its id is n, as integers, and c = k. -/
theorem resultIdx?_rows_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (j : (⟨2, ![E, C]⟩ : Shape).Idx)
    (i' : (⟨2, ![N, C]⟩ : Shape).Idx) :
    d.resultIdx? j idx = some i' ↔
      (idx (ix2 (j 0) (0 : Fin 1))).toInt = ((i' 0).val : Int) ∧ (j 1).val = (i' 1).val := by
  obtain ⟨uw, iw, sd, iv, wf⟩ := d
  dsimp only at h1 h2 h3 h4
  subst h1 h2 h3 h4
  rw [Cert.ScatterSet.resultIdx?_eq_some_iff_forall, Fin.forall_fin_two, start_rows_zero, start_rows_one,
    window_rows_zero, window_rows_one]
  simp

end Rows

/-- A segment sum of a vector: dimension numbers update_window_dims = [], inserted_window_dims = [0], scatter_dims_to_operand_dims = [0], index_vector_dim = 1. -/
theorem scatterAdd_vec_apply {E N w : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n) + ∑ e ∈ edgesAt idx n, upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact (mem_edgesAt idx n _).2 ((resultIdx?_vec_iff d h1 h2 h3 h4 idx j (ix1 n)).1 hj.2)
  · intro e he
    rw [Finset.mem_filter]
    exact ⟨Finset.mem_univ _, (resultIdx?_vec_iff d h1 h2 h3 h4 idx (ix1 e) (ix1 n)).2 ((mem_edgesAt idx n e).1 he)⟩
  · intro j _
    exact (eq_ix1 j).symm
  · intro e _
    rfl
  · intro j _
    exact congrArg upd (eq_ix1 j)

/-- A segment sum of the rows of a matrix: update_window_dims = [1], inserted_window_dims = [0], scatter_dims_to_operand_dims = [0], index_vector_dim = 1. -/
theorem scatterAdd_rows_apply {E N C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ w) (upd : (⟨2, ![E, C]⟩ : Shape).Idx → EReal) (n : Fin N) (k : Fin C) :
    Ideal.hostScatterAdd d x idx upd (ix2 n k) = x (ix2 n k) + ∑ e ∈ edgesAt idx n, upd (ix2 e k) := by
  unfold Ideal.hostScatterAdd
  congr 1
  refine Finset.sum_nbij' (fun j => (j 0 : Fin E)) (fun e => ix2 e k) ?_ ?_ ?_ ?_ ?_
  · intro j hj
    rw [Finset.mem_filter] at hj
    exact (mem_edgesAt idx n _).2 ((resultIdx?_rows_iff d h1 h2 h3 h4 idx j (ix2 n k)).1 hj.2).1
  · intro e he
    rw [Finset.mem_filter]
    exact ⟨Finset.mem_univ _,
      (resultIdx?_rows_iff d h1 h2 h3 h4 idx (ix2 e k) (ix2 n k)).2 ⟨(mem_edgesAt idx n e).1 he, rfl⟩⟩
  · intro j hj
    rw [Finset.mem_filter] at hj
    have hk : (j 1 : Fin C) = k := Fin.ext ((resultIdx?_rows_iff d h1 h2 h3 h4 idx j (ix2 n k)).1 hj.2).2
    exact (congrArg (fun c : Fin C => ix2 (j 0 : Fin E) c) hk).symm.trans (eq_ix2 j).symm
  · intro e _
    rfl
  · intro j hj
    rw [Finset.mem_filter] at hj
    have hk : (j 1 : Fin C) = k := Fin.ext ((resultIdx?_rows_iff d h1 h2 h3 h4 idx j (ix2 n k)).1 hj.2).2
    exact congrArg upd ((eq_ix2 j).trans (congrArg (fun c : Fin C => ix2 (j 0 : Fin E) c) hk))

/-- Linearity of a segment sum over real entries: summing (row · weights + bias) over a set of edges is (summed rows) · weights + (number of edges, as a sum of ones) · bias. -/
theorem segment_linear {ι κ : Type*} [Fintype κ] (s : Finset ι) (a : ι → κ → EReal) (wt : κ → EReal) (c : EReal)
    (ha : ∀ e k, IsReal (a e k)) (hw : ∀ k, IsReal (wt k)) (hc : IsReal c) :
    ∑ e ∈ s, ((∑ k, a e k * wt k) + c) = (∑ k, (∑ e ∈ s, a e k) * wt k) + (∑ _e ∈ s, (1 : EReal)) * c := by
  rw [Finset.sum_add_distrib, Finset.sum_comm]
  congr 1
  · exact Finset.sum_congr rfl fun k _ => (sum_mul_of_isReal s (fun e => a e k) (wt k) (fun e _ => ha e k) (hw k)).symm
  · rw [sum_mul_of_isReal s (fun _ => (1 : EReal)) c (fun _ _ => ⟨1, EReal.coe_one.symm⟩) hc]
    exact Finset.sum_congr rfl fun _ _ => (one_mul c).symm

end Cert.SegmentSum
end
-- ==== Proof.LibHgnnHost.lean ====
/-
  The host operations of a hypergraph message-passing layer's reference, read as functions of the whole arrays, and the
  segment counts as real numbers. Nothing here depends on a program; every extent is arbitrary.

  * A matrix product of the whole matrices plus a one-row matrix laid along every row is the dense layer x · W + b
    (host_affine); followed by a column laid across the columns as a last factor it is the weighted dense layer
    (host_weighted); a quotient by a column laid across the columns divides every row by its entry of the column
    (host_divCol).
  * The chain sum over a row / 128 → deviation → square → sum / 128 → + ε → reciprocal square root → scale → shift is the
    layer normalisation along the rows (host_layerNorm); a comparison with zero selecting between A and 0.2 · A is the
    leaky rectifier (host_leaky); normalise, rectify, normalise is the closing function of a layer (host_finalize).
  * A one-row matrix flattened to a vector and laid out again as one row, by a recast or by a broadcast along axis 1,
    is the matrix it started from (row_cast_cast, row_bcast_cast).
  * A count is a segment sum of ones into zeros: a finite sum of ones, a real number that is not negative
    (count_real). The larger of a count and 1 is a real number at least 1, and a count plus a positive real is a
    positive real: both are non-zero reals, so the column of their reciprocals multiplies as the column itself
    divides (node_recip, node_real, edge_recip, edge_real).
-/
import proofs.«120254_j65652870087174_2_alg».proof.Proof.Spec
import proofs.«120254_j65652870087174_2_alg».proof.Proof.LibAffineAt
import proofs.«120254_j65652870087174_2_alg».proof.Proof.LibHostColumn
import proofs.«120254_j65652870087174_2_alg».proof.Proof.LibColumn
import proofs.«120254_j65652870087174_2_alg».proof.Proof.LibHostRows
import proofs.«120254_j65652870087174_2_alg».proof.Proof.LibSegmentSum
import proofs.«120254_j65652870087174_2_alg».proof.Proof.LibRealEntries
import Idealize.ShloMosaic.Lib.IdealHost
import Idealize.ShloMosaic.Lib.KernelVsHost

noncomputable section

namespace Cert.LibHgnnHost

open Idealize.ShloMosaic Idealize.ShloMosaic.ValueIdx Cert.Spec

variable {M K N : Nat}

/-! ## The dense layer, the quotient by a column, the weighted dense layer -/

/-- The product of the whole matrices plus the one-row matrix laid along every row is the dense layer. -/
theorem host_affine (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : Mat M K) (w : Mat K N) (r : Mat 1 N) :
    addf (Host.dotGeneral d none x w) (broadcastInDim ⟨2, ![M, N]⟩ ![0, 1] hbc r) = affine x w r := by
  funext i
  obtain ⟨p, q, rfl⟩ : ∃ p q, i = ix2 p q := ⟨i 0, i 1, eq_ix2 i⟩
  exact Cert.LibAffineAt.host_at d hd hbc x w r p q

/-- The quotient by a column laid across the columns divides every row by its entry of the column. -/
theorem host_divCol (h : (⟨2, ![M, 1]⟩ : Shape).BroadcastsInDim ⟨2, ![M, N]⟩ ![0, 1]) (S : Mat M N) (dcol : Mat M 1) :
    Host.divf S (broadcastInDim ⟨2, ![M, N]⟩ ![0, 1] h dcol) = divCol S dcol := by
  funext i
  obtain ⟨p, q, rfl⟩ : ∃ p q, i = ix2 p q := ⟨i 0, i 1, eq_ix2 i⟩
  show Ideal.div (S (ix2 p q)) (broadcastInDim ⟨2, ![M, N]⟩ ![0, 1] h dcol (ix2 p q)) = Ideal.div (S (ix2 p q)) (dcol (ix2 p (0 : Fin 1)))
  rw [Cert.LibHostColumn.broadcastInDim_a1_ab_apply dcol h p q]

/-- The dense layer times a column laid across the columns is the weighted dense layer. -/
theorem host_weighted (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (h : (⟨2, ![M, 1]⟩ : Shape).BroadcastsInDim ⟨2, ![M, N]⟩ ![0, 1])
    (Ss : Mat M K) (w : Mat K N) (r : Mat 1 N) (hcol : Mat M 1) :
    mulf (addf (Host.dotGeneral d none Ss w) (broadcastInDim ⟨2, ![M, N]⟩ ![0, 1] hbc r))
        (broadcastInDim ⟨2, ![M, N]⟩ ![0, 1] h hcol) = weighted Ss w r hcol := by
  rw [host_affine d hd hbc Ss w r]
  funext i
  obtain ⟨p, q, rfl⟩ : ∃ p q, i = ix2 p q := ⟨i 0, i 1, eq_ix2 i⟩
  show affine Ss w r (ix2 p q) * broadcastInDim ⟨2, ![M, N]⟩ ![0, 1] h hcol (ix2 p q) = affine Ss w r (ix2 p q) * hcol (ix2 p (0 : Fin 1))
  rw [Cert.LibHostColumn.broadcastInDim_a1_ab_apply hcol h p q]

/-! ## The leaky rectifier -/

/-- A comparison with the zero word selecting between A and the word of 0.2 times A is the leaky rectifier. -/
theorem host_leaky (h0 : (⟨0, ![]⟩ : Shape).BroadcastsInDim ⟨2, ![M, N]⟩ ![]) (A : Mat M N) :
    select (cmpf .oge A (broadcastInDim ⟨2, ![M, N]⟩ ![] h0 (constant (F := Ideal) ⟨0, ![]⟩ .f32 0x00000000#32))) A
        (mulf (broadcastInDim ⟨2, ![M, N]⟩ ![] h0 (constant (F := Ideal) ⟨0, ![]⟩ .f32 0x3E4CCCCD#32)) A) = leaky A := by
  funext i
  show Scalar.select (Ideal.cmp .oge (A i) (broadcastInDim ⟨2, ![M, N]⟩ ![] h0 (constant (F := Ideal) ⟨0, ![]⟩ .f32 0x00000000#32) i)) (A i)
      (broadcastInDim ⟨2, ![M, N]⟩ ![] h0 (constant (F := Ideal) ⟨0, ![]⟩ .f32 0x3E4CCCCD#32) i * A i) = _
  rw [broadcastInDim_scalar_apply, broadcastInDim_scalar_apply]
  rfl

/-! ## A one-row matrix flattened and laid out again -/

/-- A one-row matrix recast as a vector and recast back as one row is itself. Any element type. -/
theorem row_cast_cast {α : Type} {n : Nat} (r : (⟨2, ![1, n]⟩ : Shape).Idx → α)
    (h : (⟨2, ![1, n]⟩ : Shape).ShapeCasts ⟨1, ![n]⟩) (h' : (⟨1, ![n]⟩ : Shape).ShapeCasts ⟨2, ![1, n]⟩) :
    shapeCast ⟨2, ![1, n]⟩ (shapeCast ⟨1, ![n]⟩ r h) h' = r := by
  funext j
  have hj0 : (j 0).val = 0 := by have := (j 0).isLt; have e : (j 0).val < 1 := this; omega
  have e1 := shapeCast_apply (shapeCast ⟨1, ![n]⟩ r h) h' j (ix1 (j 1)) (by
    rw [Shape.rowMajor_val_two, Shape.rowMajor_val_one]; show (j 1).val = (j 0).val * n + (j 1).val; rw [hj0]; omega)
  have e2 := shapeCast_apply r h (ix1 (j 1)) j (by
    rw [Shape.rowMajor_val_two, Shape.rowMajor_val_one]; show (j 0).val * n + (j 1).val = (j 1).val; rw [hj0]; omega)
  exact e1.trans e2

/-- A one-row matrix recast as a vector and broadcast along axis 1 into one row is itself. Any element type. -/
theorem row_bcast_cast {α : Type} {n : Nat} (r : (⟨2, ![1, n]⟩ : Shape).Idx → α)
    (h : (⟨2, ![1, n]⟩ : Shape).ShapeCasts ⟨1, ![n]⟩) (hd : (⟨1, ![n]⟩ : Shape).BroadcastsInDim ⟨2, ![1, n]⟩ ![1])
    (h' : (⟨1, ![n]⟩ : Shape).ShapeCasts ⟨2, ![1, n]⟩) :
    broadcastInDim ⟨2, ![1, n]⟩ ![1] hd (shapeCast ⟨1, ![n]⟩ r h) = r :=
  (Cert.LibAffineAt.rowCast_eq (shapeCast ⟨1, ![n]⟩ r h) h' hd).symm.trans (row_cast_cast r h h')

/-! ## A row of a stacked pair of rows, flattened and laid out again -/

/-- Row l of a [2, n] array taken as a one-row matrix, recast as a vector and recast back as one row, is that row. -/
theorem slice_cast_cast {α : Type} {n : Nat} (P : (⟨2, ![2, n]⟩ : Shape).Idx → α) (l : Nat)
    (hs : (⟨2, ![2, n]⟩ : Shape).Slices ![l, 0] ⟨2, ![1, n]⟩)
    (h : (⟨2, ![1, n]⟩ : Shape).ShapeCasts ⟨1, ![n]⟩) (h' : (⟨1, ![n]⟩ : Shape).ShapeCasts ⟨2, ![1, n]⟩) :
    shapeCast ⟨2, ![1, n]⟩ (shapeCast ⟨1, ![n]⟩ (extractStridedSlice ⟨2, ![1, n]⟩ ![l, 0] P hs) h) h'
      = extractStridedSlice ⟨2, ![1, n]⟩ ![l, 0] P hs :=
  row_cast_cast _ h h'

/-- Row l of a [2, n] array taken as a one-row matrix, recast as a vector and broadcast along axis 1 into one row, is
    that row. -/
theorem slice_bcast_cast {α : Type} {n : Nat} (P : (⟨2, ![2, n]⟩ : Shape).Idx → α) (l : Nat)
    (hs : (⟨2, ![2, n]⟩ : Shape).Slices ![l, 0] ⟨2, ![1, n]⟩)
    (h : (⟨2, ![1, n]⟩ : Shape).ShapeCasts ⟨1, ![n]⟩) (hd : (⟨1, ![n]⟩ : Shape).BroadcastsInDim ⟨2, ![1, n]⟩ ![1])
    (h' : (⟨1, ![n]⟩ : Shape).ShapeCasts ⟨2, ![1, n]⟩) :
    broadcastInDim ⟨2, ![1, n]⟩ ![1] hd (shapeCast ⟨1, ![n]⟩ (extractStridedSlice ⟨2, ![1, n]⟩ ![l, 0] P hs) h)
      = extractStridedSlice ⟨2, ![1, n]⟩ ![l, 0] P hs :=
  row_bcast_cast _ h hd h'

/-! ## The counts: segment sums of ones, and the two denominators as columns -/

section Counts

variable {w E Nn : Nat}

/-- The coercion of the larger of two reals is the larger of the coercions. -/
theorem ereal_coe_max (a b : ℝ) : ((max a b : ℝ) : EReal) = max (a : EReal) (b : EReal) :=
  EReal.coe_strictMono.monotone.map_max

/-- The word 0x322BCC77 is the positive real 11258999 · 2⁻⁵⁰ (the single-precision neighbour of 10⁻⁸). -/
theorem ofBits_eps_f32 : Ideal.ofBits .f32 0x322BCC77#32 = (((11258999 : ℝ) * (2 : ℝ) ^ (-50 : ℤ) : ℝ) : EReal) := by
  simp [Ideal.ofBits, Ideal.ieee, -EReal.coe_mul]

/-- That word is a positive real. -/
theorem ofBits_eps_f32_pos : ∃ e : ℝ, 0 < e ∧ Ideal.ofBits .f32 0x322BCC77#32 = (e : EReal) :=
  ⟨(11258999 : ℝ) * (2 : ℝ) ^ (-50 : ℤ), by positivity, ofBits_eps_f32⟩

/-- A segment sum of ones into zeros is, at every entry, the number of edges of that segment: a real number that is not
    negative. -/
theorem count_real (d : ScatterDims ⟨1, ![Nn]⟩ ⟨2, ![E, 1]⟩ ⟨1, ![E]⟩)
    (h1 : d.updateWindowDims = []) (h2 : d.insertedWindowDims = [0]) (h3 : d.scatterDimsToOperandDims = [0])
    (h4 : d.indexVectorDim = 1)
    (hz : (⟨0, ![]⟩ : Shape).BroadcastsInDim ⟨1, ![Nn]⟩ ![]) (ho : (⟨0, ![]⟩ : Shape).BroadcastsInDim ⟨1, ![E]⟩ ![])
    (idx : IVec ⟨2, ![E, 1]⟩ w) (n : Fin Nn) :
    ∃ y : ℝ, 0 ≤ y ∧
      Host.scatterAdd (F := Ideal) d (broadcastInDim ⟨1, ![Nn]⟩ ![] hz (constant (F := Ideal) ⟨0, ![]⟩ .f32 0x00000000#32)) idx
        (broadcastInDim ⟨1, ![E]⟩ ![] ho (constant (F := Ideal) ⟨0, ![]⟩ .f32 0x3F800000#32)) (ix1 n) = (y : EReal) := by
  refine ⟨((Cert.SegmentSum.edgesAt idx n).card : ℝ), Nat.cast_nonneg _, ?_⟩
  refine (Cert.SegmentSum.scatterAdd_vec_apply d h1 h2 h3 h4 _ idx _ n).trans ?_
  rw [broadcastInDim_scalar_apply]
  simp only [broadcastInDim_scalar_apply]
  show Ideal.ofBits .f32 0x00000000#32 + ∑ _e ∈ Cert.SegmentSum.edgesAt idx n, Ideal.ofBits .f32 0x3F800000#32 = _
  rw [Ideal.ofBits_zero_f32, Ideal.ofBits_one_f32, zero_add, Finset.sum_const, nsmul_one]
  rfl

/-- The node denominators: where every count is a real that is not negative, the column of reciprocals of
    max(count, 1) is, entry by entry, one over the column of max(count, 1). -/
theorem node_recip (cnt : FVec Ideal ⟨1, ![Nn]⟩ .f32)
    (ho : (⟨0, ![]⟩ : Shape).BroadcastsInDim ⟨1, ![Nn]⟩ ![])
    (hcol : (⟨1, ![Nn]⟩ : Shape).BroadcastsInDim ⟨2, ![Nn, 1]⟩ ![0]) (r : Fin Nn) :
    broadcastInDim ⟨2, ![Nn, 1]⟩ ![0] hcol
        (Host.divf (broadcastInDim ⟨1, ![Nn]⟩ ![] ho (constant (F := Ideal) ⟨0, ![]⟩ .f32 0x3F800000#32))
          (maximumf cnt (broadcastInDim ⟨1, ![Nn]⟩ ![] ho (constant (F := Ideal) ⟨0, ![]⟩ .f32 0x3F800000#32)))) (ix2 r (0 : Fin 1))
      = Ideal.div (Ideal.ofBits .f32 0x3F800000#32)
          (broadcastInDim ⟨2, ![Nn, 1]⟩ ![0] hcol
            (maximumf cnt (broadcastInDim ⟨1, ![Nn]⟩ ![] ho (constant (F := Ideal) ⟨0, ![]⟩ .f32 0x3F800000#32))) (ix2 r (0 : Fin 1))) := by
  rw [Cert.LibColumn.broadcastInDim_a_a1_apply _ hcol r 0, Cert.LibColumn.broadcastInDim_a_a1_apply _ hcol r 0]
  show Ideal.div (broadcastInDim ⟨1, ![Nn]⟩ ![] ho (constant (F := Ideal) ⟨0, ![]⟩ .f32 0x3F800000#32) (ix1 r)) _ = _
  rw [broadcastInDim_scalar_apply]
  rfl

/-- The node denominators are non-zero reals: the larger of a real that is not negative and 1 is at least 1. -/
theorem node_real (cnt : FVec Ideal ⟨1, ![Nn]⟩ .f32) (hcnt : ∀ n : Fin Nn, ∃ y : ℝ, 0 ≤ y ∧ cnt (ix1 n) = (y : EReal))
    (ho : (⟨0, ![]⟩ : Shape).BroadcastsInDim ⟨1, ![Nn]⟩ ![])
    (hcol : (⟨1, ![Nn]⟩ : Shape).BroadcastsInDim ⟨2, ![Nn, 1]⟩ ![0]) (r : Fin Nn) :
    ∃ y : ℝ, y ≠ 0 ∧
      broadcastInDim ⟨2, ![Nn, 1]⟩ ![0] hcol
        (maximumf cnt (broadcastInDim ⟨1, ![Nn]⟩ ![] ho (constant (F := Ideal) ⟨0, ![]⟩ .f32 0x3F800000#32))) (ix2 r (0 : Fin 1))
        = (y : EReal) := by
  obtain ⟨y, _, e⟩ := hcnt r
  refine ⟨max y 1, ?_, ?_⟩
  · have : (1 : ℝ) ≤ max y 1 := le_max_right y 1
    intro h0; rw [h0] at this; norm_num at this
  · rw [Cert.LibColumn.broadcastInDim_a_a1_apply _ hcol r 0]
    show max (cnt (ix1 r)) (broadcastInDim ⟨1, ![Nn]⟩ ![] ho (constant (F := Ideal) ⟨0, ![]⟩ .f32 0x3F800000#32) (ix1 r)) = _
    rw [broadcastInDim_scalar_apply, e]
    show max (y : EReal) (Ideal.ofBits .f32 0x3F800000#32) = _
    rw [Ideal.ofBits_one_f32, ereal_coe_max, EReal.coe_one]

/-- The hyperedge denominators: the column of reciprocals of count + ε is, entry by entry, one over the column of
    count + ε. -/
theorem edge_recip (cnt : FVec Ideal ⟨1, ![Nn]⟩ .f32)
    (ho : (⟨0, ![]⟩ : Shape).BroadcastsInDim ⟨1, ![Nn]⟩ ![])
    (hcol : (⟨1, ![Nn]⟩ : Shape).BroadcastsInDim ⟨2, ![Nn, 1]⟩ ![0]) (r : Fin Nn) :
    broadcastInDim ⟨2, ![Nn, 1]⟩ ![0] hcol
        (Host.divf (broadcastInDim ⟨1, ![Nn]⟩ ![] ho (constant (F := Ideal) ⟨0, ![]⟩ .f32 0x3F800000#32))
          (addf cnt (broadcastInDim ⟨1, ![Nn]⟩ ![] ho (constant (F := Ideal) ⟨0, ![]⟩ .f32 0x322BCC77#32)))) (ix2 r (0 : Fin 1))
      = Ideal.div (Ideal.ofBits .f32 0x3F800000#32)
          (broadcastInDim ⟨2, ![Nn, 1]⟩ ![0] hcol
            (addf cnt (broadcastInDim ⟨1, ![Nn]⟩ ![] ho (constant (F := Ideal) ⟨0, ![]⟩ .f32 0x322BCC77#32))) (ix2 r (0 : Fin 1))) := by
  rw [Cert.LibColumn.broadcastInDim_a_a1_apply _ hcol r 0, Cert.LibColumn.broadcastInDim_a_a1_apply _ hcol r 0]
  show Ideal.div (broadcastInDim ⟨1, ![Nn]⟩ ![] ho (constant (F := Ideal) ⟨0, ![]⟩ .f32 0x3F800000#32) (ix1 r)) _ = _
  rw [broadcastInDim_scalar_apply]
  rfl

/-- The hyperedge denominators are non-zero reals: a real that is not negative plus a positive real is positive. -/
theorem edge_real (cnt : FVec Ideal ⟨1, ![Nn]⟩ .f32) (hcnt : ∀ n : Fin Nn, ∃ y : ℝ, 0 ≤ y ∧ cnt (ix1 n) = (y : EReal))
    (ho : (⟨0, ![]⟩ : Shape).BroadcastsInDim ⟨1, ![Nn]⟩ ![])
    (hcol : (⟨1, ![Nn]⟩ : Shape).BroadcastsInDim ⟨2, ![Nn, 1]⟩ ![0]) (r : Fin Nn) :
    ∃ y : ℝ, y ≠ 0 ∧
      broadcastInDim ⟨2, ![Nn, 1]⟩ ![0] hcol
        (addf cnt (broadcastInDim ⟨1, ![Nn]⟩ ![] ho (constant (F := Ideal) ⟨0, ![]⟩ .f32 0x322BCC77#32))) (ix2 r (0 : Fin 1))
        = (y : EReal) := by
  obtain ⟨y, hy, e⟩ := hcnt r
  obtain ⟨ε, hε, eε⟩ := ofBits_eps_f32_pos
  refine ⟨y + ε, (add_pos_of_nonneg_of_pos hy hε).ne', ?_⟩
  rw [Cert.LibColumn.broadcastInDim_a_a1_apply _ hcol r 0]
  show cnt (ix1 r) + broadcastInDim ⟨1, ![Nn]⟩ ![] ho (constant (F := Ideal) ⟨0, ![]⟩ .f32 0x322BCC77#32) (ix1 r) = _
  rw [broadcastInDim_scalar_apply, e]
  show (y : EReal) + Ideal.ofBits .f32 0x322BCC77#32 = _
  rw [eε, EReal.coe_add]

end Counts

/-! ## Scaling by the reciprocal column is dividing by the denominator column -/

section Recip

variable {Nn : Nat}

/-- Rows scaled by the reciprocals of max(count, 1) are the rows divided by max(count, 1), where every count is a real
    that is not negative. -/
theorem node_scaleCol (cnt : FVec Ideal ⟨1, ![Nn]⟩ .f32) (hcnt : ∀ n : Fin Nn, ∃ y : ℝ, 0 ≤ y ∧ cnt (ix1 n) = (y : EReal))
    (ho : (⟨0, ![]⟩ : Shape).BroadcastsInDim ⟨1, ![Nn]⟩ ![])
    (hcol : (⟨1, ![Nn]⟩ : Shape).BroadcastsInDim ⟨2, ![Nn, 1]⟩ ![0]) (S : Mat Nn N) :
    scaleCol S (broadcastInDim ⟨2, ![Nn, 1]⟩ ![0] hcol
        (Host.divf (broadcastInDim ⟨1, ![Nn]⟩ ![] ho (constant (F := Ideal) ⟨0, ![]⟩ .f32 0x3F800000#32))
          (maximumf cnt (broadcastInDim ⟨1, ![Nn]⟩ ![] ho (constant (F := Ideal) ⟨0, ![]⟩ .f32 0x3F800000#32)))))
      = divCol S (broadcastInDim ⟨2, ![Nn, 1]⟩ ![0] hcol
          (maximumf cnt (broadcastInDim ⟨1, ![Nn]⟩ ![] ho (constant (F := Ideal) ⟨0, ![]⟩ .f32 0x3F800000#32)))) :=
  scaleCol_recip S _ _ (node_recip cnt ho hcol) (node_real cnt hcnt ho hcol)

/-- Rows scaled by the reciprocals of count + ε are the rows divided by count + ε, where every count is a real that is
    not negative. -/
theorem edge_scaleCol (cnt : FVec Ideal ⟨1, ![Nn]⟩ .f32) (hcnt : ∀ n : Fin Nn, ∃ y : ℝ, 0 ≤ y ∧ cnt (ix1 n) = (y : EReal))
    (ho : (⟨0, ![]⟩ : Shape).BroadcastsInDim ⟨1, ![Nn]⟩ ![])
    (hcol : (⟨1, ![Nn]⟩ : Shape).BroadcastsInDim ⟨2, ![Nn, 1]⟩ ![0]) (S : Mat Nn N) :
    scaleCol S (broadcastInDim ⟨2, ![Nn, 1]⟩ ![0] hcol
        (Host.divf (broadcastInDim ⟨1, ![Nn]⟩ ![] ho (constant (F := Ideal) ⟨0, ![]⟩ .f32 0x3F800000#32))
          (addf cnt (broadcastInDim ⟨1, ![Nn]⟩ ![] ho (constant (F := Ideal) ⟨0, ![]⟩ .f32 0x322BCC77#32)))))
      = divCol S (broadcastInDim ⟨2, ![Nn, 1]⟩ ![0] hcol
          (addf cnt (broadcastInDim ⟨1, ![Nn]⟩ ![] ho (constant (F := Ideal) ⟨0, ![]⟩ .f32 0x322BCC77#32)))) :=
  scaleCol_recip S _ _ (edge_recip cnt ho hcol) (edge_real cnt hcnt ho hcol)

end Recip

/-! ## Layer normalisation along the rows, and the closing function of a layer -/

section LayerNorm

variable (hr : (⟨2, ![M, N]⟩ : Shape).ReducesTo [1] ⟨1, ![M]⟩) (hu : 0 < (⟨0, ![]⟩ : Shape).numel)
  (hc : (⟨1, ![M]⟩ : Shape).BroadcastsInDim ⟨2, ![M, 1]⟩ ![0])
  (h0 : (⟨0, ![]⟩ : Shape).BroadcastsInDim ⟨2, ![M, 1]⟩ ![])
  (hcc : (⟨2, ![M, 1]⟩ : Shape).BroadcastsInDim ⟨2, ![M, N]⟩ ![0, 1])

/-- The sum along every row from the zero word, laid out as a column and divided by the word of 128.0. -/
abbrev hostMean (A : Mat M N) : Mat M 1 :=
  Host.divf (broadcastInDim ⟨2, ![M, 1]⟩ ![0] hc (Host.reduceAdd A (constant (F := Ideal) ⟨0, ![]⟩ .f32 0x00000000#32) hr hu))
    (broadcastInDim ⟨2, ![M, 1]⟩ ![] h0 (constant (F := Ideal) ⟨0, ![]⟩ .f32 0x43000000#32))

/-- That column read at row p is the mean of row p. -/
theorem hostMean_apply (A : Mat M N) (p : Fin M) (u : Fin 1) : hostMean hr hu hc h0 A (ix2 p u) = rowMean A p := by
  show Ideal.div (broadcastInDim ⟨2, ![M, 1]⟩ ![0] hc (Host.reduceAdd A (constant (F := Ideal) ⟨0, ![]⟩ .f32 0x00000000#32) hr hu) (ix2 p u))
      (broadcastInDim ⟨2, ![M, 1]⟩ ![] h0 (constant (F := Ideal) ⟨0, ![]⟩ .f32 0x43000000#32) (ix2 p u)) = _
  rw [Cert.LibColumn.broadcastInDim_a_a1_apply _ hc p u, broadcastInDim_scalar_apply,
    Cert.LibHostRows.hostRowsSum_apply A _ hr hu p]
  show Ideal.div (Ideal.ofBits .f32 0x00000000#32 + ∑ k : Fin N, A (ix2 p k)) (Ideal.ofBits .f32 0x43000000#32) = _
  rw [Ideal.ofBits_zero_f32, zero_add]
  rfl

/-- The deviations from the row means. -/
abbrev hostDev (A : Mat M N) : Mat M N :=
  subf A (broadcastInDim ⟨2, ![M, N]⟩ ![0, 1] hcc (hostMean hr hu hc h0 A))

theorem hostDev_apply (A : Mat M N) (p : Fin M) (q : Fin N) :
    hostDev hr hu hc h0 hcc A (ix2 p q) = A (ix2 p q) - rowMean A p := by
  show A (ix2 p q) - broadcastInDim ⟨2, ![M, N]⟩ ![0, 1] hcc (hostMean hr hu hc h0 A) (ix2 p q) = _
  rw [Cert.LibHostColumn.broadcastInDim_a1_ab_apply _ hcc p q, hostMean_apply]

/-- The reciprocal square root of the mean squared deviation plus the word of ε, a column. -/
abbrev hostRstd (A : Mat M N) : Mat M 1 :=
  Host.rsqrt (addf (hostMean hr hu hc h0 (mulf (hostDev hr hu hc h0 hcc A) (hostDev hr hu hc h0 hcc A)))
    (broadcastInDim ⟨2, ![M, 1]⟩ ![] h0 (constant (F := Ideal) ⟨0, ![]⟩ .f32 0x3727C5AC#32)))

theorem hostRstd_apply (A : Mat M N) (p : Fin M) (u : Fin 1) :
    hostRstd hr hu hc h0 hcc A (ix2 p u) = Ideal.rsqrt (rowVar A p + Ideal.ofBits .f32 0x3727C5AC#32) := by
  show Ideal.rsqrt (hostMean hr hu hc h0 (mulf (hostDev hr hu hc h0 hcc A) (hostDev hr hu hc h0 hcc A)) (ix2 p u)
      + broadcastInDim ⟨2, ![M, 1]⟩ ![] h0 (constant (F := Ideal) ⟨0, ![]⟩ .f32 0x3727C5AC#32) (ix2 p u)) = _
  rw [hostMean_apply, broadcastInDim_scalar_apply]
  refine congrArg (fun t => Ideal.rsqrt (t + _)) ?_
  unfold rowMean rowVar
  refine congrArg (Ideal.div · _) (Finset.sum_congr rfl fun k _ => ?_)
  show hostDev hr hu hc h0 hcc A (ix2 p k) * hostDev hr hu hc h0 hcc A (ix2 p k) = _
  rw [hostDev_apply]

/-- The host's chain — row sums over 128.0, deviations, their squares' row sums over 128.0, plus ε, reciprocal square
    root, times the deviations, times the scale row, plus the shift row — is the layer normalisation along the rows. -/
theorem host_layerNorm (hrow : (⟨2, ![1, N]⟩ : Shape).BroadcastsInDim ⟨2, ![M, N]⟩ ![0, 1]) (A : Mat M N) (g b : Mat 1 N) :
    addf (mulf (mulf (hostDev hr hu hc h0 hcc A) (broadcastInDim ⟨2, ![M, N]⟩ ![0, 1] hcc (hostRstd hr hu hc h0 hcc A)))
        (broadcastInDim ⟨2, ![M, N]⟩ ![0, 1] hrow g)) (broadcastInDim ⟨2, ![M, N]⟩ ![0, 1] hrow b) = layerNorm A g b := by
  funext i
  obtain ⟨p, q, rfl⟩ : ∃ p q, i = ix2 p q := ⟨i 0, i 1, eq_ix2 i⟩
  show hostDev hr hu hc h0 hcc A (ix2 p q) * broadcastInDim ⟨2, ![M, N]⟩ ![0, 1] hcc (hostRstd hr hu hc h0 hcc A) (ix2 p q)
      * broadcastInDim ⟨2, ![M, N]⟩ ![0, 1] hrow g (ix2 p q) + broadcastInDim ⟨2, ![M, N]⟩ ![0, 1] hrow b (ix2 p q)
    = ((A (ix2 p q) - rowMean A p) * Ideal.rsqrt (rowVar A p + Ideal.ofBits .f32 0x3727C5AC#32)) * g (ix2 (0 : Fin 1) q)
      + b (ix2 (0 : Fin 1) q)
  rw [hostDev_apply, Cert.LibHostColumn.broadcastInDim_a1_ab_apply _ hcc p q, hostRstd_apply,
    broadcastInDim_oneRow_apply hrow g p q, broadcastInDim_oneRow_apply hrow b p q]

/-- The same chain written out operation by operation. -/
theorem host_layerNorm' (hrow : (⟨2, ![1, N]⟩ : Shape).BroadcastsInDim ⟨2, ![M, N]⟩ ![0, 1]) (A : Mat M N) (g b : Mat 1 N) :
    addf
      (mulf
        (mulf
          (subf A (broadcastInDim ⟨2, ![M, N]⟩ ![0, 1] hcc
            (Host.divf (broadcastInDim ⟨2, ![M, 1]⟩ ![0] hc (Host.reduceAdd A (constant (F := Ideal) ⟨0, ![]⟩ .f32 0x00000000#32) hr hu))
              (broadcastInDim ⟨2, ![M, 1]⟩ ![] h0 (constant (F := Ideal) ⟨0, ![]⟩ .f32 0x43000000#32)))))
          (broadcastInDim ⟨2, ![M, N]⟩ ![0, 1] hcc
            (Host.rsqrt
              (addf
                (Host.divf
                  (broadcastInDim ⟨2, ![M, 1]⟩ ![0] hc
                    (Host.reduceAdd
                      (mulf
                        (subf A (broadcastInDim ⟨2, ![M, N]⟩ ![0, 1] hcc
                          (Host.divf (broadcastInDim ⟨2, ![M, 1]⟩ ![0] hc (Host.reduceAdd A (constant (F := Ideal) ⟨0, ![]⟩ .f32 0x00000000#32) hr hu))
                            (broadcastInDim ⟨2, ![M, 1]⟩ ![] h0 (constant (F := Ideal) ⟨0, ![]⟩ .f32 0x43000000#32)))))
                        (subf A (broadcastInDim ⟨2, ![M, N]⟩ ![0, 1] hcc
                          (Host.divf (broadcastInDim ⟨2, ![M, 1]⟩ ![0] hc (Host.reduceAdd A (constant (F := Ideal) ⟨0, ![]⟩ .f32 0x00000000#32) hr hu))
                            (broadcastInDim ⟨2, ![M, 1]⟩ ![] h0 (constant (F := Ideal) ⟨0, ![]⟩ .f32 0x43000000#32))))))
                      (constant (F := Ideal) ⟨0, ![]⟩ .f32 0x00000000#32) hr hu))
                  (broadcastInDim ⟨2, ![M, 1]⟩ ![] h0 (constant (F := Ideal) ⟨0, ![]⟩ .f32 0x43000000#32)))
                (broadcastInDim ⟨2, ![M, 1]⟩ ![] h0 (constant (F := Ideal) ⟨0, ![]⟩ .f32 0x3727C5AC#32))))))
        (broadcastInDim ⟨2, ![M, N]⟩ ![0, 1] hrow g))
      (broadcastInDim ⟨2, ![M, N]⟩ ![0, 1] hrow b) = layerNorm A g b :=
  host_layerNorm hr hu hc h0 hcc hrow A g b

/-- The host's layer normalisation chain as one function of the matrix and the two rows. -/
abbrev hostLayerNorm (hrow : (⟨2, ![1, N]⟩ : Shape).BroadcastsInDim ⟨2, ![M, N]⟩ ![0, 1]) (A : Mat M N) (g b : Mat 1 N) : Mat M N :=
  addf (mulf (mulf (hostDev hr hu hc h0 hcc A) (broadcastInDim ⟨2, ![M, N]⟩ ![0, 1] hcc (hostRstd hr hu hc h0 hcc A)))
    (broadcastInDim ⟨2, ![M, N]⟩ ![0, 1] hrow g)) (broadcastInDim ⟨2, ![M, N]⟩ ![0, 1] hrow b)

/-- The host's leaky rectifier as one function of the matrix. -/
abbrev hostLeaky (hz : (⟨0, ![]⟩ : Shape).BroadcastsInDim ⟨2, ![M, N]⟩ ![]) (A : Mat M N) : Mat M N :=
  select (cmpf .oge A (broadcastInDim ⟨2, ![M, N]⟩ ![] hz (constant (F := Ideal) ⟨0, ![]⟩ .f32 0x00000000#32))) A
    (mulf (broadcastInDim ⟨2, ![M, N]⟩ ![] hz (constant (F := Ideal) ⟨0, ![]⟩ .f32 0x3E4CCCCD#32)) A)

/-- Normalise, rectify, normalise: the host's closing chain of a layer is finalize. -/
theorem host_finalize (hrow : (⟨2, ![1, N]⟩ : Shape).BroadcastsInDim ⟨2, ![M, N]⟩ ![0, 1])
    (hz : (⟨0, ![]⟩ : Shape).BroadcastsInDim ⟨2, ![M, N]⟩ ![]) (Z : Mat M N) (g1 b1 g2 b2 : Mat 1 N) :
    hostLayerNorm hr hu hc h0 hcc hrow (hostLeaky hz (hostLayerNorm hr hu hc h0 hcc hrow Z g1 b1)) g2 b2
      = finalize Z g1 b1 g2 b2 :=
  (host_layerNorm hr hu hc h0 hcc hrow _ g2 b2).trans
    (congrArg (layerNorm · g2 b2) ((host_leaky hz _).trans (congrArg leaky (host_layerNorm hr hu hc h0 hcc hrow Z g1 b1))))

end LayerNorm

end Cert.LibHgnnHost

end
-- ==== Proof.Bridge.lean ====
/-
  The idealized kernel program and the reference compute one function of the eleven arguments. Stage by stage: the id
  vectors, the weight slices and the gather / scatter-add sums are the same terms (the kernel's narrower storage format
  changes no ideal value; a bias row reached through the vector and back, or through the vector and a broadcast, is the
  slice itself); the reference's dense layers, divisions by a count column, layer normalisations and rectifier are the
  specification's functions of the whole arrays; and the kernel's product with the reciprocal of a count is the
  reference's quotient by it, because a count is a finite sum of ones, so that max(count, 1) and count + 1e-8 are
  non-zero real numbers whatever the arguments hold. No finiteness of the inputs is used.
-/
import proofs.«120254_j65652870087174_2_alg».proof.Proof.KValues
import proofs.«120254_j65652870087174_2_alg».proof.Proof.RefStages
import proofs.«120254_j65652870087174_2_alg».proof.Proof.LibHgnnHost

set_option maxRecDepth 16384

noncomputable section

namespace Cert.Bridge

open Idealize.ShloMosaic Idealize.ShloMosaic.ValueIdx

/-! ## The shared pieces are the same terms -/

theorem idx0_eq (a1 : IVec Cert.ReferenceIdeal.S2x600000 32) : Cert.KernelIdeal.KStages.idx0 a1 = Cert.ReferenceIdeal.Hand.idx0 a1 := rfl
theorem idx1_eq (a1 : IVec Cert.ReferenceIdeal.S2x600000 32) : Cert.KernelIdeal.KStages.idx1 a1 = Cert.ReferenceIdeal.Hand.idx1 a1 := rfl
theorem mat0_eq (P : FVec Ideal Cert.ReferenceIdeal.S2x128x128 .f32) : Cert.KernelIdeal.KStages.mat0 P = Cert.ReferenceIdeal.Hand.mat 0 P := rfl
theorem mat1_eq (P : FVec Ideal Cert.ReferenceIdeal.S2x128x128 .f32) : Cert.KernelIdeal.KStages.mat1 P = Cert.ReferenceIdeal.Hand.mat 1 P := rfl
theorem hwCol_eq (a2 : FVec Ideal Cert.ReferenceIdeal.S20000 .f32) : Cert.KernelIdeal.KStages.hwCol a2 = Cert.ReferenceIdeal.Hand.hwCol a2 := rfl
theorem toEdges_eq (xt : FVec Ideal Cert.ReferenceIdeal.S100000x128 .f32) (a1 : IVec Cert.ReferenceIdeal.S2x600000 32) :
    Cert.KernelIdeal.KStages.toEdges xt (Cert.KernelIdeal.KStages.idx0 a1) (Cert.KernelIdeal.KStages.idx1 a1) = Cert.ReferenceIdeal.Hand.toEdges xt a1 := rfl
theorem toNodes_eq (he : FVec Ideal Cert.ReferenceIdeal.S20000x128 .f32) (a1 : IVec Cert.ReferenceIdeal.S2x600000 32) :
    Cert.KernelIdeal.KStages.toNodes he (Cert.KernelIdeal.KStages.idx0 a1) (Cert.KernelIdeal.KStages.idx1 a1) = Cert.ReferenceIdeal.Hand.toNodes he a1 := rfl

/-- A layer's row of a stacked vector argument, reached through the vector and back or through the vector and a
    broadcast, is the slice itself. -/
theorem row0_eq (P : FVec Ideal Cert.ReferenceIdeal.S2x128 .f32) : Cert.KernelIdeal.KStages.row0 P = Cert.ReferenceIdeal.Hand.row 0 P :=
  (Cert.LibHgnnHost.slice_cast_cast P 0 Cert.KernelIdeal.Gen.slices_S2x128_S1x128_0_0 Cert.KernelIdeal.Gen.shapeCasts_S1x128_S128 Cert.KernelIdeal.Gen.shapeCasts_S128_S1x128).trans
    (Cert.LibHgnnHost.slice_bcast_cast P 0 Cert.ReferenceIdeal.Gen.slices_S2x128_S1x128_0_0 Cert.ReferenceIdeal.Gen.shapeCasts_S1x128_S128 Cert.ReferenceIdeal.Gen.bcast_S128_S1x128_1 Cert.KernelIdeal.Gen.shapeCasts_S128_S1x128).symm
theorem row1_eq (P : FVec Ideal Cert.ReferenceIdeal.S2x128 .f32) : Cert.KernelIdeal.KStages.row1 P = Cert.ReferenceIdeal.Hand.row 1 P :=
  (Cert.LibHgnnHost.slice_cast_cast P 1 Cert.KernelIdeal.Gen.slices_S2x128_S1x128_1_0 Cert.KernelIdeal.Gen.shapeCasts_S1x128_S128 Cert.KernelIdeal.Gen.shapeCasts_S128_S1x128).trans
    (Cert.LibHgnnHost.slice_bcast_cast P 1 Cert.ReferenceIdeal.Gen.slices_S2x128_S1x128_1_0 Cert.ReferenceIdeal.Gen.shapeCasts_S1x128_S128 Cert.ReferenceIdeal.Gen.bcast_S128_S1x128_1 Cert.KernelIdeal.Gen.shapeCasts_S128_S1x128).symm

/-! ## The counts are real numbers, so the reciprocal column scales as the count column divides -/

theorem nodeCount_real (a1 : IVec Cert.ReferenceIdeal.S2x600000 32) (n : Fin 100000) : ∃ y : ℝ, 0 ≤ y ∧ Cert.ReferenceIdeal.Hand.nodeCount a1 (ix1 n) = (y : EReal) :=
  Cert.LibHgnnHost.count_real _ rfl rfl rfl rfl _ _ _ n
theorem heCount_real (a1 : IVec Cert.ReferenceIdeal.S2x600000 32) (n : Fin 20000) : ∃ y : ℝ, 0 ≤ y ∧ Cert.ReferenceIdeal.Hand.heCount a1 (ix1 n) = (y : EReal) :=
  Cert.LibHgnnHost.count_real _ rfl rfl rfl rfl _ _ _ n

theorem scaleNode (S : Cert.Spec.Mat 100000 128) (a1 : IVec Cert.ReferenceIdeal.S2x600000 32) :
    Cert.Spec.scaleCol S (Cert.KernelIdeal.KStages.invNode a1) = Cert.Spec.divCol S (Cert.ReferenceIdeal.Hand.nodeDen a1) :=
  Cert.LibHgnnHost.node_scaleCol (Cert.ReferenceIdeal.Hand.nodeCount a1) (nodeCount_real a1) _ _ S
theorem scaleEdge (S : Cert.Spec.Mat 20000 128) (a1 : IVec Cert.ReferenceIdeal.S2x600000 32) :
    Cert.Spec.scaleCol S (Cert.KernelIdeal.KStages.invHe a1) = Cert.Spec.divCol S (Cert.ReferenceIdeal.Hand.heDen a1) :=
  Cert.LibHgnnHost.edge_scaleCol (Cert.ReferenceIdeal.Hand.heCount a1) (heCount_real a1) _ _ S

/-! ## The reference's dense stages are the specification's functions -/

theorem hAffine_eq (x : FVec Ideal Cert.ReferenceIdeal.S100000x128 .f32) (w : FVec Ideal Cert.ReferenceIdeal.S128x128 .f32) (r : FVec Ideal Cert.ReferenceIdeal.S1x128 .f32) :
    Cert.ReferenceIdeal.Hand.hAffine x w r = Cert.Spec.affine x w r :=
  Cert.LibHgnnHost.host_affine _ rfl _ x w r
theorem hWeighted_eq (S : FVec Ideal Cert.ReferenceIdeal.S20000x128 .f32) (d : FVec Ideal Cert.ReferenceIdeal.S20000x1 .f32) (w : FVec Ideal Cert.ReferenceIdeal.S128x128 .f32) (r : FVec Ideal Cert.ReferenceIdeal.S1x128 .f32) (hc : FVec Ideal Cert.ReferenceIdeal.S20000x1 .f32) :
    Cert.ReferenceIdeal.Hand.hWeighted S d w r hc = Cert.Spec.weighted (Cert.Spec.divCol S d) w r hc := by
  unfold Cert.ReferenceIdeal.Hand.hWeighted
  rw [Cert.LibHgnnHost.host_divCol]
  exact Cert.LibHgnnHost.host_weighted _ rfl _ _ _ w r hc
theorem hDivAdd_eq (S : FVec Ideal Cert.ReferenceIdeal.S100000x128 .f32) (d : FVec Ideal Cert.ReferenceIdeal.S100000x1 .f32) (xt : FVec Ideal Cert.ReferenceIdeal.S100000x128 .f32) :
    Cert.ReferenceIdeal.Hand.hDivAdd S d xt = Cert.Spec.addM (Cert.Spec.divCol S d) xt := by
  unfold Cert.ReferenceIdeal.Hand.hDivAdd
  rw [Cert.LibHgnnHost.host_divCol]
  rfl
theorem hFinalize_eq (Z : FVec Ideal Cert.ReferenceIdeal.S100000x128 .f32) (g1 b1 g2 b2 : FVec Ideal Cert.ReferenceIdeal.S1x128 .f32) :
    Cert.ReferenceIdeal.Hand.hFinalize Z g1 b1 g2 b2 = Cert.Spec.finalize Z g1 b1 g2 b2 :=
  Cert.LibHgnnHost.host_finalize Cert.ReferenceIdeal.Gen.reducesTo_S100000x128_S100000_d1 Cert.ReferenceIdeal.Gen.h_S_ Cert.ReferenceIdeal.Gen.bcast_S100000_S100000x1_0 Cert.ReferenceIdeal.Gen.bcast_S_S100000x1
    Cert.ReferenceIdeal.Gen.bcast_S100000x1_S100000x128_0_1 Cert.ReferenceIdeal.Gen.bcast_S1x128_S100000x128_0_1 Cert.ReferenceIdeal.Gen.bcast_S_S100000x128 Z g1 b1 g2 b2

/-! ## The network, stage by stage -/

section Net
variable (a0 : FVec Ideal Cert.ReferenceIdeal.S100000x128 .f32) (a1 : IVec Cert.ReferenceIdeal.S2x600000 32) (a2 : FVec Ideal Cert.ReferenceIdeal.S20000 .f32) (a3 : FVec Ideal Cert.ReferenceIdeal.S2x128x128 .f32) (a4 : FVec Ideal Cert.ReferenceIdeal.S2x128 .f32) (a5 : FVec Ideal Cert.ReferenceIdeal.S2x128x128 .f32) (a6 : FVec Ideal Cert.ReferenceIdeal.S2x128 .f32) (a7 : FVec Ideal Cert.ReferenceIdeal.S2x128 .f32) (a8 : FVec Ideal Cert.ReferenceIdeal.S2x128 .f32) (a9 : FVec Ideal Cert.ReferenceIdeal.S2x128 .f32) (a10 : FVec Ideal Cert.ReferenceIdeal.S2x128 .f32)

theorem xt0_eq : Cert.KernelIdeal.KValues.xt0 a0 a1 a2 a3 a4 a5 a6 a7 a8 a9 a10 = Cert.ReferenceIdeal.Hand.refXt0 a0 a3 a4 := by
  unfold Cert.KernelIdeal.KValues.xt0 Cert.ReferenceIdeal.Hand.refXt0
  rw [hAffine_eq, mat0_eq, row0_eq]

theorem he0_eq : Cert.KernelIdeal.KValues.he0 a0 a1 a2 a3 a4 a5 a6 a7 a8 a9 a10 = Cert.ReferenceIdeal.Hand.refHe0 a0 a1 a2 a3 a4 a5 a6 := by
  unfold Cert.KernelIdeal.KValues.he0 Cert.ReferenceIdeal.Hand.refHe0
  rw [hWeighted_eq, xt0_eq, scaleEdge, toEdges_eq, mat0_eq, row0_eq, hwCol_eq]

theorem x1_eq : Cert.KernelIdeal.KValues.x1 a0 a1 a2 a3 a4 a5 a6 a7 a8 a9 a10 = Cert.ReferenceIdeal.Hand.refX1 a0 a1 a2 a3 a4 a5 a6 a7 a8 a9 a10 := by
  unfold Cert.KernelIdeal.KValues.x1 Cert.ReferenceIdeal.Hand.refX1
  rw [hFinalize_eq, hDivAdd_eq, he0_eq, xt0_eq, scaleNode, toNodes_eq, row0_eq, row0_eq, row0_eq, row0_eq]

theorem xt1_eq : Cert.KernelIdeal.KValues.xt1 a0 a1 a2 a3 a4 a5 a6 a7 a8 a9 a10 = Cert.ReferenceIdeal.Hand.refXt1 a0 a1 a2 a3 a4 a5 a6 a7 a8 a9 a10 := by
  unfold Cert.KernelIdeal.KValues.xt1 Cert.ReferenceIdeal.Hand.refXt1
  rw [hAffine_eq, x1_eq, mat1_eq, row1_eq]

theorem he1_eq : Cert.KernelIdeal.KValues.he1 a0 a1 a2 a3 a4 a5 a6 a7 a8 a9 a10 = Cert.ReferenceIdeal.Hand.refHe1 a0 a1 a2 a3 a4 a5 a6 a7 a8 a9 a10 := by
  unfold Cert.KernelIdeal.KValues.he1 Cert.ReferenceIdeal.Hand.refHe1
  rw [hWeighted_eq, xt1_eq, scaleEdge, toEdges_eq, mat1_eq, row1_eq, hwCol_eq]

/-- The two programs' results are one function of the arguments. -/
theorem out_eq : Cert.KernelIdeal.KValues.out a0 a1 a2 a3 a4 a5 a6 a7 a8 a9 a10 = Cert.ReferenceIdeal.Hand.refOut a0 a1 a2 a3 a4 a5 a6 a7 a8 a9 a10 := by
  unfold Cert.KernelIdeal.KValues.out Cert.ReferenceIdeal.Hand.refOut
  rw [hFinalize_eq, hDivAdd_eq, he1_eq, xt1_eq, x1_eq, scaleNode, toNodes_eq, row1_eq, row1_eq, row1_eq, row1_eq]
  rfl

end Net

end Cert.Bridge

end
-- ==== Proof.lean ====
/-
  The certificate of a two-layer hypergraph message-passing network computed by five row-tiled kernels among host
  gathers and scatter-adds, against its whole-array reference, on the extended reals.

  One layer: a dense layer on the nodes; the mean of the node rows over each hyperedge; a second dense layer and a
  per-hyperedge weight; the mean of the hyperedge rows back over each node, added to the dense layer's output;
  layer-normalise, leaky-rectify, layer-normalise again. The second layer reads the first one's output, which is added
  back at the end. The kernels compute the dense layers, the normalisations and the rectifier tile of 2000 rows by tile,
  storing their intermediate tables in a narrower float format (the identity on ideal values), and take each mean as
  the sum times the reciprocal of the count; the reference divides by the count. A count is a finite sum of ones, so
  max(count, 1) and count + 1e-8 are non-zero reals and the two agree on every extended real: the claim uses no
  finiteness of the inputs.

  The frames of the two kernel programs are the generated ones; the reference's frame is its run with the result
  dropped. The idealization rewrote nothing. For the algebraic claim the kernel program's run names its result array as
  the last segment boundary's contents, which the chain of boundary lemmas reads as the kernel's stage value of the
  arguments; the reference's run ends at its own stage value; the bridge shows the two are one function.
-/
import proofs.«120254_j65652870087174_2_alg».proof.Defs
import proofs.«120254_j65652870087174_2_alg».proof.Proof.Gen.Kernel
import proofs.«120254_j65652870087174_2_alg».proof.Proof.Gen.Kernel.Skeleton
import proofs.«120254_j65652870087174_2_alg».proof.Proof.Gen.Kernel.Launch
import proofs.«120254_j65652870087174_2_alg».proof.Proof.Gen.Kernel.Points
import proofs.«120254_j65652870087174_2_alg».proof.Proof.Gen.Kernel.Frame
import proofs.«120254_j65652870087174_2_alg».proof.Proof.Gen.KernelIdeal
import proofs.«120254_j65652870087174_2_alg».proof.Proof.Gen.KernelIdeal.Skeleton
import proofs.«120254_j65652870087174_2_alg».proof.Proof.Gen.KernelIdeal.Launch
import proofs.«120254_j65652870087174_2_alg».proof.Proof.Gen.KernelIdeal.Points
import proofs.«120254_j65652870087174_2_alg».proof.Proof.Gen.KernelIdeal.Frame
import proofs.«120254_j65652870087174_2_alg».proof.Proof.Gen.ReferenceIdeal
import proofs.«120254_j65652870087174_2_alg».proof.Proof.Gen.Pre_finite_inputs
import proofs.«120254_j65652870087174_2_alg».proof.Proof.KRun
import proofs.«120254_j65652870087174_2_alg».proof.Proof.KChain
import proofs.«120254_j65652870087174_2_alg».proof.Proof.RefRun
import proofs.«120254_j65652870087174_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result clause dropped. -/
theorem frame_ri : Cert.frame_ReferenceIdeal := fun m ρ _ =>
  (θ_run Cert.ReferenceIdeal.defs _ _).mono (fun _ h c => (h c).2) (Cert.ReferenceIdeal.Hand.run m ρ)

/-- Both idealized programs end at one function of arguments that agree. -/
theorem algebraic : Cert.algebraic_KernelIdeal_ReferenceIdeal := by
  intro m ρ m' ρ' _ hagree
  refine ⟨fun c => Cert.KernelIdeal.KValues.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KChain.W10_v114 m ρ c), (h c).2⟩) (Cert.KernelIdeal.RunValue.run m ρ)
  · refine (θ_run Cert.ReferenceIdeal.defs _ _).mono (fun _ h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.out_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
